-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S3x128 .f32) (main_arg10 : FVec F S3x128 .f32) (main_arg11 : FVec F S128x10 .f32) (main_arg12 : FVec F S10 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S3x256 .f32) (main_arg7 : FVec F S3x256x128 .f32) (main_arg8 : FVec F S3x128 .f32) (main_arg9 : FVec F S3x128 .f32) (main_arg10 : FVec F S3x128 .f32) (main_arg11 : FVec F S128x10 .f32) (main_arg12 : FVec F S10 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256x128 .f32 := Host.absf main_arg7
  let main_cst_8 : FVec F S_ .f32 := constant S_ .f32 0x7F800000#32
  let main_v25 : FVec F S3x256x128 .f32 := broadcastInDim S3x256x128 ![] bcast_S_S3x256x128 main_cst_8
  let main_v26 : IVec S3x256x128 1 := cmpf .olt main_v24 main_v25
  let main_c_9 : IVec S_ 1 := constantI S_ 1 1#1
  let main_v27 : IVec S_ 1 := (fun x v => Host.reduce IntOp.andi x v reducesTo_S3x256x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S3x128x256 .f32) (main_arg4 : FVec F S3x256 .f32) (main_arg5 : FVec F S3x256 .f32) (main_arg6 : FVec F S3x256 .f32) (main_arg7 : FVec F S3x256x128 .f32) (main_arg8 : FVec F S3x128 .f32) (main_arg9 : FVec F S3x128 .f32) (main_arg10 : FVec F S3x128 .f32) (main_arg11 : FVec F S128x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x256 .f32 := Host.absf main_arg3
  let main_cst_0 : FVec F S_ .f32 := constant S_ .f32 0x7F800000#32
  let main_v5 : FVec F S3x128x256 .f32 := broadcastInDim S3x128x256 ![] bcast_S_S3x128x256 main_cst_0
  let main_v6 : IVec S3x128x256 1 := cmpf .olt main_v4 main_v5
  let main_c_1 : IVec S_ 1 := constantI S_ 1 1#1
  let main_v7 : IVec S_ 1 := (fun x v => Host.reduce IntOp.andi x v reducesTo_S3x128x256_S_d0_1_2 h_S_) main_v6 main_c_1
  let main_v8 : IVec S_ 1 := andi main_v3 main_v7
  let main_v9 : FVec F S3x256 .f32 := Host.absf main_arg4
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256 .f32 := Host.absf main_arg5
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S50000x256 : Shape := ⟨2, ![50000, 256]⟩
abbrev S2000x128 : Shape := ⟨2, ![2000, 128]⟩
abbrev S2000x256 : Shape := ⟨2, ![2000, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S50000x1 : Shape := ⟨2, ![50000, 1]⟩
abbrev S256x1 : Shape := ⟨2, ![256, 1]⟩
abbrev S256x10 : Shape := ⟨2, ![256, 10]⟩
abbrev S1x10 : Shape := ⟨2, ![1, 10]⟩

abbrev nBuf : Space → Nat
  | .hbm => 211
  | .vmem => 90
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x256, .f32⟩
  | 4 => ⟨S3x256, .f32⟩
  | 5 => ⟨S3x256, .f32⟩
  | 6 => ⟨S3x256, .f32⟩
  | 7 => ⟨S3x256x128, .f32⟩
  | 8 => ⟨S3x128, .f32⟩
  | 9 => ⟨S3x128, .f32⟩
  | 10 => ⟨S3x128, .f32⟩
  | 11 => ⟨S128x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S1x128x256, .f32⟩
  | 31 => ⟨S128x256, .f32⟩
  | 32 => ⟨S1x256, .f32⟩
  | 33 => ⟨S256, .f32⟩
  | 34 => ⟨S1x256, .f32⟩
  | 35 => ⟨S50000x256, .f32⟩
  | 36 => ⟨S1x256, .f32⟩
  | 37 => ⟨S1x256, .f32⟩
  | 38 => ⟨S_, .f32⟩
  | 39 => ⟨S1x256, .f32⟩
  | 40 => ⟨S1x256, .f32⟩
  | 41 => ⟨S_, .f32⟩
  | 42 => ⟨S1x256, .f32⟩
  | 43 => ⟨S1x256, .f32⟩
  | 44 => ⟨S1x256, .f32⟩
  | 45 => ⟨S1x256, .f32⟩
  | 46 => ⟨S1x256, .f32⟩
  | 47 => ⟨S256, .f32⟩
  | 48 => ⟨S1x256, .f32⟩
  | 49 => ⟨S1x256, .f32⟩
  | 50 => ⟨S256, .f32⟩
  | 51 => ⟨S1x256, .f32⟩
  | 52 => ⟨S1x256x128, .f32⟩
  | 53 => ⟨S256x128, .f32⟩
  | 54 => ⟨S1x128, .f32⟩
  | 55 => ⟨S128, .f32⟩
  | 56 => ⟨S1x128, .f32⟩
  | 57 => ⟨S50000x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S128, .f32⟩
  | 70 => ⟨S1x128, .f32⟩
  | 71 => ⟨S1x128, .f32⟩
  | 72 => ⟨S128, .f32⟩
  | 73 => ⟨S1x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S1x128x256, .f32⟩
  | 89 => ⟨S128x256, .f32⟩
  | 90 => ⟨S1x256, .f32⟩
  | 91 => ⟨S256, .f32⟩
  | 92 => ⟨S1x256, .f32⟩
  | 93 => ⟨S50000x256, .f32⟩
  | 94 => ⟨S1x256, .f32⟩
  | 95 => ⟨S1x256, .f32⟩
  | 96 => ⟨S_, .f32⟩
  | 97 => ⟨S1x256, .f32⟩
  | 98 => ⟨S1x256, .f32⟩
  | 99 => ⟨S_, .f32⟩
  | 100 => ⟨S1x256, .f32⟩
  | 101 => ⟨S1x256, .f32⟩
  | 102 => ⟨S1x256, .f32⟩
  | 103 => ⟨S1x256, .f32⟩
  | 104 => ⟨S1x256, .f32⟩
  | 105 => ⟨S256, .f32⟩
  | 106 => ⟨S1x256, .f32⟩
  | 107 => ⟨S1x256, .f32⟩
  | 108 => ⟨S256, .f32⟩
  | 109 => ⟨S1x256, .f32⟩
  | 110 => ⟨S1x256x128, .f32⟩
  | 111 => ⟨S256x128, .f32⟩
  | 112 => ⟨S1x128, .f32⟩
  | 113 => ⟨S128, .f32⟩
  | 114 => ⟨S1x128, .f32⟩
  | 115 => ⟨S50000x128, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S50000x128, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S1x128x256, .f32⟩
  | 19 => ⟨S128x256, .f32⟩
  | 20 => ⟨S1x256, .f32⟩
  | 21 => ⟨S256, .f32⟩
  | 22 => ⟨S1x256, .f32⟩
  | 23 => ⟨S50000x256, .f32⟩
  | 24 => ⟨S1x256, .f32⟩
  | 25 => ⟨S1x256, .f32⟩
  | 26 => ⟨S_, .f32⟩
  | 27 => ⟨S1x256, .f32⟩
  | 28 => ⟨S1x256, .f32⟩
  | 29 => ⟨S_, .f32⟩
  | 30 => ⟨S1x256, .f32⟩
  | 31 => ⟨S1x256, .f32⟩
  | 32 => ⟨S1x256, .f32⟩
  | 33 => ⟨S1x256, .f32⟩
  | 34 => ⟨S1x256, .f32⟩
  | 35 => ⟨S256, .f32⟩
  | 36 => ⟨S1x256, .f32⟩
  | 37 => ⟨S1x256, .f32⟩
  | 38 => ⟨S256, .f32⟩
  | 39 => ⟨S1x256, .f32⟩
  | 40 => ⟨S1x256x128, .f32⟩
  | 41 => ⟨S256x128, .f32⟩
  | 42 => ⟨S1x128, .f32⟩
  | 43 => ⟨S128, .f32⟩
  | 44 => ⟨S1x128, .f32⟩
  | 45 => ⟨S50000x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S1x128, .f32⟩
  | 56 => ⟨S1x128, .f32⟩
  | 57 => ⟨S128, .f32⟩
  | 58 => ⟨S1x128, .f32⟩
  | 59 => ⟨S1x128, .f32⟩
  | 60 => ⟨S128, .f32⟩
  | 61 => ⟨S1x128, .f32⟩
  | 62 => ⟨S50000x128, .f32⟩
  | 63 => ⟨S_, .f32⟩
  | 64 => ⟨S256x128, .f32⟩
  | 65 => ⟨S50000x1, .i32⟩
  | 66 => ⟨S256x128, .f32⟩
  | 67 => ⟨S_, .f32⟩
  | 68 => ⟨S50000, .f32⟩
  | 69 => ⟨S_, .f32⟩
  | 70 => ⟨S256, .f32⟩
  | 71 => ⟨S50000x1, .i32⟩
  | 72 => ⟨S256, .f32⟩
  | 73 => ⟨S_, .f32⟩
  | 74 => ⟨S256, .f32⟩
  | 75 => ⟨S256, .f32⟩
  | 76 => ⟨S256x1, .f32⟩
  | 77 => ⟨S256x128, .f32⟩
  | 78 => ⟨S256x128, .f32⟩
  | 79 => ⟨S256x10, .f32⟩
  | 80 => ⟨S1x10, .f32⟩
  | 81 => ⟨S256x10, .f32⟩
  | 82 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S1x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S256x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S128x256, .f32⟩
  | .local _ .vmem, ⟨65, _⟩ => ⟨S1x256, .f32⟩
  | .local _ .vmem, ⟨66, _⟩ => ⟨S2000x256, .f32⟩
  | .local _ .vmem, ⟨67, _⟩ => ⟨S2000x256, .f32⟩
  | .local _ .vmem, ⟨68, _⟩ => ⟨S1x256, .f32⟩
  | .local _ .vmem, ⟨69, _⟩ => ⟨S1x256, .f32⟩
  | .local _ .vmem, ⟨70, _⟩ => ⟨S2000x256, .f32⟩
  | .local _ .vmem, ⟨71, _⟩ => ⟨S2000x256, .f32⟩
  | .local _ .vmem, ⟨72, _⟩ => ⟨S1x256, .f32⟩
  | .local _ .vmem, ⟨73, _⟩ => ⟨S1x256, .f32⟩
  | .local _ .vmem, ⟨74, _⟩ => ⟨S1x256, .f32⟩
  | .local _ .vmem, ⟨75, _⟩ => ⟨S1x256, .f32⟩
  | .local _ .vmem, ⟨76, _⟩ => ⟨S256x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S1x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S2000x128, .f32⟩
  | .local _ .vmem, ⟨89, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v37_2 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_v51 : Ref sig .tc := ⟨.hbm, 76, rfl⟩
abbrev main_v52 : Ref sig .tc := ⟨.hbm, 77, rfl⟩
abbrev main_c_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_7 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66_0 : Ref sig .tc := ⟨.hbm, 93, rfl⟩
abbrev main_v66_1 : Ref sig .tc := ⟨.hbm, 94, rfl⟩
abbrev main_v66_2 : Ref sig .tc := ⟨.hbm, 95, rfl⟩
abbrev main_cst_8 : Ref sig .tc := ⟨.hbm, 96, rfl⟩
abbrev main_v67 : Ref sig .tc := ⟨.hbm, 97, rfl⟩
abbrev main_v68 : Ref sig .tc := ⟨.hbm, 98, rfl⟩
abbrev main_cst_9 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84_0 : Ref sig .tc := ⟨.hbm, 115, rfl⟩
abbrev main_v84_1 : Ref sig .tc := ⟨.hbm, 116, rfl⟩
abbrev main_v84_2 : Ref sig .tc := ⟨.hbm, 117, rfl⟩
abbrev main_cst_10 : Ref sig .tc := ⟨.hbm, 118, rfl⟩
abbrev main_v85 : Ref sig .tc := ⟨.hbm, 119, rfl⟩
abbrev main_v86 : Ref sig .tc := ⟨.hbm, 120, rfl⟩
abbrev main_cst_11 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_12 : Ref sig .tc := ⟨.hbm, 133, rfl⟩
abbrev main_v98 : Ref sig .tc := ⟨.hbm, 134, rfl⟩
abbrev main_v99 : Ref sig .tc := ⟨.hbm, 135, rfl⟩
abbrev main_c_13 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_14 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113_0 : Ref sig .tc := ⟨.hbm, 151, rfl⟩
abbrev main_v113_1 : Ref sig .tc := ⟨.hbm, 152, rfl⟩
abbrev main_v113_2 : Ref sig .tc := ⟨.hbm, 153, rfl⟩
abbrev main_cst_15 : Ref sig .tc := ⟨.hbm, 154, rfl⟩
abbrev main_v114 : Ref sig .tc := ⟨.hbm, 155, rfl⟩
abbrev main_v115 : Ref sig .tc := ⟨.hbm, 156, rfl⟩
abbrev main_cst_16 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131_0 : Ref sig .tc := ⟨.hbm, 173, rfl⟩
abbrev main_v131_1 : Ref sig .tc := ⟨.hbm, 174, rfl⟩
abbrev main_v131_2 : Ref sig .tc := ⟨.hbm, 175, rfl⟩
abbrev main_cst_17 : Ref sig .tc := ⟨.hbm, 176, rfl⟩
abbrev main_v132 : Ref sig .tc := ⟨.hbm, 177, rfl⟩
abbrev main_v133 : Ref sig .tc := ⟨.hbm, 178, rfl⟩
abbrev main_cst_18 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_19 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_20 : Ref sig .tc := ⟨.hbm, 195, rfl⟩
abbrev main_v148 : Ref sig .tc := ⟨.hbm, 196, rfl⟩
abbrev main_cst_21 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_22 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg6_0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc4_stg8_0 : Ref sig .tc := ⟨.vmem, 50, rfl⟩
abbrev cc4_stg9_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg6_0 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg6_0 : Ref sig .tc := ⟨.vmem, 77, rfl⟩
abbrev cc7_stg7_0 : Ref sig .tc := ⟨.vmem, 78, rfl⟩
abbrev cc7_stg7_1 : Ref sig .tc := ⟨.vmem, 79, rfl⟩
abbrev cc7_stg8_0 : Ref sig .tc := ⟨.vmem, 80, rfl⟩
abbrev cc7_stg9_0 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg2_0 : Ref sig .tc := ⟨.vmem, 85, rfl⟩
abbrev cc8_stg3_0 : Ref sig .tc := ⟨.vmem, 86, rfl⟩
abbrev cc8_stg4_0 : Ref sig .tc := ⟨.vmem, 87, rfl⟩
abbrev cc8_stg5_0 : Ref sig .tc := ⟨.vmem, 88, rfl⟩
abbrev cc8_stg5_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem6_0 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc4_sem8_0 : DmaSem sig := 50
abbrev cc4_sem9_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem6_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc7_sem7_1 : DmaSem sig := 79
abbrev cc7_sem8_0 : DmaSem sig := 80
abbrev cc7_sem9_0 : DmaSem sig := 81
abbrev cc8_sem0_0 : DmaSem sig := 82
abbrev cc8_sem0_1 : DmaSem sig := 83
abbrev cc8_sem1_0 : DmaSem sig := 84
abbrev cc8_sem2_0 : DmaSem sig := 85
abbrev cc8_sem3_0 : DmaSem sig := 86
abbrev cc8_sem4_0 : DmaSem sig := 87
abbrev cc8_sem5_0 : DmaSem sig := 88
abbrev cc8_sem5_1 : DmaSem sig := 89

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  bcast_S_S1x256 : S_.BroadcastsInDim S1x256 (![] : Fin 0 → Fin S1x256.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x128.size a ≤ S256x128.size a
  hwx4_5 : ∀ i : grid4.Coords, EltTy.bits .f32 = 32 ∨ (Rect.block (s := S256x128) S256x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x256.size a ≤ S128x256.size a
  hwx6_2 : ∀ i : grid6.Coords, EltTy.bits .f32 = 32 ∨ (Rect.block (s := S128x256) S128x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S50000x256.size a
  hwx6_4 : ∀ i : grid6.Coords, EltTy.bits .f32 = 32 ∨ (Rect.block (s := S50000x256) S2000x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x128.size a ≤ S256x128.size a
  hwx7_5 : ∀ i : grid7.Coords, EltTy.bits .f32 = 32 ∨ (Rect.block (s := S256x128) S256x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x128.size a ≤ S50000x128.size a
  hwx7_7 : ∀ i : grid7.Coords, EltTy.bits .f32 = 32 ∨ (Rect.block (s := S50000x128) S2000x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v37_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v37_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66_0) S2000x256.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v66_1) S1x256.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66_2) S1x256.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v66_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S256x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84_0) S2000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v84_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v84_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v84_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v107) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v109) S128x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v112) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v113_0) S2000x256.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v113_1) S1x256.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v113_2) S1x256.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v113_0) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v119) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v122) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v125) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S256x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v130) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v131_0) S2000x128.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v131_1) S1x128.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v131_2) S1x128.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v131_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v133) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v137) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v140) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v143) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v144) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S50000x1 : Shape := ⟨2, ![50000, 1]⟩
abbrev S256x1 : Shape := ⟨2, ![256, 1]⟩
abbrev S256x10 : Shape := ⟨2, ![256, 10]⟩
abbrev S1x10 : Shape := ⟨2, ![1, 10]⟩

abbrev nBuf : Space → Nat
  | .hbm => 430
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x256, .f32⟩
  | 4 => ⟨S3x256, .f32⟩
  | 5 => ⟨S3x256, .f32⟩
  | 6 => ⟨S3x256, .f32⟩
  | 7 => ⟨S3x256x128, .f32⟩
  | 8 => ⟨S3x128, .f32⟩
  | 9 => ⟨S3x128, .f32⟩
  | 10 => ⟨S3x128, .f32⟩
  | 11 => ⟨S128x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x128, .f32⟩
  | 31 => ⟨S1x128x256, .f32⟩
  | 32 => ⟨S128x256, .f32⟩
  | 33 => ⟨S50000x256, .f32⟩
  | 34 => ⟨S1x256, .f32⟩
  | 35 => ⟨S256, .f32⟩
  | 36 => ⟨S1x256, .f32⟩
  | 37 => ⟨S50000x256, .f32⟩
  | 38 => ⟨S50000x256, .f32⟩
  | 39 => ⟨S1x256, .f32⟩
  | 40 => ⟨S256, .f32⟩
  | 41 => ⟨S1x256, .f32⟩
  | 42 => ⟨S256, .f32⟩
  | 43 => ⟨S_, .f32⟩
  | 44 => ⟨S256, .f32⟩
  | 45 => ⟨S_, .f32⟩
  | 46 => ⟨S256, .f32⟩
  | 47 => ⟨S256, .f32⟩
  | 48 => ⟨S_, .i32⟩
  | 49 => ⟨S_, .f32⟩
  | 50 => ⟨S256, .f32⟩
  | 51 => ⟨S1x256, .f32⟩
  | 52 => ⟨S_, .f32⟩
  | 53 => ⟨S1x256, .f32⟩
  | 54 => ⟨S1x256, .f32⟩
  | 55 => ⟨S50000x256, .f32⟩
  | 56 => ⟨S50000x256, .f32⟩
  | 57 => ⟨S50000x256, .f32⟩
  | 58 => ⟨S_, .f32⟩
  | 59 => ⟨S_, .f32⟩
  | 60 => ⟨S_, .f32⟩
  | 61 => ⟨S_, .f32⟩
  | 62 => ⟨S256, .f32⟩
  | 63 => ⟨S256, .f32⟩
  | 64 => ⟨S256, .f32⟩
  | 65 => ⟨S_, .f32⟩
  | 66 => ⟨S_, .i1⟩
  | 67 => ⟨S_, .f32⟩
  | 68 => ⟨S_, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S_, .f32⟩
  | 75 => ⟨S256, .f32⟩
  | 76 => ⟨S256, .f32⟩
  | 77 => ⟨S256, .f32⟩
  | 78 => ⟨S1x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S_, .f32⟩
  | 88 => ⟨S50000x256, .f32⟩
  | 89 => ⟨S50000x256, .f32⟩
  | 90 => ⟨S1x256x128, .f32⟩
  | 91 => ⟨S256x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S128, .f32⟩
  | 102 => ⟨S_, .f32⟩
  | 103 => ⟨S128, .f32⟩
  | 104 => ⟨S_, .f32⟩
  | 105 => ⟨S128, .f32⟩
  | 106 => ⟨S128, .f32⟩
  | 107 => ⟨S_, .i32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S50000x128, .f32⟩
  | 115 => ⟨S50000x128, .f32⟩
  | 116 => ⟨S50000x128, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S128, .f32⟩
  | 124 => ⟨S_, .f32⟩
  | 125 => ⟨S_, .i1⟩
  | 126 => ⟨S_, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S1x128x256, .f32⟩
  | 36 => ⟨S128x256, .f32⟩
  | 37 => ⟨S50000x256, .f32⟩
  | 38 => ⟨S1x256, .f32⟩
  | 39 => ⟨S256, .f32⟩
  | 40 => ⟨S1x256, .f32⟩
  | 41 => ⟨S50000x256, .f32⟩
  | 42 => ⟨S50000x256, .f32⟩
  | 43 => ⟨S1x256, .f32⟩
  | 44 => ⟨S256, .f32⟩
  | 45 => ⟨S1x256, .f32⟩
  | 46 => ⟨S256, .f32⟩
  | 47 => ⟨S_, .f32⟩
  | 48 => ⟨S256, .f32⟩
  | 49 => ⟨S_, .f32⟩
  | 50 => ⟨S256, .f32⟩
  | 51 => ⟨S256, .f32⟩
  | 52 => ⟨S_, .i32⟩
  | 53 => ⟨S_, .f32⟩
  | 54 => ⟨S256, .f32⟩
  | 55 => ⟨S1x256, .f32⟩
  | 56 => ⟨S_, .f32⟩
  | 57 => ⟨S1x256, .f32⟩
  | 58 => ⟨S1x256, .f32⟩
  | 59 => ⟨S50000x256, .f32⟩
  | 60 => ⟨S50000x256, .f32⟩
  | 61 => ⟨S50000x256, .f32⟩
  | 62 => ⟨S_, .f32⟩
  | 63 => ⟨S_, .f32⟩
  | 64 => ⟨S_, .f32⟩
  | 65 => ⟨S_, .f32⟩
  | 66 => ⟨S256, .f32⟩
  | 67 => ⟨S256, .f32⟩
  | 68 => ⟨S256, .f32⟩
  | 69 => ⟨S_, .f32⟩
  | 70 => ⟨S_, .i1⟩
  | 71 => ⟨S_, .f32⟩
  | 72 => ⟨S_, .f32⟩
  | 73 => ⟨S256, .f32⟩
  | 74 => ⟨S256, .f32⟩
  | 75 => ⟨S1x256, .f32⟩
  | 76 => ⟨S50000x256, .f32⟩
  | 77 => ⟨S50000x256, .f32⟩
  | 78 => ⟨S_, .f32⟩
  | 79 => ⟨S256, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S1x256x128, .f32⟩
  | 95 => ⟨S256x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S50000x128, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S50000x128, .f32⟩
  | 39 => ⟨S1x128x256, .f32⟩
  | 40 => ⟨S128x256, .f32⟩
  | 41 => ⟨S50000x256, .f32⟩
  | 42 => ⟨S1x256, .f32⟩
  | 43 => ⟨S256, .f32⟩
  | 44 => ⟨S1x256, .f32⟩
  | 45 => ⟨S50000x256, .f32⟩
  | 46 => ⟨S50000x256, .f32⟩
  | 47 => ⟨S1x256, .f32⟩
  | 48 => ⟨S256, .f32⟩
  | 49 => ⟨S1x256, .f32⟩
  | 50 => ⟨S256, .f32⟩
  | 51 => ⟨S_, .f32⟩
  | 52 => ⟨S256, .f32⟩
  | 53 => ⟨S_, .f32⟩
  | 54 => ⟨S256, .f32⟩
  | 55 => ⟨S256, .f32⟩
  | 56 => ⟨S_, .i32⟩
  | 57 => ⟨S_, .f32⟩
  | 58 => ⟨S256, .f32⟩
  | 59 => ⟨S1x256, .f32⟩
  | 60 => ⟨S_, .f32⟩
  | 61 => ⟨S1x256, .f32⟩
  | 62 => ⟨S1x256, .f32⟩
  | 63 => ⟨S50000x256, .f32⟩
  | 64 => ⟨S50000x256, .f32⟩
  | 65 => ⟨S50000x256, .f32⟩
  | 66 => ⟨S_, .f32⟩
  | 67 => ⟨S_, .f32⟩
  | 68 => ⟨S_, .f32⟩
  | 69 => ⟨S_, .f32⟩
  | 70 => ⟨S256, .f32⟩
  | 71 => ⟨S256, .f32⟩
  | 72 => ⟨S256, .f32⟩
  | 73 => ⟨S_, .f32⟩
  | 74 => ⟨S_, .i1⟩
  | 75 => ⟨S_, .f32⟩
  | 76 => ⟨S_, .f32⟩
  | 77 => ⟨S256, .f32⟩
  | 78 => ⟨S256, .f32⟩
  | 79 => ⟨S1x256, .f32⟩
  | 80 => ⟨S50000x256, .f32⟩
  | 81 => ⟨S50000x256, .f32⟩
  | 82 => ⟨S_, .f32⟩
  | 83 => ⟨S256, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S1x256, .f32⟩
  | 90 => ⟨S50000x256, .f32⟩
  | 91 => ⟨S50000x256, .f32⟩
  | 92 => ⟨S1x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S1x256x128, .f32⟩
  | 99 => ⟨S256x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S128, .f32⟩
  | 110 => ⟨S_, .f32⟩
  | 111 => ⟨S128, .f32⟩
  | 112 => ⟨S_, .f32⟩
  | 113 => ⟨S128, .f32⟩
  | 114 => ⟨S128, .f32⟩
  | 115 => ⟨S_, .i32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S50000x128, .f32⟩
  | 123 => ⟨S50000x128, .f32⟩
  | 124 => ⟨S50000x128, .f32⟩
  | 125 => ⟨S_, .f32⟩
  | 126 => ⟨S_, .f32⟩
  | 127 => ⟨S_, .f32⟩
  | _ => ⟨S50000x128, .f32⟩

abbrev hbmTy0_3 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S_, .i1⟩
  | 6 => ⟨S_, .f32⟩
  | 7 => ⟨S_, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S_, .f32⟩
  | 14 => ⟨S128, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S256x128, .f32⟩
  | 28 => ⟨S50000x1, .i32⟩
  | 29 => ⟨S256x128, .f32⟩
  | 30 => ⟨S_, .f32⟩
  | 31 => ⟨S50000, .f32⟩
  | 32 => ⟨S_, .f32⟩
  | 33 => ⟨S256, .f32⟩
  | 34 => ⟨S50000x1, .i32⟩
  | 35 => ⟨S256, .f32⟩
  | 36 => ⟨S_, .f32⟩
  | 37 => ⟨S256, .f32⟩
  | 38 => ⟨S256, .f32⟩
  | 39 => ⟨S256x1, .f32⟩
  | 40 => ⟨S256x128, .f32⟩
  | 41 => ⟨S256x128, .f32⟩
  | 42 => ⟨S256x10, .f32⟩
  | 43 => ⟨S1x10, .f32⟩
  | 44 => ⟨S256x10, .f32⟩
  | 45 => ⟨S256x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call1_cst : Ref sig .tc := ⟨.hbm, 87, rfl⟩
abbrev main_call1_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_5 : Ref sig .tc := ⟨.hbm, 102, rfl⟩
abbrev main_v59 : Ref sig .tc := ⟨.hbm, 103, rfl⟩
abbrev main_cst_6 : Ref sig .tc := ⟨.hbm, 104, rfl⟩
abbrev main_v60 : Ref sig .tc := ⟨.hbm, 105, rfl⟩
abbrev main_v61 : Ref sig .tc := ⟨.hbm, 106, rfl⟩
abbrev main_c_7 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_cst_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_cst_1 : Ref sig .tc := ⟨.hbm, 118, rfl⟩
abbrev main_call2_v8 : Ref sig .tc := ⟨.hbm, 119, rfl⟩
abbrev main_call2_cst_2 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_cst_3 : Ref sig .tc := ⟨.hbm, 124, rfl⟩
abbrev main_call2_v12 : Ref sig .tc := ⟨.hbm, 125, rfl⟩
abbrev main_call2_cst_4 : Ref sig .tc := ⟨.hbm, 126, rfl⟩
abbrev main_call2_call0_v0 : Ref sig .tc := ⟨.hbm, 127, rfl⟩
abbrev main_call2_call0_v1 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_cst_8 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_call3_cst : Ref sig .tc := ⟨.hbm, 146, rfl⟩
abbrev main_call3_v0 : Ref sig .tc := ⟨.hbm, 147, rfl⟩
abbrev main_v78 : Ref sig .tc := ⟨.hbm, 148, rfl⟩
abbrev main_c_9 : Ref sig .tc := ⟨.hbm, 149, rfl⟩
abbrev main_v79 : Ref sig .tc := ⟨.hbm, 150, rfl⟩
abbrev main_v80 : Ref sig .tc := ⟨.hbm, 151, rfl⟩
abbrev main_c_10 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_11 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_cst_12 : Ref sig .tc := ⟨.hbm, 175, rfl⟩
abbrev main_v102 : Ref sig .tc := ⟨.hbm, 176, rfl⟩
abbrev main_cst_13 : Ref sig .tc := ⟨.hbm, 177, rfl⟩
abbrev main_v103 : Ref sig .tc := ⟨.hbm, 178, rfl⟩
abbrev main_v104 : Ref sig .tc := ⟨.hbm, 179, rfl⟩
abbrev main_c_14 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_v6 : Ref sig .tc := ⟨.hbm, 189, rfl⟩
abbrev main_call4_v7 : Ref sig .tc := ⟨.hbm, 190, rfl⟩
abbrev main_call4_cst_1 : Ref sig .tc := ⟨.hbm, 191, rfl⟩
abbrev main_call4_v8 : Ref sig .tc := ⟨.hbm, 192, rfl⟩
abbrev main_call4_cst_2 : Ref sig .tc := ⟨.hbm, 193, rfl⟩
abbrev main_call4_v9 : Ref sig .tc := ⟨.hbm, 194, rfl⟩
abbrev main_call4_v10 : Ref sig .tc := ⟨.hbm, 195, rfl⟩
abbrev main_call4_v11 : Ref sig .tc := ⟨.hbm, 196, rfl⟩
abbrev main_call4_cst_3 : Ref sig .tc := ⟨.hbm, 197, rfl⟩
abbrev main_call4_v12 : Ref sig .tc := ⟨.hbm, 198, rfl⟩
abbrev main_call4_cst_4 : Ref sig .tc := ⟨.hbm, 199, rfl⟩
abbrev main_call4_call0_v0 : Ref sig .tc := ⟨.hbm, 200, rfl⟩
abbrev main_call4_call0_v1 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_cst_15 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_call5_cst : Ref sig .tc := ⟨.hbm, 219, rfl⟩
abbrev main_call5_v0 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_cst_16 : Ref sig .tc := ⟨.hbm, 234, rfl⟩
abbrev main_v134 : Ref sig .tc := ⟨.hbm, 235, rfl⟩
abbrev main_cst_17 : Ref sig .tc := ⟨.hbm, 236, rfl⟩
abbrev main_v135 : Ref sig .tc := ⟨.hbm, 237, rfl⟩
abbrev main_v136 : Ref sig .tc := ⟨.hbm, 238, rfl⟩
abbrev main_c_18 : Ref sig .tc := ⟨.hbm, 239, rfl⟩
abbrev main_call6_cst : Ref sig .tc := ⟨.hbm, 240, rfl⟩
abbrev main_call6_v0 : Ref sig .tc := ⟨.hbm, 241, rfl⟩
abbrev main_call6_v1 : Ref sig .tc := ⟨.hbm, 242, rfl⟩
abbrev main_call6_cst_0 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_call6_v5 : Ref sig .tc := ⟨.hbm, 247, rfl⟩
abbrev main_call6_v6 : Ref sig .tc := ⟨.hbm, 248, rfl⟩
abbrev main_call6_v7 : Ref sig .tc := ⟨.hbm, 249, rfl⟩
abbrev main_call6_cst_1 : Ref sig .tc := ⟨.hbm, 250, rfl⟩
abbrev main_call6_v8 : Ref sig .tc := ⟨.hbm, 251, rfl⟩
abbrev main_call6_cst_2 : Ref sig .tc := ⟨.hbm, 252, rfl⟩
abbrev main_call6_v9 : Ref sig .tc := ⟨.hbm, 253, rfl⟩
abbrev main_call6_v10 : Ref sig .tc := ⟨.hbm, 254, rfl⟩
abbrev main_call6_v11 : Ref sig .tc := ⟨.hbm, 255, rfl⟩
abbrev main_call6_cst_3 : Ref sig .tc := ⟨.hbm, 256, rfl⟩
abbrev main_call6_v12 : Ref sig .tc := ⟨.hbm, 257, rfl⟩
abbrev main_call6_cst_4 : Ref sig .tc := ⟨.hbm, 258, rfl⟩
abbrev main_call6_call0_v0 : Ref sig .tc := ⟨.hbm, 259, rfl⟩
abbrev main_call6_call0_v1 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_cst_19 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_call7_cst : Ref sig .tc := ⟨.hbm, 278, rfl⟩
abbrev main_call7_v0 : Ref sig .tc := ⟨.hbm, 279, rfl⟩
abbrev main_v153 : Ref sig .tc := ⟨.hbm, 280, rfl⟩
abbrev main_c_20 : Ref sig .tc := ⟨.hbm, 281, rfl⟩
abbrev main_v154 : Ref sig .tc := ⟨.hbm, 282, rfl⟩
abbrev main_v155 : Ref sig .tc := ⟨.hbm, 283, rfl⟩
abbrev main_c_21 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_v160 : Ref sig .tc := ⟨.hbm, 289, rfl⟩
abbrev main_cst_22 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_cst_23 : Ref sig .tc := ⟨.hbm, 307, rfl⟩
abbrev main_v177 : Ref sig .tc := ⟨.hbm, 308, rfl⟩
abbrev main_cst_24 : Ref sig .tc := ⟨.hbm, 309, rfl⟩
abbrev main_v178 : Ref sig .tc := ⟨.hbm, 310, rfl⟩
abbrev main_v179 : Ref sig .tc := ⟨.hbm, 311, rfl⟩
abbrev main_c_25 : Ref sig .tc := ⟨.hbm, 312, rfl⟩
abbrev main_call8_cst : Ref sig .tc := ⟨.hbm, 313, rfl⟩
abbrev main_call8_v0 : Ref sig .tc := ⟨.hbm, 314, rfl⟩
abbrev main_call8_v1 : Ref sig .tc := ⟨.hbm, 315, rfl⟩
abbrev main_call8_cst_0 : Ref sig .tc := ⟨.hbm, 316, rfl⟩
abbrev main_call8_v2 : Ref sig .tc := ⟨.hbm, 317, rfl⟩
abbrev main_call8_v3 : Ref sig .tc := ⟨.hbm, 318, rfl⟩
abbrev main_call8_v4 : Ref sig .tc := ⟨.hbm, 319, rfl⟩
abbrev main_call8_v5 : Ref sig .tc := ⟨.hbm, 320, rfl⟩
abbrev main_call8_v6 : Ref sig .tc := ⟨.hbm, 321, rfl⟩
abbrev main_call8_v7 : Ref sig .tc := ⟨.hbm, 322, rfl⟩
abbrev main_call8_cst_1 : Ref sig .tc := ⟨.hbm, 323, rfl⟩
abbrev main_call8_v8 : Ref sig .tc := ⟨.hbm, 324, rfl⟩
abbrev main_call8_cst_2 : Ref sig .tc := ⟨.hbm, 325, rfl⟩
abbrev main_call8_v9 : Ref sig .tc := ⟨.hbm, 326, rfl⟩
abbrev main_call8_v10 : Ref sig .tc := ⟨.hbm, 327, rfl⟩
abbrev main_call8_v11 : Ref sig .tc := ⟨.hbm, 328, rfl⟩
abbrev main_call8_cst_3 : Ref sig .tc := ⟨.hbm, 329, rfl⟩
abbrev main_call8_v12 : Ref sig .tc := ⟨.hbm, 330, rfl⟩
abbrev main_call8_cst_4 : Ref sig .tc := ⟨.hbm, 331, rfl⟩
abbrev main_call8_call0_v0 : Ref sig .tc := ⟨.hbm, 332, rfl⟩
abbrev main_call8_call0_v1 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_cst_26 : Ref sig .tc := ⟨.hbm, 338, rfl⟩
abbrev main_v184 : Ref sig .tc := ⟨.hbm, 339, rfl⟩
abbrev main_v185 : Ref sig .tc := ⟨.hbm, 340, rfl⟩
abbrev main_v186 : Ref sig .tc := ⟨.hbm, 341, rfl⟩
abbrev main_v187 : Ref sig .tc := ⟨.hbm, 342, rfl⟩
abbrev main_v188 : Ref sig .tc := ⟨.hbm, 343, rfl⟩
abbrev main_v189 : Ref sig .tc := ⟨.hbm, 344, rfl⟩
abbrev main_v190 : Ref sig .tc := ⟨.hbm, 345, rfl⟩
abbrev main_v191 : Ref sig .tc := ⟨.hbm, 346, rfl⟩
abbrev main_v192 : Ref sig .tc := ⟨.hbm, 347, rfl⟩
abbrev main_v193 : Ref sig .tc := ⟨.hbm, 348, rfl⟩
abbrev main_v194 : Ref sig .tc := ⟨.hbm, 349, rfl⟩
abbrev main_v195 : Ref sig .tc := ⟨.hbm, 350, rfl⟩
abbrev main_call9_cst : Ref sig .tc := ⟨.hbm, 351, rfl⟩
abbrev main_call9_v0 : Ref sig .tc := ⟨.hbm, 352, rfl⟩
abbrev main_v196 : Ref sig .tc := ⟨.hbm, 353, rfl⟩
abbrev main_v197 : Ref sig .tc := ⟨.hbm, 354, rfl⟩
abbrev main_v198 : Ref sig .tc := ⟨.hbm, 355, rfl⟩
abbrev main_v199 : Ref sig .tc := ⟨.hbm, 356, rfl⟩
abbrev main_v200 : Ref sig .tc := ⟨.hbm, 357, rfl⟩
abbrev main_v201 : Ref sig .tc := ⟨.hbm, 358, rfl⟩
abbrev main_v202 : Ref sig .tc := ⟨.hbm, 359, rfl⟩
abbrev main_v203 : Ref sig .tc := ⟨.hbm, 360, rfl⟩
abbrev main_v204 : Ref sig .tc := ⟨.hbm, 361, rfl⟩
abbrev main_v205 : Ref sig .tc := ⟨.hbm, 362, rfl⟩
abbrev main_v206 : Ref sig .tc := ⟨.hbm, 363, rfl⟩
abbrev main_v207 : Ref sig .tc := ⟨.hbm, 364, rfl⟩
abbrev main_v208 : Ref sig .tc := ⟨.hbm, 365, rfl⟩
abbrev main_cst_27 : Ref sig .tc := ⟨.hbm, 366, rfl⟩
abbrev main_v209 : Ref sig .tc := ⟨.hbm, 367, rfl⟩
abbrev main_cst_28 : Ref sig .tc := ⟨.hbm, 368, rfl⟩
abbrev main_v210 : Ref sig .tc := ⟨.hbm, 369, rfl⟩
abbrev main_v211 : Ref sig .tc := ⟨.hbm, 370, rfl⟩
abbrev main_c_29 : Ref sig .tc := ⟨.hbm, 371, rfl⟩
abbrev main_call10_cst : Ref sig .tc := ⟨.hbm, 372, rfl⟩
abbrev main_call10_v0 : Ref sig .tc := ⟨.hbm, 373, rfl⟩
abbrev main_call10_v1 : Ref sig .tc := ⟨.hbm, 374, rfl⟩
abbrev main_call10_cst_0 : Ref sig .tc := ⟨.hbm, 375, rfl⟩
abbrev main_call10_v2 : Ref sig .tc := ⟨.hbm, 376, rfl⟩
abbrev main_call10_v3 : Ref sig .tc := ⟨.hbm, 377, rfl⟩
abbrev main_call10_v4 : Ref sig .tc := ⟨.hbm, 378, rfl⟩
abbrev main_call10_v5 : Ref sig .tc := ⟨.hbm, 379, rfl⟩
abbrev main_call10_v6 : Ref sig .tc := ⟨.hbm, 380, rfl⟩
abbrev main_call10_v7 : Ref sig .tc := ⟨.hbm, 381, rfl⟩
abbrev main_call10_cst_1 : Ref sig .tc := ⟨.hbm, 382, rfl⟩
abbrev main_call10_v8 : Ref sig .tc := ⟨.hbm, 383, rfl⟩
abbrev main_call10_cst_2 : Ref sig .tc := ⟨.hbm, 384, rfl⟩
abbrev main_call10_v9 : Ref sig .tc := ⟨.hbm, 385, rfl⟩
abbrev main_call10_v10 : Ref sig .tc := ⟨.hbm, 386, rfl⟩
abbrev main_call10_v11 : Ref sig .tc := ⟨.hbm, 387, rfl⟩
abbrev main_call10_cst_3 : Ref sig .tc := ⟨.hbm, 388, rfl⟩
abbrev main_call10_v12 : Ref sig .tc := ⟨.hbm, 389, rfl⟩
abbrev main_call10_cst_4 : Ref sig .tc := ⟨.hbm, 390, rfl⟩
abbrev main_call10_call0_v0 : Ref sig .tc := ⟨.hbm, 391, rfl⟩
abbrev main_call10_call0_v1 : Ref sig .tc := ⟨.hbm, 392, rfl⟩
abbrev main_v212 : Ref sig .tc := ⟨.hbm, 393, rfl⟩
abbrev main_v213 : Ref sig .tc := ⟨.hbm, 394, rfl⟩
abbrev main_v214 : Ref sig .tc := ⟨.hbm, 395, rfl⟩
abbrev main_v215 : Ref sig .tc := ⟨.hbm, 396, rfl⟩
abbrev main_cst_30 : Ref sig .tc := ⟨.hbm, 397, rfl⟩
abbrev main_v216 : Ref sig .tc := ⟨.hbm, 398, rfl⟩
abbrev main_v217 : Ref sig .tc := ⟨.hbm, 399, rfl⟩
abbrev main_v218 : Ref sig .tc := ⟨.hbm, 400, rfl⟩
abbrev main_v219 : Ref sig .tc := ⟨.hbm, 401, rfl⟩
abbrev main_v220 : Ref sig .tc := ⟨.hbm, 402, rfl⟩
abbrev main_v221 : Ref sig .tc := ⟨.hbm, 403, rfl⟩
abbrev main_v222 : Ref sig .tc := ⟨.hbm, 404, rfl⟩
abbrev main_v223 : Ref sig .tc := ⟨.hbm, 405, rfl⟩
abbrev main_v224 : Ref sig .tc := ⟨.hbm, 406, rfl⟩
abbrev main_v225 : Ref sig .tc := ⟨.hbm, 407, rfl⟩
abbrev main_v226 : Ref sig .tc := ⟨.hbm, 408, rfl⟩
abbrev main_v227 : Ref sig .tc := ⟨.hbm, 409, rfl⟩
abbrev main_cst_31 : Ref sig .tc := ⟨.hbm, 410, rfl⟩
abbrev main_v228 : Ref sig .tc := ⟨.hbm, 411, rfl⟩
abbrev main_v229 : Ref sig .tc := ⟨.hbm, 412, rfl⟩
abbrev main_v230 : Ref sig .tc := ⟨.hbm, 413, rfl⟩
abbrev main_cst_32 : Ref sig .tc := ⟨.hbm, 414, rfl⟩
abbrev main_v231 : Ref sig .tc := ⟨.hbm, 415, rfl⟩
abbrev main_cst_33 : Ref sig .tc := ⟨.hbm, 416, rfl⟩
abbrev main_v232 : Ref sig .tc := ⟨.hbm, 417, rfl⟩
abbrev main_v233 : Ref sig .tc := ⟨.hbm, 418, rfl⟩
abbrev main_v234 : Ref sig .tc := ⟨.hbm, 419, rfl⟩
abbrev main_cst_34 : Ref sig .tc := ⟨.hbm, 420, rfl⟩
abbrev main_v235 : Ref sig .tc := ⟨.hbm, 421, rfl⟩
abbrev main_v236 : Ref sig .tc := ⟨.hbm, 422, rfl⟩
abbrev main_v237 : Ref sig .tc := ⟨.hbm, 423, rfl⟩
abbrev main_v238 : Ref sig .tc := ⟨.hbm, 424, rfl⟩
abbrev main_v239 : Ref sig .tc := ⟨.hbm, 425, rfl⟩
abbrev main_v240 : Ref sig .tc := ⟨.hbm, 426, rfl⟩
abbrev main_v241 : Ref sig .tc := ⟨.hbm, 427, rfl⟩
abbrev main_v242 : Ref sig .tc := ⟨.hbm, 428, rfl⟩
abbrev main_v243 : Ref sig .tc := ⟨.hbm, 429, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.Pieces0.lean ====
/-
  What the first kernel of a layer leaves in its three output buffers at one grid point, as values.  At the first point
  the two running rows are reset to zero and then take in the block's column sums; at every later point they take them in
  on top of what the point before left.  The block of the linear map is stored whole at every point.
-/
import proofs.«148746_j9251359555639_1_alg».proof.Proof.Gen.KernelIdeal.Frame
import Idealize.ShloMosaic.Lib.Pipeline.Value
import Idealize.ShloMosaic.Lib.ValueIdx

set_option maxRecDepth 16384

noncomputable section

namespace Cert.KernelIdeal.Reg0

open Idealize.ShloMosaic Idealize.ShloMosaic.ValueIdx Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

section Pieces
variable (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole)
  (x0 : Vec F S2000x128 .f32) (x1 : Vec F S2000x128 .f32) (x2 : Vec F S128x256 .f32) (x3 : Vec F S1x256 .f32)

/-- First point: the block of the linear map. -/
theorem out_A_4 (hc0 : cond0_0 i) :
    out0_A_4 c i arg1 harg1 arg2 harg2 arg3 harg3 arg4 harg4 arg5 harg5 arg6 harg6 arg7 harg7 hc0 x0 x1 x2 x3 = k0_pay1 x0 x1 x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

/-- First point: the running column sums start from the zero row. -/
theorem out_A_5 (hc0 : cond0_0 i) :
    out0_A_5 c i arg1 harg1 arg2 harg2 arg3 harg3 arg4 harg4 arg5 harg5 arg6 harg6 arg7 harg7 hc0 x0 x1 x2 x3 = k0_pay4 x0 x1 x2 x3 k0_pay2 := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_cons_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]
  rw [View.readCov_unit_zero _ hz]

/-- First point: the running column sums of squares start from the zero row. -/
theorem out_A_6 (hc0 : cond0_0 i) :
    out0_A_6 c i arg1 harg1 arg2 harg2 arg3 harg3 arg4 harg4 arg5 harg5 arg6 harg6 arg7 harg7 hc0 x0 x1 x2 x3 = k0_pay5 x0 x1 x2 x3 k0_pay3 := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  rw [View.canon_cons_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]
  rw [View.readCov_unit_zero _ hz]

/-- A later point: the block of the linear map. -/
theorem out_B_4 (hc0 : ¬cond0_0 i) (xo5 xo6 : Vec F S1x256 .f32) :
    out0_B_4 c i arg1 harg1 arg2 harg2 arg3 harg3 arg4 harg4 arg5 harg5 arg6 harg6 arg7 harg7 hc0 x0 x1 x2 x3 xo5 xo6 = k0_pay1 x0 x1 x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

/-- A later point: the running column sums over what the point before left. -/
theorem out_B_5 (hc0 : ¬cond0_0 i) (xo5 xo6 : Vec F S1x256 .f32) :
    out0_B_5 c i arg1 harg1 arg2 harg2 arg3 harg3 arg4 harg4 arg5 harg5 arg6 harg6 arg7 harg7 hc0 x0 x1 x2 x3 xo5 xo6 = k0_pay4 x0 x1 x2 x3 xo5 := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

/-- A later point: the running column sums of squares over what the point before left. -/
theorem out_B_6 (hc0 : ¬cond0_0 i) (xo5 xo6 : Vec F S1x256 .f32) :
    out0_B_6 c i arg1 harg1 arg2 harg2 arg3 harg3 arg4 harg4 arg5 harg5 arg6 harg6 arg7 harg7 hc0 x0 x1 x2 x3 xo5 xo6 = k0_pay5 x0 x1 x2 x3 xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

end Pieces

end Cert.KernelIdeal.Reg0

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColSum.lean ====
/-
  A column's sum read at an index.

  A `vector.multi_reduction <add>` of a `[K, R]` array over its FIRST axis, read on the extended reals at column `p`, is
  the sum of the `K` entries `src (k, p)` of that column: the reduced index `(p)` with the coordinate `k` put back on the
  reduced axis is `(k, p)`. The companion of the sum over the last axis of an `[R, K]` array.
-/
import Idealize.ShloMosaic.PureOps.Ideal.Laws
import Idealize.ShloMosaic.Lib.ValueIdx

noncomputable section

namespace Cert.Lib

open Idealize.ShloMosaic Idealize.ShloMosaic.ValueIdx
open scoped BigOperators

variable {K R : ℕ}

/-- The reduced index `(p)` with coordinate `k` inserted on axis 0 is `(k, p)`. -/
theorem lift_firstAxis2 (h : (⟨2, ![K, R]⟩ : Shape).Reduces [0] (⟨1, ![R]⟩ : Shape)) (p : Fin R)
    (k : Fin ((⟨2, ![K, R]⟩ : Shape).size 0)) : h.lift (ix1 p) k = ix2 (⟨k.val, k.isLt⟩ : Fin K) p := by
  funext c; apply Fin.ext
  fin_cases c <;> rfl

/-- A float sum over the first axis of a `[K, R]` array, at column `p`: the sum over that column. -/
theorem multiReduction_add_cols {φ : FTy} (src : FVec Ideal ⟨2, ![K, R]⟩ φ) (acc : BitVec φ.bits)
    (h : (⟨2, ![K, R]⟩ : Shape).Reduces [0] (⟨1, ![R]⟩ : Shape)) (hφ : FKind.Formats φ)
    (hacc : acc = FKind.add.neutral φ hφ) (p : Fin R) :
    multiReduction .add [0] (⟨1, ![R]⟩ : Shape) src acc h hφ hacc (ix1 p) = ∑ k : Fin K, src (ix2 k p) := by
  refine (Ideal.multiReduction_add_single src acc h hφ hacc (ix1 p)).trans ?_
  exact Finset.sum_congr rfl fun k _ => congrArg src (lift_firstAxis2 h p k)

end Cert.Lib

end
-- ==== Proof.PayA.lean ====
/-
  The first kernel of a layer at an entry.  Its blocks are `[2000, 128]` rows of the node features `h` and of the
  neighbour sums `agg`; the weights `[128, 256]` and the bias row `[1, 256]` arrive whole.  The stored block at row
  `p`, column `q` is `∑ₖ (h + agg)(p, k) · W(k, q) + b(q)` (the change of float format before the product is the
  identity on the extended reals), and the two running rows take in this block's column sums and column sums of
  squares: `acc(q) + ∑ₚ lin(p, q)` and `acc(q) + ∑ₚ lin(p, q)²`.
-/
import proofs.«148746_j9251359555639_1_alg».proof.Proof.Gen.KernelIdeal.Skeleton
import proofs.«148746_j9251359555639_1_alg».proof.Proof.LibMatDot
import proofs.«148746_j9251359555639_1_alg».proof.Proof.LibColSum
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen
open scoped BigOperators

/-- The linear map at an entry: row `p` of `h + agg` against column `q` of `W`, plus the bias. -/
theorem k0_pay1_apply (v0 v1 : Vec Ideal S2000x128 .f32) (v5 : Vec Ideal S128x256 .f32) (v9 : Vec Ideal S1x256 .f32)
    (p : Fin 2000) (q : Fin 256) :
    k0_pay1 (F := Ideal) v0 v1 v5 v9 (ix2 p q)
      = (∑ k : Fin 128, (v0 (ix2 p k) + v1 (ix2 p k)) * v5 (ix2 k q)) + v9 (ix2 0 q) := by
  unfold k0_pay1
  simp only [shapeCast_self, addf_apply, broadcastTo_1b_ab_apply]
  congr 1
  exact (Cert.Lib.matmul_plain_zero_apply dot_S2000x128_S128x256_S2000x256_1_0_0_1_n_n_wf none _ _ p q).trans rfl

/-- The running column sums after this block. -/
theorem k0_pay4_apply (v0 v1 : Vec Ideal S2000x128 .f32) (v5 : Vec Ideal S128x256 .f32) (v9 v17 : Vec Ideal S1x256 .f32)
    (q : Fin 256) :
    k0_pay4 (F := Ideal) v0 v1 v5 v9 v17 (ix2 0 q)
      = v17 (ix2 0 q) + ∑ r : Fin 2000, k0_pay1 (F := Ideal) v0 v1 v5 v9 (ix2 r q) := by
  unfold k0_pay4
  simp only [shapeCast_self, addf_apply, shapeCast_a_1a_apply]
  congr 1
  exact Cert.Lib.multiReduction_add_cols (K := 2000) (R := 256) _ _ _ _ _ q

/-- The running column sums of squares after this block. -/
theorem k0_pay5_apply (v0 v1 : Vec Ideal S2000x128 .f32) (v5 : Vec Ideal S128x256 .f32) (v9 v23 : Vec Ideal S1x256 .f32)
    (q : Fin 256) :
    k0_pay5 (F := Ideal) v0 v1 v5 v9 v23 (ix2 0 q)
      = v23 (ix2 0 q) + ∑ r : Fin 2000, k0_pay1 (F := Ideal) v0 v1 v5 v9 (ix2 r q) * k0_pay1 (F := Ideal) v0 v1 v5 v9 (ix2 r q) := by
  unfold k0_pay5
  simp only [shapeCast_self, addf_apply, shapeCast_a_1a_apply]
  congr 1
  exact (Cert.Lib.multiReduction_add_cols (K := 2000) (R := 256) _ _ _ _ _ q).trans rfl

/-- The linear map at an entry: row `p` of `h + agg` against column `q` of `W`, plus the bias. -/
theorem k3_pay1_apply (v0 v1 : Vec Ideal S2000x128 .f32) (v5 : Vec Ideal S128x256 .f32) (v9 : Vec Ideal S1x256 .f32)
    (p : Fin 2000) (q : Fin 256) :
    k3_pay1 (F := Ideal) v0 v1 v5 v9 (ix2 p q)
      = (∑ k : Fin 128, (v0 (ix2 p k) + v1 (ix2 p k)) * v5 (ix2 k q)) + v9 (ix2 0 q) := by
  unfold k3_pay1
  simp only [shapeCast_self, addf_apply, broadcastTo_1b_ab_apply]
  congr 1
  exact (Cert.Lib.matmul_plain_zero_apply dot_S2000x128_S128x256_S2000x256_1_0_0_1_n_n_wf none _ _ p q).trans rfl

/-- The running column sums after this block. -/
theorem k3_pay4_apply (v0 v1 : Vec Ideal S2000x128 .f32) (v5 : Vec Ideal S128x256 .f32) (v9 v17 : Vec Ideal S1x256 .f32)
    (q : Fin 256) :
    k3_pay4 (F := Ideal) v0 v1 v5 v9 v17 (ix2 0 q)
      = v17 (ix2 0 q) + ∑ r : Fin 2000, k3_pay1 (F := Ideal) v0 v1 v5 v9 (ix2 r q) := by
  unfold k3_pay4
  simp only [shapeCast_self, addf_apply, shapeCast_a_1a_apply]
  congr 1
  exact Cert.Lib.multiReduction_add_cols (K := 2000) (R := 256) _ _ _ _ _ q

/-- The running column sums of squares after this block. -/
theorem k3_pay5_apply (v0 v1 : Vec Ideal S2000x128 .f32) (v5 : Vec Ideal S128x256 .f32) (v9 v23 : Vec Ideal S1x256 .f32)
    (q : Fin 256) :
    k3_pay5 (F := Ideal) v0 v1 v5 v9 v23 (ix2 0 q)
      = v23 (ix2 0 q) + ∑ r : Fin 2000, k3_pay1 (F := Ideal) v0 v1 v5 v9 (ix2 r q) * k3_pay1 (F := Ideal) v0 v1 v5 v9 (ix2 r q) := by
  unfold k3_pay5
  simp only [shapeCast_self, addf_apply, shapeCast_a_1a_apply]
  congr 1
  exact (Cert.Lib.multiReduction_add_cols (K := 2000) (R := 256) _ _ _ _ _ q).trans rfl

/-- The linear map at an entry: row `p` of `h + agg` against column `q` of `W`, plus the bias. -/
theorem k6_pay1_apply (v0 v1 : Vec Ideal S2000x128 .f32) (v5 : Vec Ideal S128x256 .f32) (v9 : Vec Ideal S1x256 .f32)
    (p : Fin 2000) (q : Fin 256) :
    k6_pay1 (F := Ideal) v0 v1 v5 v9 (ix2 p q)
      = (∑ k : Fin 128, (v0 (ix2 p k) + v1 (ix2 p k)) * v5 (ix2 k q)) + v9 (ix2 0 q) := by
  unfold k6_pay1
  simp only [shapeCast_self, addf_apply, broadcastTo_1b_ab_apply]
  congr 1
  exact (Cert.Lib.matmul_plain_zero_apply dot_S2000x128_S128x256_S2000x256_1_0_0_1_n_n_wf none _ _ p q).trans rfl

/-- The running column sums after this block. -/
theorem k6_pay4_apply (v0 v1 : Vec Ideal S2000x128 .f32) (v5 : Vec Ideal S128x256 .f32) (v9 v17 : Vec Ideal S1x256 .f32)
    (q : Fin 256) :
    k6_pay4 (F := Ideal) v0 v1 v5 v9 v17 (ix2 0 q)
      = v17 (ix2 0 q) + ∑ r : Fin 2000, k6_pay1 (F := Ideal) v0 v1 v5 v9 (ix2 r q) := by
  unfold k6_pay4
  simp only [shapeCast_self, addf_apply, shapeCast_a_1a_apply]
  congr 1
  exact Cert.Lib.multiReduction_add_cols (K := 2000) (R := 256) _ _ _ _ _ q

/-- The running column sums of squares after this block. -/
theorem k6_pay5_apply (v0 v1 : Vec Ideal S2000x128 .f32) (v5 : Vec Ideal S128x256 .f32) (v9 v23 : Vec Ideal S1x256 .f32)
    (q : Fin 256) :
    k6_pay5 (F := Ideal) v0 v1 v5 v9 v23 (ix2 0 q)
      = v23 (ix2 0 q) + ∑ r : Fin 2000, k6_pay1 (F := Ideal) v0 v1 v5 v9 (ix2 r q) * k6_pay1 (F := Ideal) v0 v1 v5 v9 (ix2 r q) := by
  unfold k6_pay5
  simp only [shapeCast_self, addf_apply, shapeCast_a_1a_apply]
  congr 1
  exact (Cert.Lib.multiReduction_add_cols (K := 2000) (R := 256) _ _ _ _ _ q).trans rfl

end Cert.KernelIdeal.Pay

end
-- ==== Proof.PayC.lean ====
/-
  The third kernel of a layer at an entry.  Its block is `[2000, 128]` rows of the second linear map's output; the
  column mean, the column variance, γ and β arrive as `[1, 128]` rows.  The stored value at row `p`, column `q` is
  `(z − μ_q) · rsqrt(v_q + ε) · γ_q + β_q`, and (in every layer but the last) the larger of that and zero.
-/
import proofs.«148746_j9251359555639_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The normalisation at one entry, in the printed operations: subtract the mean, multiply by the reciprocal square
    root of variance plus ε, by γ, add β. -/
def bnE (z μ v g b : EReal) : EReal := (z - μ) * Ideal.rsqrt (v + Ideal.ofBits .f32 0x3727C5AC#32) * g + b

theorem k2_pay1_apply (v0 : Vec Ideal S2000x128 .f32) (v2 v4 v6 v8 : Vec Ideal S1x128 .f32) (p : Fin 2000) (q : Fin 128) :
    k2_pay1 (F := Ideal) v0 v2 v4 v6 v8 (ix2 p q)
      = max (bnE (v0 (ix2 p q)) (v2 (ix2 0 q)) (v4 (ix2 0 q)) (v6 (ix2 0 q)) (v8 (ix2 0 q))) (Ideal.ofBits .f32 0x00000000#32) := by
  unfold k2_pay1 bnE
  simp only [shapeCast_self, maximumf_apply, addf_apply, mulf_apply, subf_apply, broadcastTo_1b_ab_apply]
  rfl

theorem k5_pay1_apply (v0 : Vec Ideal S2000x128 .f32) (v2 v4 v6 v8 : Vec Ideal S1x128 .f32) (p : Fin 2000) (q : Fin 128) :
    k5_pay1 (F := Ideal) v0 v2 v4 v6 v8 (ix2 p q)
      = max (bnE (v0 (ix2 p q)) (v2 (ix2 0 q)) (v4 (ix2 0 q)) (v6 (ix2 0 q)) (v8 (ix2 0 q))) (Ideal.ofBits .f32 0x00000000#32) := by
  unfold k5_pay1 bnE
  simp only [shapeCast_self, maximumf_apply, addf_apply, mulf_apply, subf_apply, broadcastTo_1b_ab_apply]
  rfl

/-- The last layer stores the normalised value itself. -/
theorem k8_pay1_apply (v0 : Vec Ideal S2000x128 .f32) (v2 v4 v6 v8 : Vec Ideal S1x128 .f32) (p : Fin 2000) (q : Fin 128) :
    k8_pay1 (F := Ideal) v0 v2 v4 v6 v8 (ix2 p q)
      = bnE (v0 (ix2 p q)) (v2 (ix2 0 q)) (v4 (ix2 0 q)) (v6 (ix2 0 q)) (v8 (ix2 0 q)) := by
  unfold k8_pay1 bnE
  simp only [shapeCast_self, addf_apply, mulf_apply, subf_apply, broadcastTo_1b_ab_apply]
  rfl

end Cert.KernelIdeal.Pay

end
-- ==== Proof.Consts.lean ====
/-
  The float words the two programs spell, as the extended reals they denote: zero, the node count 50000 (the divisor
  of every column mean and variance), and the small positive ε added under the square root.  One module states them
  all, so that the bit-level definitions are unfolded once.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `50000.0` denotes the real `50000`. -/
theorem ofBits_N : Ideal.ofBits .f32 0x47435000#32 = ((50000 : ℝ) : EReal) := by
  simp [Ideal.ofBits, Ideal.ieee, -EReal.coe_mul]; norm_num

/-- The ε of the normalisation, the float nearest `1e-5`, as a real. -/
def eps : ℝ := 10995116 / 1099511627776

theorem eps_pos : 0 < eps := by unfold eps; norm_num

/-- The word `0x3727C5AC` denotes `eps`. -/
theorem ofBits_eps : Ideal.ofBits .f32 0x3727C5AC#32 = ((eps : ℝ) : EReal) := by
  unfold eps
  simp [Ideal.ofBits, Ideal.ieee, -EReal.coe_mul]; norm_num

end Cert.Consts

end
-- ==== Proof.LibBatchNormForms.lean ====
/-
  Two spellings of batch normalisation over a finite set of rows, and that they agree.

  For a column `h : ι → ℝ` over `n = |ι|` rows, with mean `μ = (∑ h) / n`:
  * the mean of squares minus the square of the mean is the mean of the squared deviations,
    `(∑ h²) / n − μ² = (∑ (h − μ)²) / n`  (`Cert.Lib.meanSq_sub_sq_mean`);
  * hence "scale and shift" `h · (γ · r) + (β − μ · (γ · r))` with `r = (√(E[h²] − μ² + ε))⁻¹` is
    "centre, scale, shift" `(h − μ) · (√(E[(h − μ)²] + ε))⁻¹ · γ + β`  (`Cert.Lib.bn_real`).
  On the extended reals, with the printed operations (`Ideal.div` by the row count, `Ideal.rsqrt`), the same holds for a
  column whose entries are all real, real `γ`, `β`, and a positive real `ε`; and the common value is real
  (`Cert.Lib.bn_ereal`). Distributivity is what is used, so the entries must be real: at an infinite entry both sides are
  junk of different kinds.
-/
import Idealize.ShloMosaic.PureOps.Ideal
import Mathlib.Algebra.BigOperators.Ring.Finset
import Mathlib.Tactic.Ring
import Mathlib.Tactic.FieldSimp
import Mathlib.Tactic.Positivity

noncomputable section

namespace Cert.Lib

open Idealize.ShloMosaic
open scoped BigOperators

variable {ι : Type*} [Fintype ι]

/-- The mean of squares minus the squared mean is the mean squared deviation. -/
theorem meanSq_sub_sq_mean (h : ι → ℝ) (n : ℝ) (hn : n ≠ 0) (hcard : (Fintype.card ι : ℝ) = n) :
    (∑ p, h p * h p) / n - (∑ p, h p) / n * ((∑ p, h p) / n)
      = (∑ p, (h p - (∑ p, h p) / n) * (h p - (∑ p, h p) / n)) / n := by
  set μ : ℝ := (∑ p, h p) / n with hμ
  have hS : ∑ p, h p = n * μ := by rw [hμ]; field_simp
  have hdev : ∑ p, (h p - μ) * (h p - μ) = (∑ p, h p * h p) - 2 * μ * (∑ p, h p) + n * (μ * μ) := by
    have : ∀ p, (h p - μ) * (h p - μ) = h p * h p - 2 * μ * h p + μ * μ := fun p => by ring
    simp only [this, Finset.sum_add_distrib, Finset.sum_sub_distrib, ← Finset.mul_sum, Finset.sum_const, Finset.card_univ,
      nsmul_eq_mul, hcard]
    ring
  rw [hdev, hS]
  field_simp
  ring

/-- The mean squared deviation is not negative. -/
theorem meanDev_nonneg (h : ι → ℝ) (n : ℝ) (hn : 0 < n) :
    0 ≤ (∑ p, (h p - (∑ p, h p) / n) * (h p - (∑ p, h p) / n)) / n :=
  div_nonneg (Finset.sum_nonneg fun p _ => mul_self_nonneg _) hn.le

/-- Scale-and-shift is centre-scale-shift, over the reals. -/
theorem bn_real (h : ι → ℝ) (n : ℝ) (hn : n ≠ 0) (hcard : (Fintype.card ι : ℝ) = n) (γ β ε : ℝ) (p : ι) :
    h p * (γ * (Real.sqrt ((∑ p, h p * h p) / n - (∑ p, h p) / n * ((∑ p, h p) / n) + ε))⁻¹)
        + (β - (∑ p, h p) / n * (γ * (Real.sqrt ((∑ p, h p * h p) / n - (∑ p, h p) / n * ((∑ p, h p) / n) + ε))⁻¹))
      = (h p - (∑ p, h p) / n) * (Real.sqrt ((∑ p, (h p - (∑ p, h p) / n) * (h p - (∑ p, h p) / n)) / n + ε))⁻¹ * γ + β := by
  rw [meanSq_sub_sq_mean h n hn hcard]
  ring

/-- A finite sum of coerced reals is the coerced sum. -/
theorem coe_sum_univ (f : ι → ℝ) : ((∑ p, f p : ℝ) : EReal) = ∑ p, (f p : EReal) := by
  classical
  refine Finset.induction_on (Finset.univ : Finset ι) (by simp) ?_
  intro a s ha ih
  rw [Finset.sum_insert ha, Finset.sum_insert ha, EReal.coe_add, ih]

/-- The reciprocal square root of a positive real is the real one. -/
theorem rsqrt_coe_pos (v : ℝ) (hv : 0 < v) : Ideal.rsqrt (v : EReal) = (((Real.sqrt v)⁻¹ : ℝ) : EReal) := by
  rw [Ideal.rsqrt_coe, if_neg (not_lt.mpr hv.le), if_neg hv.ne']

/-- Division by a nonzero real of a real is the real quotient. -/
theorem div_coe_coe (a n : ℝ) (hn : n ≠ 0) : Ideal.div (a : EReal) (n : EReal) = ((a / n : ℝ) : EReal) := by
  rw [Ideal.div_coe hn, ← EReal.coe_mul]; congr 1; ring

/-- The two spellings on the extended reals, for a real column: both are the coerced real value. -/
theorem bn_ereal (h : ι → EReal) (hr : ι → ℝ) (hh : ∀ p, h p = (hr p : EReal)) (n : ℝ) (hn : 0 < n)
    (hcard : (Fintype.card ι : ℝ) = n) (γ β ε : ℝ) (hε : 0 < ε) (p : ι) :
    h p * ((γ : EReal) * Ideal.rsqrt (Ideal.div (∑ p, h p * h p) (n : EReal)
            - Ideal.div (∑ p, h p) (n : EReal) * Ideal.div (∑ p, h p) (n : EReal) + (ε : EReal)))
        + ((β : EReal) - Ideal.div (∑ p, h p) (n : EReal) * ((γ : EReal) * Ideal.rsqrt (Ideal.div (∑ p, h p * h p) (n : EReal)
            - Ideal.div (∑ p, h p) (n : EReal) * Ideal.div (∑ p, h p) (n : EReal) + (ε : EReal))))
      = (((hr p - (∑ p, hr p) / n) * (Real.sqrt ((∑ p, (hr p - (∑ p, hr p) / n) * (hr p - (∑ p, hr p) / n)) / n + ε))⁻¹ * γ + β : ℝ) : EReal)
    ∧ (h p - Ideal.div (0 + ∑ p, h p) (n : EReal))
          * Ideal.rsqrt (Ideal.div (0 + ∑ p, (h p - Ideal.div (0 + ∑ p, h p) (n : EReal)) * (h p - Ideal.div (0 + ∑ p, h p) (n : EReal))) (n : EReal) + (ε : EReal))
          * (γ : EReal) + (β : EReal)
      = (((hr p - (∑ p, hr p) / n) * (Real.sqrt ((∑ p, (hr p - (∑ p, hr p) / n) * (hr p - (∑ p, hr p) / n)) / n + ε))⁻¹ * γ + β : ℝ) : EReal) := by
  have hn' : n ≠ 0 := hn.ne'
  have hfun : h = fun p => (hr p : EReal) := funext hh
  subst hfun
  have hS : (∑ p, (hr p : EReal)) = ((∑ p, hr p : ℝ) : EReal) := (coe_sum_univ hr).symm
  have hQ : (∑ p, (hr p : EReal) * (hr p : EReal)) = ((∑ p, hr p * hr p : ℝ) : EReal) := by
    rw [coe_sum_univ]; exact Finset.sum_congr rfl fun p _ => (EReal.coe_mul _ _).symm
  constructor
  · rw [hS, hQ, div_coe_coe _ _ hn', div_coe_coe _ _ hn', ← EReal.coe_mul, ← EReal.coe_sub, ← EReal.coe_add,
      rsqrt_coe_pos _ (by
        rw [meanSq_sub_sq_mean hr n hn' hcard]
        exact add_pos_of_nonneg_of_pos (meanDev_nonneg hr n hn) hε),
      ← EReal.coe_mul, ← EReal.coe_mul, ← EReal.coe_mul, ← EReal.coe_sub, ← EReal.coe_add, bn_real hr n hn' hcard]
  · rw [zero_add, hS, div_coe_coe _ _ hn']
    have hD : (∑ p, ((hr p : EReal) - (((∑ p, hr p) / n : ℝ) : EReal)) * ((hr p : EReal) - (((∑ p, hr p) / n : ℝ) : EReal)))
        = ((∑ p, (hr p - (∑ p, hr p) / n) * (hr p - (∑ p, hr p) / n) : ℝ) : EReal) := by
      rw [coe_sum_univ]; exact Finset.sum_congr rfl fun p _ => by rw [← EReal.coe_sub, ← EReal.coe_mul]
    rw [zero_add, hD, div_coe_coe _ _ hn', ← EReal.coe_add,
      rsqrt_coe_pos _ (add_pos_of_nonneg_of_pos (meanDev_nonneg hr n hn) hε),
      ← EReal.coe_sub, ← EReal.coe_mul, ← EReal.coe_mul, ← EReal.coe_add]

end Cert.Lib

end
-- ==== Proof.Spec.lean ====
/-
  The network both programs compute, over the reals.

  A graph-isomorphism layer takes node features `h : N × D`, adds to every node the sum of its in-neighbours' rows
  (`agg`), applies a linear map to width `H`, normalises every column over the `N` nodes (training-mode batch
  normalisation: subtract the column mean, divide by the square root of the column variance plus ε, scale by γ, shift
  by β), applies `max(·, 0)`, applies a second linear map back to width `D`, and normalises again.

  The one place where the two programs differ is the column variance: one computes the mean of the squares minus the
  square of the mean (`varSq`), the other the mean of the squared deviations from the mean (`varDev`).  Over the reals
  these are equal (`varSq_eq_varDev`); the identity expands a square and moves a factor across a sum, so it is a fact
  about REAL entries: at an infinite entry the two sides are junk of different kinds.  Everything else — the order of a
  sum, the tiling of the rows into blocks — is commutativity and associativity of addition.
-/
import Mathlib.Algebra.BigOperators.Ring.Finset
import Idealize.ShloMosaic.PureOps.Ideal
import Mathlib.Tactic.Ring
import Mathlib.Tactic.FieldSimp

noncomputable section

namespace Cert.Spec

open scoped BigOperators

variable {N D H E : ℕ}

/-- A real matrix. -/
abbrev Mat (R C : ℕ) := Fin R → Fin C → ℝ

/-- The sum over the edges landing on node `p` of the source node's row. -/
def agg (land : Fin N → Finset (Fin E)) (src : Fin E → Fin N) (h : Mat N D) : Mat N D :=
  fun p k => ∑ e ∈ land p, h (src e) k

/-- Entrywise sum. -/
def addM (a b : Mat N D) : Mat N D := fun p k => a p k + b p k

/-- `z · W + b`, the bias one row. -/
def lin (z : Mat N D) (W : Mat D H) (b : Fin H → ℝ) : Mat N H := fun p q => (∑ k, z p k * W k q) + b q

/-- Column sums and column sums of squares. -/
def colSum (z : Mat N H) : Fin H → ℝ := fun q => ∑ p, z p q
def colSumSq (z : Mat N H) : Fin H → ℝ := fun q => ∑ p, z p q * z p q

/-- Column mean, for a row count `n`. -/
def mean (n : ℝ) (z : Mat N H) : Fin H → ℝ := fun q => colSum z q / n

/-- Column variance as mean of squares minus squared mean. -/
def varSq (n : ℝ) (z : Mat N H) : Fin H → ℝ := fun q => colSumSq z q / n - mean n z q * mean n z q

/-- Column variance as mean squared deviation. -/
def varDev (n : ℝ) (z : Mat N H) : Fin H → ℝ :=
  fun q => (∑ p, (z p q - mean n z q) * (z p q - mean n z q)) / n

/-- The two variances agree over the reals, when `n` is the number of rows. -/
theorem varSq_eq_varDev (n : ℝ) (hn : n ≠ 0) (hcard : (N : ℝ) = n) (z : Mat N H) : varSq n z = varDev n z := by
  funext q
  unfold varSq varDev mean colSum colSumSq
  set μ : ℝ := (∑ p, z p q) / n with hμ
  have hS : ∑ p, z p q = n * μ := by rw [hμ]; field_simp
  have hdev : ∑ p, (z p q - μ) * (z p q - μ) = (∑ p, z p q * z p q) - 2 * μ * (∑ p, z p q) + n * (μ * μ) := by
    have : ∀ p, (z p q - μ) * (z p q - μ) = z p q * z p q - 2 * μ * z p q + μ * μ := fun p => by ring
    simp only [this, Finset.sum_add_distrib, Finset.sum_sub_distrib, ← Finset.mul_sum, Finset.sum_const, Finset.card_univ,
      Fintype.card_fin, nsmul_eq_mul, hcard]
    ring
  rw [hdev, hS]
  field_simp
  ring

/-- The mean squared deviation is not negative. -/
theorem varDev_nonneg (n : ℝ) (hn : 0 < n) (z : Mat N H) (q : Fin H) : 0 ≤ varDev n z q :=
  div_nonneg (Finset.sum_nonneg fun p _ => mul_self_nonneg _) hn.le

/-- Normalise: `(z − μ) · (√(v + ε))⁻¹ · γ + β`, column by column. -/
def bn (μ v : Fin H → ℝ) (ε : ℝ) (g bt : Fin H → ℝ) (z : Mat N H) : Mat N H :=
  fun p q => (z p q - μ q) * (Real.sqrt (v q + ε))⁻¹ * g q + bt q

/-- `max(·, 0)`. -/
def relu (z : Mat N H) : Mat N H := fun p q => max (z p q) 0

/-- One normalisation with the variance as the kernel computes it, and as the reference computes it. -/
def bnSq (n ε : ℝ) (g bt : Fin H → ℝ) (z : Mat N H) : Mat N H := bn (mean n z) (varSq n z) ε g bt z
def bnDev (n ε : ℝ) (g bt : Fin H → ℝ) (z : Mat N H) : Mat N H := bn (mean n z) (varDev n z) ε g bt z

theorem bnSq_eq_bnDev (n : ℝ) (hn : n ≠ 0) (hcard : (N : ℝ) = n) (ε : ℝ) (g bt : Fin H → ℝ) (z : Mat N H) :
    bnSq n ε g bt z = bnDev n ε g bt z := by
  unfold bnSq bnDev; rw [varSq_eq_varDev n hn hcard]

/-- One layer: add the neighbour sums, first linear map, normalise, `max(·, 0)`, second linear map, normalise, and
    (all layers but the last) `max(·, 0)` again.  `norm1` / `norm2` are the two normalisations at the two widths. -/
def layerWith (norm1 : (Fin H → ℝ) → (Fin H → ℝ) → Mat N H → Mat N H) (norm2 : (Fin D → ℝ) → (Fin D → ℝ) → Mat N D → Mat N D)
    (last : Bool) (land : Fin N → Finset (Fin E)) (src : Fin E → Fin N)
    (W1 : Mat D H) (b1 g1 bt1 : Fin H → ℝ) (W2 : Mat H D) (b2 g2 bt2 : Fin D → ℝ) (h : Mat N D) : Mat N D :=
  let y := norm2 g2 bt2 (lin (relu (norm1 g1 bt1 (lin (addM h (agg land src h)) W1 b1))) W2 b2)
  if last then y else relu y

/-- The layer with the variance as mean of squares minus squared mean. -/
def layerSq (n ε : ℝ) (last : Bool) (land : Fin N → Finset (Fin E)) (src : Fin E → Fin N)
    (W1 : Mat D H) (b1 g1 bt1 : Fin H → ℝ) (W2 : Mat H D) (b2 g2 bt2 : Fin D → ℝ) (h : Mat N D) : Mat N D :=
  layerWith (bnSq n ε) (bnSq n ε) last land src W1 b1 g1 bt1 W2 b2 g2 bt2 h

/-- The layer with the variance as mean squared deviation. -/
def layerDev (n ε : ℝ) (last : Bool) (land : Fin N → Finset (Fin E)) (src : Fin E → Fin N)
    (W1 : Mat D H) (b1 g1 bt1 : Fin H → ℝ) (W2 : Mat H D) (b2 g2 bt2 : Fin D → ℝ) (h : Mat N D) : Mat N D :=
  layerWith (bnDev n ε) (bnDev n ε) last land src W1 b1 g1 bt1 W2 b2 g2 bt2 h

/-- The two layers are one function, when `n` is the number of rows. -/
theorem layerSq_eq_layerDev (n : ℝ) (hn : n ≠ 0) (hcard : (N : ℝ) = n) (ε : ℝ) (last : Bool)
    (land : Fin N → Finset (Fin E)) (src : Fin E → Fin N)
    (W1 : Mat D H) (b1 g1 bt1 : Fin H → ℝ) (W2 : Mat H D) (b2 g2 bt2 : Fin D → ℝ) (h : Mat N D) :
    layerSq n ε last land src W1 b1 g1 bt1 W2 b2 g2 bt2 h = layerDev n ε last land src W1 b1 g1 bt1 W2 b2 g2 bt2 h := by
  unfold layerSq layerDev layerWith
  have e1 : (bnSq n ε : (Fin H → ℝ) → (Fin H → ℝ) → Mat N H → Mat N H) = bnDev n ε := by
    funext g bt z; exact bnSq_eq_bnDev n hn hcard ε g bt z
  have e2 : (bnSq n ε : (Fin D → ℝ) → (Fin D → ℝ) → Mat N D → Mat N D) = bnDev n ε := by
    funext g bt z; exact bnSq_eq_bnDev n hn hcard ε g bt z
  rw [e1, e2]

end Cert.Spec

end
-- ==== Proof.RealOps.lean ====
/-
  The printed operations at real entries.  For real `z, μ, v, γ, β` with `v + ε > 0` the normalisation computed on the
  extended reals is the real one, coerced; `max(·, 0)`, a row-by-column sum and a column sum of coerced reals are the
  coerced real ones.  These are the only places where the extended reals' arithmetic is opened: every entry that
  reaches them is a real.
-/
import proofs.«148746_j9251359555639_1_alg».proof.Proof.PayC
import proofs.«148746_j9251359555639_1_alg».proof.Proof.Consts
import proofs.«148746_j9251359555639_1_alg».proof.Proof.LibBatchNormForms
import proofs.«148746_j9251359555639_1_alg».proof.Proof.Spec

noncomputable section

namespace Cert.RealOps

open Idealize.ShloMosaic Cert.KernelIdeal.Pay
open scoped BigOperators

/-- The normalisation at real entries. -/
theorem bnE_coe (z μ v g b : ℝ) (h : 0 < v + Cert.Consts.eps) :
    bnE (z : EReal) (μ : EReal) (v : EReal) (g : EReal) (b : EReal)
      = (((z - μ) * (Real.sqrt (v + Cert.Consts.eps))⁻¹ * g + b : ℝ) : EReal) := by
  unfold bnE
  rw [Cert.Consts.ofBits_eps, ← EReal.coe_add, Cert.Lib.rsqrt_coe_pos _ h, ← EReal.coe_sub, ← EReal.coe_mul, ← EReal.coe_mul,
    ← EReal.coe_add]

/-- `max` against the zero word at a real entry. -/
theorem max_zero_coe (a : ℝ) : max (a : EReal) (Ideal.ofBits .f32 0x00000000#32) = ((max a 0 : ℝ) : EReal) := by
  rw [Cert.Consts.ofBits_zero, ← EReal.coe_zero]
  exact (EReal.coe_strictMono.monotone.map_max).symm

/-- A finite sum of products of coerced reals. -/
theorem dot_coe {K : ℕ} (a b : Fin K → ℝ) : (∑ k, (a k : EReal) * (b k : EReal)) = ((∑ k, a k * b k : ℝ) : EReal) := by
  rw [Cert.Lib.coe_sum_univ]; exact Finset.sum_congr rfl fun k _ => (EReal.coe_mul _ _).symm

/-- A finite sum of coerced reals. -/
theorem sum_coe {K : ℕ} (a : Fin K → ℝ) : (∑ k, (a k : EReal)) = ((∑ k, a k : ℝ) : EReal) :=
  (Cert.Lib.coe_sum_univ a).symm

/-- A sum of coerced reals over any finite set. -/
theorem finset_sum_coe {ι : Type*} (s : Finset ι) (a : ι → ℝ) : (∑ i ∈ s, (a i : EReal)) = ((∑ i ∈ s, a i : ℝ) : EReal) := by
  classical
  refine Finset.induction_on s (by simp) ?_
  intro i s hi ih
  rw [Finset.sum_insert hi, Finset.sum_insert hi, ih, EReal.coe_add]

/-- The zero word in front of a real. -/
theorem zero_add_coe (a : ℝ) : Ideal.ofBits .f32 0x00000000#32 + (a : EReal) = (a : EReal) := by
  rw [Cert.Consts.ofBits_zero, zero_add]

end Cert.RealOps

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.LibGridSum.lean ====
/-
  Column sums taken block by block.  A grid of `m` points, each reading `n` consecutive rows, visits the `m · n` rows
  once each: row `r` of point `s` is row `s · n + r`.  So the sum over the points of each point's block sum is the sum
  over all rows.  Only commutativity and associativity of `+` are used.
-/
import proofs.«148746_j9251359555639_1_alg».proof.Proof.LibBlockSum
import Mathlib.Algebra.BigOperators.Fin
import Mathlib.Tactic.Ring

namespace Cert.Lib

open Finset

/-- Row `r` of point `s` is a row of the array. -/
theorem gridRow_lt {m n N : ℕ} (hN : m * n = N) {s : ℕ} (h : s < m) (r : Fin n) : s * n + r.val < N := by
  have h1 : s * n + r.val < (s + 1) * n := by rw [Nat.succ_mul]; exact Nat.add_lt_add_left r.isLt _
  exact lt_of_lt_of_le h1 (hN ▸ Nat.mul_le_mul_right n h)

/-- The points' block sums add up to the sum over all rows. -/
theorem sum_grid_blocks {M : Type*} [AddCommMonoid M] (m n N : ℕ) (hN : m * n = N) (f : Fin N → M) :
    ∑ s ∈ range m, (if h : s < m then ∑ r : Fin n, f ⟨s * n + r.val, gridRow_lt hN h r⟩ else 0) = ∑ p, f p := by
  subst hN
  rw [Finset.sum_range fun s => if h : s < m then ∑ r : Fin n, f ⟨s * n + r.val, gridRow_lt rfl h r⟩ else 0]
  rw [sum_blocks m n f]
  refine sum_congr rfl fun d _ => ?_
  rw [dif_pos d.isLt]
  refine sum_congr rfl fun j _ => congrArg f (Fin.ext ?_)
  show d.val * n + j.val = j.val + n * d.val
  ring

end Cert.Lib
-- ==== Proof.Region0.lean ====
/-
  The first kernel of a layer as whole arrays.  The grid has 25 points; point `t` reads rows `2000·t … 2000·t + 1999` of
  the node features and of the neighbour sums, the weights and the bias row whole, and writes back the same rows of
  `lin = (h + agg)·W + b`.  The two `[1, 256]` outputs are running rows: reset at the first point, each point adds its
  block's column sums (of `lin`, of `lin²`), and the last point writes them back.  Since the 25 blocks of 2000 rows are
  the 50000 rows once each, the rows end at the column sums of `lin` and of `lin²` over all nodes.  For real inputs
  every entry is a real.
-/
import proofs.«148746_j9251359555639_1_alg».proof.Proof.Gen.KernelIdeal.Frame
import proofs.«148746_j9251359555639_1_alg».proof.Proof.Pieces0
import proofs.«148746_j9251359555639_1_alg».proof.Proof.PayA
import proofs.«148746_j9251359555639_1_alg».proof.Proof.RealOps
import proofs.«148746_j9251359555639_1_alg».proof.Proof.Spec
import proofs.«148746_j9251359555639_1_alg».proof.Proof.LibGridSum
import Idealize.ShloMosaic.Lib.Pipeline.Value

set_option maxRecDepth 16384

noncomputable section

namespace Cert.KernelIdeal.Reg0

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The printed index maps over the grid: the row blocks move with the point, everything else stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem N_eq : cfg0.N = 25 := N_0

theorem iblk_0 (c : Dev nD) (t : Fin cfg0.N) (y0 : Fin 2000) (k : Fin 128) (hr : t.val * 2000 + y0.val < 50000) :
    iblk0 V c 0 t (ix2 y0 k) = V c main_arg0 (ix2 (⟨t.val * 2000 + y0.val, hr⟩ : Fin 50000) k) := by
  show V c main_arg0 (((cfg0.win 0).blk t).view.emb (ix2 y0 k)) = _
  refine congrArg (V c main_arg0) ?_
  obtain ⟨e0, e1, -⟩ := idx_facts t
  funext a; apply Fin.ext
  match a with
  | ⟨0, _⟩ => show win0_0.index t (0 : Fin 2) * 2000 + 1 * y0.val = t.val * 2000 + y0.val; omega
  | ⟨1, _⟩ => show win0_0.index t (1 : Fin 2) * 128 + 1 * k.val = k.val; omega

theorem iblk_1 (c : Dev nD) (t : Fin cfg0.N) (y0 : Fin 2000) (k : Fin 128) (hr : t.val * 2000 + y0.val < 50000) :
    iblk0 V c 1 t (ix2 y0 k) = V c main_v13 (ix2 (⟨t.val * 2000 + y0.val, hr⟩ : Fin 50000) k) := by
  show V c main_v13 (((cfg0.win 1).blk t).view.emb (ix2 y0 k)) = _
  refine congrArg (V c main_v13) ?_
  obtain ⟨-, -, e0, e1, -⟩ := idx_facts t
  funext a; apply Fin.ext
  match a with
  | ⟨0, _⟩ => show win0_1.index t (0 : Fin 2) * 2000 + 1 * y0.val = t.val * 2000 + y0.val; omega
  | ⟨1, _⟩ => show win0_1.index t (1 : Fin 2) * 128 + 1 * k.val = k.val; omega

theorem iblk_2 (c : Dev nD) (t : Fin cfg0.N) (k : Fin 128) (q : Fin 256) :
    iblk0 V c 2 t (ix2 k q) = V c main_v15 (ix2 k q) := by
  show V c main_v15 (((cfg0.win 2).blk t).view.emb (ix2 k q)) = _
  refine congrArg (V c main_v15) ?_
  obtain ⟨-, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 256 + 1 * q.val = q.val; omega

theorem iblk_3 (c : Dev nD) (t : Fin cfg0.N) (q : Fin 256) :
    iblk0 V c 3 t (ix2 (0 : Fin 1) q) = V c main_v18 (ix2 (0 : Fin 1) q) := by
  show V c main_v18 (((cfg0.win 3).blk t).view.emb (ix2 (0 : Fin 1) q)) = _
  refine congrArg (V c main_v18) ?_
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 256 + 1 * q.val = q.val; omega

/-- The block of the linear map that point `t` computes. -/
def blk (c : Dev nD) (t : Fin cfg0.N) : Vec Ideal S2000x256 .f32 :=
  k0_pay1 (F := Ideal) (iblk0 V c 0 t) (iblk0 V c 1 t) (iblk0 V c 2 t) (iblk0 V c 3 t)

/-- Point `s`'s column sums of its block and of its block's squares (zero past the grid). -/
def colB (c : Dev nD) (s : ℕ) (q : Fin 256) : EReal :=
  if h : s < cfg0.N then ∑ r : Fin 2000, blk V c ⟨s, h⟩ (ix2 r q) else 0
def colQ (c : Dev nD) (s : ℕ) (q : Fin 256) : EReal :=
  if h : s < cfg0.N then ∑ r : Fin 2000, blk V c ⟨s, h⟩ (ix2 r q) * blk V c ⟨s, h⟩ (ix2 r q) else 0

/-- After every point the first output's buffer holds that point's block. -/
theorem outs_lin (c : Dev nD) (t : Fin cfg0.N) : (outsAt0 V c t.val t.isLt).1 = blk V c t := by
  by_cases h0 : t.val % 25 = 0
  · rw [outsAt0_A V c t h0]
    dsimp only
    exact out_A_4 (F := Ideal) _ _ _ _ _ _ _ _ _ _ _ _ _ _ _ _ _ _ _ _ _
  · rw [outsAt0_B V c t h0]
    dsimp only
    exact out_B_4 (F := Ideal) _ _ _ _ _ _ _ _ _ _ _ _ _ _ _ _ _ _ _ _ _ _ _

/-- After point `n` the running row of column sums holds zero plus the first `n + 1` points' column sums. -/
theorem outs_sum (c : Dev nD) : ∀ (n : ℕ) (hn : n < cfg0.N) (q : Fin 256),
    (outsAt0 V c n hn).2.1 (ix2 (0 : Fin 1) q)
      = Ideal.ofBits .f32 0x00000000#32 + ∑ s ∈ Finset.range (n + 1), colB V c s q
  | 0, hn, q => by
    have e := outsAt0_A V c ⟨0, hn⟩ (Nat.zero_mod _)
    rw [show outsAt0 V c 0 hn = _ from e]
    dsimp only
    rw [out_A_5, Pay.k0_pay4_apply, Finset.sum_range_one]
    refine congrArg₂ (· + ·) (by rfl) ?_
    unfold colB
    rw [dif_pos hn]
    rfl
  | n + 1, hn, q => by
    have hN : n + 1 < 25 := lt_of_lt_of_eq hn N_eq
    have h0 : ¬(n + 1) % 25 = 0 := by omega
    have e := outsAt0_B V c ⟨n + 1, hn⟩ h0
    have ih := outs_sum c n (Nat.lt_of_succ_lt hn) q
    rw [show outsAt0 V c (n + 1) hn = _ from e]
    dsimp only
    rw [out_B_5, Pay.k0_pay4_apply, Finset.sum_range_succ _ (n + 1), ← add_assoc]
    refine congrArg₂ (· + ·) ih ?_
    unfold colB
    rw [dif_pos hn]
    rfl

/-- After point `n` the running row of column sums of squares holds zero plus the first `n + 1` points' sums. -/
theorem outs_sumsq (c : Dev nD) : ∀ (n : ℕ) (hn : n < cfg0.N) (q : Fin 256),
    (outsAt0 V c n hn).2.2 (ix2 (0 : Fin 1) q)
      = Ideal.ofBits .f32 0x00000000#32 + ∑ s ∈ Finset.range (n + 1), colQ V c s q
  | 0, hn, q => by
    have e := outsAt0_A V c ⟨0, hn⟩ (Nat.zero_mod _)
    rw [show outsAt0 V c 0 hn = _ from e]
    dsimp only
    rw [out_A_6, Pay.k0_pay5_apply, Finset.sum_range_one]
    refine congrArg₂ (· + ·) (by rfl) ?_
    unfold colQ
    rw [dif_pos hn]
    rfl
  | n + 1, hn, q => by
    have hN : n + 1 < 25 := lt_of_lt_of_eq hn N_eq
    have h0 : ¬(n + 1) % 25 = 0 := by omega
    have e := outsAt0_B V c ⟨n + 1, hn⟩ h0
    have ih := outs_sumsq c n (Nat.lt_of_succ_lt hn) q
    rw [show outsAt0 V c (n + 1) hn = _ from e]
    dsimp only
    rw [out_B_6, Pay.k0_pay5_apply, Finset.sum_range_succ _ (n + 1), ← add_assoc]
    refine congrArg₂ (· + ·) ih ?_
    unfold colQ
    rw [dif_pos hn]
    rfl

/-! ## Which indices a point's blocks cover -/

/-- An index of the first output lies in point `t`'s block iff its row is among the block's 2000 rows. -/
theorem mem_blk_4 (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v19_0).slice (win0_4.rect t)).set ↔ _
  rw [View.set_slice_whole, Rect.mem_set_unit]
  exact Iff.rfl

/-- An index of the `[1, 256]` output 5 lies in every point's block: the block is the whole row. -/
theorem mem_blk_5 (t : Fin cfg0.N) (i : S1x256.Idx) :
    i ∈ ((cfg0.win 5).blk t).view.set ↔ ∀ a : Fin 2, win0_5.index t a * S1x256.size a ≤ (i a).val
      ∧ (i a).val < win0_5.index t a * S1x256.size a + S1x256.size a := by
  show i ∈ ((View.whole main_v19_1).slice (win0_5.rect t)).set ↔ _
  rw [View.set_slice_whole, Rect.mem_set_unit]
  exact Iff.rfl

/-- An index of the `[1, 256]` output 6 lies in every point's block: the block is the whole row. -/
theorem mem_blk_6 (t : Fin cfg0.N) (i : S1x256.Idx) :
    i ∈ ((cfg0.win 6).blk t).view.set ↔ ∀ a : Fin 2, win0_6.index t a * S1x256.size a ≤ (i a).val
      ∧ (i a).val < win0_6.index t a * S1x256.size a + S1x256.size a := by
  show i ∈ ((View.whole main_v19_2).slice (win0_6.rect t)).set ↔ _
  rw [View.set_slice_whole, Rect.mem_set_unit]
  exact Iff.rfl

/-! ## Real inputs -/

section Real

variable (c : Dev nD) (h a : Cert.Spec.Mat 50000 128) (W : Cert.Spec.Mat 128 256) (b : Fin 256 → ℝ)

/-- The linear map of the layer over the reals. -/
abbrev L : Cert.Spec.Mat 50000 256 := Cert.Spec.lin (Cert.Spec.addM h a) W b

variable (hh : ∀ p k, V c main_arg0 (ix2 p k) = ((h p k : ℝ) : EReal))
  (ha : ∀ p k, V c main_v13 (ix2 p k) = ((a p k : ℝ) : EReal))
  (hW : ∀ k q, V c main_v15 (ix2 k q) = ((W k q : ℝ) : EReal))
  (hb : ∀ q, V c main_v18 (ix2 (0 : Fin 1) q) = ((b q : ℝ) : EReal))
include hh ha hW hb

/-- Point `t`'s block at real inputs: rows `2000·t …` of the real linear map. -/
theorem blk_real (t : Fin cfg0.N) (y0 : Fin 2000) (q : Fin 256) (hr : t.val * 2000 + y0.val < 50000) :
    blk V c t (ix2 y0 q) = ((L h a W b ⟨t.val * 2000 + y0.val, hr⟩ q : ℝ) : EReal) := by
  unfold blk
  rw [Pay.k0_pay1_apply, iblk_3, hb]
  simp only [iblk_0 V c t y0 _ hr, iblk_1 V c t y0 _ hr, iblk_2, hh, ha, hW, ← EReal.coe_add]
  rw [Cert.RealOps.dot_coe (fun k => h ⟨t.val * 2000 + y0.val, hr⟩ k + a ⟨t.val * 2000 + y0.val, hr⟩ k) (fun k => W k q),
    ← EReal.coe_add]
  rfl

/-- THE FIRST OUTPUT after the run, entry by entry, for real inputs: the real linear map. -/
theorem value_4 (p : Fin 50000) (q : Fin 256) :
    (dat0 V c).arrAt 4 cfg0.N (ix2 p q) = ((L h a W b p q : ℝ) : EReal) := by
  refine (dat0 V c).arrAt_forall_of_cover 4
    (fun i x => ∀ (p : Fin 50000) (q : Fin 256), i = ix2 p q → x = ((L h a W b p q : ℝ) : EReal)) ?_ ?_ (ix2 p q) p q rfl
  · intro t _ y p q hi
    obtain ⟨y0, y1, rfl⟩ : ∃ (y0 : Fin 2000) (y1 : Fin 256), y = ix2 y0 y1 := ⟨y 0, y 1, eq_ix2 y⟩
    have ht : t.val < 25 := lt_of_lt_of_eq t.isLt N_eq
    have hr : t.val * 2000 + y0.val < 50000 := by have := y0.isLt; omega
    obtain ⟨-, -, -, -, -, -, -, -, e0, e1, -⟩ := idx_facts t
    have hp : p = (⟨t.val * 2000 + y0.val, hr⟩ : Fin 50000) := by
      apply Fin.ext
      have h0 := congrArg (fun j : S50000x256.Idx => (j 0).val) hi
      have : win0_4.index t (0 : Fin 2) * 2000 + 1 * y0.val = p.val := h0
      show p.val = t.val * 2000 + y0.val
      omega
    have hk : q = y1 := by
      apply Fin.ext
      have h1 := congrArg (fun j : S50000x256.Idx => (j 1).val) hi
      have : win0_4.index t (1 : Fin 2) * 256 + 1 * y1.val = q.val := h1
      show q.val = y1.val
      omega
    subst hp hk
    show (cfg0.win 4).cut (grid0.coords t) ((dat0 V c).after 4 t) (ix2 y0 q) = _
    rw [after0_4, outs_lin]
    show blk V c t (ix2 y0 q) = _
    rw [blk_real V c h a W b hh ha hW hb t y0 q hr]
  · intro i
    have hi0 : (i 0).val < 50000 := idx2_lt0 i
    have hi1 : (i 1).val < 256 := idx2_lt1 i
    refine ⟨⟨(i 0).val / 2000, by rw [N_eq]; omega⟩, flush0_4 _, ?_⟩
    rw [mem_blk_4]
    obtain ⟨-, -, -, -, -, -, -, -, e0, e1, -⟩ := idx_facts ⟨(i 0).val / 2000, by rw [N_eq]; omega⟩
    intro a
    match a with
    | ⟨0, _⟩ =>
      show win0_4.index _ (0 : Fin 2) * 2000 ≤ (i 0).val ∧ (i 0).val < win0_4.index _ (0 : Fin 2) * 2000 + 2000
      rw [e0]; show (i 0).val / 2000 * 2000 ≤ (i 0).val ∧ (i 0).val < (i 0).val / 2000 * 2000 + 2000; omega
    | ⟨1, _⟩ =>
      show win0_4.index _ (1 : Fin 2) * 256 ≤ (i 1).val ∧ (i 1).val < win0_4.index _ (1 : Fin 2) * 256 + 256
      rw [e1]; omega

/-- THE RUNNING ROW 5 after the run, entry by entry, for real inputs. -/
theorem value_5 (q : Fin 256) :
    (dat0 V c).arrAt 5 cfg0.N (ix2 (0 : Fin 1) q) = ((Cert.Spec.colSum (L h a W b) q : ℝ) : EReal) := by
  refine (dat0 V c).arrAt_forall_of_cover 5
    (fun i x => ∀ (q : Fin 256), i = ix2 (0 : Fin 1) q → x = ((Cert.Spec.colSum (L h a W b) q : ℝ) : EReal)) ?_ ?_
    (ix2 (0 : Fin 1) q) q rfl
  · intro t hf y q hi
    obtain ⟨y0, y1, rfl⟩ : ∃ (y0 : Fin 1) (y1 : Fin 256), y = ix2 y0 y1 := ⟨y 0, y 1, eq_ix2 y⟩
    have ht : t.val < 25 := lt_of_lt_of_eq t.isLt N_eq
    have ht24 : t.val = 24 := by have := (flush0_5 t).mp hf; omega
    obtain ⟨-, -, -, -, -, -, -, -, -, -, e50, e51, e60, e61⟩ := idx_facts t
    have hy0 : y0 = 0 := Subsingleton.elim _ _
    have hk : q = y1 := by
      apply Fin.ext
      have h1 := congrArg (fun j : S1x256.Idx => (j 1).val) hi
      have : win0_5.index t (1 : Fin 2) * 256 + 1 * y1.val = q.val := h1
      show q.val = y1.val
      omega
    subst hy0 hk
    show (cfg0.win 5).cut (grid0.coords t) ((dat0 V c).after 5 t) (ix2 (0 : Fin 1) q) = _
    rw [after0_5]
    show (outsAt0 V c t.val t.isLt).2.1 (ix2 (0 : Fin 1) q) = _
    rw [outs_sum V c t.val t.isLt q]
    have hcol : ∀ s, colB V c s q
        = ((if hs : s < 25 then ∑ r : Fin 2000, L h a W b ⟨s * 2000 + r.val, Cert.Lib.gridRow_lt (m := 25) (n := 2000) rfl hs r⟩ q else 0 : ℝ) : EReal) := by
      intro s
      unfold colB
      by_cases hs : s < 25
      · rw [dif_pos (lt_of_lt_of_eq hs N_eq.symm), dif_pos hs, ← Cert.RealOps.sum_coe]
        refine Finset.sum_congr rfl fun r _ => ?_
        rw [blk_real V c h a W b hh ha hW hb ⟨s, lt_of_lt_of_eq hs N_eq.symm⟩ r q (Cert.Lib.gridRow_lt (m := 25) (n := 2000) rfl hs r)]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L h a W b p q
  · intro i
    have hi0 : (i 0).val < 1 := idx2_lt0 i
    have hi1 : (i 1).val < 256 := idx2_lt1 i
    refine ⟨⟨24, by rw [N_eq]; omega⟩, (flush0_5 _).mpr (by rfl), ?_⟩
    rw [mem_blk_5]
    obtain ⟨-, -, -, -, -, -, -, -, -, -, e50, e51, e60, e61⟩ := idx_facts ⟨24, by rw [N_eq]; omega⟩
    intro a
    match a with
    | ⟨0, _⟩ =>
      show win0_5.index _ (0 : Fin 2) * 1 ≤ (i 0).val ∧ (i 0).val < win0_5.index _ (0 : Fin 2) * 1 + 1
      omega
    | ⟨1, _⟩ =>
      show win0_5.index _ (1 : Fin 2) * 256 ≤ (i 1).val ∧ (i 1).val < win0_5.index _ (1 : Fin 2) * 256 + 256
      omega

/-- THE RUNNING ROW 6 after the run, entry by entry, for real inputs. -/
theorem value_6 (q : Fin 256) :
    (dat0 V c).arrAt 6 cfg0.N (ix2 (0 : Fin 1) q) = ((Cert.Spec.colSumSq (L h a W b) q : ℝ) : EReal) := by
  refine (dat0 V c).arrAt_forall_of_cover 6
    (fun i x => ∀ (q : Fin 256), i = ix2 (0 : Fin 1) q → x = ((Cert.Spec.colSumSq (L h a W b) q : ℝ) : EReal)) ?_ ?_
    (ix2 (0 : Fin 1) q) q rfl
  · intro t hf y q hi
    obtain ⟨y0, y1, rfl⟩ : ∃ (y0 : Fin 1) (y1 : Fin 256), y = ix2 y0 y1 := ⟨y 0, y 1, eq_ix2 y⟩
    have ht : t.val < 25 := lt_of_lt_of_eq t.isLt N_eq
    have ht24 : t.val = 24 := by have := (flush0_6 t).mp hf; omega
    obtain ⟨-, -, -, -, -, -, -, -, -, -, e50, e51, e60, e61⟩ := idx_facts t
    have hy0 : y0 = 0 := Subsingleton.elim _ _
    have hk : q = y1 := by
      apply Fin.ext
      have h1 := congrArg (fun j : S1x256.Idx => (j 1).val) hi
      have : win0_6.index t (1 : Fin 2) * 256 + 1 * y1.val = q.val := h1
      show q.val = y1.val
      omega
    subst hy0 hk
    show (cfg0.win 6).cut (grid0.coords t) ((dat0 V c).after 6 t) (ix2 (0 : Fin 1) q) = _
    rw [after0_6]
    show (outsAt0 V c t.val t.isLt).2.2 (ix2 (0 : Fin 1) q) = _
    rw [outs_sumsq V c t.val t.isLt q]
    have hcol : ∀ s, colQ V c s q
        = ((if hs : s < 25 then ∑ r : Fin 2000, L h a W b ⟨s * 2000 + r.val, Cert.Lib.gridRow_lt (m := 25) (n := 2000) rfl hs r⟩ q * L h a W b ⟨s * 2000 + r.val, Cert.Lib.gridRow_lt (m := 25) (n := 2000) rfl hs r⟩ q else 0 : ℝ) : EReal) := by
      intro s
      unfold colQ
      by_cases hs : s < 25
      · rw [dif_pos (lt_of_lt_of_eq hs N_eq.symm), dif_pos hs, ← Cert.RealOps.sum_coe]
        refine Finset.sum_congr rfl fun r _ => ?_
        rw [blk_real V c h a W b hh ha hW hb ⟨s, lt_of_lt_of_eq hs N_eq.symm⟩ r q (Cert.Lib.gridRow_lt (m := 25) (n := 2000) rfl hs r), ← EReal.coe_mul]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L h a W b p q * L h a W b p q
  · intro i
    have hi0 : (i 0).val < 1 := idx2_lt0 i
    have hi1 : (i 1).val < 256 := idx2_lt1 i
    refine ⟨⟨24, by rw [N_eq]; omega⟩, (flush0_6 _).mpr (by rfl), ?_⟩
    rw [mem_blk_6]
    obtain ⟨-, -, -, -, -, -, -, -, -, -, e50, e51, e60, e61⟩ := idx_facts ⟨24, by rw [N_eq]; omega⟩
    intro a
    match a with
    | ⟨0, _⟩ =>
      show win0_6.index _ (0 : Fin 2) * 1 ≤ (i 0).val ∧ (i 0).val < win0_6.index _ (0 : Fin 2) * 1 + 1
      omega
    | ⟨1, _⟩ =>
      show win0_6.index _ (1 : Fin 2) * 256 ≤ (i 1).val ∧ (i 1).val < win0_6.index _ (1 : Fin 2) * 256 + 256
      omega

end Real

end Cert.KernelIdeal.Reg0

end
-- ==== Proof.Pieces1.lean ====
/-
  What the second kernel of a layer leaves in its three output buffers at one grid point, as values.  The block of the
  second linear map is stored whole at every point.  At the first point the two running rows are reset to zero and then
  take in that block's column sums and column sums of squares; at every later point they take them in on top of what
  the point before left.
-/
import proofs.«148746_j9251359555639_1_alg».proof.Proof.Gen.KernelIdeal.Frame
import Idealize.ShloMosaic.Lib.Pipeline.Value
import Idealize.ShloMosaic.Lib.ValueIdx

set_option maxRecDepth 16384

noncomputable section

namespace Cert.KernelIdeal.Reg1

open Idealize.ShloMosaic Idealize.ShloMosaic.ValueIdx Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

section Pieces
variable (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole)
  (x0 : Vec F S2000x256 .f32) (x1 : Vec F S1x256 .f32) (x2 : Vec F S1x256 .f32) (x3 : Vec F S1x256 .f32) (x4 : Vec F S1x256 .f32)
  (x5 : Vec F S256x128 .f32) (x6 : Vec F S1x128 .f32)

/-- First point: the block of the second linear map. -/
theorem out_A_7 (hc0 : cond1_0 i) :
    out1_A_7 c i arg1 harg1 arg2 harg2 arg3 harg3 arg4 harg4 arg5 harg5 arg6 harg6 arg7 harg7 arg8 harg8 arg9 harg9 arg10 harg10 hc0 x0 x1 x2 x3 x4 x5 x6 = k1_pay3 x0 x1 x2 x3 x4 x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

/-- First point: the running column sums start from the zero row. -/
theorem out_A_8 (hc0 : cond1_0 i) :
    out1_A_8 c i arg1 harg1 arg2 harg2 arg3 harg3 arg4 harg4 arg5 harg5 arg6 harg6 arg7 harg7 arg8 harg8 arg9 harg9 arg10 harg10 hc0 x0 x1 x2 x3 x4 x5 x6 = k1_pay1 (k1_pay3 x0 x1 x2 x3 x4 x5 x6) k1_pay4 := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  sl_unfold_words
  rw [View.canon_cons_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]
  rw [View.readCov_unit_zero _ hz]

/-- First point: the running column sums of squares start from the zero row. -/
theorem out_A_9 (hc0 : cond1_0 i) :
    out1_A_9 c i arg1 harg1 arg2 harg2 arg3 harg3 arg4 harg4 arg5 harg5 arg6 harg6 arg7 harg7 arg8 harg8 arg9 harg9 arg10 harg10 hc0 x0 x1 x2 x3 x4 x5 x6 = k1_pay2 (k1_pay3 x0 x1 x2 x3 x4 x5 x6) k1_pay5 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  sl_unfold_words
  rw [View.canon_cons_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]
  rw [View.readCov_unit_zero _ hz]

/-- A later point: the block of the second linear map. -/
theorem out_B_7 (hc0 : ¬cond1_0 i) (xo8 xo9 : Vec F S1x128 .f32) :
    out1_B_7 c i arg1 harg1 arg2 harg2 arg3 harg3 arg4 harg4 arg5 harg5 arg6 harg6 arg7 harg7 arg8 harg8 arg9 harg9 arg10 harg10 hc0 x0 x1 x2 x3 x4 x5 x6 xo8 xo9 = k1_pay3 x0 x1 x2 x3 x4 x5 x6 := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

/-- A later point: the running column sums over what the point before left. -/
theorem out_B_8 (hc0 : ¬cond1_0 i) (xo8 xo9 : Vec F S1x128 .f32) :
    out1_B_8 c i arg1 harg1 arg2 harg2 arg3 harg3 arg4 harg4 arg5 harg5 arg6 harg6 arg7 harg7 arg8 harg8 arg9 harg9 arg10 harg10 hc0 x0 x1 x2 x3 x4 x5 x6 xo8 xo9 = k1_pay1 (k1_pay3 x0 x1 x2 x3 x4 x5 x6) xo8 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

/-- A later point: the running column sums of squares over what the point before left. -/
theorem out_B_9 (hc0 : ¬cond1_0 i) (xo8 xo9 : Vec F S1x128 .f32) :
    out1_B_9 c i arg1 harg1 arg2 harg2 arg3 harg3 arg4 harg4 arg5 harg5 arg6 harg6 arg7 harg7 arg8 harg8 arg9 harg9 arg10 harg10 hc0 x0 x1 x2 x3 x4 x5 x6 xo8 xo9 = k1_pay2 (k1_pay3 x0 x1 x2 x3 x4 x5 x6) xo9 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

end Pieces

end Cert.KernelIdeal.Reg1

end
-- ==== Proof.PayB.lean ====
/-
  The second kernel of a layer at an entry.  Its block is `[2000, 256]` rows of the first linear map's output; the
  column mean, the column variance, γ, β arrive as `[1, 256]` rows, the second weights `[256, 128]` and bias row
  `[1, 128]` whole.  Each entry is normalised, the larger of it and zero is taken, and the stored block at row `p`,
  column `q` is `∑ₖ max(norm(p, k), 0) · W(k, q) + b(q)`; the two running rows take in this block's column sums and
  column sums of squares.
-/
import proofs.«148746_j9251359555639_1_alg».proof.Proof.Gen.KernelIdeal.Skeleton
import proofs.«148746_j9251359555639_1_alg».proof.Proof.LibMatDot
import proofs.«148746_j9251359555639_1_alg».proof.Proof.LibColSum
import proofs.«148746_j9251359555639_1_alg».proof.Proof.PayC
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen
open scoped BigOperators

/-- The second linear map at an entry, over the normalised and rectified first one. -/
theorem k1_pay3_apply (v0 : Vec Ideal S2000x256 .f32) (v2 v4 v6 v8 : Vec Ideal S1x256 .f32) (v24 : Vec Ideal S256x128 .f32)
    (v28 : Vec Ideal S1x128 .f32) (p : Fin 2000) (q : Fin 128) :
    k1_pay3 (F := Ideal) v0 v2 v4 v6 v8 v24 v28 (ix2 p q)
      = (∑ k : Fin 256, max (bnE (v0 (ix2 p k)) (v2 (ix2 0 k)) (v4 (ix2 0 k)) (v6 (ix2 0 k)) (v8 (ix2 0 k)))
            (Ideal.ofBits .f32 0x00000000#32) * v24 (ix2 k q)) + v28 (ix2 0 q) := by
  unfold k1_pay3
  simp only [shapeCast_self, addf_apply, broadcastTo_1b_ab_apply]
  congr 1
  refine (Cert.Lib.matmul_plain_zero_apply dot_S2000x256_S256x128_S2000x128_1_0_0_1_n_n_wf none _ _ p q).trans ?_
  refine Finset.sum_congr rfl fun k _ => ?_
  congr 1
  unfold bnE
  simp only [truncf_apply, maximumf_apply, addf_apply, mulf_apply, subf_apply, broadcastTo_1b_ab_apply]
  rfl

/-- The running column sums after this block. -/
theorem k1_pay1_apply (v31 : FVec Ideal S2000x128 .f32) (v36 : Vec Ideal S1x128 .f32) (q : Fin 128) :
    k1_pay1 (F := Ideal) v31 v36 (ix2 0 q) = v36 (ix2 0 q) + ∑ r : Fin 2000, v31 (ix2 r q) := by
  unfold k1_pay1
  simp only [shapeCast_self, addf_apply, shapeCast_a_1a_apply]
  congr 1
  exact Cert.Lib.multiReduction_add_cols (K := 2000) (R := 128) _ _ _ _ _ q

/-- The running column sums of squares after this block. -/
theorem k1_pay2_apply (v31 : FVec Ideal S2000x128 .f32) (v42 : Vec Ideal S1x128 .f32) (q : Fin 128) :
    k1_pay2 (F := Ideal) v31 v42 (ix2 0 q) = v42 (ix2 0 q) + ∑ r : Fin 2000, v31 (ix2 r q) * v31 (ix2 r q) := by
  unfold k1_pay2
  simp only [shapeCast_self, addf_apply, shapeCast_a_1a_apply]
  congr 1
  exact (Cert.Lib.multiReduction_add_cols (K := 2000) (R := 128) _ _ _ _ _ q).trans rfl

/-- The second linear map at an entry, over the normalised and rectified first one. -/
theorem k4_pay3_apply (v0 : Vec Ideal S2000x256 .f32) (v2 v4 v6 v8 : Vec Ideal S1x256 .f32) (v24 : Vec Ideal S256x128 .f32)
    (v28 : Vec Ideal S1x128 .f32) (p : Fin 2000) (q : Fin 128) :
    k4_pay3 (F := Ideal) v0 v2 v4 v6 v8 v24 v28 (ix2 p q)
      = (∑ k : Fin 256, max (bnE (v0 (ix2 p k)) (v2 (ix2 0 k)) (v4 (ix2 0 k)) (v6 (ix2 0 k)) (v8 (ix2 0 k)))
            (Ideal.ofBits .f32 0x00000000#32) * v24 (ix2 k q)) + v28 (ix2 0 q) := by
  unfold k4_pay3
  simp only [shapeCast_self, addf_apply, broadcastTo_1b_ab_apply]
  congr 1
  refine (Cert.Lib.matmul_plain_zero_apply dot_S2000x256_S256x128_S2000x128_1_0_0_1_n_n_wf none _ _ p q).trans ?_
  refine Finset.sum_congr rfl fun k _ => ?_
  congr 1
  unfold bnE
  simp only [truncf_apply, maximumf_apply, addf_apply, mulf_apply, subf_apply, broadcastTo_1b_ab_apply]
  rfl

/-- The running column sums after this block. -/
theorem k4_pay1_apply (v31 : FVec Ideal S2000x128 .f32) (v36 : Vec Ideal S1x128 .f32) (q : Fin 128) :
    k4_pay1 (F := Ideal) v31 v36 (ix2 0 q) = v36 (ix2 0 q) + ∑ r : Fin 2000, v31 (ix2 r q) := by
  unfold k4_pay1
  simp only [shapeCast_self, addf_apply, shapeCast_a_1a_apply]
  congr 1
  exact Cert.Lib.multiReduction_add_cols (K := 2000) (R := 128) _ _ _ _ _ q

/-- The running column sums of squares after this block. -/
theorem k4_pay2_apply (v31 : FVec Ideal S2000x128 .f32) (v42 : Vec Ideal S1x128 .f32) (q : Fin 128) :
    k4_pay2 (F := Ideal) v31 v42 (ix2 0 q) = v42 (ix2 0 q) + ∑ r : Fin 2000, v31 (ix2 r q) * v31 (ix2 r q) := by
  unfold k4_pay2
  simp only [shapeCast_self, addf_apply, shapeCast_a_1a_apply]
  congr 1
  exact (Cert.Lib.multiReduction_add_cols (K := 2000) (R := 128) _ _ _ _ _ q).trans rfl

/-- The second linear map at an entry, over the normalised and rectified first one. -/
theorem k7_pay3_apply (v0 : Vec Ideal S2000x256 .f32) (v2 v4 v6 v8 : Vec Ideal S1x256 .f32) (v24 : Vec Ideal S256x128 .f32)
    (v28 : Vec Ideal S1x128 .f32) (p : Fin 2000) (q : Fin 128) :
    k7_pay3 (F := Ideal) v0 v2 v4 v6 v8 v24 v28 (ix2 p q)
      = (∑ k : Fin 256, max (bnE (v0 (ix2 p k)) (v2 (ix2 0 k)) (v4 (ix2 0 k)) (v6 (ix2 0 k)) (v8 (ix2 0 k)))
            (Ideal.ofBits .f32 0x00000000#32) * v24 (ix2 k q)) + v28 (ix2 0 q) := by
  unfold k7_pay3
  simp only [shapeCast_self, addf_apply, broadcastTo_1b_ab_apply]
  congr 1
  refine (Cert.Lib.matmul_plain_zero_apply dot_S2000x256_S256x128_S2000x128_1_0_0_1_n_n_wf none _ _ p q).trans ?_
  refine Finset.sum_congr rfl fun k _ => ?_
  congr 1
  unfold bnE
  simp only [truncf_apply, maximumf_apply, addf_apply, mulf_apply, subf_apply, broadcastTo_1b_ab_apply]
  rfl

/-- The running column sums after this block. -/
theorem k7_pay1_apply (v31 : FVec Ideal S2000x128 .f32) (v36 : Vec Ideal S1x128 .f32) (q : Fin 128) :
    k7_pay1 (F := Ideal) v31 v36 (ix2 0 q) = v36 (ix2 0 q) + ∑ r : Fin 2000, v31 (ix2 r q) := by
  unfold k7_pay1
  simp only [shapeCast_self, addf_apply, shapeCast_a_1a_apply]
  congr 1
  exact Cert.Lib.multiReduction_add_cols (K := 2000) (R := 128) _ _ _ _ _ q

/-- The running column sums of squares after this block. -/
theorem k7_pay2_apply (v31 : FVec Ideal S2000x128 .f32) (v42 : Vec Ideal S1x128 .f32) (q : Fin 128) :
    k7_pay2 (F := Ideal) v31 v42 (ix2 0 q) = v42 (ix2 0 q) + ∑ r : Fin 2000, v31 (ix2 r q) * v31 (ix2 r q) := by
  unfold k7_pay2
  simp only [shapeCast_self, addf_apply, shapeCast_a_1a_apply]
  congr 1
  exact (Cert.Lib.multiReduction_add_cols (K := 2000) (R := 128) _ _ _ _ _ q).trans rfl

end Cert.KernelIdeal.Pay

end
-- ==== Proof.Region1.lean ====
/-
  The second kernel of a layer as whole arrays.  The grid has 25 points; point `t` reads rows `2000·t … 2000·t + 1999` of
  the first linear map's output, the four `[1, 256]` rows (column mean, column variance, γ, β), the second weights and
  bias row whole, and writes back the same rows of `lin₂ = max(norm(lin₁), 0)·W₂ + b₂`.  The two `[1, 128]` outputs are
  running rows: reset at the first point, each point adds its block's column sums (of `lin₂`, of `lin₂²`), and the last
  point writes them back; the 25 blocks of 2000 rows are the 50000 rows once each, so the rows end at the column sums
  over all nodes.  For real inputs with positive `variance + ε` every entry is a real.
-/
import proofs.«148746_j9251359555639_1_alg».proof.Proof.Gen.KernelIdeal.Frame
import proofs.«148746_j9251359555639_1_alg».proof.Proof.Pieces1
import proofs.«148746_j9251359555639_1_alg».proof.Proof.PayB
import proofs.«148746_j9251359555639_1_alg».proof.Proof.RealOps
import proofs.«148746_j9251359555639_1_alg».proof.Proof.Spec
import proofs.«148746_j9251359555639_1_alg».proof.Proof.LibGridSum
import Idealize.ShloMosaic.Lib.Pipeline.Value

set_option maxRecDepth 16384

noncomputable section

namespace Cert.KernelIdeal.Reg1

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The printed index maps over the grid: the two row-block windows (0 and 7) move with the point, every other window
    stays at its one block. -/
theorem idxT_0 : ∀ t : Fin cfg1.N, win1_0.index t (0 : Fin 2) = t.val ∧ win1_0.index t (1 : Fin 2) = 0 :=
  (by decide +kernel : ∀ t : Fin grid1.N, _)
theorem idxT_7 : ∀ t : Fin cfg1.N, win1_7.index t (0 : Fin 2) = t.val ∧ win1_7.index t (1 : Fin 2) = 0 :=
  (by decide +kernel : ∀ t : Fin grid1.N, _)
theorem idxZ_1 : ∀ t : Fin cfg1.N, win1_1.index t (0 : Fin 2) = 0 ∧ win1_1.index t (1 : Fin 2) = 0 :=
  (by decide +kernel : ∀ t : Fin grid1.N, _)
theorem idxZ_2 : ∀ t : Fin cfg1.N, win1_2.index t (0 : Fin 2) = 0 ∧ win1_2.index t (1 : Fin 2) = 0 :=
  (by decide +kernel : ∀ t : Fin grid1.N, _)
theorem idxZ_3 : ∀ t : Fin cfg1.N, win1_3.index t (0 : Fin 2) = 0 ∧ win1_3.index t (1 : Fin 2) = 0 :=
  (by decide +kernel : ∀ t : Fin grid1.N, _)
theorem idxZ_4 : ∀ t : Fin cfg1.N, win1_4.index t (0 : Fin 2) = 0 ∧ win1_4.index t (1 : Fin 2) = 0 :=
  (by decide +kernel : ∀ t : Fin grid1.N, _)
theorem idxZ_5 : ∀ t : Fin cfg1.N, win1_5.index t (0 : Fin 2) = 0 ∧ win1_5.index t (1 : Fin 2) = 0 :=
  (by decide +kernel : ∀ t : Fin grid1.N, _)
theorem idxZ_6 : ∀ t : Fin cfg1.N, win1_6.index t (0 : Fin 2) = 0 ∧ win1_6.index t (1 : Fin 2) = 0 :=
  (by decide +kernel : ∀ t : Fin grid1.N, _)
theorem idxZ_8 : ∀ t : Fin cfg1.N, win1_8.index t (0 : Fin 2) = 0 ∧ win1_8.index t (1 : Fin 2) = 0 :=
  (by decide +kernel : ∀ t : Fin grid1.N, _)
theorem idxZ_9 : ∀ t : Fin cfg1.N, win1_9.index t (0 : Fin 2) = 0 ∧ win1_9.index t (1 : Fin 2) = 0 :=
  (by decide +kernel : ∀ t : Fin grid1.N, _)

theorem N_eq : cfg1.N = 25 := N_1

theorem iblk_0 (c : Dev nD) (t : Fin cfg1.N) (y0 : Fin 2000) (k : Fin 256) (hr : t.val * 2000 + y0.val < 50000) :
    iblk1 V c 0 t (ix2 y0 k) = V c main_v19_0 (ix2 (⟨t.val * 2000 + y0.val, hr⟩ : Fin 50000) k) := by
  show V c main_v19_0 (((cfg1.win 0).blk t).view.emb (ix2 y0 k)) = _
  refine congrArg (V c main_v19_0) ?_
  obtain ⟨e0, e1⟩ := idxT_0 t
  funext a; apply Fin.ext
  match a with
  | ⟨0, _⟩ => show win1_0.index t (0 : Fin 2) * 2000 + 1 * y0.val = t.val * 2000 + y0.val; omega
  | ⟨1, _⟩ => show win1_0.index t (1 : Fin 2) * 256 + 1 * k.val = k.val; omega

theorem iblk_1 (c : Dev nD) (t : Fin cfg1.N) (k : Fin 256) :
    iblk1 V c 1 t (ix2 (0 : Fin 1) k) = V c main_v21 (ix2 (0 : Fin 1) k) := by
  show V c main_v21 (((cfg1.win 1).blk t).view.emb (ix2 (0 : Fin 1) k)) = _
  refine congrArg (V c main_v21) ?_
  obtain ⟨e0, e1⟩ := idxZ_1 t
  funext a; apply Fin.ext
  match a with
  | ⟨0, _⟩ => show win1_1.index t (0 : Fin 2) * 1 + 1 * 0 = 0; omega
  | ⟨1, _⟩ => show win1_1.index t (1 : Fin 2) * 256 + 1 * k.val = k.val; omega

theorem iblk_2 (c : Dev nD) (t : Fin cfg1.N) (k : Fin 256) :
    iblk1 V c 2 t (ix2 (0 : Fin 1) k) = V c main_v25 (ix2 (0 : Fin 1) k) := by
  show V c main_v25 (((cfg1.win 2).blk t).view.emb (ix2 (0 : Fin 1) k)) = _
  refine congrArg (V c main_v25) ?_
  obtain ⟨e0, e1⟩ := idxZ_2 t
  funext a; apply Fin.ext
  match a with
  | ⟨0, _⟩ => show win1_2.index t (0 : Fin 2) * 1 + 1 * 0 = 0; omega
  | ⟨1, _⟩ => show win1_2.index t (1 : Fin 2) * 256 + 1 * k.val = k.val; omega

theorem iblk_3 (c : Dev nD) (t : Fin cfg1.N) (k : Fin 256) :
    iblk1 V c 3 t (ix2 (0 : Fin 1) k) = V c main_v28 (ix2 (0 : Fin 1) k) := by
  show V c main_v28 (((cfg1.win 3).blk t).view.emb (ix2 (0 : Fin 1) k)) = _
  refine congrArg (V c main_v28) ?_
  obtain ⟨e0, e1⟩ := idxZ_3 t
  funext a; apply Fin.ext
  match a with
  | ⟨0, _⟩ => show win1_3.index t (0 : Fin 2) * 1 + 1 * 0 = 0; omega
  | ⟨1, _⟩ => show win1_3.index t (1 : Fin 2) * 256 + 1 * k.val = k.val; omega

theorem iblk_4 (c : Dev nD) (t : Fin cfg1.N) (k : Fin 256) :
    iblk1 V c 4 t (ix2 (0 : Fin 1) k) = V c main_v31 (ix2 (0 : Fin 1) k) := by
  show V c main_v31 (((cfg1.win 4).blk t).view.emb (ix2 (0 : Fin 1) k)) = _
  refine congrArg (V c main_v31) ?_
  obtain ⟨e0, e1⟩ := idxZ_4 t
  funext a; apply Fin.ext
  match a with
  | ⟨0, _⟩ => show win1_4.index t (0 : Fin 2) * 1 + 1 * 0 = 0; omega
  | ⟨1, _⟩ => show win1_4.index t (1 : Fin 2) * 256 + 1 * k.val = k.val; omega

theorem iblk_5 (c : Dev nD) (t : Fin cfg1.N) (k : Fin 256) (q : Fin 128) :
    iblk1 V c 5 t (ix2 k q) = V c main_v33 (ix2 k q) := by
  show V c main_v33 (((cfg1.win 5).blk t).view.emb (ix2 k q)) = _
  refine congrArg (V c main_v33) ?_
  obtain ⟨e0, e1⟩ := idxZ_5 t
  funext a; apply Fin.ext
  match a with
  | ⟨0, _⟩ => show win1_5.index t (0 : Fin 2) * 256 + 1 * k.val = k.val; omega
  | ⟨1, _⟩ => show win1_5.index t (1 : Fin 2) * 128 + 1 * q.val = q.val; omega

theorem iblk_6 (c : Dev nD) (t : Fin cfg1.N) (k : Fin 128) :
    iblk1 V c 6 t (ix2 (0 : Fin 1) k) = V c main_v36 (ix2 (0 : Fin 1) k) := by
  show V c main_v36 (((cfg1.win 6).blk t).view.emb (ix2 (0 : Fin 1) k)) = _
  refine congrArg (V c main_v36) ?_
  obtain ⟨e0, e1⟩ := idxZ_6 t
  funext a; apply Fin.ext
  match a with
  | ⟨0, _⟩ => show win1_6.index t (0 : Fin 2) * 1 + 1 * 0 = 0; omega
  | ⟨1, _⟩ => show win1_6.index t (1 : Fin 2) * 128 + 1 * k.val = k.val; omega

/-- The block of the second linear map that point `t` computes. -/
def blk (c : Dev nD) (t : Fin cfg1.N) : Vec Ideal S2000x128 .f32 :=
  k1_pay3 (F := Ideal) (iblk1 V c 0 t) (iblk1 V c 1 t) (iblk1 V c 2 t) (iblk1 V c 3 t) (iblk1 V c 4 t) (iblk1 V c 5 t) (iblk1 V c 6 t)

/-- Point `s`'s column sums of its block and of its block's squares (zero past the grid). -/
def colB (c : Dev nD) (s : ℕ) (q : Fin 128) : EReal :=
  if h : s < cfg1.N then ∑ r : Fin 2000, blk V c ⟨s, h⟩ (ix2 r q) else 0
def colQ (c : Dev nD) (s : ℕ) (q : Fin 128) : EReal :=
  if h : s < cfg1.N then ∑ r : Fin 2000, blk V c ⟨s, h⟩ (ix2 r q) * blk V c ⟨s, h⟩ (ix2 r q) else 0

/-- After every point the first output's buffer holds that point's block. -/
theorem outs_lin (c : Dev nD) (t : Fin cfg1.N) : (outsAt1 V c t.val t.isLt).1 = blk V c t := by
  by_cases h0 : t.val % 25 = 0
  · rw [outsAt1_A V c t h0]
    dsimp only
    exact out_A_7 (F := Ideal) _ _ _ _ _ _ _ _ _ _ _ _ _ _ _ _ _ _ _ _ _ _ _ _ _ _ _ _ _ _
  · rw [outsAt1_B V c t h0]
    dsimp only
    exact out_B_7 (F := Ideal) _ _ _ _ _ _ _ _ _ _ _ _ _ _ _ _ _ _ _ _ _ _ _ _ _ _ _ _ _ _ _ _

/-- After point `n` the running row of column sums holds zero plus the first `n + 1` points' column sums. -/
theorem outs_sum (c : Dev nD) : ∀ (n : ℕ) (hn : n < cfg1.N) (q : Fin 128),
    (outsAt1 V c n hn).2.1 (ix2 (0 : Fin 1) q)
      = Ideal.ofBits .f32 0x00000000#32 + ∑ s ∈ Finset.range (n + 1), colB V c s q
  | 0, hn, q => by
    have e := outsAt1_A V c ⟨0, hn⟩ (Nat.zero_mod _)
    rw [show outsAt1 V c 0 hn = _ from e]
    dsimp only
    rw [out_A_8, Pay.k1_pay1_apply, Finset.sum_range_one]
    refine congrArg₂ (· + ·) (by rfl) ?_
    unfold colB
    rw [dif_pos hn]
    rfl
  | n + 1, hn, q => by
    have hN : n + 1 < 25 := lt_of_lt_of_eq hn N_eq
    have h0 : ¬(n + 1) % 25 = 0 := by omega
    have e := outsAt1_B V c ⟨n + 1, hn⟩ h0
    have ih := outs_sum c n (Nat.lt_of_succ_lt hn) q
    rw [show outsAt1 V c (n + 1) hn = _ from e]
    dsimp only
    rw [out_B_8, Pay.k1_pay1_apply, Finset.sum_range_succ _ (n + 1), ← add_assoc]
    refine congrArg₂ (· + ·) ih ?_
    unfold colB
    rw [dif_pos hn]
    rfl

/-- After point `n` the running row of column sums of squares holds zero plus the first `n + 1` points' sums. -/
theorem outs_sumsq (c : Dev nD) : ∀ (n : ℕ) (hn : n < cfg1.N) (q : Fin 128),
    (outsAt1 V c n hn).2.2 (ix2 (0 : Fin 1) q)
      = Ideal.ofBits .f32 0x00000000#32 + ∑ s ∈ Finset.range (n + 1), colQ V c s q
  | 0, hn, q => by
    have e := outsAt1_A V c ⟨0, hn⟩ (Nat.zero_mod _)
    rw [show outsAt1 V c 0 hn = _ from e]
    dsimp only
    rw [out_A_9, Pay.k1_pay2_apply, Finset.sum_range_one]
    refine congrArg₂ (· + ·) (by rfl) ?_
    unfold colQ
    rw [dif_pos hn]
    rfl
  | n + 1, hn, q => by
    have hN : n + 1 < 25 := lt_of_lt_of_eq hn N_eq
    have h0 : ¬(n + 1) % 25 = 0 := by omega
    have e := outsAt1_B V c ⟨n + 1, hn⟩ h0
    have ih := outs_sumsq c n (Nat.lt_of_succ_lt hn) q
    rw [show outsAt1 V c (n + 1) hn = _ from e]
    dsimp only
    rw [out_B_9, Pay.k1_pay2_apply, Finset.sum_range_succ _ (n + 1), ← add_assoc]
    refine congrArg₂ (· + ·) ih ?_
    unfold colQ
    rw [dif_pos hn]
    rfl

/-! ## Which indices a point's blocks cover -/

/-- An index of the first output lies in point `t`'s block iff its row is among the block's 2000 rows. -/
theorem mem_blk_7 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v37_0).slice (win1_7.rect t)).set ↔ _
  rw [View.set_slice_whole, Rect.mem_set_unit]
  exact Iff.rfl

/-- An index of the `[1, 128]` output 8 lies in every point's block: the block is the whole row. -/
theorem mem_blk_8 (t : Fin cfg1.N) (i : S1x128.Idx) :
    i ∈ ((cfg1.win 8).blk t).view.set ↔ ∀ a : Fin 2, win1_8.index t a * S1x128.size a ≤ (i a).val
      ∧ (i a).val < win1_8.index t a * S1x128.size a + S1x128.size a := by
  show i ∈ ((View.whole main_v37_1).slice (win1_8.rect t)).set ↔ _
  rw [View.set_slice_whole, Rect.mem_set_unit]
  exact Iff.rfl

/-- An index of the `[1, 128]` output 9 lies in every point's block: the block is the whole row. -/
theorem mem_blk_9 (t : Fin cfg1.N) (i : S1x128.Idx) :
    i ∈ ((cfg1.win 9).blk t).view.set ↔ ∀ a : Fin 2, win1_9.index t a * S1x128.size a ≤ (i a).val
      ∧ (i a).val < win1_9.index t a * S1x128.size a + S1x128.size a := by
  show i ∈ ((View.whole main_v37_2).slice (win1_9.rect t)).set ↔ _
  rw [View.set_slice_whole, Rect.mem_set_unit]
  exact Iff.rfl

/-! ## Real inputs -/

section Real

variable (c : Dev nD) (z : Cert.Spec.Mat 50000 256) (μ v g bt : Fin 256 → ℝ) (W : Cert.Spec.Mat 256 128) (b : Fin 128 → ℝ)

/-- The second linear map of the layer over the reals, on the normalised and rectified first one. -/
abbrev L2 : Cert.Spec.Mat 50000 128 :=
  Cert.Spec.lin (Cert.Spec.relu (Cert.Spec.bn μ v Cert.Consts.eps g bt z)) W b

variable (hz : ∀ p k, V c main_v19_0 (ix2 p k) = ((z p k : ℝ) : EReal))
  (hμ : ∀ k, V c main_v21 (ix2 (0 : Fin 1) k) = ((μ k : ℝ) : EReal))
  (hv : ∀ k, V c main_v25 (ix2 (0 : Fin 1) k) = ((v k : ℝ) : EReal))
  (hg : ∀ k, V c main_v28 (ix2 (0 : Fin 1) k) = ((g k : ℝ) : EReal))
  (hbt : ∀ k, V c main_v31 (ix2 (0 : Fin 1) k) = ((bt k : ℝ) : EReal))
  (hW : ∀ k q, V c main_v33 (ix2 k q) = ((W k q : ℝ) : EReal))
  (hb : ∀ q, V c main_v36 (ix2 (0 : Fin 1) q) = ((b q : ℝ) : EReal))
  (hpos : ∀ k, 0 < v k + Cert.Consts.eps)
include hz hμ hv hg hbt hW hb hpos

/-- Point `t`'s block at real inputs: rows `2000·t …` of the real second linear map. -/
theorem blk_real (t : Fin cfg1.N) (y0 : Fin 2000) (q : Fin 128) (hr : t.val * 2000 + y0.val < 50000) :
    blk V c t (ix2 y0 q) = ((L2 z μ v g bt W b ⟨t.val * 2000 + y0.val, hr⟩ q : ℝ) : EReal) := by
  unfold blk
  rw [Pay.k1_pay3_apply, iblk_6, hb]
  have hbn : ∀ (zz mm gg bb : ℝ) (k : Fin 256), Pay.bnE (zz : EReal) (mm : EReal) ((v k : ℝ) : EReal) (gg : EReal) (bb : EReal)
      = (((zz - mm) * (Real.sqrt (v k + Cert.Consts.eps))⁻¹ * gg + bb : ℝ) : EReal) :=
    fun zz mm gg bb k => Cert.RealOps.bnE_coe zz mm (v k) gg bb (hpos k)
  simp only [iblk_0 V c t y0 _ hr, iblk_1, iblk_2, iblk_3, iblk_4, iblk_5, hz, hμ, hv, hg, hbt, hW, hbn, Cert.RealOps.max_zero_coe]
  rw [Cert.RealOps.dot_coe
      (fun k => max ((z ⟨t.val * 2000 + y0.val, hr⟩ k - μ k) * (Real.sqrt (v k + Cert.Consts.eps))⁻¹ * g k + bt k) 0)
      (fun k => W k q),
    ← EReal.coe_add]
  rfl

/-- THE FIRST OUTPUT after the run, entry by entry, for real inputs: the real second linear map. -/
theorem value_7 (p : Fin 50000) (q : Fin 128) :
    (dat1 V c).arrAt 7 cfg1.N (ix2 p q) = ((L2 z μ v g bt W b p q : ℝ) : EReal) := by
  refine (dat1 V c).arrAt_forall_of_cover 7
    (fun i x => ∀ (p : Fin 50000) (q : Fin 128), i = ix2 p q → x = ((L2 z μ v g bt W b p q : ℝ) : EReal)) ?_ ?_ (ix2 p q) p q rfl
  · intro t _ y p q hi
    obtain ⟨y0, y1, rfl⟩ : ∃ (y0 : Fin 2000) (y1 : Fin 128), y = ix2 y0 y1 := ⟨y 0, y 1, eq_ix2 y⟩
    have ht : t.val < 25 := lt_of_lt_of_eq t.isLt N_eq
    have hr : t.val * 2000 + y0.val < 50000 := by have := y0.isLt; omega
    obtain ⟨e0, e1⟩ := idxT_7 t
    have hp : p = (⟨t.val * 2000 + y0.val, hr⟩ : Fin 50000) := by
      apply Fin.ext
      have h0 := congrArg (fun j : S50000x128.Idx => (j 0).val) hi
      have : win1_7.index t (0 : Fin 2) * 2000 + 1 * y0.val = p.val := h0
      show p.val = t.val * 2000 + y0.val
      omega
    have hk : q = y1 := by
      apply Fin.ext
      have h1 := congrArg (fun j : S50000x128.Idx => (j 1).val) hi
      have : win1_7.index t (1 : Fin 2) * 128 + 1 * y1.val = q.val := h1
      show q.val = y1.val
      omega
    subst hp hk
    show (cfg1.win 7).cut (grid1.coords t) ((dat1 V c).after 7 t) (ix2 y0 q) = _
    rw [after1_7, outs_lin]
    show blk V c t (ix2 y0 q) = _
    rw [blk_real V c z μ v g bt W b hz hμ hv hg hbt hW hb hpos t y0 q hr]
  · intro i
    have hi0 : (i 0).val < 50000 := idx2_lt0 i
    have hi1 : (i 1).val < 128 := idx2_lt1 i
    refine ⟨⟨(i 0).val / 2000, by rw [N_eq]; omega⟩, flush1_7 _, ?_⟩
    rw [mem_blk_7]
    obtain ⟨e0, e1⟩ := idxT_7 ⟨(i 0).val / 2000, by rw [N_eq]; omega⟩
    intro a
    match a with
    | ⟨0, _⟩ =>
      show win1_7.index _ (0 : Fin 2) * 2000 ≤ (i 0).val ∧ (i 0).val < win1_7.index _ (0 : Fin 2) * 2000 + 2000
      rw [e0]; show (i 0).val / 2000 * 2000 ≤ (i 0).val ∧ (i 0).val < (i 0).val / 2000 * 2000 + 2000; omega
    | ⟨1, _⟩ =>
      show win1_7.index _ (1 : Fin 2) * 128 ≤ (i 1).val ∧ (i 1).val < win1_7.index _ (1 : Fin 2) * 128 + 128
      rw [e1]; omega

/-- THE RUNNING ROW 8 after the run, entry by entry, for real inputs. -/
theorem value_8 (q : Fin 128) :
    (dat1 V c).arrAt 8 cfg1.N (ix2 (0 : Fin 1) q) = ((Cert.Spec.colSum (L2 z μ v g bt W b) q : ℝ) : EReal) := by
  refine (dat1 V c).arrAt_forall_of_cover 8
    (fun i x => ∀ (q : Fin 128), i = ix2 (0 : Fin 1) q → x = ((Cert.Spec.colSum (L2 z μ v g bt W b) q : ℝ) : EReal)) ?_ ?_
    (ix2 (0 : Fin 1) q) q rfl
  · intro t hf y q hi
    obtain ⟨y0, y1, rfl⟩ : ∃ (y0 : Fin 1) (y1 : Fin 128), y = ix2 y0 y1 := ⟨y 0, y 1, eq_ix2 y⟩
    have ht : t.val < 25 := lt_of_lt_of_eq t.isLt N_eq
    have ht24 : t.val = 24 := by have := (flush1_8 t).mp hf; omega
    obtain ⟨-, e1⟩ := idxZ_8 t
    have hy0 : y0 = 0 := Subsingleton.elim _ _
    have hk : q = y1 := by
      apply Fin.ext
      have h1 := congrArg (fun j : S1x128.Idx => (j 1).val) hi
      have : win1_8.index t (1 : Fin 2) * 128 + 1 * y1.val = q.val := h1
      show q.val = y1.val
      omega
    subst hy0 hk
    show (cfg1.win 8).cut (grid1.coords t) ((dat1 V c).after 8 t) (ix2 (0 : Fin 1) q) = _
    rw [after1_8]
    show (outsAt1 V c t.val t.isLt).2.1 (ix2 (0 : Fin 1) q) = _
    rw [outs_sum V c t.val t.isLt q]
    have hcol : ∀ s, colB V c s q
        = ((if hs : s < 25 then ∑ r : Fin 2000, L2 z μ v g bt W b ⟨s * 2000 + r.val, Cert.Lib.gridRow_lt (m := 25) (n := 2000) rfl hs r⟩ q else 0 : ℝ) : EReal) := by
      intro s
      unfold colB
      by_cases hs : s < 25
      · rw [dif_pos (lt_of_lt_of_eq hs N_eq.symm), dif_pos hs, ← Cert.RealOps.sum_coe]
        refine Finset.sum_congr rfl fun r _ => ?_
        rw [blk_real V c z μ v g bt W b hz hμ hv hg hbt hW hb hpos ⟨s, lt_of_lt_of_eq hs N_eq.symm⟩ r q (Cert.Lib.gridRow_lt (m := 25) (n := 2000) rfl hs r)]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L2 z μ v g bt W b p q
  · intro i
    have hi0 : (i 0).val < 1 := idx2_lt0 i
    have hi1 : (i 1).val < 128 := idx2_lt1 i
    refine ⟨⟨24, by rw [N_eq]; omega⟩, (flush1_8 _).mpr (by rfl), ?_⟩
    rw [mem_blk_8]
    obtain ⟨e0, e1⟩ := idxZ_8 ⟨24, by rw [N_eq]; omega⟩
    intro a
    match a with
    | ⟨0, _⟩ =>
      show win1_8.index _ (0 : Fin 2) * 1 ≤ (i 0).val ∧ (i 0).val < win1_8.index _ (0 : Fin 2) * 1 + 1
      omega
    | ⟨1, _⟩ =>
      show win1_8.index _ (1 : Fin 2) * 128 ≤ (i 1).val ∧ (i 1).val < win1_8.index _ (1 : Fin 2) * 128 + 128
      omega

/-- THE RUNNING ROW 9 after the run, entry by entry, for real inputs. -/
theorem value_9 (q : Fin 128) :
    (dat1 V c).arrAt 9 cfg1.N (ix2 (0 : Fin 1) q) = ((Cert.Spec.colSumSq (L2 z μ v g bt W b) q : ℝ) : EReal) := by
  refine (dat1 V c).arrAt_forall_of_cover 9
    (fun i x => ∀ (q : Fin 128), i = ix2 (0 : Fin 1) q → x = ((Cert.Spec.colSumSq (L2 z μ v g bt W b) q : ℝ) : EReal)) ?_ ?_
    (ix2 (0 : Fin 1) q) q rfl
  · intro t hf y q hi
    obtain ⟨y0, y1, rfl⟩ : ∃ (y0 : Fin 1) (y1 : Fin 128), y = ix2 y0 y1 := ⟨y 0, y 1, eq_ix2 y⟩
    have ht : t.val < 25 := lt_of_lt_of_eq t.isLt N_eq
    have ht24 : t.val = 24 := by have := (flush1_9 t).mp hf; omega
    obtain ⟨-, e1⟩ := idxZ_9 t
    have hy0 : y0 = 0 := Subsingleton.elim _ _
    have hk : q = y1 := by
      apply Fin.ext
      have h1 := congrArg (fun j : S1x128.Idx => (j 1).val) hi
      have : win1_9.index t (1 : Fin 2) * 128 + 1 * y1.val = q.val := h1
      show q.val = y1.val
      omega
    subst hy0 hk
    show (cfg1.win 9).cut (grid1.coords t) ((dat1 V c).after 9 t) (ix2 (0 : Fin 1) q) = _
    rw [after1_9]
    show (outsAt1 V c t.val t.isLt).2.2 (ix2 (0 : Fin 1) q) = _
    rw [outs_sumsq V c t.val t.isLt q]
    have hcol : ∀ s, colQ V c s q
        = ((if hs : s < 25 then ∑ r : Fin 2000, L2 z μ v g bt W b ⟨s * 2000 + r.val, Cert.Lib.gridRow_lt (m := 25) (n := 2000) rfl hs r⟩ q * L2 z μ v g bt W b ⟨s * 2000 + r.val, Cert.Lib.gridRow_lt (m := 25) (n := 2000) rfl hs r⟩ q else 0 : ℝ) : EReal) := by
      intro s
      unfold colQ
      by_cases hs : s < 25
      · rw [dif_pos (lt_of_lt_of_eq hs N_eq.symm), dif_pos hs, ← Cert.RealOps.sum_coe]
        refine Finset.sum_congr rfl fun r _ => ?_
        rw [blk_real V c z μ v g bt W b hz hμ hv hg hbt hW hb hpos ⟨s, lt_of_lt_of_eq hs N_eq.symm⟩ r q (Cert.Lib.gridRow_lt (m := 25) (n := 2000) rfl hs r), ← EReal.coe_mul]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L2 z μ v g bt W b p q * L2 z μ v g bt W b p q
  · intro i
    have hi0 : (i 0).val < 1 := idx2_lt0 i
    have hi1 : (i 1).val < 128 := idx2_lt1 i
    refine ⟨⟨24, by rw [N_eq]; omega⟩, (flush1_9 _).mpr (by rfl), ?_⟩
    rw [mem_blk_9]
    obtain ⟨e0, e1⟩ := idxZ_9 ⟨24, by rw [N_eq]; omega⟩
    intro a
    match a with
    | ⟨0, _⟩ =>
      show win1_9.index _ (0 : Fin 2) * 1 ≤ (i 0).val ∧ (i 0).val < win1_9.index _ (0 : Fin 2) * 1 + 1
      omega
    | ⟨1, _⟩ =>
      show win1_9.index _ (1 : Fin 2) * 128 ≤ (i 1).val ∧ (i 1).val < win1_9.index _ (1 : Fin 2) * 128 + 128
      omega

end Real

end Cert.KernelIdeal.Reg1

end
-- ==== Proof.Region2.lean ====
/-
  The third kernel of a layer as a whole array.  The grid has 25 points; point `t` reads rows `2000·t … 2000·t + 1999`
  of the second linear map's output and the four `[1, 128]` rows (mean, variance, γ, β) whole, and writes back the same
  rows of the layer's output.  The 25 blocks tile the `[50000, 128]` array, so every entry of the output is the
  normalisation of the entry above it, the larger of it and zero: for real inputs with positive `variance + ε`, a real.
-/
import proofs.«148746_j9251359555639_1_alg».proof.Proof.Gen.KernelIdeal.Frame
import proofs.«148746_j9251359555639_1_alg».proof.Proof.PayC
import proofs.«148746_j9251359555639_1_alg».proof.Proof.RealOps
import proofs.«148746_j9251359555639_1_alg».proof.Proof.Spec
import Idealize.ShloMosaic.Lib.Pipeline.Value

set_option maxRecDepth 16384

noncomputable section

namespace Cert.KernelIdeal.Reg2

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks move with the point, the parameter rows stay. -/
theorem idx_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem N_eq : cfg2.N = 25 := N_2

/-- Row `y0` of point `t`'s block of the first window is row `2000·t + y0` of its array. -/
theorem iblk_0 (c : Dev nD) (t : Fin cfg2.N) (y0 : Fin 2000) (y1 : Fin 128) (hr : t.val * 2000 + y0.val < 50000) :
    iblk2 V c 0 t (ix2 y0 y1) = V c main_v37_0 (ix2 (⟨t.val * 2000 + y0.val, hr⟩ : Fin 50000) y1) := by
  show V c main_v37_0 (((cfg2.win 0).blk t).view.emb (ix2 y0 y1)) = _
  refine congrArg (V c main_v37_0) ?_
  obtain ⟨e0, e1, -⟩ := idx_facts t
  funext a; apply Fin.ext
  match a with
  | ⟨0, _⟩ => show win2_0.index t (0 : Fin 2) * 2000 + 1 * y0.val = t.val * 2000 + y0.val; omega
  | ⟨1, _⟩ => show win2_0.index t (1 : Fin 2) * 128 + 1 * y1.val = y1.val; omega

theorem iblk_1 (c : Dev nD) (t : Fin cfg2.N) (y1 : Fin 128) :
    iblk2 V c 1 t (ix2 (0 : Fin 1) y1) = V c main_v39 (ix2 (0 : Fin 1) y1) := by
  show V c main_v39 (((cfg2.win 1).blk t).view.emb (ix2 (0 : Fin 1) y1)) = _
  refine congrArg (V c main_v39) ?_
  obtain ⟨-, -, -, -, e0, e1, -⟩ := idx_facts t
  funext a; apply Fin.ext
  match a with
  | ⟨0, _⟩ => show win2_1.index t (0 : Fin 2) * 1 + 1 * 0 = 0; omega
  | ⟨1, _⟩ => show win2_1.index t (1 : Fin 2) * 128 + 1 * y1.val = y1.val; omega

theorem iblk_2 (c : Dev nD) (t : Fin cfg2.N) (y1 : Fin 128) :
    iblk2 V c 2 t (ix2 (0 : Fin 1) y1) = V c main_v43 (ix2 (0 : Fin 1) y1) := by
  show V c main_v43 (((cfg2.win 2).blk t).view.emb (ix2 (0 : Fin 1) y1)) = _
  refine congrArg (V c main_v43) ?_
  obtain ⟨-, -, -, -, -, -, e0, e1, -⟩ := idx_facts t
  funext a; apply Fin.ext
  match a with
  | ⟨0, _⟩ => show win2_2.index t (0 : Fin 2) * 1 + 1 * 0 = 0; omega
  | ⟨1, _⟩ => show win2_2.index t (1 : Fin 2) * 128 + 1 * y1.val = y1.val; omega

theorem iblk_3 (c : Dev nD) (t : Fin cfg2.N) (y1 : Fin 128) :
    iblk2 V c 3 t (ix2 (0 : Fin 1) y1) = V c main_v46 (ix2 (0 : Fin 1) y1) := by
  show V c main_v46 (((cfg2.win 3).blk t).view.emb (ix2 (0 : Fin 1) y1)) = _
  refine congrArg (V c main_v46) ?_
  obtain ⟨-, -, -, -, -, -, -, -, e0, e1, -⟩ := idx_facts t
  funext a; apply Fin.ext
  match a with
  | ⟨0, _⟩ => show win2_3.index t (0 : Fin 2) * 1 + 1 * 0 = 0; omega
  | ⟨1, _⟩ => show win2_3.index t (1 : Fin 2) * 128 + 1 * y1.val = y1.val; omega

theorem iblk_4 (c : Dev nD) (t : Fin cfg2.N) (y1 : Fin 128) :
    iblk2 V c 4 t (ix2 (0 : Fin 1) y1) = V c main_v49 (ix2 (0 : Fin 1) y1) := by
  show V c main_v49 (((cfg2.win 4).blk t).view.emb (ix2 (0 : Fin 1) y1)) = _
  refine congrArg (V c main_v49) ?_
  obtain ⟨-, -, -, -, -, -, -, -, -, -, e0, e1⟩ := idx_facts t
  funext a; apply Fin.ext
  match a with
  | ⟨0, _⟩ => show win2_4.index t (0 : Fin 2) * 1 + 1 * 0 = 0; omega
  | ⟨1, _⟩ => show win2_4.index t (1 : Fin 2) * 128 + 1 * y1.val = y1.val; omega

/-- What point `t` writes back, entry by entry. -/
theorem flushed_apply (c : Dev nD) (t : Fin cfg2.N) (y0 : Fin 2000) (y1 : Fin 128) (hr : t.val * 2000 + y0.val < 50000) :
    (dat2 V c).flushed 5 t (ix2 y0 y1)
      = max (Pay.bnE (V c main_v37_0 (ix2 (⟨t.val * 2000 + y0.val, hr⟩ : Fin 50000) y1)) (V c main_v39 (ix2 (0 : Fin 1) y1))
          (V c main_v43 (ix2 (0 : Fin 1) y1)) (V c main_v46 (ix2 (0 : Fin 1) y1)) (V c main_v49 (ix2 (0 : Fin 1) y1)))
          (Ideal.ofBits .f32 0x00000000#32) := by
  show (cfg2.win 5).cut (grid2.coords t) ((dat2 V c).after 5 t) (ix2 y0 y1) = _
  rw [after2_5]
  unfold out2_5
  rw [View.canon_unit_zero hz]
  simp only [View.ld_unit_zero (S := S2000x128) hz, View.ld_unit_zero (S := S1x128) hz]
  refine (Pay.k2_pay1_apply _ _ _ _ _ y0 y1).trans ?_
  rw [iblk_0 V c t y0 y1 hr, iblk_1, iblk_2, iblk_3, iblk_4]

/-- An index of the output array lies in point `t`'s block iff its row is among the block's 2000 rows. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v50).slice (win2_5.rect t)).set ↔ _
  rw [View.set_slice_whole, Rect.mem_set_unit]
  exact Iff.rfl

/-- THE OUTPUT ARRAY, entry by entry, for real inputs. -/
theorem value (c : Dev nD) (z : Cert.Spec.Mat 50000 128) (μ v g b : Fin 128 → ℝ)
    (hzr : ∀ p k, V c main_v37_0 (ix2 p k) = ((z p k : ℝ) : EReal))
    (hμ : ∀ k, V c main_v39 (ix2 (0 : Fin 1) k) = ((μ k : ℝ) : EReal))
    (hv : ∀ k, V c main_v43 (ix2 (0 : Fin 1) k) = ((v k : ℝ) : EReal))
    (hg : ∀ k, V c main_v46 (ix2 (0 : Fin 1) k) = ((g k : ℝ) : EReal))
    (hb : ∀ k, V c main_v49 (ix2 (0 : Fin 1) k) = ((b k : ℝ) : EReal))
    (hpos : ∀ k, 0 < v k + Cert.Consts.eps) (p : Fin 50000) (k : Fin 128) :
    (dat2 V c).arrAt 5 cfg2.N (ix2 p k)
      = ((Cert.Spec.relu (Cert.Spec.bn μ v Cert.Consts.eps g b z) p k : ℝ) : EReal) := by
  refine (dat2 V c).arrAt_forall_of_cover 5
    (fun i x => ∀ (p : Fin 50000) (k : Fin 128), i = ix2 p k →
      x = ((Cert.Spec.relu (Cert.Spec.bn μ v Cert.Consts.eps g b z) p k : ℝ) : EReal)) ?_ ?_ (ix2 p k) p k rfl
  · intro t _ y p k hi
    obtain ⟨y0, y1, rfl⟩ : ∃ (y0 : Fin 2000) (y1 : Fin 128), y = ix2 y0 y1 := ⟨y 0, y 1, eq_ix2 y⟩
    have ht : t.val < 25 := lt_of_lt_of_eq t.isLt N_eq
    have hr : t.val * 2000 + y0.val < 50000 := by have := y0.isLt; omega
    obtain ⟨-, -, e0, e1, -⟩ := idx_facts t
    have hp : p = (⟨t.val * 2000 + y0.val, hr⟩ : Fin 50000) := by
      apply Fin.ext
      have h0 := congrArg (fun j : S50000x128.Idx => (j 0).val) hi
      have : win2_5.index t (0 : Fin 2) * 2000 + 1 * y0.val = p.val := h0
      show p.val = t.val * 2000 + y0.val
      omega
    have hk : k = y1 := by
      apply Fin.ext
      have h1 := congrArg (fun j : S50000x128.Idx => (j 1).val) hi
      have : win2_5.index t (1 : Fin 2) * 128 + 1 * y1.val = k.val := h1
      show k.val = y1.val
      omega
    subst hp hk
    show (dat2 V c).flushed 5 t (ix2 y0 k) = _
    rw [flushed_apply V c t y0 k hr, hzr, hμ, hv, hg, hb, Cert.RealOps.bnE_coe _ _ _ _ _ (hpos k), Cert.RealOps.max_zero_coe]
    rfl
  · intro i
    have hi0 : (i 0).val < 50000 := idx2_lt0 i
    have hi1 : (i 1).val < 128 := idx2_lt1 i
    refine ⟨⟨(i 0).val / 2000, by rw [N_eq]; omega⟩, flush2_5 _, ?_⟩
    rw [mem_blk]
    obtain ⟨-, -, e0, e1, -⟩ := idx_facts ⟨(i 0).val / 2000, by rw [N_eq]; omega⟩
    intro a
    match a with
    | ⟨0, _⟩ =>
      show win2_5.index _ (0 : Fin 2) * 2000 ≤ (i 0).val ∧ (i 0).val < win2_5.index _ (0 : Fin 2) * 2000 + 2000
      rw [e0]; show (i 0).val / 2000 * 2000 ≤ (i 0).val ∧ (i 0).val < (i 0).val / 2000 * 2000 + 2000; omega
    | ⟨1, _⟩ =>
      show win2_5.index _ (1 : Fin 2) * 128 ≤ (i 1).val ∧ (i 1).val < win2_5.index _ (1 : Fin 2) * 128 + 128
      rw [e1]; omega

end Cert.KernelIdeal.Reg2

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.Edges.lean ====
/-
  The graph's edges as the programs read them.  The edge list is a `[2, 800000]` array of 32-bit words: row 0 the
  source node of each edge, row 1 its target.  A source word is first wrapped (a negative word has the node count added,
  the usual reading of a negative position) and then, in the row lookup, read as a signed integer and clamped into
  `[0, 49999]`; a target word is read as a signed integer and NOT clamped: an edge whose target is outside
  `[0, 50000)` lands on no node and is dropped.
-/
import Idealize.ShloMosaic.Lib.ValueIdx

noncomputable section

namespace Cert.Edges

open Idealize.ShloMosaic Idealize.ShloMosaic.ValueIdx

/-- The edge list. -/
abbrev EI : Type := IVec ⟨2, ![2, 800000]⟩ 32

/-- Edge `e`'s source word and target word. -/
def srcw (ei : EI) (e : Fin 800000) : BitVec 32 := ei (ix2 (0 : Fin 2) e)
def dstw (ei : EI) (e : Fin 800000) : BitVec 32 := ei (ix2 (1 : Fin 2) e)

/-- The source word wrapped: a negative word has 50000 added. -/
def wrap (s : BitVec 32) : BitVec 32 := Scalar.select (IntOp.cmpi .slt s 0#32) (IntOp.addi s 50000#32) s

/-- The edges landing on node `p`. -/
def land (ei : EI) (p : Fin 50000) : Finset (Fin 800000) :=
  Finset.univ.filter fun e => (dstw ei e).toInt = (p.val : ℤ)

/-- The node edge `e` reads: its wrapped source word, signed, clamped into the node range. -/
def src (ei : EI) (e : Fin 800000) : Fin 50000 :=
  ⟨min (wrap (srcw ei e)).toInt.toNat (50000 - 1), by omega⟩

end Cert.Edges

end
-- ==== Proof.AggHost.lean ====
/-
  The neighbour sum as the host computes it.  The rows of `h` are looked up at the edges' (wrapped) source words and
  accumulated, from a zero array, at the edges' target words.  Entry `(p, k)` of the result is zero plus the sum, over
  the edges whose target word read as a signed integer is `p`, of `h` at the edge's source node (the wrapped word read
  signed and clamped into the node range) and column `k`.  For a real `h` that is the real neighbour sum.
-/
import proofs.«148746_j9251359555639_1_alg».proof.Proof.LibEdgeRows
import proofs.«148746_j9251359555639_1_alg».proof.Proof.Edges
import proofs.«148746_j9251359555639_1_alg».proof.Proof.Spec
import proofs.«148746_j9251359555639_1_alg».proof.Proof.Consts

noncomputable section

namespace Cert.AggHost

open Idealize.ShloMosaic Idealize.ShloMosaic.ValueIdx
open scoped BigOperators

/-- A sum of coerced reals over any finite set. -/
theorem finset_sum_coe {ι : Type*} (s : Finset ι) (a : ι → ℝ) : (∑ i ∈ s, (a i : EReal)) = ((∑ i ∈ s, a i : ℝ) : EReal) := by
  classical
  refine Finset.induction_on s (by simp) ?_
  intro i s hi ih
  rw [Finset.sum_insert hi, Finset.sum_insert hi, ih, EReal.coe_add]

/-- The neighbour sum of a real feature matrix, entry by entry. -/
theorem agg_apply
    (wfG : GatherDims.WF ⟨2, ![50000, 128]⟩ ⟨2, ![800000, 1]⟩ ⟨2, ![800000, 128]⟩ [1] [0] [] [0] [] 1 ![1, 128])
    (wfS : ScatterDims.WF ⟨2, ![50000, 128]⟩ ⟨2, ![800000, 1]⟩ ⟨2, ![800000, 128]⟩ [1] [0] [0] 1)
    (h : (⟨2, ![50000, 128]⟩ : Shape).Idx → EReal) (hr : Cert.Spec.Mat 50000 128)
    (hh : ∀ p k, h (ix2 p k) = ((hr p k : ℝ) : EReal))
    (ei : Cert.Edges.EI) (srcIdx dstIdx : IVec ⟨2, ![800000, 1]⟩ 32)
    (hsrc : ∀ e : Fin 800000, srcIdx (ix2 e (0 : Fin 1)) = Cert.Edges.wrap (Cert.Edges.srcw ei e))
    (hdst : ∀ e : Fin 800000, dstIdx (ix2 e (0 : Fin 1)) = Cert.Edges.dstw ei e)
    (z : (⟨2, ![50000, 128]⟩ : Shape).Idx → EReal) (hz : ∀ p k, z (ix2 p k) = Ideal.ofBits .f32 0x00000000#32)
    (p : Fin 50000) (k : Fin 128) :
    Host.scatterAdd (F := Ideal) (φ := .f32) (Cert.Lib.rowsScatter 50000 128 800000 wfS) z dstIdx
        (Host.gather (Cert.Lib.rowsTake 50000 128 800000 wfG) h srcIdx) (ix2 p k)
      = ((Cert.Spec.agg (Cert.Edges.land ei) (Cert.Edges.src ei) hr p k : ℝ) : EReal) := by
  rw [Cert.Lib.scatterAdd_rowsScatter_apply, hz, Cert.Consts.ofBits_zero, zero_add]
  unfold Cert.Spec.agg
  rw [← finset_sum_coe]
  have hset : (Finset.univ.filter fun e : Fin 800000 => (dstIdx (ix2 e (0 : Fin 1))).toInt = (p.val : ℤ))
      = Cert.Edges.land ei p := by
    unfold Cert.Edges.land
    refine Finset.filter_congr fun e _ => ?_
    rw [hdst]
  rw [hset]
  refine Finset.sum_congr rfl fun e _ => ?_
  rw [Cert.Lib.gather_rowsTake_apply (by decide : 0 < 50000)]
  refine (congrArg (fun i : Fin 50000 => h (ix2 i k)) (Fin.ext ?_ : _ = Cert.Edges.src ei e)).trans (hh _ _)
  show min (srcIdx (ix2 e (0 : Fin 1))).toInt.toNat (50000 - 1)
    = min (Cert.Edges.wrap (Cert.Edges.srcw ei e)).toInt.toNat (50000 - 1)
  rw [hsrc]

end Cert.AggHost

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.HostForms.lean ====
/-
  Small host layouts read at an index: a vector laid as a one-column array (how the row numbers of a lookup or of an
  accumulation arrive), row `l` of a stacked `[L, n]` parameter array laid as one `[1, n]` row, and the division of a
  real column sum by the node count.
-/
import proofs.«148746_j9251359555639_1_alg».proof.Proof.LibSlabs
import proofs.«148746_j9251359555639_1_alg».proof.Proof.Consts
import proofs.«148746_j9251359555639_1_alg».proof.Proof.LibBatchNormForms
import Idealize.ShloMosaic.Lib.ValueIdx
import Idealize.ShloMosaic.Lib.ValueLayout
import Idealize.ShloMosaic.Lib.Pipeline.Value

noncomputable section

namespace Cert.HostForms

open Idealize.ShloMosaic Idealize.ShloMosaic.ValueIdx

variable {α : Type}

/-- A vector laid as a column reads, at `(e, 0)`, the vector's entry `e`. -/
theorem col_apply {n : ℕ} (v : (⟨1, ![n]⟩ : Shape).Idx → α)
    (h : (⟨1, ![n]⟩ : Shape).BroadcastsInDim ⟨2, ![n, 1]⟩ (![0] : Fin 1 → Fin 2)) (e : Fin n) :
    broadcastInDim ⟨2, ![n, 1]⟩ ![0] h v (ix2 e (0 : Fin 1)) = v (ix1 e) :=
  broadcastInDim_apply _ h v _ _ (fun a => match a with
    | ⟨0, _⟩ => by
      show e.val = if n = 1 then 0 else e.val
      have := e.isLt
      split <;> omega)

/-- Row `l` of a stacked parameter array, taken as a vector and laid as one row: entry `(0, q)` is the array's `(l, q)`. -/
theorem paramRow {n0 n l : ℕ} (hl : l < n0) (X : (⟨2, ![n0, n]⟩ : Shape).Idx → α)
    (hs : (⟨2, ![n0, n]⟩ : Shape).Slices ![l, 0] ⟨2, ![1, n]⟩)
    (hc1 : (⟨2, ![1, n]⟩ : Shape).ShapeCasts ⟨1, ![n]⟩) (hc2 : (⟨1, ![n]⟩ : Shape).ShapeCasts ⟨2, ![1, n]⟩) (q : Fin n) :
    shapeCast ⟨2, ![1, n]⟩ (shapeCast ⟨1, ![n]⟩ (extractStridedSlice ⟨2, ![1, n]⟩ ![l, 0] X hs) hc1) hc2 (ix2 (0 : Fin 1) q)
      = X (ix2 (⟨l, hl⟩ : Fin n0) q) := by
  rw [shapeCast_a_1a_apply]
  exact Cert.Lib.hostSlab2 hl X hs hc1 q

/-- A real column sum over the node count. -/
theorem div_N_coe (S : ℝ) : Ideal.div (S : EReal) (Ideal.ofBits .f32 0x47435000#32) = ((S / 50000 : ℝ) : EReal) := by
  rw [Cert.Consts.ofBits_N]
  exact Cert.Lib.div_coe_coe _ _ (by norm_num)

end Cert.HostForms

end
-- ==== Proof.Layer0.lean ====
/-
  Layer 0 of the kernel program, boundary by boundary.  From the boundary where the layer starts: a stretch of host
  operations forms the neighbour sums and cuts the layer's first weights and bias out of the stacked parameters; the
  first kernel computes `lin₁ = (h + agg)·W₁ + b₁` and its column sums; a stretch divides them by the node count (mean,
  mean of squares minus squared mean) and cuts out γ₁, β₁, W₂, b₂; the second kernel computes
  `lin₂ = max(norm(lin₁), 0)·W₂ + b₂` and its column sums; a stretch forms mean and variance again and cuts out γ₂, β₂;
  the third kernel normalises `lin₂` and takes the larger of it and zero.  For real features and parameters every entry along the way is a real,
  and the layer's output is the real layer function of the specification (variance as mean of squares minus squared
  mean), which needs `variance + ε > 0`: the variance equals the mean squared deviation, which is not negative.
-/
import proofs.«148746_j9251359555639_1_alg».proof.Proof.Gen.KernelIdeal.Frame
import proofs.«148746_j9251359555639_1_alg».proof.Proof.Region0
import proofs.«148746_j9251359555639_1_alg».proof.Proof.Region1
import proofs.«148746_j9251359555639_1_alg».proof.Proof.Region2
import proofs.«148746_j9251359555639_1_alg».proof.Proof.AggHost
import proofs.«148746_j9251359555639_1_alg».proof.Proof.HostForms
import proofs.«148746_j9251359555639_1_alg».proof.Proof.LibSlabs
import proofs.«148746_j9251359555639_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Layer0

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The first stretch -/

/-- The first stretch leaves the layer's input features where they were. -/
theorem a_feat : V1 m ρ c main_arg0 = W0 m ρ c (Proc.devRef .tc main_arg0) := by
  show StableHlo.after hostOps0 (W0 m ρ c) (Proc.devRef .tc main_arg0) = _
  after_results

/-- The layer's first weights, cut out of the stacked array. -/
theorem a_w1 (k : Fin 128) (q : Fin 256) :
    V1 m ρ c main_v15 (ix2 k q) = W0 m ρ c (Proc.devRef .tc main_arg3) (ix3 (0 : Fin 3) k q) := by
  have e : V1 m ρ c main_v15 = shapeCast S128x256 (extractStridedSlice S1x128x256 ![0, 0, 0] (W0 m ρ c (Proc.devRef .tc main_arg3))
      slices_S3x128x256_S1x128x256_0_0_0) shapeCasts_S1x128x256_S128x256 := by
    show StableHlo.after hostOps0 (W0 m ρ c) (Proc.devRef .tc main_v15) = _
    after_results
    rfl
  rw [e]
  exact Cert.Lib.hostSlab3 (n0 := 3) (l := 0) (by decide) _ _ _ k q

/-- The layer's first bias, as one row. -/
theorem a_b1 (q : Fin 256) :
    V1 m ρ c main_v18 (ix2 (0 : Fin 1) q) = W0 m ρ c (Proc.devRef .tc main_arg4) (ix2 (0 : Fin 3) q) := by
  have e : V1 m ρ c main_v18 = shapeCast S1x256 (shapeCast S256 (extractStridedSlice S1x256 ![0, 0] (W0 m ρ c (Proc.devRef .tc main_arg4)) slices_S3x256_S1x256_0_0) shapeCasts_S1x256_S256) shapeCasts_S256_S1x256 := by
    show StableHlo.after hostOps0 (W0 m ρ c) (Proc.devRef .tc main_v18) = _
    after_results
    rfl
  rw [e]
  exact Cert.HostForms.paramRow (n0 := 3) (l := 0) (by decide) _ _ _ _ q

set_option maxHeartbeats 1600000 in
/-- The neighbour-sum buffer as the composed host operations. -/
theorem a_agg_term : V1 m ρ c main_v13 =
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0
        (shapeCast S800000 (extractStridedSlice S1x800000 ![1, 0] (W0 m ρ c (Proc.devRef .tc main_arg1)) slices_S2x800000_S1x800000_1_0) shapeCasts_S1x800000_S800000))
      (Host.gather gather_S50000x128_S800000x1_S800000x128_1_0_n_n_0_1_1128 (W0 m ρ c (Proc.devRef .tc main_arg0))
        (broadcastInDim S800000x1 ![0] bcast_S800000_S800000x1_0
          (select
            (cmpi .slt (shapeCast S800000 (extractStridedSlice S1x800000 ![0, 0] (W0 m ρ c (Proc.devRef .tc main_arg1)) slices_S2x800000_S1x800000_0_0) shapeCasts_S1x800000_S800000) (broadcastInDim S800000 ![] bcast_S_S800000 (constantI S_ 32 0#32)))
            (addi (shapeCast S800000 (extractStridedSlice S1x800000 ![0, 0] (W0 m ρ c (Proc.devRef .tc main_arg1)) slices_S2x800000_S1x800000_0_0) shapeCasts_S1x800000_S800000) (broadcastInDim S800000 ![] bcast_S_S800000 (constantI S_ 32 50000#32)))
            (shapeCast S800000 (extractStridedSlice S1x800000 ![0, 0] (W0 m ρ c (Proc.devRef .tc main_arg1)) slices_S2x800000_S1x800000_0_0) shapeCasts_S1x800000_S800000)))) := by
  show StableHlo.after hostOps0 (W0 m ρ c) (Proc.devRef .tc main_v13) = _
  after_results
  rfl

/-- The neighbour sums of a real feature matrix, entry by entry. -/
theorem a_agg (h : Cert.Spec.Mat 50000 128)
    (hh : ∀ p k, W0 m ρ c (Proc.devRef .tc main_arg0) (ix2 p k) = ((h p k : ℝ) : EReal)) (p : Fin 50000) (k : Fin 128) :
    V1 m ρ c main_v13 (ix2 p k)
      = ((Cert.Spec.agg (Cert.Edges.land (W0 m ρ c (Proc.devRef .tc main_arg1))) (Cert.Edges.src (W0 m ρ c (Proc.devRef .tc main_arg1))) h p k : ℝ) : EReal) := by
  rw [a_agg_term]
  refine Cert.AggHost.agg_apply _ _ _ h hh (W0 m ρ c (Proc.devRef .tc main_arg1)) _ _ ?_ ?_ _ (fun _ _ => rfl) p k
  · intro e
    rw [Cert.HostForms.col_apply]
    have hs : (shapeCast S800000 (extractStridedSlice S1x800000 ![0, 0] (W0 m ρ c (Proc.devRef .tc main_arg1)) slices_S2x800000_S1x800000_0_0) shapeCasts_S1x800000_S800000) (ix1 e) = (W0 m ρ c (Proc.devRef .tc main_arg1)) (ix2 (0 : Fin 2) e) :=
      Cert.Lib.hostSlab2 (n0 := 2) (l := 0) (by decide) _ _ _ e
    show Scalar.select (IntOp.cmpi .slt ((shapeCast S800000 (extractStridedSlice S1x800000 ![0, 0] (W0 m ρ c (Proc.devRef .tc main_arg1)) slices_S2x800000_S1x800000_0_0) shapeCasts_S1x800000_S800000) (ix1 e)) 0#32) (IntOp.addi ((shapeCast S800000 (extractStridedSlice S1x800000 ![0, 0] (W0 m ρ c (Proc.devRef .tc main_arg1)) slices_S2x800000_S1x800000_0_0) shapeCasts_S1x800000_S800000) (ix1 e)) 50000#32) ((shapeCast S800000 (extractStridedSlice S1x800000 ![0, 0] (W0 m ρ c (Proc.devRef .tc main_arg1)) slices_S2x800000_S1x800000_0_0) shapeCasts_S1x800000_S800000) (ix1 e)) = _
    rw [hs]
    rfl
  · intro e
    rw [Cert.HostForms.col_apply]
    exact Cert.Lib.hostSlab2 (n0 := 2) (l := 1) (by decide) _ _ _ e

/-! ## The second stretch -/

/-- The second stretch leaves the first linear map's output where it was. -/
theorem b_lin : V3 m ρ c main_v19_0 = W2 m ρ c (Proc.devRef .tc main_v19_0) := by
  show StableHlo.after hostOps1 (W2 m ρ c) (Proc.devRef .tc main_v19_0) = _
  after_results

/-- The column mean: the running row of column sums over the node count. -/
theorem b_mean (q : Fin 256) :
    V3 m ρ c main_v21 (ix2 (0 : Fin 1) q)
      = Ideal.div (W2 m ρ c (Proc.devRef .tc main_v19_1) (ix2 (0 : Fin 1) q)) (Ideal.ofBits .f32 0x47435000#32) := by
  have e : V3 m ρ c main_v21 = Host.divf (F := Ideal) (W2 m ρ c (Proc.devRef .tc main_v19_1))
      (broadcastInDim S1x256 ![] bcast_S_S1x256 (constant (F := Ideal) S_ .f32 0x47435000#32)) := by
    show StableHlo.after hostOps1 (W2 m ρ c) (Proc.devRef .tc main_v21) = _
    after_results
  rw [e]
  rfl

/-- The column variance as the kernel's host code computes it: mean of squares minus squared mean. -/
theorem b_var (q : Fin 256) :
    V3 m ρ c main_v25 (ix2 (0 : Fin 1) q)
      = Ideal.div (W2 m ρ c (Proc.devRef .tc main_v19_2) (ix2 (0 : Fin 1) q)) (Ideal.ofBits .f32 0x47435000#32)
        - Ideal.div (W2 m ρ c (Proc.devRef .tc main_v19_1) (ix2 (0 : Fin 1) q)) (Ideal.ofBits .f32 0x47435000#32)
          * Ideal.div (W2 m ρ c (Proc.devRef .tc main_v19_1) (ix2 (0 : Fin 1) q)) (Ideal.ofBits .f32 0x47435000#32) := by
  have e : V3 m ρ c main_v25 = subf
      (Host.divf (F := Ideal) (W2 m ρ c (Proc.devRef .tc main_v19_2)) (broadcastInDim S1x256 ![] bcast_S_S1x256 (constant (F := Ideal) S_ .f32 0x47435000#32)))
      (mulf
        (Host.divf (F := Ideal) (W2 m ρ c (Proc.devRef .tc main_v19_1)) (broadcastInDim S1x256 ![] bcast_S_S1x256 (constant (F := Ideal) S_ .f32 0x47435000#32)))
        (Host.divf (F := Ideal) (W2 m ρ c (Proc.devRef .tc main_v19_1)) (broadcastInDim S1x256 ![] bcast_S_S1x256 (constant (F := Ideal) S_ .f32 0x47435000#32)))) := by
    show StableHlo.after hostOps1 (W2 m ρ c) (Proc.devRef .tc main_v25) = _
    after_results
  rw [e]
  rfl

/-- γ of the first normalisation, as one row. -/
theorem b_g (q : Fin 256) :
    V3 m ρ c main_v28 (ix2 (0 : Fin 1) q) = W2 m ρ c (Proc.devRef .tc main_arg5) (ix2 (0 : Fin 3) q) := by
  have e : V3 m ρ c main_v28 = shapeCast S1x256 (shapeCast S256 (extractStridedSlice S1x256 ![0, 0] (W2 m ρ c (Proc.devRef .tc main_arg5)) slices_S3x256_S1x256_0_0) shapeCasts_S1x256_S256) shapeCasts_S256_S1x256 := by
    show StableHlo.after hostOps1 (W2 m ρ c) (Proc.devRef .tc main_v28) = _
    after_results
    rfl
  rw [e]
  exact Cert.HostForms.paramRow (n0 := 3) (l := 0) (by decide) _ _ _ _ q

/-- β of the first normalisation, as one row. -/
theorem b_bt (q : Fin 256) :
    V3 m ρ c main_v31 (ix2 (0 : Fin 1) q) = W2 m ρ c (Proc.devRef .tc main_arg6) (ix2 (0 : Fin 3) q) := by
  have e : V3 m ρ c main_v31 = shapeCast S1x256 (shapeCast S256 (extractStridedSlice S1x256 ![0, 0] (W2 m ρ c (Proc.devRef .tc main_arg6)) slices_S3x256_S1x256_0_0) shapeCasts_S1x256_S256) shapeCasts_S256_S1x256 := by
    show StableHlo.after hostOps1 (W2 m ρ c) (Proc.devRef .tc main_v31) = _
    after_results
    rfl
  rw [e]
  exact Cert.HostForms.paramRow (n0 := 3) (l := 0) (by decide) _ _ _ _ q

/-- The layer's second weights, cut out of the stacked array. -/
theorem b_w2 (k : Fin 256) (q : Fin 128) :
    V3 m ρ c main_v33 (ix2 k q) = W2 m ρ c (Proc.devRef .tc main_arg7) (ix3 (0 : Fin 3) k q) := by
  have e : V3 m ρ c main_v33 = shapeCast S256x128 (extractStridedSlice S1x256x128 ![0, 0, 0] (W2 m ρ c (Proc.devRef .tc main_arg7))
      slices_S3x256x128_S1x256x128_0_0_0) shapeCasts_S1x256x128_S256x128 := by
    show StableHlo.after hostOps1 (W2 m ρ c) (Proc.devRef .tc main_v33) = _
    after_results
    rfl
  rw [e]
  exact Cert.Lib.hostSlab3 (n0 := 3) (l := 0) (by decide) _ _ _ k q

/-- The layer's second bias, as one row. -/
theorem b_b2 (q : Fin 128) :
    V3 m ρ c main_v36 (ix2 (0 : Fin 1) q) = W2 m ρ c (Proc.devRef .tc main_arg8) (ix2 (0 : Fin 3) q) := by
  have e : V3 m ρ c main_v36 = shapeCast S1x128 (shapeCast S128 (extractStridedSlice S1x128 ![0, 0] (W2 m ρ c (Proc.devRef .tc main_arg8)) slices_S3x128_S1x128_0_0) shapeCasts_S1x128_S128) shapeCasts_S128_S1x128 := by
    show StableHlo.after hostOps1 (W2 m ρ c) (Proc.devRef .tc main_v36) = _
    after_results
    rfl
  rw [e]
  exact Cert.HostForms.paramRow (n0 := 3) (l := 0) (by decide) _ _ _ _ q

/-! ## The third stretch -/

/-- The third stretch leaves the second linear map's output where it was. -/
theorem c_lin : V5 m ρ c main_v37_0 = W4 m ρ c (Proc.devRef .tc main_v37_0) := by
  show StableHlo.after hostOps2 (W4 m ρ c) (Proc.devRef .tc main_v37_0) = _
  after_results

/-- The column mean: the running row of column sums over the node count. -/
theorem c_mean (q : Fin 128) :
    V5 m ρ c main_v39 (ix2 (0 : Fin 1) q)
      = Ideal.div (W4 m ρ c (Proc.devRef .tc main_v37_1) (ix2 (0 : Fin 1) q)) (Ideal.ofBits .f32 0x47435000#32) := by
  have e : V5 m ρ c main_v39 = Host.divf (F := Ideal) (W4 m ρ c (Proc.devRef .tc main_v37_1))
      (broadcastInDim S1x128 ![] bcast_S_S1x128 (constant (F := Ideal) S_ .f32 0x47435000#32)) := by
    show StableHlo.after hostOps2 (W4 m ρ c) (Proc.devRef .tc main_v39) = _
    after_results
  rw [e]
  rfl

/-- The column variance as the kernel's host code computes it: mean of squares minus squared mean. -/
theorem c_var (q : Fin 128) :
    V5 m ρ c main_v43 (ix2 (0 : Fin 1) q)
      = Ideal.div (W4 m ρ c (Proc.devRef .tc main_v37_2) (ix2 (0 : Fin 1) q)) (Ideal.ofBits .f32 0x47435000#32)
        - Ideal.div (W4 m ρ c (Proc.devRef .tc main_v37_1) (ix2 (0 : Fin 1) q)) (Ideal.ofBits .f32 0x47435000#32)
          * Ideal.div (W4 m ρ c (Proc.devRef .tc main_v37_1) (ix2 (0 : Fin 1) q)) (Ideal.ofBits .f32 0x47435000#32) := by
  have e : V5 m ρ c main_v43 = subf
      (Host.divf (F := Ideal) (W4 m ρ c (Proc.devRef .tc main_v37_2)) (broadcastInDim S1x128 ![] bcast_S_S1x128 (constant (F := Ideal) S_ .f32 0x47435000#32)))
      (mulf
        (Host.divf (F := Ideal) (W4 m ρ c (Proc.devRef .tc main_v37_1)) (broadcastInDim S1x128 ![] bcast_S_S1x128 (constant (F := Ideal) S_ .f32 0x47435000#32)))
        (Host.divf (F := Ideal) (W4 m ρ c (Proc.devRef .tc main_v37_1)) (broadcastInDim S1x128 ![] bcast_S_S1x128 (constant (F := Ideal) S_ .f32 0x47435000#32)))) := by
    show StableHlo.after hostOps2 (W4 m ρ c) (Proc.devRef .tc main_v43) = _
    after_results
  rw [e]
  rfl

/-- γ of the second normalisation, as one row. -/
theorem c_g (q : Fin 128) :
    V5 m ρ c main_v46 (ix2 (0 : Fin 1) q) = W4 m ρ c (Proc.devRef .tc main_arg9) (ix2 (0 : Fin 3) q) := by
  have e : V5 m ρ c main_v46 = shapeCast S1x128 (shapeCast S128 (extractStridedSlice S1x128 ![0, 0] (W4 m ρ c (Proc.devRef .tc main_arg9)) slices_S3x128_S1x128_0_0) shapeCasts_S1x128_S128) shapeCasts_S128_S1x128 := by
    show StableHlo.after hostOps2 (W4 m ρ c) (Proc.devRef .tc main_v46) = _
    after_results
    rfl
  rw [e]
  exact Cert.HostForms.paramRow (n0 := 3) (l := 0) (by decide) _ _ _ _ q

/-- β of the second normalisation, as one row. -/
theorem c_bt (q : Fin 128) :
    V5 m ρ c main_v49 (ix2 (0 : Fin 1) q) = W4 m ρ c (Proc.devRef .tc main_arg10) (ix2 (0 : Fin 3) q) := by
  have e : V5 m ρ c main_v49 = shapeCast S1x128 (shapeCast S128 (extractStridedSlice S1x128 ![0, 0] (W4 m ρ c (Proc.devRef .tc main_arg10)) slices_S3x128_S1x128_0_0) shapeCasts_S1x128_S128) shapeCasts_S128_S1x128 := by
    show StableHlo.after hostOps2 (W4 m ρ c) (Proc.devRef .tc main_v49) = _
    after_results
    rfl
  rw [e]
  exact Cert.HostForms.paramRow (n0 := 3) (l := 0) (by decide) _ _ _ _ q

/-! ## The layer -/

section Layer

variable (ei : Cert.Edges.EI) (h : Cert.Spec.Mat 50000 128) (Wa : Cert.Spec.Mat 128 256) (b1 g1 bt1 : Fin 256 → ℝ)
  (Wb : Cert.Spec.Mat 256 128) (b2 g2 bt2 : Fin 128 → ℝ)

/-- The layer's intermediate real matrices: the neighbour sums, the first linear map, the second linear map. -/
abbrev aggr : Cert.Spec.Mat 50000 128 := Cert.Spec.agg (Cert.Edges.land ei) (Cert.Edges.src ei) h
abbrev L1r : Cert.Spec.Mat 50000 256 := Cert.Spec.lin (Cert.Spec.addM h (aggr ei h)) Wa b1
abbrev L2r : Cert.Spec.Mat 50000 128 :=
  Cert.Spec.lin (Cert.Spec.relu (Cert.Spec.bn (Cert.Spec.mean 50000 (L1r ei h Wa b1)) (Cert.Spec.varSq 50000 (L1r ei h Wa b1))
    Cert.Consts.eps g1 bt1 (L1r ei h Wa b1))) Wb b2

/-- A column variance plus ε is positive: the variance is the mean squared deviation. -/
theorem var_pos {H : ℕ} (z : Cert.Spec.Mat 50000 H) (q : Fin H) : 0 < Cert.Spec.varSq 50000 z q + Cert.Consts.eps := by
  rw [Cert.Spec.varSq_eq_varDev 50000 (by norm_num) (by norm_num)]
  exact add_pos_of_nonneg_of_pos (Cert.Spec.varDev_nonneg 50000 (by norm_num) z q) Cert.Consts.eps_pos

variable (hei : W0 m ρ c (Proc.devRef .tc main_arg1) = ei)
  (hh : ∀ p k, W0 m ρ c (Proc.devRef .tc main_arg0) (ix2 p k) = ((h p k : ℝ) : EReal))
  (hW1 : ∀ k q, W0 m ρ c (Proc.devRef .tc main_arg3) (ix3 (0 : Fin 3) k q) = ((Wa k q : ℝ) : EReal))
  (hb1 : ∀ q, W0 m ρ c (Proc.devRef .tc main_arg4) (ix2 (0 : Fin 3) q) = ((b1 q : ℝ) : EReal))
  (hg1 : ∀ q, W2 m ρ c (Proc.devRef .tc main_arg5) (ix2 (0 : Fin 3) q) = ((g1 q : ℝ) : EReal))
  (hbt1 : ∀ q, W2 m ρ c (Proc.devRef .tc main_arg6) (ix2 (0 : Fin 3) q) = ((bt1 q : ℝ) : EReal))
  (hW2 : ∀ k q, W2 m ρ c (Proc.devRef .tc main_arg7) (ix3 (0 : Fin 3) k q) = ((Wb k q : ℝ) : EReal))
  (hb2 : ∀ q, W2 m ρ c (Proc.devRef .tc main_arg8) (ix2 (0 : Fin 3) q) = ((b2 q : ℝ) : EReal))
  (hg2 : ∀ q, W4 m ρ c (Proc.devRef .tc main_arg9) (ix2 (0 : Fin 3) q) = ((g2 q : ℝ) : EReal))
  (hbt2 : ∀ q, W4 m ρ c (Proc.devRef .tc main_arg10) (ix2 (0 : Fin 3) q) = ((bt2 q : ℝ) : EReal))

include hei hh hW1 hb1 in
/-- After the first kernel: the first linear map and its column sums. -/
theorem stageA : (∀ p q, W2 m ρ c (Proc.devRef .tc main_v19_0) (ix2 p q) = ((L1r ei h Wa b1 p q : ℝ) : EReal))
    ∧ (∀ q, W2 m ρ c (Proc.devRef .tc main_v19_1) (ix2 (0 : Fin 1) q) = ((Cert.Spec.colSum (L1r ei h Wa b1) q : ℝ) : EReal))
    ∧ (∀ q, W2 m ρ c (Proc.devRef .tc main_v19_2) (ix2 (0 : Fin 1) q) = ((Cert.Spec.colSumSq (L1r ei h Wa b1) q : ℝ) : EReal)) := by
  have hh' : ∀ p k, V1 m ρ c main_arg0 (ix2 p k) = ((h p k : ℝ) : EReal) :=
    fun p k => (congrFun (a_feat m ρ c) (ix2 p k)).trans (hh p k)
  have ha' : ∀ p k, V1 m ρ c main_v13 (ix2 p k) = ((aggr ei h p k : ℝ) : EReal) :=
    fun p k => (a_agg m ρ c h hh p k).trans (by rw [hei])
  have hW' : ∀ k q, V1 m ρ c main_v15 (ix2 k q) = ((Wa k q : ℝ) : EReal) := fun k q => (a_w1 m ρ c k q).trans (hW1 k q)
  have hb' : ∀ q, V1 m ρ c main_v18 (ix2 (0 : Fin 1) q) = ((b1 q : ℝ) : EReal) := fun q => (a_b1 m ρ c q).trans (hb1 q)
  refine ⟨fun p q => ?_, fun q => ?_, fun q => ?_⟩
  · exact (congrFun (W2_arr m ρ c 4) (ix2 p q)).trans
      (Cert.KernelIdeal.Reg0.value_4 (V1 m ρ) c h (aggr ei h) Wa b1 hh' ha' hW' hb' p q)
  · exact (congrFun (W2_arr m ρ c 5) (ix2 (0 : Fin 1) q)).trans
      (Cert.KernelIdeal.Reg0.value_5 (V1 m ρ) c h (aggr ei h) Wa b1 hh' ha' hW' hb' q)
  · exact (congrFun (W2_arr m ρ c 6) (ix2 (0 : Fin 1) q)).trans
      (Cert.KernelIdeal.Reg0.value_6 (V1 m ρ) c h (aggr ei h) Wa b1 hh' ha' hW' hb' q)

include hei hh hW1 hb1 hg1 hbt1 hW2 hb2 in
/-- After the second kernel: the second linear map and its column sums. -/
theorem stageB : (∀ p q, W4 m ρ c (Proc.devRef .tc main_v37_0) (ix2 p q) = ((L2r ei h Wa b1 g1 bt1 Wb b2 p q : ℝ) : EReal))
    ∧ (∀ q, W4 m ρ c (Proc.devRef .tc main_v37_1) (ix2 (0 : Fin 1) q) = ((Cert.Spec.colSum (L2r ei h Wa b1 g1 bt1 Wb b2) q : ℝ) : EReal))
    ∧ (∀ q, W4 m ρ c (Proc.devRef .tc main_v37_2) (ix2 (0 : Fin 1) q) = ((Cert.Spec.colSumSq (L2r ei h Wa b1 g1 bt1 Wb b2) q : ℝ) : EReal)) := by
  obtain ⟨hl, hs, hq⟩ := stageA m ρ c ei h Wa b1 hei hh hW1 hb1
  have hz' : ∀ p k, V3 m ρ c main_v19_0 (ix2 p k) = ((L1r ei h Wa b1 p k : ℝ) : EReal) :=
    fun p k => (congrFun (b_lin m ρ c) (ix2 p k)).trans (hl p k)
  have hμ' : ∀ k, V3 m ρ c main_v21 (ix2 (0 : Fin 1) k) = ((Cert.Spec.mean 50000 (L1r ei h Wa b1) k : ℝ) : EReal) :=
    fun k => (b_mean m ρ c k).trans (by rw [hs k]; exact Cert.HostForms.div_N_coe _)
  have hv' : ∀ k, V3 m ρ c main_v25 (ix2 (0 : Fin 1) k) = ((Cert.Spec.varSq 50000 (L1r ei h Wa b1) k : ℝ) : EReal) :=
    fun k => (b_var m ρ c k).trans (by
      rw [hq k, hs k, Cert.HostForms.div_N_coe, Cert.HostForms.div_N_coe, ← EReal.coe_mul, ← EReal.coe_sub]; rfl)
  have hg' : ∀ k, V3 m ρ c main_v28 (ix2 (0 : Fin 1) k) = ((g1 k : ℝ) : EReal) := fun k => (b_g m ρ c k).trans (hg1 k)
  have hbt' : ∀ k, V3 m ρ c main_v31 (ix2 (0 : Fin 1) k) = ((bt1 k : ℝ) : EReal) := fun k => (b_bt m ρ c k).trans (hbt1 k)
  have hW' : ∀ k q, V3 m ρ c main_v33 (ix2 k q) = ((Wb k q : ℝ) : EReal) := fun k q => (b_w2 m ρ c k q).trans (hW2 k q)
  have hb' : ∀ q, V3 m ρ c main_v36 (ix2 (0 : Fin 1) q) = ((b2 q : ℝ) : EReal) := fun q => (b_b2 m ρ c q).trans (hb2 q)
  have hpos : ∀ k, 0 < Cert.Spec.varSq 50000 (L1r ei h Wa b1) k + Cert.Consts.eps := fun k => var_pos _ k
  refine ⟨fun p q => ?_, fun q => ?_, fun q => ?_⟩
  · exact (congrFun (W4_arr m ρ c 7) (ix2 p q)).trans
      (Cert.KernelIdeal.Reg1.value_7 (V3 m ρ) c (L1r ei h Wa b1) _ _ g1 bt1 Wb b2 hz' hμ' hv' hg' hbt' hW' hb' hpos p q)
  · exact (congrFun (W4_arr m ρ c 8) (ix2 (0 : Fin 1) q)).trans
      (Cert.KernelIdeal.Reg1.value_8 (V3 m ρ) c (L1r ei h Wa b1) _ _ g1 bt1 Wb b2 hz' hμ' hv' hg' hbt' hW' hb' hpos q)
  · exact (congrFun (W4_arr m ρ c 9) (ix2 (0 : Fin 1) q)).trans
      (Cert.KernelIdeal.Reg1.value_9 (V3 m ρ) c (L1r ei h Wa b1) _ _ g1 bt1 Wb b2 hz' hμ' hv' hg' hbt' hW' hb' hpos q)

include hei hh hW1 hb1 hg1 hbt1 hW2 hb2 hg2 hbt2 in
/-- THE LAYER: its output buffer at the next layer's boundary is the real layer function of the specification. -/
theorem layer (p : Fin 50000) (k : Fin 128) :
    W6 m ρ c (Proc.devRef .tc main_v50) (ix2 p k)
      = ((Cert.Spec.layerSq 50000 Cert.Consts.eps false (Cert.Edges.land ei) (Cert.Edges.src ei) Wa b1 g1 bt1 Wb b2 g2 bt2 h p k : ℝ) : EReal) := by
  obtain ⟨hl, hs, hq⟩ := stageB m ρ c ei h Wa b1 g1 bt1 Wb b2 hei hh hW1 hb1 hg1 hbt1 hW2 hb2
  have hz' : ∀ p k, V5 m ρ c main_v37_0 (ix2 p k) = ((L2r ei h Wa b1 g1 bt1 Wb b2 p k : ℝ) : EReal) :=
    fun p k => (congrFun (c_lin m ρ c) (ix2 p k)).trans (hl p k)
  have hμ' : ∀ k, V5 m ρ c main_v39 (ix2 (0 : Fin 1) k) = ((Cert.Spec.mean 50000 (L2r ei h Wa b1 g1 bt1 Wb b2) k : ℝ) : EReal) :=
    fun k => (c_mean m ρ c k).trans (by rw [hs k]; exact Cert.HostForms.div_N_coe _)
  have hv' : ∀ k, V5 m ρ c main_v43 (ix2 (0 : Fin 1) k) = ((Cert.Spec.varSq 50000 (L2r ei h Wa b1 g1 bt1 Wb b2) k : ℝ) : EReal) :=
    fun k => (c_var m ρ c k).trans (by
      rw [hq k, hs k, Cert.HostForms.div_N_coe, Cert.HostForms.div_N_coe, ← EReal.coe_mul, ← EReal.coe_sub]; rfl)
  have hg' : ∀ k, V5 m ρ c main_v46 (ix2 (0 : Fin 1) k) = ((g2 k : ℝ) : EReal) := fun k => (c_g m ρ c k).trans (hg2 k)
  have hbt' : ∀ k, V5 m ρ c main_v49 (ix2 (0 : Fin 1) k) = ((bt2 k : ℝ) : EReal) := fun k => (c_bt m ρ c k).trans (hbt2 k)
  have hpos : ∀ k, 0 < Cert.Spec.varSq 50000 (L2r ei h Wa b1 g1 bt1 Wb b2) k + Cert.Consts.eps := fun k => var_pos _ k
  refine ((congrFun (W6_arr m ρ c 5) (ix2 p k)).trans
    (Cert.KernelIdeal.Reg2.value (V5 m ρ) c (L2r ei h Wa b1 g1 bt1 Wb b2) _ _ g2 bt2 hz' hμ' hv' hg' hbt' hpos p k)).trans ?_
  rfl

end Layer

end Cert.KernelIdeal.Layer0

end
-- ==== Proof.Pieces3.lean ====
/-
  What the first kernel of a layer leaves in its three output buffers at one grid point, as values.  At the first point
  the two running rows are reset to zero and then take in the block's column sums; at every later point they take them in
  on top of what the point before left.  The block of the linear map is stored whole at every point.
-/
import proofs.«148746_j9251359555639_1_alg».proof.Proof.Gen.KernelIdeal.Frame
import Idealize.ShloMosaic.Lib.Pipeline.Value
import Idealize.ShloMosaic.Lib.ValueIdx

set_option maxRecDepth 16384

noncomputable section

namespace Cert.KernelIdeal.Reg3

open Idealize.ShloMosaic Idealize.ShloMosaic.ValueIdx Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

section Pieces
variable (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole)
  (x0 : Vec F S2000x128 .f32) (x1 : Vec F S2000x128 .f32) (x2 : Vec F S128x256 .f32) (x3 : Vec F S1x256 .f32)

/-- First point: the block of the linear map. -/
theorem out_A_4 (hc0 : cond3_0 i) :
    out3_A_4 c i arg1 harg1 arg2 harg2 arg3 harg3 arg4 harg4 arg5 harg5 arg6 harg6 arg7 harg7 hc0 x0 x1 x2 x3 = k3_pay1 x0 x1 x2 x3 := by
  unfold out3_A_4
  rw [View.read_writes_eq_canon _ _ _ (cover3_A_4 c i arg1 harg1 arg2 harg2 arg3 harg3 arg4 harg4 arg5 harg5 arg6 harg6 arg7 harg7 hc0 x0 x1 x2 x3)]
  unfold kernelRun3_A
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

/-- First point: the running column sums start from the zero row. -/
theorem out_A_5 (hc0 : cond3_0 i) :
    out3_A_5 c i arg1 harg1 arg2 harg2 arg3 harg3 arg4 harg4 arg5 harg5 arg6 harg6 arg7 harg7 hc0 x0 x1 x2 x3 = k3_pay4 x0 x1 x2 x3 k3_pay2 := by
  unfold out3_A_5
  rw [View.read_writes_eq_canon _ _ _ (cover3_A_5 c i arg1 harg1 arg2 harg2 arg3 harg3 arg4 harg4 arg5 harg5 arg6 harg6 arg7 harg7 hc0 x0 x1 x2 x3)]
  unfold kernelRun3_A
  dsimp only
  sl_unfold_words
  rw [View.canon_cons_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]
  rw [View.readCov_unit_zero _ hz]

/-- First point: the running column sums of squares start from the zero row. -/
theorem out_A_6 (hc0 : cond3_0 i) :
    out3_A_6 c i arg1 harg1 arg2 harg2 arg3 harg3 arg4 harg4 arg5 harg5 arg6 harg6 arg7 harg7 hc0 x0 x1 x2 x3 = k3_pay5 x0 x1 x2 x3 k3_pay3 := by
  unfold out3_A_6
  rw [View.read_writes_eq_canon _ _ _ (cover3_A_6 c i arg1 harg1 arg2 harg2 arg3 harg3 arg4 harg4 arg5 harg5 arg6 harg6 arg7 harg7 hc0 x0 x1 x2 x3)]
  unfold kernelRun3_A
  dsimp only
  sl_unfold_words
  rw [View.canon_cons_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]
  rw [View.readCov_unit_zero _ hz]

/-- A later point: the block of the linear map. -/
theorem out_B_4 (hc0 : ¬cond3_0 i) (xo5 xo6 : Vec F S1x256 .f32) :
    out3_B_4 c i arg1 harg1 arg2 harg2 arg3 harg3 arg4 harg4 arg5 harg5 arg6 harg6 arg7 harg7 hc0 x0 x1 x2 x3 xo5 xo6 = k3_pay1 x0 x1 x2 x3 := by
  unfold out3_B_4
  rw [View.read_writes_eq_canon _ _ _ (cover3_B_4 c i arg1 harg1 arg2 harg2 arg3 harg3 arg4 harg4 arg5 harg5 arg6 harg6 arg7 harg7 hc0 x0 x1 x2 x3 xo5 xo6)]
  unfold kernelRun3_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

/-- A later point: the running column sums over what the point before left. -/
theorem out_B_5 (hc0 : ¬cond3_0 i) (xo5 xo6 : Vec F S1x256 .f32) :
    out3_B_5 c i arg1 harg1 arg2 harg2 arg3 harg3 arg4 harg4 arg5 harg5 arg6 harg6 arg7 harg7 hc0 x0 x1 x2 x3 xo5 xo6 = k3_pay4 x0 x1 x2 x3 xo5 := by
  unfold out3_B_5
  rw [View.read_writes_eq_canon _ _ _ (cover3_B_5 c i arg1 harg1 arg2 harg2 arg3 harg3 arg4 harg4 arg5 harg5 arg6 harg6 arg7 harg7 hc0 x0 x1 x2 x3 xo5 xo6)]
  unfold kernelRun3_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

/-- A later point: the running column sums of squares over what the point before left. -/
theorem out_B_6 (hc0 : ¬cond3_0 i) (xo5 xo6 : Vec F S1x256 .f32) :
    out3_B_6 c i arg1 harg1 arg2 harg2 arg3 harg3 arg4 harg4 arg5 harg5 arg6 harg6 arg7 harg7 hc0 x0 x1 x2 x3 xo5 xo6 = k3_pay5 x0 x1 x2 x3 xo6 := by
  unfold out3_B_6
  rw [View.read_writes_eq_canon _ _ _ (cover3_B_6 c i arg1 harg1 arg2 harg2 arg3 harg3 arg4 harg4 arg5 harg5 arg6 harg6 arg7 harg7 hc0 x0 x1 x2 x3 xo5 xo6)]
  unfold kernelRun3_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

end Pieces

end Cert.KernelIdeal.Reg3

end
-- ==== Proof.Region3.lean ====
/-
  The first kernel of a layer as whole arrays.  The grid has 25 points; point `t` reads rows `2000·t … 2000·t + 1999` of
  the node features and of the neighbour sums, the weights and the bias row whole, and writes back the same rows of
  `lin = (h + agg)·W + b`.  The two `[1, 256]` outputs are running rows: reset at the first point, each point adds its
  block's column sums (of `lin`, of `lin²`), and the last point writes them back.  Since the 25 blocks of 2000 rows are
  the 50000 rows once each, the rows end at the column sums of `lin` and of `lin²` over all nodes.  For real inputs
  every entry is a real.
-/
import proofs.«148746_j9251359555639_1_alg».proof.Proof.Gen.KernelIdeal.Frame
import proofs.«148746_j9251359555639_1_alg».proof.Proof.Pieces3
import proofs.«148746_j9251359555639_1_alg».proof.Proof.PayA
import proofs.«148746_j9251359555639_1_alg».proof.Proof.RealOps
import proofs.«148746_j9251359555639_1_alg».proof.Proof.Spec
import proofs.«148746_j9251359555639_1_alg».proof.Proof.LibGridSum
import Idealize.ShloMosaic.Lib.Pipeline.Value

set_option maxRecDepth 16384

noncomputable section

namespace Cert.KernelIdeal.Reg3

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The printed index maps over the grid: the row blocks move with the point, everything else stays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

theorem N_eq : cfg3.N = 25 := N_3

theorem iblk_0 (c : Dev nD) (t : Fin cfg3.N) (y0 : Fin 2000) (k : Fin 128) (hr : t.val * 2000 + y0.val < 50000) :
    iblk3 V c 0 t (ix2 y0 k) = V c main_v50 (ix2 (⟨t.val * 2000 + y0.val, hr⟩ : Fin 50000) k) := by
  show V c main_v50 (((cfg3.win 0).blk t).view.emb (ix2 y0 k)) = _
  refine congrArg (V c main_v50) ?_
  obtain ⟨e0, e1, -⟩ := idx_facts t
  funext a; apply Fin.ext
  match a with
  | ⟨0, _⟩ => show win3_0.index t (0 : Fin 2) * 2000 + 1 * y0.val = t.val * 2000 + y0.val; omega
  | ⟨1, _⟩ => show win3_0.index t (1 : Fin 2) * 128 + 1 * k.val = k.val; omega

theorem iblk_1 (c : Dev nD) (t : Fin cfg3.N) (y0 : Fin 2000) (k : Fin 128) (hr : t.val * 2000 + y0.val < 50000) :
    iblk3 V c 1 t (ix2 y0 k) = V c main_v60 (ix2 (⟨t.val * 2000 + y0.val, hr⟩ : Fin 50000) k) := by
  show V c main_v60 (((cfg3.win 1).blk t).view.emb (ix2 y0 k)) = _
  refine congrArg (V c main_v60) ?_
  obtain ⟨-, -, e0, e1, -⟩ := idx_facts t
  funext a; apply Fin.ext
  match a with
  | ⟨0, _⟩ => show win3_1.index t (0 : Fin 2) * 2000 + 1 * y0.val = t.val * 2000 + y0.val; omega
  | ⟨1, _⟩ => show win3_1.index t (1 : Fin 2) * 128 + 1 * k.val = k.val; omega

theorem iblk_2 (c : Dev nD) (t : Fin cfg3.N) (k : Fin 128) (q : Fin 256) :
    iblk3 V c 2 t (ix2 k q) = V c main_v62 (ix2 k q) := by
  show V c main_v62 (((cfg3.win 2).blk t).view.emb (ix2 k q)) = _
  refine congrArg (V c main_v62) ?_
  obtain ⟨-, -, -, -, e0, e1, -⟩ := idx_facts t
  funext a; apply Fin.ext
  match a with
  | ⟨0, _⟩ => show win3_2.index t (0 : Fin 2) * 128 + 1 * k.val = k.val; omega
  | ⟨1, _⟩ => show win3_2.index t (1 : Fin 2) * 256 + 1 * q.val = q.val; omega

theorem iblk_3 (c : Dev nD) (t : Fin cfg3.N) (q : Fin 256) :
    iblk3 V c 3 t (ix2 (0 : Fin 1) q) = V c main_v65 (ix2 (0 : Fin 1) q) := by
  show V c main_v65 (((cfg3.win 3).blk t).view.emb (ix2 (0 : Fin 1) q)) = _
  refine congrArg (V c main_v65) ?_
  obtain ⟨-, -, -, -, -, -, e0, e1, -⟩ := idx_facts t
  funext a; apply Fin.ext
  match a with
  | ⟨0, _⟩ => show win3_3.index t (0 : Fin 2) * 1 + 1 * 0 = 0; omega
  | ⟨1, _⟩ => show win3_3.index t (1 : Fin 2) * 256 + 1 * q.val = q.val; omega

/-- The block of the linear map that point `t` computes. -/
def blk (c : Dev nD) (t : Fin cfg3.N) : Vec Ideal S2000x256 .f32 :=
  k3_pay1 (F := Ideal) (iblk3 V c 0 t) (iblk3 V c 1 t) (iblk3 V c 2 t) (iblk3 V c 3 t)

/-- Point `s`'s column sums of its block and of its block's squares (zero past the grid). -/
def colB (c : Dev nD) (s : ℕ) (q : Fin 256) : EReal :=
  if h : s < cfg3.N then ∑ r : Fin 2000, blk V c ⟨s, h⟩ (ix2 r q) else 0
def colQ (c : Dev nD) (s : ℕ) (q : Fin 256) : EReal :=
  if h : s < cfg3.N then ∑ r : Fin 2000, blk V c ⟨s, h⟩ (ix2 r q) * blk V c ⟨s, h⟩ (ix2 r q) else 0

/-- After every point the first output's buffer holds that point's block. -/
theorem outs_lin (c : Dev nD) (t : Fin cfg3.N) : (outsAt3 V c t.val t.isLt).1 = blk V c t := by
  by_cases h0 : t.val % 25 = 0
  · rw [outsAt3_A V c t h0]
    dsimp only
    exact out_A_4 (F := Ideal) _ _ _ _ _ _ _ _ _ _ _ _ _ _ _ _ _ _ _ _ _
  · rw [outsAt3_B V c t h0]
    dsimp only
    exact out_B_4 (F := Ideal) _ _ _ _ _ _ _ _ _ _ _ _ _ _ _ _ _ _ _ _ _ _ _

/-- After point `n` the running row of column sums holds zero plus the first `n + 1` points' column sums. -/
theorem outs_sum (c : Dev nD) : ∀ (n : ℕ) (hn : n < cfg3.N) (q : Fin 256),
    (outsAt3 V c n hn).2.1 (ix2 (0 : Fin 1) q)
      = Ideal.ofBits .f32 0x00000000#32 + ∑ s ∈ Finset.range (n + 1), colB V c s q
  | 0, hn, q => by
    have e := outsAt3_A V c ⟨0, hn⟩ (Nat.zero_mod _)
    rw [show outsAt3 V c 0 hn = _ from e]
    dsimp only
    rw [out_A_5, Pay.k3_pay4_apply, Finset.sum_range_one]
    refine congrArg₂ (· + ·) (by rfl) ?_
    unfold colB
    rw [dif_pos hn]
    rfl
  | n + 1, hn, q => by
    have hN : n + 1 < 25 := lt_of_lt_of_eq hn N_eq
    have h0 : ¬(n + 1) % 25 = 0 := by omega
    have e := outsAt3_B V c ⟨n + 1, hn⟩ h0
    have ih := outs_sum c n (Nat.lt_of_succ_lt hn) q
    rw [show outsAt3 V c (n + 1) hn = _ from e]
    dsimp only
    rw [out_B_5, Pay.k3_pay4_apply, Finset.sum_range_succ _ (n + 1), ← add_assoc]
    refine congrArg₂ (· + ·) ih ?_
    unfold colB
    rw [dif_pos hn]
    rfl

/-- After point `n` the running row of column sums of squares holds zero plus the first `n + 1` points' sums. -/
theorem outs_sumsq (c : Dev nD) : ∀ (n : ℕ) (hn : n < cfg3.N) (q : Fin 256),
    (outsAt3 V c n hn).2.2 (ix2 (0 : Fin 1) q)
      = Ideal.ofBits .f32 0x00000000#32 + ∑ s ∈ Finset.range (n + 1), colQ V c s q
  | 0, hn, q => by
    have e := outsAt3_A V c ⟨0, hn⟩ (Nat.zero_mod _)
    rw [show outsAt3 V c 0 hn = _ from e]
    dsimp only
    rw [out_A_6, Pay.k3_pay5_apply, Finset.sum_range_one]
    refine congrArg₂ (· + ·) (by rfl) ?_
    unfold colQ
    rw [dif_pos hn]
    rfl
  | n + 1, hn, q => by
    have hN : n + 1 < 25 := lt_of_lt_of_eq hn N_eq
    have h0 : ¬(n + 1) % 25 = 0 := by omega
    have e := outsAt3_B V c ⟨n + 1, hn⟩ h0
    have ih := outs_sumsq c n (Nat.lt_of_succ_lt hn) q
    rw [show outsAt3 V c (n + 1) hn = _ from e]
    dsimp only
    rw [out_B_6, Pay.k3_pay5_apply, Finset.sum_range_succ _ (n + 1), ← add_assoc]
    refine congrArg₂ (· + ·) ih ?_
    unfold colQ
    rw [dif_pos hn]
    rfl

/-! ## Which indices a point's blocks cover -/

/-- An index of the first output lies in point `t`'s block iff its row is among the block's 2000 rows. -/
theorem mem_blk_4 (t : Fin cfg3.N) (i : S50000x256.Idx) :
    i ∈ ((cfg3.win 4).blk t).view.set ↔ ∀ a : Fin 2, win3_4.index t a * S2000x256.size a ≤ (i a).val
      ∧ (i a).val < win3_4.index t a * S2000x256.size a + S2000x256.size a := by
  show i ∈ ((View.whole main_v66_0).slice (win3_4.rect t)).set ↔ _
  rw [View.set_slice_whole, Rect.mem_set_unit]
  exact Iff.rfl

/-- An index of the `[1, 256]` output 5 lies in every point's block: the block is the whole row. -/
theorem mem_blk_5 (t : Fin cfg3.N) (i : S1x256.Idx) :
    i ∈ ((cfg3.win 5).blk t).view.set ↔ ∀ a : Fin 2, win3_5.index t a * S1x256.size a ≤ (i a).val
      ∧ (i a).val < win3_5.index t a * S1x256.size a + S1x256.size a := by
  show i ∈ ((View.whole main_v66_1).slice (win3_5.rect t)).set ↔ _
  rw [View.set_slice_whole, Rect.mem_set_unit]
  exact Iff.rfl

/-- An index of the `[1, 256]` output 6 lies in every point's block: the block is the whole row. -/
theorem mem_blk_6 (t : Fin cfg3.N) (i : S1x256.Idx) :
    i ∈ ((cfg3.win 6).blk t).view.set ↔ ∀ a : Fin 2, win3_6.index t a * S1x256.size a ≤ (i a).val
      ∧ (i a).val < win3_6.index t a * S1x256.size a + S1x256.size a := by
  show i ∈ ((View.whole main_v66_2).slice (win3_6.rect t)).set ↔ _
  rw [View.set_slice_whole, Rect.mem_set_unit]
  exact Iff.rfl

/-! ## Real inputs -/

section Real

variable (c : Dev nD) (h a : Cert.Spec.Mat 50000 128) (W : Cert.Spec.Mat 128 256) (b : Fin 256 → ℝ)

/-- The linear map of the layer over the reals. -/
abbrev L : Cert.Spec.Mat 50000 256 := Cert.Spec.lin (Cert.Spec.addM h a) W b

variable (hh : ∀ p k, V c main_v50 (ix2 p k) = ((h p k : ℝ) : EReal))
  (ha : ∀ p k, V c main_v60 (ix2 p k) = ((a p k : ℝ) : EReal))
  (hW : ∀ k q, V c main_v62 (ix2 k q) = ((W k q : ℝ) : EReal))
  (hb : ∀ q, V c main_v65 (ix2 (0 : Fin 1) q) = ((b q : ℝ) : EReal))
include hh ha hW hb

/-- Point `t`'s block at real inputs: rows `2000·t …` of the real linear map. -/
theorem blk_real (t : Fin cfg3.N) (y0 : Fin 2000) (q : Fin 256) (hr : t.val * 2000 + y0.val < 50000) :
    blk V c t (ix2 y0 q) = ((L h a W b ⟨t.val * 2000 + y0.val, hr⟩ q : ℝ) : EReal) := by
  unfold blk
  rw [Pay.k3_pay1_apply, iblk_3, hb]
  simp only [iblk_0 V c t y0 _ hr, iblk_1 V c t y0 _ hr, iblk_2, hh, ha, hW, ← EReal.coe_add]
  rw [Cert.RealOps.dot_coe (fun k => h ⟨t.val * 2000 + y0.val, hr⟩ k + a ⟨t.val * 2000 + y0.val, hr⟩ k) (fun k => W k q),
    ← EReal.coe_add]
  rfl

/-- THE FIRST OUTPUT after the run, entry by entry, for real inputs: the real linear map. -/
theorem value_4 (p : Fin 50000) (q : Fin 256) :
    (dat3 V c).arrAt 4 cfg3.N (ix2 p q) = ((L h a W b p q : ℝ) : EReal) := by
  refine (dat3 V c).arrAt_forall_of_cover 4
    (fun i x => ∀ (p : Fin 50000) (q : Fin 256), i = ix2 p q → x = ((L h a W b p q : ℝ) : EReal)) ?_ ?_ (ix2 p q) p q rfl
  · intro t _ y p q hi
    obtain ⟨y0, y1, rfl⟩ : ∃ (y0 : Fin 2000) (y1 : Fin 256), y = ix2 y0 y1 := ⟨y 0, y 1, eq_ix2 y⟩
    have ht : t.val < 25 := lt_of_lt_of_eq t.isLt N_eq
    have hr : t.val * 2000 + y0.val < 50000 := by have := y0.isLt; omega
    obtain ⟨-, -, -, -, -, -, -, -, e0, e1, -⟩ := idx_facts t
    have hp : p = (⟨t.val * 2000 + y0.val, hr⟩ : Fin 50000) := by
      apply Fin.ext
      have h0 := congrArg (fun j : S50000x256.Idx => (j 0).val) hi
      have : win3_4.index t (0 : Fin 2) * 2000 + 1 * y0.val = p.val := h0
      show p.val = t.val * 2000 + y0.val
      omega
    have hk : q = y1 := by
      apply Fin.ext
      have h1 := congrArg (fun j : S50000x256.Idx => (j 1).val) hi
      have : win3_4.index t (1 : Fin 2) * 256 + 1 * y1.val = q.val := h1
      show q.val = y1.val
      omega
    subst hp hk
    show (cfg3.win 4).cut (grid3.coords t) ((dat3 V c).after 4 t) (ix2 y0 q) = _
    rw [after3_4, outs_lin]
    show blk V c t (ix2 y0 q) = _
    rw [blk_real V c h a W b hh ha hW hb t y0 q hr]
  · intro i
    have hi0 : (i 0).val < 50000 := idx2_lt0 i
    have hi1 : (i 1).val < 256 := idx2_lt1 i
    refine ⟨⟨(i 0).val / 2000, by rw [N_eq]; omega⟩, flush3_4 _, ?_⟩
    rw [mem_blk_4]
    obtain ⟨-, -, -, -, -, -, -, -, e0, e1, -⟩ := idx_facts ⟨(i 0).val / 2000, by rw [N_eq]; omega⟩
    intro a
    match a with
    | ⟨0, _⟩ =>
      show win3_4.index _ (0 : Fin 2) * 2000 ≤ (i 0).val ∧ (i 0).val < win3_4.index _ (0 : Fin 2) * 2000 + 2000
      rw [e0]; show (i 0).val / 2000 * 2000 ≤ (i 0).val ∧ (i 0).val < (i 0).val / 2000 * 2000 + 2000; omega
    | ⟨1, _⟩ =>
      show win3_4.index _ (1 : Fin 2) * 256 ≤ (i 1).val ∧ (i 1).val < win3_4.index _ (1 : Fin 2) * 256 + 256
      rw [e1]; omega

/-- THE RUNNING ROW 5 after the run, entry by entry, for real inputs. -/
theorem value_5 (q : Fin 256) :
    (dat3 V c).arrAt 5 cfg3.N (ix2 (0 : Fin 1) q) = ((Cert.Spec.colSum (L h a W b) q : ℝ) : EReal) := by
  refine (dat3 V c).arrAt_forall_of_cover 5
    (fun i x => ∀ (q : Fin 256), i = ix2 (0 : Fin 1) q → x = ((Cert.Spec.colSum (L h a W b) q : ℝ) : EReal)) ?_ ?_
    (ix2 (0 : Fin 1) q) q rfl
  · intro t hf y q hi
    obtain ⟨y0, y1, rfl⟩ : ∃ (y0 : Fin 1) (y1 : Fin 256), y = ix2 y0 y1 := ⟨y 0, y 1, eq_ix2 y⟩
    have ht : t.val < 25 := lt_of_lt_of_eq t.isLt N_eq
    have ht24 : t.val = 24 := by have := (flush3_5 t).mp hf; omega
    obtain ⟨-, -, -, -, -, -, -, -, -, -, e50, e51, e60, e61⟩ := idx_facts t
    have hy0 : y0 = 0 := Subsingleton.elim _ _
    have hk : q = y1 := by
      apply Fin.ext
      have h1 := congrArg (fun j : S1x256.Idx => (j 1).val) hi
      have : win3_5.index t (1 : Fin 2) * 256 + 1 * y1.val = q.val := h1
      show q.val = y1.val
      omega
    subst hy0 hk
    show (cfg3.win 5).cut (grid3.coords t) ((dat3 V c).after 5 t) (ix2 (0 : Fin 1) q) = _
    rw [after3_5]
    show (outsAt3 V c t.val t.isLt).2.1 (ix2 (0 : Fin 1) q) = _
    rw [outs_sum V c t.val t.isLt q]
    have hcol : ∀ s, colB V c s q
        = ((if hs : s < 25 then ∑ r : Fin 2000, L h a W b ⟨s * 2000 + r.val, Cert.Lib.gridRow_lt (m := 25) (n := 2000) rfl hs r⟩ q else 0 : ℝ) : EReal) := by
      intro s
      unfold colB
      by_cases hs : s < 25
      · rw [dif_pos (lt_of_lt_of_eq hs N_eq.symm), dif_pos hs, ← Cert.RealOps.sum_coe]
        refine Finset.sum_congr rfl fun r _ => ?_
        rw [blk_real V c h a W b hh ha hW hb ⟨s, lt_of_lt_of_eq hs N_eq.symm⟩ r q (Cert.Lib.gridRow_lt (m := 25) (n := 2000) rfl hs r)]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L h a W b p q
  · intro i
    have hi0 : (i 0).val < 1 := idx2_lt0 i
    have hi1 : (i 1).val < 256 := idx2_lt1 i
    refine ⟨⟨24, by rw [N_eq]; omega⟩, (flush3_5 _).mpr (by rfl), ?_⟩
    rw [mem_blk_5]
    obtain ⟨-, -, -, -, -, -, -, -, -, -, e50, e51, e60, e61⟩ := idx_facts ⟨24, by rw [N_eq]; omega⟩
    intro a
    match a with
    | ⟨0, _⟩ =>
      show win3_5.index _ (0 : Fin 2) * 1 ≤ (i 0).val ∧ (i 0).val < win3_5.index _ (0 : Fin 2) * 1 + 1
      omega
    | ⟨1, _⟩ =>
      show win3_5.index _ (1 : Fin 2) * 256 ≤ (i 1).val ∧ (i 1).val < win3_5.index _ (1 : Fin 2) * 256 + 256
      omega

/-- THE RUNNING ROW 6 after the run, entry by entry, for real inputs. -/
theorem value_6 (q : Fin 256) :
    (dat3 V c).arrAt 6 cfg3.N (ix2 (0 : Fin 1) q) = ((Cert.Spec.colSumSq (L h a W b) q : ℝ) : EReal) := by
  refine (dat3 V c).arrAt_forall_of_cover 6
    (fun i x => ∀ (q : Fin 256), i = ix2 (0 : Fin 1) q → x = ((Cert.Spec.colSumSq (L h a W b) q : ℝ) : EReal)) ?_ ?_
    (ix2 (0 : Fin 1) q) q rfl
  · intro t hf y q hi
    obtain ⟨y0, y1, rfl⟩ : ∃ (y0 : Fin 1) (y1 : Fin 256), y = ix2 y0 y1 := ⟨y 0, y 1, eq_ix2 y⟩
    have ht : t.val < 25 := lt_of_lt_of_eq t.isLt N_eq
    have ht24 : t.val = 24 := by have := (flush3_6 t).mp hf; omega
    obtain ⟨-, -, -, -, -, -, -, -, -, -, e50, e51, e60, e61⟩ := idx_facts t
    have hy0 : y0 = 0 := Subsingleton.elim _ _
    have hk : q = y1 := by
      apply Fin.ext
      have h1 := congrArg (fun j : S1x256.Idx => (j 1).val) hi
      have : win3_6.index t (1 : Fin 2) * 256 + 1 * y1.val = q.val := h1
      show q.val = y1.val
      omega
    subst hy0 hk
    show (cfg3.win 6).cut (grid3.coords t) ((dat3 V c).after 6 t) (ix2 (0 : Fin 1) q) = _
    rw [after3_6]
    show (outsAt3 V c t.val t.isLt).2.2 (ix2 (0 : Fin 1) q) = _
    rw [outs_sumsq V c t.val t.isLt q]
    have hcol : ∀ s, colQ V c s q
        = ((if hs : s < 25 then ∑ r : Fin 2000, L h a W b ⟨s * 2000 + r.val, Cert.Lib.gridRow_lt (m := 25) (n := 2000) rfl hs r⟩ q * L h a W b ⟨s * 2000 + r.val, Cert.Lib.gridRow_lt (m := 25) (n := 2000) rfl hs r⟩ q else 0 : ℝ) : EReal) := by
      intro s
      unfold colQ
      by_cases hs : s < 25
      · rw [dif_pos (lt_of_lt_of_eq hs N_eq.symm), dif_pos hs, ← Cert.RealOps.sum_coe]
        refine Finset.sum_congr rfl fun r _ => ?_
        rw [blk_real V c h a W b hh ha hW hb ⟨s, lt_of_lt_of_eq hs N_eq.symm⟩ r q (Cert.Lib.gridRow_lt (m := 25) (n := 2000) rfl hs r), ← EReal.coe_mul]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L h a W b p q * L h a W b p q
  · intro i
    have hi0 : (i 0).val < 1 := idx2_lt0 i
    have hi1 : (i 1).val < 256 := idx2_lt1 i
    refine ⟨⟨24, by rw [N_eq]; omega⟩, (flush3_6 _).mpr (by rfl), ?_⟩
    rw [mem_blk_6]
    obtain ⟨-, -, -, -, -, -, -, -, -, -, e50, e51, e60, e61⟩ := idx_facts ⟨24, by rw [N_eq]; omega⟩
    intro a
    match a with
    | ⟨0, _⟩ =>
      show win3_6.index _ (0 : Fin 2) * 1 ≤ (i 0).val ∧ (i 0).val < win3_6.index _ (0 : Fin 2) * 1 + 1
      omega
    | ⟨1, _⟩ =>
      show win3_6.index _ (1 : Fin 2) * 256 ≤ (i 1).val ∧ (i 1).val < win3_6.index _ (1 : Fin 2) * 256 + 256
      omega

end Real

end Cert.KernelIdeal.Reg3

end
-- ==== Proof.Pieces4.lean ====
/-
  What the second kernel of a layer leaves in its three output buffers at one grid point, as values.  The block of the
  second linear map is stored whole at every point.  At the first point the two running rows are reset to zero and then
  take in that block's column sums and column sums of squares; at every later point they take them in on top of what
  the point before left.
-/
import proofs.«148746_j9251359555639_1_alg».proof.Proof.Gen.KernelIdeal.Frame
import Idealize.ShloMosaic.Lib.Pipeline.Value
import Idealize.ShloMosaic.Lib.ValueIdx

set_option maxRecDepth 16384

noncomputable section

namespace Cert.KernelIdeal.Reg4

open Idealize.ShloMosaic Idealize.ShloMosaic.ValueIdx Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

section Pieces
variable (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole)
  (x0 : Vec F S2000x256 .f32) (x1 : Vec F S1x256 .f32) (x2 : Vec F S1x256 .f32) (x3 : Vec F S1x256 .f32) (x4 : Vec F S1x256 .f32)
  (x5 : Vec F S256x128 .f32) (x6 : Vec F S1x128 .f32)

/-- First point: the block of the second linear map. -/
theorem out_A_7 (hc0 : cond4_0 i) :
    out4_A_7 c i arg1 harg1 arg2 harg2 arg3 harg3 arg4 harg4 arg5 harg5 arg6 harg6 arg7 harg7 arg8 harg8 arg9 harg9 arg10 harg10 hc0 x0 x1 x2 x3 x4 x5 x6 = k4_pay3 x0 x1 x2 x3 x4 x5 x6 := by
  unfold out4_A_7
  rw [View.read_writes_eq_canon _ _ _ (cover4_A_7 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

/-- First point: the running column sums start from the zero row. -/
theorem out_A_8 (hc0 : cond4_0 i) :
    out4_A_8 c i arg1 harg1 arg2 harg2 arg3 harg3 arg4 harg4 arg5 harg5 arg6 harg6 arg7 harg7 arg8 harg8 arg9 harg9 arg10 harg10 hc0 x0 x1 x2 x3 x4 x5 x6 = k4_pay1 (k4_pay3 x0 x1 x2 x3 x4 x5 x6) k4_pay4 := by
  unfold out4_A_8
  rw [View.read_writes_eq_canon _ _ _ (cover4_A_8 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  sl_unfold_words
  rw [View.canon_cons_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]
  rw [View.readCov_unit_zero _ hz]

/-- First point: the running column sums of squares start from the zero row. -/
theorem out_A_9 (hc0 : cond4_0 i) :
    out4_A_9 c i arg1 harg1 arg2 harg2 arg3 harg3 arg4 harg4 arg5 harg5 arg6 harg6 arg7 harg7 arg8 harg8 arg9 harg9 arg10 harg10 hc0 x0 x1 x2 x3 x4 x5 x6 = k4_pay2 (k4_pay3 x0 x1 x2 x3 x4 x5 x6) k4_pay5 := by
  unfold out4_A_9
  rw [View.read_writes_eq_canon _ _ _ (cover4_A_9 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  sl_unfold_words
  rw [View.canon_cons_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]
  rw [View.readCov_unit_zero _ hz]

/-- A later point: the block of the second linear map. -/
theorem out_B_7 (hc0 : ¬cond4_0 i) (xo8 xo9 : Vec F S1x128 .f32) :
    out4_B_7 c i arg1 harg1 arg2 harg2 arg3 harg3 arg4 harg4 arg5 harg5 arg6 harg6 arg7 harg7 arg8 harg8 arg9 harg9 arg10 harg10 hc0 x0 x1 x2 x3 x4 x5 x6 xo8 xo9 = k4_pay3 x0 x1 x2 x3 x4 x5 x6 := by
  unfold out4_B_7
  rw [View.read_writes_eq_canon _ _ _ (cover4_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

/-- A later point: the running column sums over what the point before left. -/
theorem out_B_8 (hc0 : ¬cond4_0 i) (xo8 xo9 : Vec F S1x128 .f32) :
    out4_B_8 c i arg1 harg1 arg2 harg2 arg3 harg3 arg4 harg4 arg5 harg5 arg6 harg6 arg7 harg7 arg8 harg8 arg9 harg9 arg10 harg10 hc0 x0 x1 x2 x3 x4 x5 x6 xo8 xo9 = k4_pay1 (k4_pay3 x0 x1 x2 x3 x4 x5 x6) xo8 := by
  unfold out4_B_8
  rw [View.read_writes_eq_canon _ _ _ (cover4_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

/-- A later point: the running column sums of squares over what the point before left. -/
theorem out_B_9 (hc0 : ¬cond4_0 i) (xo8 xo9 : Vec F S1x128 .f32) :
    out4_B_9 c i arg1 harg1 arg2 harg2 arg3 harg3 arg4 harg4 arg5 harg5 arg6 harg6 arg7 harg7 arg8 harg8 arg9 harg9 arg10 harg10 hc0 x0 x1 x2 x3 x4 x5 x6 xo8 xo9 = k4_pay2 (k4_pay3 x0 x1 x2 x3 x4 x5 x6) xo9 := by
  unfold out4_B_9
  rw [View.read_writes_eq_canon _ _ _ (cover4_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

end Pieces

end Cert.KernelIdeal.Reg4

end
-- ==== Proof.Region4.lean ====
/-
  The second kernel of a layer as whole arrays.  The grid has 25 points; point `t` reads rows `2000·t … 2000·t + 1999` of
  the first linear map's output, the four `[1, 256]` rows (column mean, column variance, γ, β), the second weights and
  bias row whole, and writes back the same rows of `lin₂ = max(norm(lin₁), 0)·W₂ + b₂`.  The two `[1, 128]` outputs are
  running rows: reset at the first point, each point adds its block's column sums (of `lin₂`, of `lin₂²`), and the last
  point writes them back; the 25 blocks of 2000 rows are the 50000 rows once each, so the rows end at the column sums
  over all nodes.  For real inputs with positive `variance + ε` every entry is a real.
-/
import proofs.«148746_j9251359555639_1_alg».proof.Proof.Gen.KernelIdeal.Frame
import proofs.«148746_j9251359555639_1_alg».proof.Proof.Pieces4
import proofs.«148746_j9251359555639_1_alg».proof.Proof.PayB
import proofs.«148746_j9251359555639_1_alg».proof.Proof.RealOps
import proofs.«148746_j9251359555639_1_alg».proof.Proof.Spec
import proofs.«148746_j9251359555639_1_alg».proof.Proof.LibGridSum
import Idealize.ShloMosaic.Lib.Pipeline.Value

set_option maxRecDepth 16384

noncomputable section

namespace Cert.KernelIdeal.Reg4

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The printed index maps over the grid: the two row-block windows (0 and 7) move with the point, every other window
    stays at its one block. -/
theorem idxT_0 : ∀ t : Fin cfg4.N, win4_0.index t (0 : Fin 2) = t.val ∧ win4_0.index t (1 : Fin 2) = 0 :=
  (by decide +kernel : ∀ t : Fin grid4.N, _)
theorem idxT_7 : ∀ t : Fin cfg4.N, win4_7.index t (0 : Fin 2) = t.val ∧ win4_7.index t (1 : Fin 2) = 0 :=
  (by decide +kernel : ∀ t : Fin grid4.N, _)
theorem idxZ_1 : ∀ t : Fin cfg4.N, win4_1.index t (0 : Fin 2) = 0 ∧ win4_1.index t (1 : Fin 2) = 0 :=
  (by decide +kernel : ∀ t : Fin grid4.N, _)
theorem idxZ_2 : ∀ t : Fin cfg4.N, win4_2.index t (0 : Fin 2) = 0 ∧ win4_2.index t (1 : Fin 2) = 0 :=
  (by decide +kernel : ∀ t : Fin grid4.N, _)
theorem idxZ_3 : ∀ t : Fin cfg4.N, win4_3.index t (0 : Fin 2) = 0 ∧ win4_3.index t (1 : Fin 2) = 0 :=
  (by decide +kernel : ∀ t : Fin grid4.N, _)
theorem idxZ_4 : ∀ t : Fin cfg4.N, win4_4.index t (0 : Fin 2) = 0 ∧ win4_4.index t (1 : Fin 2) = 0 :=
  (by decide +kernel : ∀ t : Fin grid4.N, _)
theorem idxZ_5 : ∀ t : Fin cfg4.N, win4_5.index t (0 : Fin 2) = 0 ∧ win4_5.index t (1 : Fin 2) = 0 :=
  (by decide +kernel : ∀ t : Fin grid4.N, _)
theorem idxZ_6 : ∀ t : Fin cfg4.N, win4_6.index t (0 : Fin 2) = 0 ∧ win4_6.index t (1 : Fin 2) = 0 :=
  (by decide +kernel : ∀ t : Fin grid4.N, _)
theorem idxZ_8 : ∀ t : Fin cfg4.N, win4_8.index t (0 : Fin 2) = 0 ∧ win4_8.index t (1 : Fin 2) = 0 :=
  (by decide +kernel : ∀ t : Fin grid4.N, _)
theorem idxZ_9 : ∀ t : Fin cfg4.N, win4_9.index t (0 : Fin 2) = 0 ∧ win4_9.index t (1 : Fin 2) = 0 :=
  (by decide +kernel : ∀ t : Fin grid4.N, _)

theorem N_eq : cfg4.N = 25 := N_4

theorem iblk_0 (c : Dev nD) (t : Fin cfg4.N) (y0 : Fin 2000) (k : Fin 256) (hr : t.val * 2000 + y0.val < 50000) :
    iblk4 V c 0 t (ix2 y0 k) = V c main_v66_0 (ix2 (⟨t.val * 2000 + y0.val, hr⟩ : Fin 50000) k) := by
  show V c main_v66_0 (((cfg4.win 0).blk t).view.emb (ix2 y0 k)) = _
  refine congrArg (V c main_v66_0) ?_
  obtain ⟨e0, e1⟩ := idxT_0 t
  funext a; apply Fin.ext
  match a with
  | ⟨0, _⟩ => show win4_0.index t (0 : Fin 2) * 2000 + 1 * y0.val = t.val * 2000 + y0.val; omega
  | ⟨1, _⟩ => show win4_0.index t (1 : Fin 2) * 256 + 1 * k.val = k.val; omega

theorem iblk_1 (c : Dev nD) (t : Fin cfg4.N) (k : Fin 256) :
    iblk4 V c 1 t (ix2 (0 : Fin 1) k) = V c main_v68 (ix2 (0 : Fin 1) k) := by
  show V c main_v68 (((cfg4.win 1).blk t).view.emb (ix2 (0 : Fin 1) k)) = _
  refine congrArg (V c main_v68) ?_
  obtain ⟨e0, e1⟩ := idxZ_1 t
  funext a; apply Fin.ext
  match a with
  | ⟨0, _⟩ => show win4_1.index t (0 : Fin 2) * 1 + 1 * 0 = 0; omega
  | ⟨1, _⟩ => show win4_1.index t (1 : Fin 2) * 256 + 1 * k.val = k.val; omega

theorem iblk_2 (c : Dev nD) (t : Fin cfg4.N) (k : Fin 256) :
    iblk4 V c 2 t (ix2 (0 : Fin 1) k) = V c main_v72 (ix2 (0 : Fin 1) k) := by
  show V c main_v72 (((cfg4.win 2).blk t).view.emb (ix2 (0 : Fin 1) k)) = _
  refine congrArg (V c main_v72) ?_
  obtain ⟨e0, e1⟩ := idxZ_2 t
  funext a; apply Fin.ext
  match a with
  | ⟨0, _⟩ => show win4_2.index t (0 : Fin 2) * 1 + 1 * 0 = 0; omega
  | ⟨1, _⟩ => show win4_2.index t (1 : Fin 2) * 256 + 1 * k.val = k.val; omega

theorem iblk_3 (c : Dev nD) (t : Fin cfg4.N) (k : Fin 256) :
    iblk4 V c 3 t (ix2 (0 : Fin 1) k) = V c main_v75 (ix2 (0 : Fin 1) k) := by
  show V c main_v75 (((cfg4.win 3).blk t).view.emb (ix2 (0 : Fin 1) k)) = _
  refine congrArg (V c main_v75) ?_
  obtain ⟨e0, e1⟩ := idxZ_3 t
  funext a; apply Fin.ext
  match a with
  | ⟨0, _⟩ => show win4_3.index t (0 : Fin 2) * 1 + 1 * 0 = 0; omega
  | ⟨1, _⟩ => show win4_3.index t (1 : Fin 2) * 256 + 1 * k.val = k.val; omega

theorem iblk_4 (c : Dev nD) (t : Fin cfg4.N) (k : Fin 256) :
    iblk4 V c 4 t (ix2 (0 : Fin 1) k) = V c main_v78 (ix2 (0 : Fin 1) k) := by
  show V c main_v78 (((cfg4.win 4).blk t).view.emb (ix2 (0 : Fin 1) k)) = _
  refine congrArg (V c main_v78) ?_
  obtain ⟨e0, e1⟩ := idxZ_4 t
  funext a; apply Fin.ext
  match a with
  | ⟨0, _⟩ => show win4_4.index t (0 : Fin 2) * 1 + 1 * 0 = 0; omega
  | ⟨1, _⟩ => show win4_4.index t (1 : Fin 2) * 256 + 1 * k.val = k.val; omega

theorem iblk_5 (c : Dev nD) (t : Fin cfg4.N) (k : Fin 256) (q : Fin 128) :
    iblk4 V c 5 t (ix2 k q) = V c main_v80 (ix2 k q) := by
  show V c main_v80 (((cfg4.win 5).blk t).view.emb (ix2 k q)) = _
  refine congrArg (V c main_v80) ?_
  obtain ⟨e0, e1⟩ := idxZ_5 t
  funext a; apply Fin.ext
  match a with
  | ⟨0, _⟩ => show win4_5.index t (0 : Fin 2) * 256 + 1 * k.val = k.val; omega
  | ⟨1, _⟩ => show win4_5.index t (1 : Fin 2) * 128 + 1 * q.val = q.val; omega

theorem iblk_6 (c : Dev nD) (t : Fin cfg4.N) (k : Fin 128) :
    iblk4 V c 6 t (ix2 (0 : Fin 1) k) = V c main_v83 (ix2 (0 : Fin 1) k) := by
  show V c main_v83 (((cfg4.win 6).blk t).view.emb (ix2 (0 : Fin 1) k)) = _
  refine congrArg (V c main_v83) ?_
  obtain ⟨e0, e1⟩ := idxZ_6 t
  funext a; apply Fin.ext
  match a with
  | ⟨0, _⟩ => show win4_6.index t (0 : Fin 2) * 1 + 1 * 0 = 0; omega
  | ⟨1, _⟩ => show win4_6.index t (1 : Fin 2) * 128 + 1 * k.val = k.val; omega

/-- The block of the second linear map that point `t` computes. -/
def blk (c : Dev nD) (t : Fin cfg4.N) : Vec Ideal S2000x128 .f32 :=
  k4_pay3 (F := Ideal) (iblk4 V c 0 t) (iblk4 V c 1 t) (iblk4 V c 2 t) (iblk4 V c 3 t) (iblk4 V c 4 t) (iblk4 V c 5 t) (iblk4 V c 6 t)

/-- Point `s`'s column sums of its block and of its block's squares (zero past the grid). -/
def colB (c : Dev nD) (s : ℕ) (q : Fin 128) : EReal :=
  if h : s < cfg4.N then ∑ r : Fin 2000, blk V c ⟨s, h⟩ (ix2 r q) else 0
def colQ (c : Dev nD) (s : ℕ) (q : Fin 128) : EReal :=
  if h : s < cfg4.N then ∑ r : Fin 2000, blk V c ⟨s, h⟩ (ix2 r q) * blk V c ⟨s, h⟩ (ix2 r q) else 0

/-- After every point the first output's buffer holds that point's block. -/
theorem outs_lin (c : Dev nD) (t : Fin cfg4.N) : (outsAt4 V c t.val t.isLt).1 = blk V c t := by
  by_cases h0 : t.val % 25 = 0
  · rw [outsAt4_A V c t h0]
    dsimp only
    exact out_A_7 (F := Ideal) _ _ _ _ _ _ _ _ _ _ _ _ _ _ _ _ _ _ _ _ _ _ _ _ _ _ _ _ _ _
  · rw [outsAt4_B V c t h0]
    dsimp only
    exact out_B_7 (F := Ideal) _ _ _ _ _ _ _ _ _ _ _ _ _ _ _ _ _ _ _ _ _ _ _ _ _ _ _ _ _ _ _ _

/-- After point `n` the running row of column sums holds zero plus the first `n + 1` points' column sums. -/
theorem outs_sum (c : Dev nD) : ∀ (n : ℕ) (hn : n < cfg4.N) (q : Fin 128),
    (outsAt4 V c n hn).2.1 (ix2 (0 : Fin 1) q)
      = Ideal.ofBits .f32 0x00000000#32 + ∑ s ∈ Finset.range (n + 1), colB V c s q
  | 0, hn, q => by
    have e := outsAt4_A V c ⟨0, hn⟩ (Nat.zero_mod _)
    rw [show outsAt4 V c 0 hn = _ from e]
    dsimp only
    rw [out_A_8, Pay.k4_pay1_apply, Finset.sum_range_one]
    refine congrArg₂ (· + ·) (by rfl) ?_
    unfold colB
    rw [dif_pos hn]
    rfl
  | n + 1, hn, q => by
    have hN : n + 1 < 25 := lt_of_lt_of_eq hn N_eq
    have h0 : ¬(n + 1) % 25 = 0 := by omega
    have e := outsAt4_B V c ⟨n + 1, hn⟩ h0
    have ih := outs_sum c n (Nat.lt_of_succ_lt hn) q
    rw [show outsAt4 V c (n + 1) hn = _ from e]
    dsimp only
    rw [out_B_8, Pay.k4_pay1_apply, Finset.sum_range_succ _ (n + 1), ← add_assoc]
    refine congrArg₂ (· + ·) ih ?_
    unfold colB
    rw [dif_pos hn]
    rfl

/-- After point `n` the running row of column sums of squares holds zero plus the first `n + 1` points' sums. -/
theorem outs_sumsq (c : Dev nD) : ∀ (n : ℕ) (hn : n < cfg4.N) (q : Fin 128),
    (outsAt4 V c n hn).2.2 (ix2 (0 : Fin 1) q)
      = Ideal.ofBits .f32 0x00000000#32 + ∑ s ∈ Finset.range (n + 1), colQ V c s q
  | 0, hn, q => by
    have e := outsAt4_A V c ⟨0, hn⟩ (Nat.zero_mod _)
    rw [show outsAt4 V c 0 hn = _ from e]
    dsimp only
    rw [out_A_9, Pay.k4_pay2_apply, Finset.sum_range_one]
    refine congrArg₂ (· + ·) (by rfl) ?_
    unfold colQ
    rw [dif_pos hn]
    rfl
  | n + 1, hn, q => by
    have hN : n + 1 < 25 := lt_of_lt_of_eq hn N_eq
    have h0 : ¬(n + 1) % 25 = 0 := by omega
    have e := outsAt4_B V c ⟨n + 1, hn⟩ h0
    have ih := outs_sumsq c n (Nat.lt_of_succ_lt hn) q
    rw [show outsAt4 V c (n + 1) hn = _ from e]
    dsimp only
    rw [out_B_9, Pay.k4_pay2_apply, Finset.sum_range_succ _ (n + 1), ← add_assoc]
    refine congrArg₂ (· + ·) ih ?_
    unfold colQ
    rw [dif_pos hn]
    rfl

/-! ## Which indices a point's blocks cover -/

/-- An index of the first output lies in point `t`'s block iff its row is among the block's 2000 rows. -/
theorem mem_blk_7 (t : Fin cfg4.N) (i : S50000x128.Idx) :
    i ∈ ((cfg4.win 7).blk t).view.set ↔ ∀ a : Fin 2, win4_7.index t a * S2000x128.size a ≤ (i a).val
      ∧ (i a).val < win4_7.index t a * S2000x128.size a + S2000x128.size a := by
  show i ∈ ((View.whole main_v84_0).slice (win4_7.rect t)).set ↔ _
  rw [View.set_slice_whole, Rect.mem_set_unit]
  exact Iff.rfl

/-- An index of the `[1, 128]` output 8 lies in every point's block: the block is the whole row. -/
theorem mem_blk_8 (t : Fin cfg4.N) (i : S1x128.Idx) :
    i ∈ ((cfg4.win 8).blk t).view.set ↔ ∀ a : Fin 2, win4_8.index t a * S1x128.size a ≤ (i a).val
      ∧ (i a).val < win4_8.index t a * S1x128.size a + S1x128.size a := by
  show i ∈ ((View.whole main_v84_1).slice (win4_8.rect t)).set ↔ _
  rw [View.set_slice_whole, Rect.mem_set_unit]
  exact Iff.rfl

/-- An index of the `[1, 128]` output 9 lies in every point's block: the block is the whole row. -/
theorem mem_blk_9 (t : Fin cfg4.N) (i : S1x128.Idx) :
    i ∈ ((cfg4.win 9).blk t).view.set ↔ ∀ a : Fin 2, win4_9.index t a * S1x128.size a ≤ (i a).val
      ∧ (i a).val < win4_9.index t a * S1x128.size a + S1x128.size a := by
  show i ∈ ((View.whole main_v84_2).slice (win4_9.rect t)).set ↔ _
  rw [View.set_slice_whole, Rect.mem_set_unit]
  exact Iff.rfl

/-! ## Real inputs -/

section Real

variable (c : Dev nD) (z : Cert.Spec.Mat 50000 256) (μ v g bt : Fin 256 → ℝ) (W : Cert.Spec.Mat 256 128) (b : Fin 128 → ℝ)

/-- The second linear map of the layer over the reals, on the normalised and rectified first one. -/
abbrev L2 : Cert.Spec.Mat 50000 128 :=
  Cert.Spec.lin (Cert.Spec.relu (Cert.Spec.bn μ v Cert.Consts.eps g bt z)) W b

variable (hz : ∀ p k, V c main_v66_0 (ix2 p k) = ((z p k : ℝ) : EReal))
  (hμ : ∀ k, V c main_v68 (ix2 (0 : Fin 1) k) = ((μ k : ℝ) : EReal))
  (hv : ∀ k, V c main_v72 (ix2 (0 : Fin 1) k) = ((v k : ℝ) : EReal))
  (hg : ∀ k, V c main_v75 (ix2 (0 : Fin 1) k) = ((g k : ℝ) : EReal))
  (hbt : ∀ k, V c main_v78 (ix2 (0 : Fin 1) k) = ((bt k : ℝ) : EReal))
  (hW : ∀ k q, V c main_v80 (ix2 k q) = ((W k q : ℝ) : EReal))
  (hb : ∀ q, V c main_v83 (ix2 (0 : Fin 1) q) = ((b q : ℝ) : EReal))
  (hpos : ∀ k, 0 < v k + Cert.Consts.eps)
include hz hμ hv hg hbt hW hb hpos

/-- Point `t`'s block at real inputs: rows `2000·t …` of the real second linear map. -/
theorem blk_real (t : Fin cfg4.N) (y0 : Fin 2000) (q : Fin 128) (hr : t.val * 2000 + y0.val < 50000) :
    blk V c t (ix2 y0 q) = ((L2 z μ v g bt W b ⟨t.val * 2000 + y0.val, hr⟩ q : ℝ) : EReal) := by
  unfold blk
  rw [Pay.k4_pay3_apply, iblk_6, hb]
  have hbn : ∀ (zz mm gg bb : ℝ) (k : Fin 256), Pay.bnE (zz : EReal) (mm : EReal) ((v k : ℝ) : EReal) (gg : EReal) (bb : EReal)
      = (((zz - mm) * (Real.sqrt (v k + Cert.Consts.eps))⁻¹ * gg + bb : ℝ) : EReal) :=
    fun zz mm gg bb k => Cert.RealOps.bnE_coe zz mm (v k) gg bb (hpos k)
  simp only [iblk_0 V c t y0 _ hr, iblk_1, iblk_2, iblk_3, iblk_4, iblk_5, hz, hμ, hv, hg, hbt, hW, hbn, Cert.RealOps.max_zero_coe]
  rw [Cert.RealOps.dot_coe
      (fun k => max ((z ⟨t.val * 2000 + y0.val, hr⟩ k - μ k) * (Real.sqrt (v k + Cert.Consts.eps))⁻¹ * g k + bt k) 0)
      (fun k => W k q),
    ← EReal.coe_add]
  rfl

/-- THE FIRST OUTPUT after the run, entry by entry, for real inputs: the real second linear map. -/
theorem value_7 (p : Fin 50000) (q : Fin 128) :
    (dat4 V c).arrAt 7 cfg4.N (ix2 p q) = ((L2 z μ v g bt W b p q : ℝ) : EReal) := by
  refine (dat4 V c).arrAt_forall_of_cover 7
    (fun i x => ∀ (p : Fin 50000) (q : Fin 128), i = ix2 p q → x = ((L2 z μ v g bt W b p q : ℝ) : EReal)) ?_ ?_ (ix2 p q) p q rfl
  · intro t _ y p q hi
    obtain ⟨y0, y1, rfl⟩ : ∃ (y0 : Fin 2000) (y1 : Fin 128), y = ix2 y0 y1 := ⟨y 0, y 1, eq_ix2 y⟩
    have ht : t.val < 25 := lt_of_lt_of_eq t.isLt N_eq
    have hr : t.val * 2000 + y0.val < 50000 := by have := y0.isLt; omega
    obtain ⟨e0, e1⟩ := idxT_7 t
    have hp : p = (⟨t.val * 2000 + y0.val, hr⟩ : Fin 50000) := by
      apply Fin.ext
      have h0 := congrArg (fun j : S50000x128.Idx => (j 0).val) hi
      have : win4_7.index t (0 : Fin 2) * 2000 + 1 * y0.val = p.val := h0
      show p.val = t.val * 2000 + y0.val
      omega
    have hk : q = y1 := by
      apply Fin.ext
      have h1 := congrArg (fun j : S50000x128.Idx => (j 1).val) hi
      have : win4_7.index t (1 : Fin 2) * 128 + 1 * y1.val = q.val := h1
      show q.val = y1.val
      omega
    subst hp hk
    show (cfg4.win 7).cut (grid4.coords t) ((dat4 V c).after 7 t) (ix2 y0 q) = _
    rw [after4_7, outs_lin]
    show blk V c t (ix2 y0 q) = _
    rw [blk_real V c z μ v g bt W b hz hμ hv hg hbt hW hb hpos t y0 q hr]
  · intro i
    have hi0 : (i 0).val < 50000 := idx2_lt0 i
    have hi1 : (i 1).val < 128 := idx2_lt1 i
    refine ⟨⟨(i 0).val / 2000, by rw [N_eq]; omega⟩, flush4_7 _, ?_⟩
    rw [mem_blk_7]
    obtain ⟨e0, e1⟩ := idxT_7 ⟨(i 0).val / 2000, by rw [N_eq]; omega⟩
    intro a
    match a with
    | ⟨0, _⟩ =>
      show win4_7.index _ (0 : Fin 2) * 2000 ≤ (i 0).val ∧ (i 0).val < win4_7.index _ (0 : Fin 2) * 2000 + 2000
      rw [e0]; show (i 0).val / 2000 * 2000 ≤ (i 0).val ∧ (i 0).val < (i 0).val / 2000 * 2000 + 2000; omega
    | ⟨1, _⟩ =>
      show win4_7.index _ (1 : Fin 2) * 128 ≤ (i 1).val ∧ (i 1).val < win4_7.index _ (1 : Fin 2) * 128 + 128
      rw [e1]; omega

/-- THE RUNNING ROW 8 after the run, entry by entry, for real inputs. -/
theorem value_8 (q : Fin 128) :
    (dat4 V c).arrAt 8 cfg4.N (ix2 (0 : Fin 1) q) = ((Cert.Spec.colSum (L2 z μ v g bt W b) q : ℝ) : EReal) := by
  refine (dat4 V c).arrAt_forall_of_cover 8
    (fun i x => ∀ (q : Fin 128), i = ix2 (0 : Fin 1) q → x = ((Cert.Spec.colSum (L2 z μ v g bt W b) q : ℝ) : EReal)) ?_ ?_
    (ix2 (0 : Fin 1) q) q rfl
  · intro t hf y q hi
    obtain ⟨y0, y1, rfl⟩ : ∃ (y0 : Fin 1) (y1 : Fin 128), y = ix2 y0 y1 := ⟨y 0, y 1, eq_ix2 y⟩
    have ht : t.val < 25 := lt_of_lt_of_eq t.isLt N_eq
    have ht24 : t.val = 24 := by have := (flush4_8 t).mp hf; omega
    obtain ⟨-, e1⟩ := idxZ_8 t
    have hy0 : y0 = 0 := Subsingleton.elim _ _
    have hk : q = y1 := by
      apply Fin.ext
      have h1 := congrArg (fun j : S1x128.Idx => (j 1).val) hi
      have : win4_8.index t (1 : Fin 2) * 128 + 1 * y1.val = q.val := h1
      show q.val = y1.val
      omega
    subst hy0 hk
    show (cfg4.win 8).cut (grid4.coords t) ((dat4 V c).after 8 t) (ix2 (0 : Fin 1) q) = _
    rw [after4_8]
    show (outsAt4 V c t.val t.isLt).2.1 (ix2 (0 : Fin 1) q) = _
    rw [outs_sum V c t.val t.isLt q]
    have hcol : ∀ s, colB V c s q
        = ((if hs : s < 25 then ∑ r : Fin 2000, L2 z μ v g bt W b ⟨s * 2000 + r.val, Cert.Lib.gridRow_lt (m := 25) (n := 2000) rfl hs r⟩ q else 0 : ℝ) : EReal) := by
      intro s
      unfold colB
      by_cases hs : s < 25
      · rw [dif_pos (lt_of_lt_of_eq hs N_eq.symm), dif_pos hs, ← Cert.RealOps.sum_coe]
        refine Finset.sum_congr rfl fun r _ => ?_
        rw [blk_real V c z μ v g bt W b hz hμ hv hg hbt hW hb hpos ⟨s, lt_of_lt_of_eq hs N_eq.symm⟩ r q (Cert.Lib.gridRow_lt (m := 25) (n := 2000) rfl hs r)]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L2 z μ v g bt W b p q
  · intro i
    have hi0 : (i 0).val < 1 := idx2_lt0 i
    have hi1 : (i 1).val < 128 := idx2_lt1 i
    refine ⟨⟨24, by rw [N_eq]; omega⟩, (flush4_8 _).mpr (by rfl), ?_⟩
    rw [mem_blk_8]
    obtain ⟨e0, e1⟩ := idxZ_8 ⟨24, by rw [N_eq]; omega⟩
    intro a
    match a with
    | ⟨0, _⟩ =>
      show win4_8.index _ (0 : Fin 2) * 1 ≤ (i 0).val ∧ (i 0).val < win4_8.index _ (0 : Fin 2) * 1 + 1
      omega
    | ⟨1, _⟩ =>
      show win4_8.index _ (1 : Fin 2) * 128 ≤ (i 1).val ∧ (i 1).val < win4_8.index _ (1 : Fin 2) * 128 + 128
      omega

/-- THE RUNNING ROW 9 after the run, entry by entry, for real inputs. -/
theorem value_9 (q : Fin 128) :
    (dat4 V c).arrAt 9 cfg4.N (ix2 (0 : Fin 1) q) = ((Cert.Spec.colSumSq (L2 z μ v g bt W b) q : ℝ) : EReal) := by
  refine (dat4 V c).arrAt_forall_of_cover 9
    (fun i x => ∀ (q : Fin 128), i = ix2 (0 : Fin 1) q → x = ((Cert.Spec.colSumSq (L2 z μ v g bt W b) q : ℝ) : EReal)) ?_ ?_
    (ix2 (0 : Fin 1) q) q rfl
  · intro t hf y q hi
    obtain ⟨y0, y1, rfl⟩ : ∃ (y0 : Fin 1) (y1 : Fin 128), y = ix2 y0 y1 := ⟨y 0, y 1, eq_ix2 y⟩
    have ht : t.val < 25 := lt_of_lt_of_eq t.isLt N_eq
    have ht24 : t.val = 24 := by have := (flush4_9 t).mp hf; omega
    obtain ⟨-, e1⟩ := idxZ_9 t
    have hy0 : y0 = 0 := Subsingleton.elim _ _
    have hk : q = y1 := by
      apply Fin.ext
      have h1 := congrArg (fun j : S1x128.Idx => (j 1).val) hi
      have : win4_9.index t (1 : Fin 2) * 128 + 1 * y1.val = q.val := h1
      show q.val = y1.val
      omega
    subst hy0 hk
    show (cfg4.win 9).cut (grid4.coords t) ((dat4 V c).after 9 t) (ix2 (0 : Fin 1) q) = _
    rw [after4_9]
    show (outsAt4 V c t.val t.isLt).2.2 (ix2 (0 : Fin 1) q) = _
    rw [outs_sumsq V c t.val t.isLt q]
    have hcol : ∀ s, colQ V c s q
        = ((if hs : s < 25 then ∑ r : Fin 2000, L2 z μ v g bt W b ⟨s * 2000 + r.val, Cert.Lib.gridRow_lt (m := 25) (n := 2000) rfl hs r⟩ q * L2 z μ v g bt W b ⟨s * 2000 + r.val, Cert.Lib.gridRow_lt (m := 25) (n := 2000) rfl hs r⟩ q else 0 : ℝ) : EReal) := by
      intro s
      unfold colQ
      by_cases hs : s < 25
      · rw [dif_pos (lt_of_lt_of_eq hs N_eq.symm), dif_pos hs, ← Cert.RealOps.sum_coe]
        refine Finset.sum_congr rfl fun r _ => ?_
        rw [blk_real V c z μ v g bt W b hz hμ hv hg hbt hW hb hpos ⟨s, lt_of_lt_of_eq hs N_eq.symm⟩ r q (Cert.Lib.gridRow_lt (m := 25) (n := 2000) rfl hs r), ← EReal.coe_mul]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L2 z μ v g bt W b p q * L2 z μ v g bt W b p q
  · intro i
    have hi0 : (i 0).val < 1 := idx2_lt0 i
    have hi1 : (i 1).val < 128 := idx2_lt1 i
    refine ⟨⟨24, by rw [N_eq]; omega⟩, (flush4_9 _).mpr (by rfl), ?_⟩
    rw [mem_blk_9]
    obtain ⟨e0, e1⟩ := idxZ_9 ⟨24, by rw [N_eq]; omega⟩
    intro a
    match a with
    | ⟨0, _⟩ =>
      show win4_9.index _ (0 : Fin 2) * 1 ≤ (i 0).val ∧ (i 0).val < win4_9.index _ (0 : Fin 2) * 1 + 1
      omega
    | ⟨1, _⟩ =>
      show win4_9.index _ (1 : Fin 2) * 128 ≤ (i 1).val ∧ (i 1).val < win4_9.index _ (1 : Fin 2) * 128 + 128
      omega

end Real

end Cert.KernelIdeal.Reg4

end
-- ==== Proof.Region5.lean ====
/-
  The third kernel of a layer as a whole array.  The grid has 25 points; point `t` reads rows `2000·t … 2000·t + 1999`
  of the second linear map's output and the four `[1, 128]` rows (mean, variance, γ, β) whole, and writes back the same
  rows of the layer's output.  The 25 blocks tile the `[50000, 128]` array, so every entry of the output is the
  normalisation of the entry above it, the larger of it and zero: for real inputs with positive `variance + ε`, a real.
-/
import proofs.«148746_j9251359555639_1_alg».proof.Proof.Gen.KernelIdeal.Frame
import proofs.«148746_j9251359555639_1_alg».proof.Proof.PayC
import proofs.«148746_j9251359555639_1_alg».proof.Proof.RealOps
import proofs.«148746_j9251359555639_1_alg».proof.Proof.Spec
import Idealize.ShloMosaic.Lib.Pipeline.Value

set_option maxRecDepth 16384

noncomputable section

namespace Cert.KernelIdeal.Reg5

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks move with the point, the parameter rows stay. -/
theorem idx_facts : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

theorem N_eq : cfg5.N = 25 := N_5

/-- Row `y0` of point `t`'s block of the first window is row `2000·t + y0` of its array. -/
theorem iblk_0 (c : Dev nD) (t : Fin cfg5.N) (y0 : Fin 2000) (y1 : Fin 128) (hr : t.val * 2000 + y0.val < 50000) :
    iblk5 V c 0 t (ix2 y0 y1) = V c main_v84_0 (ix2 (⟨t.val * 2000 + y0.val, hr⟩ : Fin 50000) y1) := by
  show V c main_v84_0 (((cfg5.win 0).blk t).view.emb (ix2 y0 y1)) = _
  refine congrArg (V c main_v84_0) ?_
  obtain ⟨e0, e1, -⟩ := idx_facts t
  funext a; apply Fin.ext
  match a with
  | ⟨0, _⟩ => show win5_0.index t (0 : Fin 2) * 2000 + 1 * y0.val = t.val * 2000 + y0.val; omega
  | ⟨1, _⟩ => show win5_0.index t (1 : Fin 2) * 128 + 1 * y1.val = y1.val; omega

theorem iblk_1 (c : Dev nD) (t : Fin cfg5.N) (y1 : Fin 128) :
    iblk5 V c 1 t (ix2 (0 : Fin 1) y1) = V c main_v86 (ix2 (0 : Fin 1) y1) := by
  show V c main_v86 (((cfg5.win 1).blk t).view.emb (ix2 (0 : Fin 1) y1)) = _
  refine congrArg (V c main_v86) ?_
  obtain ⟨-, -, -, -, e0, e1, -⟩ := idx_facts t
  funext a; apply Fin.ext
  match a with
  | ⟨0, _⟩ => show win5_1.index t (0 : Fin 2) * 1 + 1 * 0 = 0; omega
  | ⟨1, _⟩ => show win5_1.index t (1 : Fin 2) * 128 + 1 * y1.val = y1.val; omega

theorem iblk_2 (c : Dev nD) (t : Fin cfg5.N) (y1 : Fin 128) :
    iblk5 V c 2 t (ix2 (0 : Fin 1) y1) = V c main_v90 (ix2 (0 : Fin 1) y1) := by
  show V c main_v90 (((cfg5.win 2).blk t).view.emb (ix2 (0 : Fin 1) y1)) = _
  refine congrArg (V c main_v90) ?_
  obtain ⟨-, -, -, -, -, -, e0, e1, -⟩ := idx_facts t
  funext a; apply Fin.ext
  match a with
  | ⟨0, _⟩ => show win5_2.index t (0 : Fin 2) * 1 + 1 * 0 = 0; omega
  | ⟨1, _⟩ => show win5_2.index t (1 : Fin 2) * 128 + 1 * y1.val = y1.val; omega

theorem iblk_3 (c : Dev nD) (t : Fin cfg5.N) (y1 : Fin 128) :
    iblk5 V c 3 t (ix2 (0 : Fin 1) y1) = V c main_v93 (ix2 (0 : Fin 1) y1) := by
  show V c main_v93 (((cfg5.win 3).blk t).view.emb (ix2 (0 : Fin 1) y1)) = _
  refine congrArg (V c main_v93) ?_
  obtain ⟨-, -, -, -, -, -, -, -, e0, e1, -⟩ := idx_facts t
  funext a; apply Fin.ext
  match a with
  | ⟨0, _⟩ => show win5_3.index t (0 : Fin 2) * 1 + 1 * 0 = 0; omega
  | ⟨1, _⟩ => show win5_3.index t (1 : Fin 2) * 128 + 1 * y1.val = y1.val; omega

theorem iblk_4 (c : Dev nD) (t : Fin cfg5.N) (y1 : Fin 128) :
    iblk5 V c 4 t (ix2 (0 : Fin 1) y1) = V c main_v96 (ix2 (0 : Fin 1) y1) := by
  show V c main_v96 (((cfg5.win 4).blk t).view.emb (ix2 (0 : Fin 1) y1)) = _
  refine congrArg (V c main_v96) ?_
  obtain ⟨-, -, -, -, -, -, -, -, -, -, e0, e1⟩ := idx_facts t
  funext a; apply Fin.ext
  match a with
  | ⟨0, _⟩ => show win5_4.index t (0 : Fin 2) * 1 + 1 * 0 = 0; omega
  | ⟨1, _⟩ => show win5_4.index t (1 : Fin 2) * 128 + 1 * y1.val = y1.val; omega

/-- What point `t` writes back, entry by entry. -/
theorem flushed_apply (c : Dev nD) (t : Fin cfg5.N) (y0 : Fin 2000) (y1 : Fin 128) (hr : t.val * 2000 + y0.val < 50000) :
    (dat5 V c).flushed 5 t (ix2 y0 y1)
      = max (Pay.bnE (V c main_v84_0 (ix2 (⟨t.val * 2000 + y0.val, hr⟩ : Fin 50000) y1)) (V c main_v86 (ix2 (0 : Fin 1) y1))
          (V c main_v90 (ix2 (0 : Fin 1) y1)) (V c main_v93 (ix2 (0 : Fin 1) y1)) (V c main_v96 (ix2 (0 : Fin 1) y1)))
          (Ideal.ofBits .f32 0x00000000#32) := by
  show (cfg5.win 5).cut (grid5.coords t) ((dat5 V c).after 5 t) (ix2 y0 y1) = _
  rw [after5_5]
  unfold out5_5
  rw [View.canon_unit_zero hz]
  simp only [View.ld_unit_zero (S := S2000x128) hz, View.ld_unit_zero (S := S1x128) hz]
  refine (Pay.k5_pay1_apply _ _ _ _ _ y0 y1).trans ?_
  rw [iblk_0 V c t y0 y1 hr, iblk_1, iblk_2, iblk_3, iblk_4]

/-- An index of the output array lies in point `t`'s block iff its row is among the block's 2000 rows. -/
theorem mem_blk (t : Fin cfg5.N) (i : S50000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole main_v97).slice (win5_5.rect t)).set ↔ _
  rw [View.set_slice_whole, Rect.mem_set_unit]
  exact Iff.rfl

/-- THE OUTPUT ARRAY, entry by entry, for real inputs. -/
theorem value (c : Dev nD) (z : Cert.Spec.Mat 50000 128) (μ v g b : Fin 128 → ℝ)
    (hzr : ∀ p k, V c main_v84_0 (ix2 p k) = ((z p k : ℝ) : EReal))
    (hμ : ∀ k, V c main_v86 (ix2 (0 : Fin 1) k) = ((μ k : ℝ) : EReal))
    (hv : ∀ k, V c main_v90 (ix2 (0 : Fin 1) k) = ((v k : ℝ) : EReal))
    (hg : ∀ k, V c main_v93 (ix2 (0 : Fin 1) k) = ((g k : ℝ) : EReal))
    (hb : ∀ k, V c main_v96 (ix2 (0 : Fin 1) k) = ((b k : ℝ) : EReal))
    (hpos : ∀ k, 0 < v k + Cert.Consts.eps) (p : Fin 50000) (k : Fin 128) :
    (dat5 V c).arrAt 5 cfg5.N (ix2 p k)
      = ((Cert.Spec.relu (Cert.Spec.bn μ v Cert.Consts.eps g b z) p k : ℝ) : EReal) := by
  refine (dat5 V c).arrAt_forall_of_cover 5
    (fun i x => ∀ (p : Fin 50000) (k : Fin 128), i = ix2 p k →
      x = ((Cert.Spec.relu (Cert.Spec.bn μ v Cert.Consts.eps g b z) p k : ℝ) : EReal)) ?_ ?_ (ix2 p k) p k rfl
  · intro t _ y p k hi
    obtain ⟨y0, y1, rfl⟩ : ∃ (y0 : Fin 2000) (y1 : Fin 128), y = ix2 y0 y1 := ⟨y 0, y 1, eq_ix2 y⟩
    have ht : t.val < 25 := lt_of_lt_of_eq t.isLt N_eq
    have hr : t.val * 2000 + y0.val < 50000 := by have := y0.isLt; omega
    obtain ⟨-, -, e0, e1, -⟩ := idx_facts t
    have hp : p = (⟨t.val * 2000 + y0.val, hr⟩ : Fin 50000) := by
      apply Fin.ext
      have h0 := congrArg (fun j : S50000x128.Idx => (j 0).val) hi
      have : win5_5.index t (0 : Fin 2) * 2000 + 1 * y0.val = p.val := h0
      show p.val = t.val * 2000 + y0.val
      omega
    have hk : k = y1 := by
      apply Fin.ext
      have h1 := congrArg (fun j : S50000x128.Idx => (j 1).val) hi
      have : win5_5.index t (1 : Fin 2) * 128 + 1 * y1.val = k.val := h1
      show k.val = y1.val
      omega
    subst hp hk
    show (dat5 V c).flushed 5 t (ix2 y0 k) = _
    rw [flushed_apply V c t y0 k hr, hzr, hμ, hv, hg, hb, Cert.RealOps.bnE_coe _ _ _ _ _ (hpos k), Cert.RealOps.max_zero_coe]
    rfl
  · intro i
    have hi0 : (i 0).val < 50000 := idx2_lt0 i
    have hi1 : (i 1).val < 128 := idx2_lt1 i
    refine ⟨⟨(i 0).val / 2000, by rw [N_eq]; omega⟩, flush5_5 _, ?_⟩
    rw [mem_blk]
    obtain ⟨-, -, e0, e1, -⟩ := idx_facts ⟨(i 0).val / 2000, by rw [N_eq]; omega⟩
    intro a
    match a with
    | ⟨0, _⟩ =>
      show win5_5.index _ (0 : Fin 2) * 2000 ≤ (i 0).val ∧ (i 0).val < win5_5.index _ (0 : Fin 2) * 2000 + 2000
      rw [e0]; show (i 0).val / 2000 * 2000 ≤ (i 0).val ∧ (i 0).val < (i 0).val / 2000 * 2000 + 2000; omega
    | ⟨1, _⟩ =>
      show win5_5.index _ (1 : Fin 2) * 128 ≤ (i 1).val ∧ (i 1).val < win5_5.index _ (1 : Fin 2) * 128 + 128
      rw [e1]; omega

end Cert.KernelIdeal.Reg5

end
-- ==== Proof.Layer1.lean ====
/-
  Layer 1 of the kernel program, boundary by boundary.  From the boundary where the layer starts: a stretch of host
  operations forms the neighbour sums and cuts the layer's first weights and bias out of the stacked parameters; the
  first kernel computes `lin₁ = (h + agg)·W₁ + b₁` and its column sums; a stretch divides them by the node count (mean,
  mean of squares minus squared mean) and cuts out γ₁, β₁, W₂, b₂; the second kernel computes
  `lin₂ = max(norm(lin₁), 0)·W₂ + b₂` and its column sums; a stretch forms mean and variance again and cuts out γ₂, β₂;
  the third kernel normalises `lin₂` and takes the larger of it and zero.  For real features and parameters every entry along the way is a real,
  and the layer's output is the real layer function of the specification (variance as mean of squares minus squared
  mean), which needs `variance + ε > 0`: the variance equals the mean squared deviation, which is not negative.
-/
import proofs.«148746_j9251359555639_1_alg».proof.Proof.Gen.KernelIdeal.Frame
import proofs.«148746_j9251359555639_1_alg».proof.Proof.Region3
import proofs.«148746_j9251359555639_1_alg».proof.Proof.Region4
import proofs.«148746_j9251359555639_1_alg».proof.Proof.Region5
import proofs.«148746_j9251359555639_1_alg».proof.Proof.AggHost
import proofs.«148746_j9251359555639_1_alg».proof.Proof.HostForms
import proofs.«148746_j9251359555639_1_alg».proof.Proof.LibSlabs
import proofs.«148746_j9251359555639_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Layer1

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The first stretch -/

/-- The first stretch leaves the layer's input features where they were. -/
theorem a_feat : V7 m ρ c main_v50 = W6 m ρ c (Proc.devRef .tc main_v50) := by
  show StableHlo.after hostOps3 (W6 m ρ c) (Proc.devRef .tc main_v50) = _
  after_results

/-- The layer's first weights, cut out of the stacked array. -/
theorem a_w1 (k : Fin 128) (q : Fin 256) :
    V7 m ρ c main_v62 (ix2 k q) = W6 m ρ c (Proc.devRef .tc main_arg3) (ix3 (1 : Fin 3) k q) := by
  have e : V7 m ρ c main_v62 = shapeCast S128x256 (extractStridedSlice S1x128x256 ![1, 0, 0] (W6 m ρ c (Proc.devRef .tc main_arg3))
      slices_S3x128x256_S1x128x256_1_0_0) shapeCasts_S1x128x256_S128x256 := by
    show StableHlo.after hostOps3 (W6 m ρ c) (Proc.devRef .tc main_v62) = _
    after_results
    rfl
  rw [e]
  exact Cert.Lib.hostSlab3 (n0 := 3) (l := 1) (by decide) _ _ _ k q

/-- The layer's first bias, as one row. -/
theorem a_b1 (q : Fin 256) :
    V7 m ρ c main_v65 (ix2 (0 : Fin 1) q) = W6 m ρ c (Proc.devRef .tc main_arg4) (ix2 (1 : Fin 3) q) := by
  have e : V7 m ρ c main_v65 = shapeCast S1x256 (shapeCast S256 (extractStridedSlice S1x256 ![1, 0] (W6 m ρ c (Proc.devRef .tc main_arg4)) slices_S3x256_S1x256_1_0) shapeCasts_S1x256_S256) shapeCasts_S256_S1x256 := by
    show StableHlo.after hostOps3 (W6 m ρ c) (Proc.devRef .tc main_v65) = _
    after_results
    rfl
  rw [e]
  exact Cert.HostForms.paramRow (n0 := 3) (l := 1) (by decide) _ _ _ _ q

set_option maxHeartbeats 1600000 in
/-- The neighbour-sum buffer as the composed host operations. -/
theorem a_agg_term : V7 m ρ c main_v60 =
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0
        (shapeCast S800000 (extractStridedSlice S1x800000 ![1, 0] (W6 m ρ c (Proc.devRef .tc main_arg1)) slices_S2x800000_S1x800000_1_0) shapeCasts_S1x800000_S800000))
      (Host.gather gather_S50000x128_S800000x1_S800000x128_1_0_n_n_0_1_1128 (W6 m ρ c (Proc.devRef .tc main_v50))
        (broadcastInDim S800000x1 ![0] bcast_S800000_S800000x1_0
          (select
            (cmpi .slt (shapeCast S800000 (extractStridedSlice S1x800000 ![0, 0] (W6 m ρ c (Proc.devRef .tc main_arg1)) slices_S2x800000_S1x800000_0_0) shapeCasts_S1x800000_S800000) (broadcastInDim S800000 ![] bcast_S_S800000 (constantI S_ 32 0#32)))
            (addi (shapeCast S800000 (extractStridedSlice S1x800000 ![0, 0] (W6 m ρ c (Proc.devRef .tc main_arg1)) slices_S2x800000_S1x800000_0_0) shapeCasts_S1x800000_S800000) (broadcastInDim S800000 ![] bcast_S_S800000 (constantI S_ 32 50000#32)))
            (shapeCast S800000 (extractStridedSlice S1x800000 ![0, 0] (W6 m ρ c (Proc.devRef .tc main_arg1)) slices_S2x800000_S1x800000_0_0) shapeCasts_S1x800000_S800000)))) := by
  show StableHlo.after hostOps3 (W6 m ρ c) (Proc.devRef .tc main_v60) = _
  after_results
  rfl

/-- The neighbour sums of a real feature matrix, entry by entry. -/
theorem a_agg (h : Cert.Spec.Mat 50000 128)
    (hh : ∀ p k, W6 m ρ c (Proc.devRef .tc main_v50) (ix2 p k) = ((h p k : ℝ) : EReal)) (p : Fin 50000) (k : Fin 128) :
    V7 m ρ c main_v60 (ix2 p k)
      = ((Cert.Spec.agg (Cert.Edges.land (W6 m ρ c (Proc.devRef .tc main_arg1))) (Cert.Edges.src (W6 m ρ c (Proc.devRef .tc main_arg1))) h p k : ℝ) : EReal) := by
  rw [a_agg_term]
  refine Cert.AggHost.agg_apply _ _ _ h hh (W6 m ρ c (Proc.devRef .tc main_arg1)) _ _ ?_ ?_ _ (fun _ _ => rfl) p k
  · intro e
    rw [Cert.HostForms.col_apply]
    have hs : (shapeCast S800000 (extractStridedSlice S1x800000 ![0, 0] (W6 m ρ c (Proc.devRef .tc main_arg1)) slices_S2x800000_S1x800000_0_0) shapeCasts_S1x800000_S800000) (ix1 e) = (W6 m ρ c (Proc.devRef .tc main_arg1)) (ix2 (0 : Fin 2) e) :=
      Cert.Lib.hostSlab2 (n0 := 2) (l := 0) (by decide) _ _ _ e
    show Scalar.select (IntOp.cmpi .slt ((shapeCast S800000 (extractStridedSlice S1x800000 ![0, 0] (W6 m ρ c (Proc.devRef .tc main_arg1)) slices_S2x800000_S1x800000_0_0) shapeCasts_S1x800000_S800000) (ix1 e)) 0#32) (IntOp.addi ((shapeCast S800000 (extractStridedSlice S1x800000 ![0, 0] (W6 m ρ c (Proc.devRef .tc main_arg1)) slices_S2x800000_S1x800000_0_0) shapeCasts_S1x800000_S800000) (ix1 e)) 50000#32) ((shapeCast S800000 (extractStridedSlice S1x800000 ![0, 0] (W6 m ρ c (Proc.devRef .tc main_arg1)) slices_S2x800000_S1x800000_0_0) shapeCasts_S1x800000_S800000) (ix1 e)) = _
    rw [hs]
    rfl
  · intro e
    rw [Cert.HostForms.col_apply]
    exact Cert.Lib.hostSlab2 (n0 := 2) (l := 1) (by decide) _ _ _ e

/-! ## The second stretch -/

/-- The second stretch leaves the first linear map's output where it was. -/
theorem b_lin : V9 m ρ c main_v66_0 = W8 m ρ c (Proc.devRef .tc main_v66_0) := by
  show StableHlo.after hostOps4 (W8 m ρ c) (Proc.devRef .tc main_v66_0) = _
  after_results

/-- The column mean: the running row of column sums over the node count. -/
theorem b_mean (q : Fin 256) :
    V9 m ρ c main_v68 (ix2 (0 : Fin 1) q)
      = Ideal.div (W8 m ρ c (Proc.devRef .tc main_v66_1) (ix2 (0 : Fin 1) q)) (Ideal.ofBits .f32 0x47435000#32) := by
  have e : V9 m ρ c main_v68 = Host.divf (F := Ideal) (W8 m ρ c (Proc.devRef .tc main_v66_1))
      (broadcastInDim S1x256 ![] bcast_S_S1x256 (constant (F := Ideal) S_ .f32 0x47435000#32)) := by
    show StableHlo.after hostOps4 (W8 m ρ c) (Proc.devRef .tc main_v68) = _
    after_results
  rw [e]
  rfl

/-- The column variance as the kernel's host code computes it: mean of squares minus squared mean. -/
theorem b_var (q : Fin 256) :
    V9 m ρ c main_v72 (ix2 (0 : Fin 1) q)
      = Ideal.div (W8 m ρ c (Proc.devRef .tc main_v66_2) (ix2 (0 : Fin 1) q)) (Ideal.ofBits .f32 0x47435000#32)
        - Ideal.div (W8 m ρ c (Proc.devRef .tc main_v66_1) (ix2 (0 : Fin 1) q)) (Ideal.ofBits .f32 0x47435000#32)
          * Ideal.div (W8 m ρ c (Proc.devRef .tc main_v66_1) (ix2 (0 : Fin 1) q)) (Ideal.ofBits .f32 0x47435000#32) := by
  have e : V9 m ρ c main_v72 = subf
      (Host.divf (F := Ideal) (W8 m ρ c (Proc.devRef .tc main_v66_2)) (broadcastInDim S1x256 ![] bcast_S_S1x256 (constant (F := Ideal) S_ .f32 0x47435000#32)))
      (mulf
        (Host.divf (F := Ideal) (W8 m ρ c (Proc.devRef .tc main_v66_1)) (broadcastInDim S1x256 ![] bcast_S_S1x256 (constant (F := Ideal) S_ .f32 0x47435000#32)))
        (Host.divf (F := Ideal) (W8 m ρ c (Proc.devRef .tc main_v66_1)) (broadcastInDim S1x256 ![] bcast_S_S1x256 (constant (F := Ideal) S_ .f32 0x47435000#32)))) := by
    show StableHlo.after hostOps4 (W8 m ρ c) (Proc.devRef .tc main_v72) = _
    after_results
  rw [e]
  rfl

/-- γ of the first normalisation, as one row. -/
theorem b_g (q : Fin 256) :
    V9 m ρ c main_v75 (ix2 (0 : Fin 1) q) = W8 m ρ c (Proc.devRef .tc main_arg5) (ix2 (1 : Fin 3) q) := by
  have e : V9 m ρ c main_v75 = shapeCast S1x256 (shapeCast S256 (extractStridedSlice S1x256 ![1, 0] (W8 m ρ c (Proc.devRef .tc main_arg5)) slices_S3x256_S1x256_1_0) shapeCasts_S1x256_S256) shapeCasts_S256_S1x256 := by
    show StableHlo.after hostOps4 (W8 m ρ c) (Proc.devRef .tc main_v75) = _
    after_results
    rfl
  rw [e]
  exact Cert.HostForms.paramRow (n0 := 3) (l := 1) (by decide) _ _ _ _ q

/-- β of the first normalisation, as one row. -/
theorem b_bt (q : Fin 256) :
    V9 m ρ c main_v78 (ix2 (0 : Fin 1) q) = W8 m ρ c (Proc.devRef .tc main_arg6) (ix2 (1 : Fin 3) q) := by
  have e : V9 m ρ c main_v78 = shapeCast S1x256 (shapeCast S256 (extractStridedSlice S1x256 ![1, 0] (W8 m ρ c (Proc.devRef .tc main_arg6)) slices_S3x256_S1x256_1_0) shapeCasts_S1x256_S256) shapeCasts_S256_S1x256 := by
    show StableHlo.after hostOps4 (W8 m ρ c) (Proc.devRef .tc main_v78) = _
    after_results
    rfl
  rw [e]
  exact Cert.HostForms.paramRow (n0 := 3) (l := 1) (by decide) _ _ _ _ q

/-- The layer's second weights, cut out of the stacked array. -/
theorem b_w2 (k : Fin 256) (q : Fin 128) :
    V9 m ρ c main_v80 (ix2 k q) = W8 m ρ c (Proc.devRef .tc main_arg7) (ix3 (1 : Fin 3) k q) := by
  have e : V9 m ρ c main_v80 = shapeCast S256x128 (extractStridedSlice S1x256x128 ![1, 0, 0] (W8 m ρ c (Proc.devRef .tc main_arg7))
      slices_S3x256x128_S1x256x128_1_0_0) shapeCasts_S1x256x128_S256x128 := by
    show StableHlo.after hostOps4 (W8 m ρ c) (Proc.devRef .tc main_v80) = _
    after_results
    rfl
  rw [e]
  exact Cert.Lib.hostSlab3 (n0 := 3) (l := 1) (by decide) _ _ _ k q

/-- The layer's second bias, as one row. -/
theorem b_b2 (q : Fin 128) :
    V9 m ρ c main_v83 (ix2 (0 : Fin 1) q) = W8 m ρ c (Proc.devRef .tc main_arg8) (ix2 (1 : Fin 3) q) := by
  have e : V9 m ρ c main_v83 = shapeCast S1x128 (shapeCast S128 (extractStridedSlice S1x128 ![1, 0] (W8 m ρ c (Proc.devRef .tc main_arg8)) slices_S3x128_S1x128_1_0) shapeCasts_S1x128_S128) shapeCasts_S128_S1x128 := by
    show StableHlo.after hostOps4 (W8 m ρ c) (Proc.devRef .tc main_v83) = _
    after_results
    rfl
  rw [e]
  exact Cert.HostForms.paramRow (n0 := 3) (l := 1) (by decide) _ _ _ _ q

/-! ## The third stretch -/

/-- The third stretch leaves the second linear map's output where it was. -/
theorem c_lin : V11 m ρ c main_v84_0 = W10 m ρ c (Proc.devRef .tc main_v84_0) := by
  show StableHlo.after hostOps5 (W10 m ρ c) (Proc.devRef .tc main_v84_0) = _
  after_results

/-- The column mean: the running row of column sums over the node count. -/
theorem c_mean (q : Fin 128) :
    V11 m ρ c main_v86 (ix2 (0 : Fin 1) q)
      = Ideal.div (W10 m ρ c (Proc.devRef .tc main_v84_1) (ix2 (0 : Fin 1) q)) (Ideal.ofBits .f32 0x47435000#32) := by
  have e : V11 m ρ c main_v86 = Host.divf (F := Ideal) (W10 m ρ c (Proc.devRef .tc main_v84_1))
      (broadcastInDim S1x128 ![] bcast_S_S1x128 (constant (F := Ideal) S_ .f32 0x47435000#32)) := by
    show StableHlo.after hostOps5 (W10 m ρ c) (Proc.devRef .tc main_v86) = _
    after_results
  rw [e]
  rfl

/-- The column variance as the kernel's host code computes it: mean of squares minus squared mean. -/
theorem c_var (q : Fin 128) :
    V11 m ρ c main_v90 (ix2 (0 : Fin 1) q)
      = Ideal.div (W10 m ρ c (Proc.devRef .tc main_v84_2) (ix2 (0 : Fin 1) q)) (Ideal.ofBits .f32 0x47435000#32)
        - Ideal.div (W10 m ρ c (Proc.devRef .tc main_v84_1) (ix2 (0 : Fin 1) q)) (Ideal.ofBits .f32 0x47435000#32)
          * Ideal.div (W10 m ρ c (Proc.devRef .tc main_v84_1) (ix2 (0 : Fin 1) q)) (Ideal.ofBits .f32 0x47435000#32) := by
  have e : V11 m ρ c main_v90 = subf
      (Host.divf (F := Ideal) (W10 m ρ c (Proc.devRef .tc main_v84_2)) (broadcastInDim S1x128 ![] bcast_S_S1x128 (constant (F := Ideal) S_ .f32 0x47435000#32)))
      (mulf
        (Host.divf (F := Ideal) (W10 m ρ c (Proc.devRef .tc main_v84_1)) (broadcastInDim S1x128 ![] bcast_S_S1x128 (constant (F := Ideal) S_ .f32 0x47435000#32)))
        (Host.divf (F := Ideal) (W10 m ρ c (Proc.devRef .tc main_v84_1)) (broadcastInDim S1x128 ![] bcast_S_S1x128 (constant (F := Ideal) S_ .f32 0x47435000#32)))) := by
    show StableHlo.after hostOps5 (W10 m ρ c) (Proc.devRef .tc main_v90) = _
    after_results
  rw [e]
  rfl

/-- γ of the second normalisation, as one row. -/
theorem c_g (q : Fin 128) :
    V11 m ρ c main_v93 (ix2 (0 : Fin 1) q) = W10 m ρ c (Proc.devRef .tc main_arg9) (ix2 (1 : Fin 3) q) := by
  have e : V11 m ρ c main_v93 = shapeCast S1x128 (shapeCast S128 (extractStridedSlice S1x128 ![1, 0] (W10 m ρ c (Proc.devRef .tc main_arg9)) slices_S3x128_S1x128_1_0) shapeCasts_S1x128_S128) shapeCasts_S128_S1x128 := by
    show StableHlo.after hostOps5 (W10 m ρ c) (Proc.devRef .tc main_v93) = _
    after_results
    rfl
  rw [e]
  exact Cert.HostForms.paramRow (n0 := 3) (l := 1) (by decide) _ _ _ _ q

/-- β of the second normalisation, as one row. -/
theorem c_bt (q : Fin 128) :
    V11 m ρ c main_v96 (ix2 (0 : Fin 1) q) = W10 m ρ c (Proc.devRef .tc main_arg10) (ix2 (1 : Fin 3) q) := by
  have e : V11 m ρ c main_v96 = shapeCast S1x128 (shapeCast S128 (extractStridedSlice S1x128 ![1, 0] (W10 m ρ c (Proc.devRef .tc main_arg10)) slices_S3x128_S1x128_1_0) shapeCasts_S1x128_S128) shapeCasts_S128_S1x128 := by
    show StableHlo.after hostOps5 (W10 m ρ c) (Proc.devRef .tc main_v96) = _
    after_results
    rfl
  rw [e]
  exact Cert.HostForms.paramRow (n0 := 3) (l := 1) (by decide) _ _ _ _ q

/-! ## The layer -/

section Layer

variable (ei : Cert.Edges.EI) (h : Cert.Spec.Mat 50000 128) (Wa : Cert.Spec.Mat 128 256) (b1 g1 bt1 : Fin 256 → ℝ)
  (Wb : Cert.Spec.Mat 256 128) (b2 g2 bt2 : Fin 128 → ℝ)

/-- The layer's intermediate real matrices: the neighbour sums, the first linear map, the second linear map. -/
abbrev aggr : Cert.Spec.Mat 50000 128 := Cert.Spec.agg (Cert.Edges.land ei) (Cert.Edges.src ei) h
abbrev L1r : Cert.Spec.Mat 50000 256 := Cert.Spec.lin (Cert.Spec.addM h (aggr ei h)) Wa b1
abbrev L2r : Cert.Spec.Mat 50000 128 :=
  Cert.Spec.lin (Cert.Spec.relu (Cert.Spec.bn (Cert.Spec.mean 50000 (L1r ei h Wa b1)) (Cert.Spec.varSq 50000 (L1r ei h Wa b1))
    Cert.Consts.eps g1 bt1 (L1r ei h Wa b1))) Wb b2

/-- A column variance plus ε is positive: the variance is the mean squared deviation. -/
theorem var_pos {H : ℕ} (z : Cert.Spec.Mat 50000 H) (q : Fin H) : 0 < Cert.Spec.varSq 50000 z q + Cert.Consts.eps := by
  rw [Cert.Spec.varSq_eq_varDev 50000 (by norm_num) (by norm_num)]
  exact add_pos_of_nonneg_of_pos (Cert.Spec.varDev_nonneg 50000 (by norm_num) z q) Cert.Consts.eps_pos

variable (hei : W6 m ρ c (Proc.devRef .tc main_arg1) = ei)
  (hh : ∀ p k, W6 m ρ c (Proc.devRef .tc main_v50) (ix2 p k) = ((h p k : ℝ) : EReal))
  (hW1 : ∀ k q, W6 m ρ c (Proc.devRef .tc main_arg3) (ix3 (1 : Fin 3) k q) = ((Wa k q : ℝ) : EReal))
  (hb1 : ∀ q, W6 m ρ c (Proc.devRef .tc main_arg4) (ix2 (1 : Fin 3) q) = ((b1 q : ℝ) : EReal))
  (hg1 : ∀ q, W8 m ρ c (Proc.devRef .tc main_arg5) (ix2 (1 : Fin 3) q) = ((g1 q : ℝ) : EReal))
  (hbt1 : ∀ q, W8 m ρ c (Proc.devRef .tc main_arg6) (ix2 (1 : Fin 3) q) = ((bt1 q : ℝ) : EReal))
  (hW2 : ∀ k q, W8 m ρ c (Proc.devRef .tc main_arg7) (ix3 (1 : Fin 3) k q) = ((Wb k q : ℝ) : EReal))
  (hb2 : ∀ q, W8 m ρ c (Proc.devRef .tc main_arg8) (ix2 (1 : Fin 3) q) = ((b2 q : ℝ) : EReal))
  (hg2 : ∀ q, W10 m ρ c (Proc.devRef .tc main_arg9) (ix2 (1 : Fin 3) q) = ((g2 q : ℝ) : EReal))
  (hbt2 : ∀ q, W10 m ρ c (Proc.devRef .tc main_arg10) (ix2 (1 : Fin 3) q) = ((bt2 q : ℝ) : EReal))

include hei hh hW1 hb1 in
/-- After the first kernel: the first linear map and its column sums. -/
theorem stageA : (∀ p q, W8 m ρ c (Proc.devRef .tc main_v66_0) (ix2 p q) = ((L1r ei h Wa b1 p q : ℝ) : EReal))
    ∧ (∀ q, W8 m ρ c (Proc.devRef .tc main_v66_1) (ix2 (0 : Fin 1) q) = ((Cert.Spec.colSum (L1r ei h Wa b1) q : ℝ) : EReal))
    ∧ (∀ q, W8 m ρ c (Proc.devRef .tc main_v66_2) (ix2 (0 : Fin 1) q) = ((Cert.Spec.colSumSq (L1r ei h Wa b1) q : ℝ) : EReal)) := by
  have hh' : ∀ p k, V7 m ρ c main_v50 (ix2 p k) = ((h p k : ℝ) : EReal) :=
    fun p k => (congrFun (a_feat m ρ c) (ix2 p k)).trans (hh p k)
  have ha' : ∀ p k, V7 m ρ c main_v60 (ix2 p k) = ((aggr ei h p k : ℝ) : EReal) :=
    fun p k => (a_agg m ρ c h hh p k).trans (by rw [hei])
  have hW' : ∀ k q, V7 m ρ c main_v62 (ix2 k q) = ((Wa k q : ℝ) : EReal) := fun k q => (a_w1 m ρ c k q).trans (hW1 k q)
  have hb' : ∀ q, V7 m ρ c main_v65 (ix2 (0 : Fin 1) q) = ((b1 q : ℝ) : EReal) := fun q => (a_b1 m ρ c q).trans (hb1 q)
  refine ⟨fun p q => ?_, fun q => ?_, fun q => ?_⟩
  · exact (congrFun (W8_arr m ρ c 4) (ix2 p q)).trans
      (Cert.KernelIdeal.Reg3.value_4 (V7 m ρ) c h (aggr ei h) Wa b1 hh' ha' hW' hb' p q)
  · exact (congrFun (W8_arr m ρ c 5) (ix2 (0 : Fin 1) q)).trans
      (Cert.KernelIdeal.Reg3.value_5 (V7 m ρ) c h (aggr ei h) Wa b1 hh' ha' hW' hb' q)
  · exact (congrFun (W8_arr m ρ c 6) (ix2 (0 : Fin 1) q)).trans
      (Cert.KernelIdeal.Reg3.value_6 (V7 m ρ) c h (aggr ei h) Wa b1 hh' ha' hW' hb' q)

include hei hh hW1 hb1 hg1 hbt1 hW2 hb2 in
/-- After the second kernel: the second linear map and its column sums. -/
theorem stageB : (∀ p q, W10 m ρ c (Proc.devRef .tc main_v84_0) (ix2 p q) = ((L2r ei h Wa b1 g1 bt1 Wb b2 p q : ℝ) : EReal))
    ∧ (∀ q, W10 m ρ c (Proc.devRef .tc main_v84_1) (ix2 (0 : Fin 1) q) = ((Cert.Spec.colSum (L2r ei h Wa b1 g1 bt1 Wb b2) q : ℝ) : EReal))
    ∧ (∀ q, W10 m ρ c (Proc.devRef .tc main_v84_2) (ix2 (0 : Fin 1) q) = ((Cert.Spec.colSumSq (L2r ei h Wa b1 g1 bt1 Wb b2) q : ℝ) : EReal)) := by
  obtain ⟨hl, hs, hq⟩ := stageA m ρ c ei h Wa b1 hei hh hW1 hb1
  have hz' : ∀ p k, V9 m ρ c main_v66_0 (ix2 p k) = ((L1r ei h Wa b1 p k : ℝ) : EReal) :=
    fun p k => (congrFun (b_lin m ρ c) (ix2 p k)).trans (hl p k)
  have hμ' : ∀ k, V9 m ρ c main_v68 (ix2 (0 : Fin 1) k) = ((Cert.Spec.mean 50000 (L1r ei h Wa b1) k : ℝ) : EReal) :=
    fun k => (b_mean m ρ c k).trans (by rw [hs k]; exact Cert.HostForms.div_N_coe _)
  have hv' : ∀ k, V9 m ρ c main_v72 (ix2 (0 : Fin 1) k) = ((Cert.Spec.varSq 50000 (L1r ei h Wa b1) k : ℝ) : EReal) :=
    fun k => (b_var m ρ c k).trans (by
      rw [hq k, hs k, Cert.HostForms.div_N_coe, Cert.HostForms.div_N_coe, ← EReal.coe_mul, ← EReal.coe_sub]; rfl)
  have hg' : ∀ k, V9 m ρ c main_v75 (ix2 (0 : Fin 1) k) = ((g1 k : ℝ) : EReal) := fun k => (b_g m ρ c k).trans (hg1 k)
  have hbt' : ∀ k, V9 m ρ c main_v78 (ix2 (0 : Fin 1) k) = ((bt1 k : ℝ) : EReal) := fun k => (b_bt m ρ c k).trans (hbt1 k)
  have hW' : ∀ k q, V9 m ρ c main_v80 (ix2 k q) = ((Wb k q : ℝ) : EReal) := fun k q => (b_w2 m ρ c k q).trans (hW2 k q)
  have hb' : ∀ q, V9 m ρ c main_v83 (ix2 (0 : Fin 1) q) = ((b2 q : ℝ) : EReal) := fun q => (b_b2 m ρ c q).trans (hb2 q)
  have hpos : ∀ k, 0 < Cert.Spec.varSq 50000 (L1r ei h Wa b1) k + Cert.Consts.eps := fun k => var_pos _ k
  refine ⟨fun p q => ?_, fun q => ?_, fun q => ?_⟩
  · exact (congrFun (W10_arr m ρ c 7) (ix2 p q)).trans
      (Cert.KernelIdeal.Reg4.value_7 (V9 m ρ) c (L1r ei h Wa b1) _ _ g1 bt1 Wb b2 hz' hμ' hv' hg' hbt' hW' hb' hpos p q)
  · exact (congrFun (W10_arr m ρ c 8) (ix2 (0 : Fin 1) q)).trans
      (Cert.KernelIdeal.Reg4.value_8 (V9 m ρ) c (L1r ei h Wa b1) _ _ g1 bt1 Wb b2 hz' hμ' hv' hg' hbt' hW' hb' hpos q)
  · exact (congrFun (W10_arr m ρ c 9) (ix2 (0 : Fin 1) q)).trans
      (Cert.KernelIdeal.Reg4.value_9 (V9 m ρ) c (L1r ei h Wa b1) _ _ g1 bt1 Wb b2 hz' hμ' hv' hg' hbt' hW' hb' hpos q)

include hei hh hW1 hb1 hg1 hbt1 hW2 hb2 hg2 hbt2 in
/-- THE LAYER: its output buffer at the next layer's boundary is the real layer function of the specification. -/
theorem layer (p : Fin 50000) (k : Fin 128) :
    W12 m ρ c (Proc.devRef .tc main_v97) (ix2 p k)
      = ((Cert.Spec.layerSq 50000 Cert.Consts.eps false (Cert.Edges.land ei) (Cert.Edges.src ei) Wa b1 g1 bt1 Wb b2 g2 bt2 h p k : ℝ) : EReal) := by
  obtain ⟨hl, hs, hq⟩ := stageB m ρ c ei h Wa b1 g1 bt1 Wb b2 hei hh hW1 hb1 hg1 hbt1 hW2 hb2
  have hz' : ∀ p k, V11 m ρ c main_v84_0 (ix2 p k) = ((L2r ei h Wa b1 g1 bt1 Wb b2 p k : ℝ) : EReal) :=
    fun p k => (congrFun (c_lin m ρ c) (ix2 p k)).trans (hl p k)
  have hμ' : ∀ k, V11 m ρ c main_v86 (ix2 (0 : Fin 1) k) = ((Cert.Spec.mean 50000 (L2r ei h Wa b1 g1 bt1 Wb b2) k : ℝ) : EReal) :=
    fun k => (c_mean m ρ c k).trans (by rw [hs k]; exact Cert.HostForms.div_N_coe _)
  have hv' : ∀ k, V11 m ρ c main_v90 (ix2 (0 : Fin 1) k) = ((Cert.Spec.varSq 50000 (L2r ei h Wa b1 g1 bt1 Wb b2) k : ℝ) : EReal) :=
    fun k => (c_var m ρ c k).trans (by
      rw [hq k, hs k, Cert.HostForms.div_N_coe, Cert.HostForms.div_N_coe, ← EReal.coe_mul, ← EReal.coe_sub]; rfl)
  have hg' : ∀ k, V11 m ρ c main_v93 (ix2 (0 : Fin 1) k) = ((g2 k : ℝ) : EReal) := fun k => (c_g m ρ c k).trans (hg2 k)
  have hbt' : ∀ k, V11 m ρ c main_v96 (ix2 (0 : Fin 1) k) = ((bt2 k : ℝ) : EReal) := fun k => (c_bt m ρ c k).trans (hbt2 k)
  have hpos : ∀ k, 0 < Cert.Spec.varSq 50000 (L2r ei h Wa b1 g1 bt1 Wb b2) k + Cert.Consts.eps := fun k => var_pos _ k
  refine ((congrFun (W12_arr m ρ c 5) (ix2 p k)).trans
    (Cert.KernelIdeal.Reg5.value (V11 m ρ) c (L2r ei h Wa b1 g1 bt1 Wb b2) _ _ g2 bt2 hz' hμ' hv' hg' hbt' hpos p k)).trans ?_
  rfl

end Layer

end Cert.KernelIdeal.Layer1

end
-- ==== Proof.Pieces6.lean ====
/-
  What the first kernel of a layer leaves in its three output buffers at one grid point, as values.  At the first point
  the two running rows are reset to zero and then take in the block's column sums; at every later point they take them in
  on top of what the point before left.  The block of the linear map is stored whole at every point.
-/
import proofs.«148746_j9251359555639_1_alg».proof.Proof.Gen.KernelIdeal.Frame
import Idealize.ShloMosaic.Lib.Pipeline.Value
import Idealize.ShloMosaic.Lib.ValueIdx

set_option maxRecDepth 16384

noncomputable section

namespace Cert.KernelIdeal.Reg6

open Idealize.ShloMosaic Idealize.ShloMosaic.ValueIdx Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

section Pieces
variable (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole)
  (x0 : Vec F S2000x128 .f32) (x1 : Vec F S2000x128 .f32) (x2 : Vec F S128x256 .f32) (x3 : Vec F S1x256 .f32)

/-- First point: the block of the linear map. -/
theorem out_A_4 (hc0 : cond6_0 i) :
    out6_A_4 c i arg1 harg1 arg2 harg2 arg3 harg3 arg4 harg4 arg5 harg5 arg6 harg6 arg7 harg7 hc0 x0 x1 x2 x3 = k6_pay1 x0 x1 x2 x3 := by
  unfold out6_A_4
  rw [View.read_writes_eq_canon _ _ _ (cover6_A_4 c i arg1 harg1 arg2 harg2 arg3 harg3 arg4 harg4 arg5 harg5 arg6 harg6 arg7 harg7 hc0 x0 x1 x2 x3)]
  unfold kernelRun6_A
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

/-- First point: the running column sums start from the zero row. -/
theorem out_A_5 (hc0 : cond6_0 i) :
    out6_A_5 c i arg1 harg1 arg2 harg2 arg3 harg3 arg4 harg4 arg5 harg5 arg6 harg6 arg7 harg7 hc0 x0 x1 x2 x3 = k6_pay4 x0 x1 x2 x3 k6_pay2 := by
  unfold out6_A_5
  rw [View.read_writes_eq_canon _ _ _ (cover6_A_5 c i arg1 harg1 arg2 harg2 arg3 harg3 arg4 harg4 arg5 harg5 arg6 harg6 arg7 harg7 hc0 x0 x1 x2 x3)]
  unfold kernelRun6_A
  dsimp only
  sl_unfold_words
  rw [View.canon_cons_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]
  rw [View.readCov_unit_zero _ hz]

/-- First point: the running column sums of squares start from the zero row. -/
theorem out_A_6 (hc0 : cond6_0 i) :
    out6_A_6 c i arg1 harg1 arg2 harg2 arg3 harg3 arg4 harg4 arg5 harg5 arg6 harg6 arg7 harg7 hc0 x0 x1 x2 x3 = k6_pay5 x0 x1 x2 x3 k6_pay3 := by
  unfold out6_A_6
  rw [View.read_writes_eq_canon _ _ _ (cover6_A_6 c i arg1 harg1 arg2 harg2 arg3 harg3 arg4 harg4 arg5 harg5 arg6 harg6 arg7 harg7 hc0 x0 x1 x2 x3)]
  unfold kernelRun6_A
  dsimp only
  sl_unfold_words
  rw [View.canon_cons_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]
  rw [View.readCov_unit_zero _ hz]

/-- A later point: the block of the linear map. -/
theorem out_B_4 (hc0 : ¬cond6_0 i) (xo5 xo6 : Vec F S1x256 .f32) :
    out6_B_4 c i arg1 harg1 arg2 harg2 arg3 harg3 arg4 harg4 arg5 harg5 arg6 harg6 arg7 harg7 hc0 x0 x1 x2 x3 xo5 xo6 = k6_pay1 x0 x1 x2 x3 := by
  unfold out6_B_4
  rw [View.read_writes_eq_canon _ _ _ (cover6_B_4 c i arg1 harg1 arg2 harg2 arg3 harg3 arg4 harg4 arg5 harg5 arg6 harg6 arg7 harg7 hc0 x0 x1 x2 x3 xo5 xo6)]
  unfold kernelRun6_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

/-- A later point: the running column sums over what the point before left. -/
theorem out_B_5 (hc0 : ¬cond6_0 i) (xo5 xo6 : Vec F S1x256 .f32) :
    out6_B_5 c i arg1 harg1 arg2 harg2 arg3 harg3 arg4 harg4 arg5 harg5 arg6 harg6 arg7 harg7 hc0 x0 x1 x2 x3 xo5 xo6 = k6_pay4 x0 x1 x2 x3 xo5 := by
  unfold out6_B_5
  rw [View.read_writes_eq_canon _ _ _ (cover6_B_5 c i arg1 harg1 arg2 harg2 arg3 harg3 arg4 harg4 arg5 harg5 arg6 harg6 arg7 harg7 hc0 x0 x1 x2 x3 xo5 xo6)]
  unfold kernelRun6_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

/-- A later point: the running column sums of squares over what the point before left. -/
theorem out_B_6 (hc0 : ¬cond6_0 i) (xo5 xo6 : Vec F S1x256 .f32) :
    out6_B_6 c i arg1 harg1 arg2 harg2 arg3 harg3 arg4 harg4 arg5 harg5 arg6 harg6 arg7 harg7 hc0 x0 x1 x2 x3 xo5 xo6 = k6_pay5 x0 x1 x2 x3 xo6 := by
  unfold out6_B_6
  rw [View.read_writes_eq_canon _ _ _ (cover6_B_6 c i arg1 harg1 arg2 harg2 arg3 harg3 arg4 harg4 arg5 harg5 arg6 harg6 arg7 harg7 hc0 x0 x1 x2 x3 xo5 xo6)]
  unfold kernelRun6_B
  dsimp only
  sl_unfold_words
  rw [View.canon_unit_zero hz]
  simp only [View.readAt_eq_ld, harg1.read_unread, harg2.read_unread, harg3.read_unread, harg4.read_unread,
    harg6.read_unread, harg7.read_unread,
    View.ld_unit_zero (S := S2000x128) hz, View.ld_unit_zero (S := S128x256) hz, View.ld_unit_zero (S := S1x256) hz]

end Pieces

end Cert.KernelIdeal.Reg6

end
-- ==== Proof.Region6.lean ====
/-
  The first kernel of a layer as whole arrays.  The grid has 25 points; point `t` reads rows `2000·t … 2000·t + 1999` of
  the node features and of the neighbour sums, the weights and the bias row whole, and writes back the same rows of
  `lin = (h + agg)·W + b`.  The two `[1, 256]` outputs are running rows: reset at the first point, each point adds its
  block's column sums (of `lin`, of `lin²`), and the last point writes them back.  Since the 25 blocks of 2000 rows are
  the 50000 rows once each, the rows end at the column sums of `lin` and of `lin²` over all nodes.  For real inputs
  every entry is a real.
-/
import proofs.«148746_j9251359555639_1_alg».proof.Proof.Gen.KernelIdeal.Frame
import proofs.«148746_j9251359555639_1_alg».proof.Proof.Pieces6
import proofs.«148746_j9251359555639_1_alg».proof.Proof.PayA
import proofs.«148746_j9251359555639_1_alg».proof.Proof.RealOps
import proofs.«148746_j9251359555639_1_alg».proof.Proof.Spec
import proofs.«148746_j9251359555639_1_alg».proof.Proof.LibGridSum
import Idealize.ShloMosaic.Lib.Pipeline.Value

set_option maxRecDepth 16384

noncomputable section

namespace Cert.KernelIdeal.Reg6

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The printed index maps over the grid: the row blocks move with the point, everything else stays. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

theorem N_eq : cfg6.N = 25 := N_6

theorem iblk_0 (c : Dev nD) (t : Fin cfg6.N) (y0 : Fin 2000) (k : Fin 128) (hr : t.val * 2000 + y0.val < 50000) :
    iblk6 V c 0 t (ix2 y0 k) = V c main_v97 (ix2 (⟨t.val * 2000 + y0.val, hr⟩ : Fin 50000) k) := by
  show V c main_v97 (((cfg6.win 0).blk t).view.emb (ix2 y0 k)) = _
  refine congrArg (V c main_v97) ?_
  obtain ⟨e0, e1, -⟩ := idx_facts t
  funext a; apply Fin.ext
  match a with
  | ⟨0, _⟩ => show win6_0.index t (0 : Fin 2) * 2000 + 1 * y0.val = t.val * 2000 + y0.val; omega
  | ⟨1, _⟩ => show win6_0.index t (1 : Fin 2) * 128 + 1 * k.val = k.val; omega

theorem iblk_1 (c : Dev nD) (t : Fin cfg6.N) (y0 : Fin 2000) (k : Fin 128) (hr : t.val * 2000 + y0.val < 50000) :
    iblk6 V c 1 t (ix2 y0 k) = V c main_v107 (ix2 (⟨t.val * 2000 + y0.val, hr⟩ : Fin 50000) k) := by
  show V c main_v107 (((cfg6.win 1).blk t).view.emb (ix2 y0 k)) = _
  refine congrArg (V c main_v107) ?_
  obtain ⟨-, -, e0, e1, -⟩ := idx_facts t
  funext a; apply Fin.ext
  match a with
  | ⟨0, _⟩ => show win6_1.index t (0 : Fin 2) * 2000 + 1 * y0.val = t.val * 2000 + y0.val; omega
  | ⟨1, _⟩ => show win6_1.index t (1 : Fin 2) * 128 + 1 * k.val = k.val; omega

theorem iblk_2 (c : Dev nD) (t : Fin cfg6.N) (k : Fin 128) (q : Fin 256) :
    iblk6 V c 2 t (ix2 k q) = V c main_v109 (ix2 k q) := by
  show V c main_v109 (((cfg6.win 2).blk t).view.emb (ix2 k q)) = _
  refine congrArg (V c main_v109) ?_
  obtain ⟨-, -, -, -, e0, e1, -⟩ := idx_facts t
  funext a; apply Fin.ext
  match a with
  | ⟨0, _⟩ => show win6_2.index t (0 : Fin 2) * 128 + 1 * k.val = k.val; omega
  | ⟨1, _⟩ => show win6_2.index t (1 : Fin 2) * 256 + 1 * q.val = q.val; omega

theorem iblk_3 (c : Dev nD) (t : Fin cfg6.N) (q : Fin 256) :
    iblk6 V c 3 t (ix2 (0 : Fin 1) q) = V c main_v112 (ix2 (0 : Fin 1) q) := by
  show V c main_v112 (((cfg6.win 3).blk t).view.emb (ix2 (0 : Fin 1) q)) = _
  refine congrArg (V c main_v112) ?_
  obtain ⟨-, -, -, -, -, -, e0, e1, -⟩ := idx_facts t
  funext a; apply Fin.ext
  match a with
  | ⟨0, _⟩ => show win6_3.index t (0 : Fin 2) * 1 + 1 * 0 = 0; omega
  | ⟨1, _⟩ => show win6_3.index t (1 : Fin 2) * 256 + 1 * q.val = q.val; omega

/-- The block of the linear map that point `t` computes. -/
def blk (c : Dev nD) (t : Fin cfg6.N) : Vec Ideal S2000x256 .f32 :=
  k6_pay1 (F := Ideal) (iblk6 V c 0 t) (iblk6 V c 1 t) (iblk6 V c 2 t) (iblk6 V c 3 t)

/-- Point `s`'s column sums of its block and of its block's squares (zero past the grid). -/
def colB (c : Dev nD) (s : ℕ) (q : Fin 256) : EReal :=
  if h : s < cfg6.N then ∑ r : Fin 2000, blk V c ⟨s, h⟩ (ix2 r q) else 0
def colQ (c : Dev nD) (s : ℕ) (q : Fin 256) : EReal :=
  if h : s < cfg6.N then ∑ r : Fin 2000, blk V c ⟨s, h⟩ (ix2 r q) * blk V c ⟨s, h⟩ (ix2 r q) else 0

/-- After every point the first output's buffer holds that point's block. -/
theorem outs_lin (c : Dev nD) (t : Fin cfg6.N) : (outsAt6 V c t.val t.isLt).1 = blk V c t := by
  by_cases h0 : t.val % 25 = 0
  · rw [outsAt6_A V c t h0]
    dsimp only
    exact out_A_4 (F := Ideal) _ _ _ _ _ _ _ _ _ _ _ _ _ _ _ _ _ _ _ _ _
  · rw [outsAt6_B V c t h0]
    dsimp only
    exact out_B_4 (F := Ideal) _ _ _ _ _ _ _ _ _ _ _ _ _ _ _ _ _ _ _ _ _ _ _

/-- After point `n` the running row of column sums holds zero plus the first `n + 1` points' column sums. -/
theorem outs_sum (c : Dev nD) : ∀ (n : ℕ) (hn : n < cfg6.N) (q : Fin 256),
    (outsAt6 V c n hn).2.1 (ix2 (0 : Fin 1) q)
      = Ideal.ofBits .f32 0x00000000#32 + ∑ s ∈ Finset.range (n + 1), colB V c s q
  | 0, hn, q => by
    have e := outsAt6_A V c ⟨0, hn⟩ (Nat.zero_mod _)
    rw [show outsAt6 V c 0 hn = _ from e]
    dsimp only
    rw [out_A_5, Pay.k6_pay4_apply, Finset.sum_range_one]
    refine congrArg₂ (· + ·) (by rfl) ?_
    unfold colB
    rw [dif_pos hn]
    rfl
  | n + 1, hn, q => by
    have hN : n + 1 < 25 := lt_of_lt_of_eq hn N_eq
    have h0 : ¬(n + 1) % 25 = 0 := by omega
    have e := outsAt6_B V c ⟨n + 1, hn⟩ h0
    have ih := outs_sum c n (Nat.lt_of_succ_lt hn) q
    rw [show outsAt6 V c (n + 1) hn = _ from e]
    dsimp only
    rw [out_B_5, Pay.k6_pay4_apply, Finset.sum_range_succ _ (n + 1), ← add_assoc]
    refine congrArg₂ (· + ·) ih ?_
    unfold colB
    rw [dif_pos hn]
    rfl

/-- After point `n` the running row of column sums of squares holds zero plus the first `n + 1` points' sums. -/
theorem outs_sumsq (c : Dev nD) : ∀ (n : ℕ) (hn : n < cfg6.N) (q : Fin 256),
    (outsAt6 V c n hn).2.2 (ix2 (0 : Fin 1) q)
      = Ideal.ofBits .f32 0x00000000#32 + ∑ s ∈ Finset.range (n + 1), colQ V c s q
  | 0, hn, q => by
    have e := outsAt6_A V c ⟨0, hn⟩ (Nat.zero_mod _)
    rw [show outsAt6 V c 0 hn = _ from e]
    dsimp only
    rw [out_A_6, Pay.k6_pay5_apply, Finset.sum_range_one]
    refine congrArg₂ (· + ·) (by rfl) ?_
    unfold colQ
    rw [dif_pos hn]
    rfl
  | n + 1, hn, q => by
    have hN : n + 1 < 25 := lt_of_lt_of_eq hn N_eq
    have h0 : ¬(n + 1) % 25 = 0 := by omega
    have e := outsAt6_B V c ⟨n + 1, hn⟩ h0
    have ih := outs_sumsq c n (Nat.lt_of_succ_lt hn) q
    rw [show outsAt6 V c (n + 1) hn = _ from e]
    dsimp only
    rw [out_B_6, Pay.k6_pay5_apply, Finset.sum_range_succ _ (n + 1), ← add_assoc]
    refine congrArg₂ (· + ·) ih ?_
    unfold colQ
    rw [dif_pos hn]
    rfl

/-! ## Which indices a point's blocks cover -/

/-- An index of the first output lies in point `t`'s block iff its row is among the block's 2000 rows. -/
theorem mem_blk_4 (t : Fin cfg6.N) (i : S50000x256.Idx) :
    i ∈ ((cfg6.win 4).blk t).view.set ↔ ∀ a : Fin 2, win6_4.index t a * S2000x256.size a ≤ (i a).val
      ∧ (i a).val < win6_4.index t a * S2000x256.size a + S2000x256.size a := by
  show i ∈ ((View.whole main_v113_0).slice (win6_4.rect t)).set ↔ _
  rw [View.set_slice_whole, Rect.mem_set_unit]
  exact Iff.rfl

/-- An index of the `[1, 256]` output 5 lies in every point's block: the block is the whole row. -/
theorem mem_blk_5 (t : Fin cfg6.N) (i : S1x256.Idx) :
    i ∈ ((cfg6.win 5).blk t).view.set ↔ ∀ a : Fin 2, win6_5.index t a * S1x256.size a ≤ (i a).val
      ∧ (i a).val < win6_5.index t a * S1x256.size a + S1x256.size a := by
  show i ∈ ((View.whole main_v113_1).slice (win6_5.rect t)).set ↔ _
  rw [View.set_slice_whole, Rect.mem_set_unit]
  exact Iff.rfl

/-- An index of the `[1, 256]` output 6 lies in every point's block: the block is the whole row. -/
theorem mem_blk_6 (t : Fin cfg6.N) (i : S1x256.Idx) :
    i ∈ ((cfg6.win 6).blk t).view.set ↔ ∀ a : Fin 2, win6_6.index t a * S1x256.size a ≤ (i a).val
      ∧ (i a).val < win6_6.index t a * S1x256.size a + S1x256.size a := by
  show i ∈ ((View.whole main_v113_2).slice (win6_6.rect t)).set ↔ _
  rw [View.set_slice_whole, Rect.mem_set_unit]
  exact Iff.rfl

/-! ## Real inputs -/

section Real

variable (c : Dev nD) (h a : Cert.Spec.Mat 50000 128) (W : Cert.Spec.Mat 128 256) (b : Fin 256 → ℝ)

/-- The linear map of the layer over the reals. -/
abbrev L : Cert.Spec.Mat 50000 256 := Cert.Spec.lin (Cert.Spec.addM h a) W b

variable (hh : ∀ p k, V c main_v97 (ix2 p k) = ((h p k : ℝ) : EReal))
  (ha : ∀ p k, V c main_v107 (ix2 p k) = ((a p k : ℝ) : EReal))
  (hW : ∀ k q, V c main_v109 (ix2 k q) = ((W k q : ℝ) : EReal))
  (hb : ∀ q, V c main_v112 (ix2 (0 : Fin 1) q) = ((b q : ℝ) : EReal))
include hh ha hW hb

/-- Point `t`'s block at real inputs: rows `2000·t …` of the real linear map. -/
theorem blk_real (t : Fin cfg6.N) (y0 : Fin 2000) (q : Fin 256) (hr : t.val * 2000 + y0.val < 50000) :
    blk V c t (ix2 y0 q) = ((L h a W b ⟨t.val * 2000 + y0.val, hr⟩ q : ℝ) : EReal) := by
  unfold blk
  rw [Pay.k6_pay1_apply, iblk_3, hb]
  simp only [iblk_0 V c t y0 _ hr, iblk_1 V c t y0 _ hr, iblk_2, hh, ha, hW, ← EReal.coe_add]
  rw [Cert.RealOps.dot_coe (fun k => h ⟨t.val * 2000 + y0.val, hr⟩ k + a ⟨t.val * 2000 + y0.val, hr⟩ k) (fun k => W k q),
    ← EReal.coe_add]
  rfl

/-- THE FIRST OUTPUT after the run, entry by entry, for real inputs: the real linear map. -/
theorem value_4 (p : Fin 50000) (q : Fin 256) :
    (dat6 V c).arrAt 4 cfg6.N (ix2 p q) = ((L h a W b p q : ℝ) : EReal) := by
  refine (dat6 V c).arrAt_forall_of_cover 4
    (fun i x => ∀ (p : Fin 50000) (q : Fin 256), i = ix2 p q → x = ((L h a W b p q : ℝ) : EReal)) ?_ ?_ (ix2 p q) p q rfl
  · intro t _ y p q hi
    obtain ⟨y0, y1, rfl⟩ : ∃ (y0 : Fin 2000) (y1 : Fin 256), y = ix2 y0 y1 := ⟨y 0, y 1, eq_ix2 y⟩
    have ht : t.val < 25 := lt_of_lt_of_eq t.isLt N_eq
    have hr : t.val * 2000 + y0.val < 50000 := by have := y0.isLt; omega
    obtain ⟨-, -, -, -, -, -, -, -, e0, e1, -⟩ := idx_facts t
    have hp : p = (⟨t.val * 2000 + y0.val, hr⟩ : Fin 50000) := by
      apply Fin.ext
      have h0 := congrArg (fun j : S50000x256.Idx => (j 0).val) hi
      have : win6_4.index t (0 : Fin 2) * 2000 + 1 * y0.val = p.val := h0
      show p.val = t.val * 2000 + y0.val
      omega
    have hk : q = y1 := by
      apply Fin.ext
      have h1 := congrArg (fun j : S50000x256.Idx => (j 1).val) hi
      have : win6_4.index t (1 : Fin 2) * 256 + 1 * y1.val = q.val := h1
      show q.val = y1.val
      omega
    subst hp hk
    show (cfg6.win 4).cut (grid6.coords t) ((dat6 V c).after 4 t) (ix2 y0 q) = _
    rw [after6_4, outs_lin]
    show blk V c t (ix2 y0 q) = _
    rw [blk_real V c h a W b hh ha hW hb t y0 q hr]
  · intro i
    have hi0 : (i 0).val < 50000 := idx2_lt0 i
    have hi1 : (i 1).val < 256 := idx2_lt1 i
    refine ⟨⟨(i 0).val / 2000, by rw [N_eq]; omega⟩, flush6_4 _, ?_⟩
    rw [mem_blk_4]
    obtain ⟨-, -, -, -, -, -, -, -, e0, e1, -⟩ := idx_facts ⟨(i 0).val / 2000, by rw [N_eq]; omega⟩
    intro a
    match a with
    | ⟨0, _⟩ =>
      show win6_4.index _ (0 : Fin 2) * 2000 ≤ (i 0).val ∧ (i 0).val < win6_4.index _ (0 : Fin 2) * 2000 + 2000
      rw [e0]; show (i 0).val / 2000 * 2000 ≤ (i 0).val ∧ (i 0).val < (i 0).val / 2000 * 2000 + 2000; omega
    | ⟨1, _⟩ =>
      show win6_4.index _ (1 : Fin 2) * 256 ≤ (i 1).val ∧ (i 1).val < win6_4.index _ (1 : Fin 2) * 256 + 256
      rw [e1]; omega

/-- THE RUNNING ROW 5 after the run, entry by entry, for real inputs. -/
theorem value_5 (q : Fin 256) :
    (dat6 V c).arrAt 5 cfg6.N (ix2 (0 : Fin 1) q) = ((Cert.Spec.colSum (L h a W b) q : ℝ) : EReal) := by
  refine (dat6 V c).arrAt_forall_of_cover 5
    (fun i x => ∀ (q : Fin 256), i = ix2 (0 : Fin 1) q → x = ((Cert.Spec.colSum (L h a W b) q : ℝ) : EReal)) ?_ ?_
    (ix2 (0 : Fin 1) q) q rfl
  · intro t hf y q hi
    obtain ⟨y0, y1, rfl⟩ : ∃ (y0 : Fin 1) (y1 : Fin 256), y = ix2 y0 y1 := ⟨y 0, y 1, eq_ix2 y⟩
    have ht : t.val < 25 := lt_of_lt_of_eq t.isLt N_eq
    have ht24 : t.val = 24 := by have := (flush6_5 t).mp hf; omega
    obtain ⟨-, -, -, -, -, -, -, -, -, -, e50, e51, e60, e61⟩ := idx_facts t
    have hy0 : y0 = 0 := Subsingleton.elim _ _
    have hk : q = y1 := by
      apply Fin.ext
      have h1 := congrArg (fun j : S1x256.Idx => (j 1).val) hi
      have : win6_5.index t (1 : Fin 2) * 256 + 1 * y1.val = q.val := h1
      show q.val = y1.val
      omega
    subst hy0 hk
    show (cfg6.win 5).cut (grid6.coords t) ((dat6 V c).after 5 t) (ix2 (0 : Fin 1) q) = _
    rw [after6_5]
    show (outsAt6 V c t.val t.isLt).2.1 (ix2 (0 : Fin 1) q) = _
    rw [outs_sum V c t.val t.isLt q]
    have hcol : ∀ s, colB V c s q
        = ((if hs : s < 25 then ∑ r : Fin 2000, L h a W b ⟨s * 2000 + r.val, Cert.Lib.gridRow_lt (m := 25) (n := 2000) rfl hs r⟩ q else 0 : ℝ) : EReal) := by
      intro s
      unfold colB
      by_cases hs : s < 25
      · rw [dif_pos (lt_of_lt_of_eq hs N_eq.symm), dif_pos hs, ← Cert.RealOps.sum_coe]
        refine Finset.sum_congr rfl fun r _ => ?_
        rw [blk_real V c h a W b hh ha hW hb ⟨s, lt_of_lt_of_eq hs N_eq.symm⟩ r q (Cert.Lib.gridRow_lt (m := 25) (n := 2000) rfl hs r)]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L h a W b p q
  · intro i
    have hi0 : (i 0).val < 1 := idx2_lt0 i
    have hi1 : (i 1).val < 256 := idx2_lt1 i
    refine ⟨⟨24, by rw [N_eq]; omega⟩, (flush6_5 _).mpr (by rfl), ?_⟩
    rw [mem_blk_5]
    obtain ⟨-, -, -, -, -, -, -, -, -, -, e50, e51, e60, e61⟩ := idx_facts ⟨24, by rw [N_eq]; omega⟩
    intro a
    match a with
    | ⟨0, _⟩ =>
      show win6_5.index _ (0 : Fin 2) * 1 ≤ (i 0).val ∧ (i 0).val < win6_5.index _ (0 : Fin 2) * 1 + 1
      omega
    | ⟨1, _⟩ =>
      show win6_5.index _ (1 : Fin 2) * 256 ≤ (i 1).val ∧ (i 1).val < win6_5.index _ (1 : Fin 2) * 256 + 256
      omega

/-- THE RUNNING ROW 6 after the run, entry by entry, for real inputs. -/
theorem value_6 (q : Fin 256) :
    (dat6 V c).arrAt 6 cfg6.N (ix2 (0 : Fin 1) q) = ((Cert.Spec.colSumSq (L h a W b) q : ℝ) : EReal) := by
  refine (dat6 V c).arrAt_forall_of_cover 6
    (fun i x => ∀ (q : Fin 256), i = ix2 (0 : Fin 1) q → x = ((Cert.Spec.colSumSq (L h a W b) q : ℝ) : EReal)) ?_ ?_
    (ix2 (0 : Fin 1) q) q rfl
  · intro t hf y q hi
    obtain ⟨y0, y1, rfl⟩ : ∃ (y0 : Fin 1) (y1 : Fin 256), y = ix2 y0 y1 := ⟨y 0, y 1, eq_ix2 y⟩
    have ht : t.val < 25 := lt_of_lt_of_eq t.isLt N_eq
    have ht24 : t.val = 24 := by have := (flush6_6 t).mp hf; omega
    obtain ⟨-, -, -, -, -, -, -, -, -, -, e50, e51, e60, e61⟩ := idx_facts t
    have hy0 : y0 = 0 := Subsingleton.elim _ _
    have hk : q = y1 := by
      apply Fin.ext
      have h1 := congrArg (fun j : S1x256.Idx => (j 1).val) hi
      have : win6_6.index t (1 : Fin 2) * 256 + 1 * y1.val = q.val := h1
      show q.val = y1.val
      omega
    subst hy0 hk
    show (cfg6.win 6).cut (grid6.coords t) ((dat6 V c).after 6 t) (ix2 (0 : Fin 1) q) = _
    rw [after6_6]
    show (outsAt6 V c t.val t.isLt).2.2 (ix2 (0 : Fin 1) q) = _
    rw [outs_sumsq V c t.val t.isLt q]
    have hcol : ∀ s, colQ V c s q
        = ((if hs : s < 25 then ∑ r : Fin 2000, L h a W b ⟨s * 2000 + r.val, Cert.Lib.gridRow_lt (m := 25) (n := 2000) rfl hs r⟩ q * L h a W b ⟨s * 2000 + r.val, Cert.Lib.gridRow_lt (m := 25) (n := 2000) rfl hs r⟩ q else 0 : ℝ) : EReal) := by
      intro s
      unfold colQ
      by_cases hs : s < 25
      · rw [dif_pos (lt_of_lt_of_eq hs N_eq.symm), dif_pos hs, ← Cert.RealOps.sum_coe]
        refine Finset.sum_congr rfl fun r _ => ?_
        rw [blk_real V c h a W b hh ha hW hb ⟨s, lt_of_lt_of_eq hs N_eq.symm⟩ r q (Cert.Lib.gridRow_lt (m := 25) (n := 2000) rfl hs r), ← EReal.coe_mul]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L h a W b p q * L h a W b p q
  · intro i
    have hi0 : (i 0).val < 1 := idx2_lt0 i
    have hi1 : (i 1).val < 256 := idx2_lt1 i
    refine ⟨⟨24, by rw [N_eq]; omega⟩, (flush6_6 _).mpr (by rfl), ?_⟩
    rw [mem_blk_6]
    obtain ⟨-, -, -, -, -, -, -, -, -, -, e50, e51, e60, e61⟩ := idx_facts ⟨24, by rw [N_eq]; omega⟩
    intro a
    match a with
    | ⟨0, _⟩ =>
      show win6_6.index _ (0 : Fin 2) * 1 ≤ (i 0).val ∧ (i 0).val < win6_6.index _ (0 : Fin 2) * 1 + 1
      omega
    | ⟨1, _⟩ =>
      show win6_6.index _ (1 : Fin 2) * 256 ≤ (i 1).val ∧ (i 1).val < win6_6.index _ (1 : Fin 2) * 256 + 256
      omega

end Real

end Cert.KernelIdeal.Reg6

end
-- ==== Proof.Pieces7.lean ====
/-
  What the second kernel of a layer leaves in its three output buffers at one grid point, as values.  The block of the
  second linear map is stored whole at every point.  At the first point the two running rows are reset to zero and then
  take in that block's column sums and column sums of squares; at every later point they take them in on top of what
  the point before left.
-/
import proofs.«148746_j9251359555639_1_alg».proof.Proof.Gen.KernelIdeal.Frame
import Idealize.ShloMosaic.Lib.Pipeline.Value
import Idealize.ShloMosaic.Lib.ValueIdx

set_option maxRecDepth 16384

noncomputable section

namespace Cert.KernelIdeal.Reg7

open Idealize.ShloMosaic Idealize.ShloMosaic.ValueIdx Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

section Pieces
variable (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole)
  (x0 : Vec F S2000x256 .f32) (x1 : Vec F S1x256 .f32) (x2 : Vec F S1x256 .f32) (x3 : Vec F S1x256 .f32) (x4 : Vec F S1x256 .f32)
  (x5 : Vec F S256x128 .f32) (x6 : Vec F S1x128 .f32)

/-- First point: the block of the second linear map. -/
theorem out_A_7 (hc0 : cond7_0 i) :
    out7_A_7 c i arg1 harg1 arg2 harg2 arg3 harg3 arg4 harg4 arg5 harg5 arg6 harg6 arg7 harg7 arg8 harg8 arg9 harg9 arg10 harg10 hc0 x0 x1 x2 x3 x4 x5 x6 = k7_pay3 x0 x1 x2 x3 x4 x5 x6 := by
  unfold out7_A_7
  rw [View.read_writes_eq_canon _ _ _ (cover7_A_7 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

/-- First point: the running column sums start from the zero row. -/
theorem out_A_8 (hc0 : cond7_0 i) :
    out7_A_8 c i arg1 harg1 arg2 harg2 arg3 harg3 arg4 harg4 arg5 harg5 arg6 harg6 arg7 harg7 arg8 harg8 arg9 harg9 arg10 harg10 hc0 x0 x1 x2 x3 x4 x5 x6 = k7_pay1 (k7_pay3 x0 x1 x2 x3 x4 x5 x6) k7_pay4 := by
  unfold out7_A_8
  rw [View.read_writes_eq_canon _ _ _ (cover7_A_8 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  sl_unfold_words
  rw [View.canon_cons_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]
  rw [View.readCov_unit_zero _ hz]

/-- First point: the running column sums of squares start from the zero row. -/
theorem out_A_9 (hc0 : cond7_0 i) :
    out7_A_9 c i arg1 harg1 arg2 harg2 arg3 harg3 arg4 harg4 arg5 harg5 arg6 harg6 arg7 harg7 arg8 harg8 arg9 harg9 arg10 harg10 hc0 x0 x1 x2 x3 x4 x5 x6 = k7_pay2 (k7_pay3 x0 x1 x2 x3 x4 x5 x6) k7_pay5 := by
  unfold out7_A_9
  rw [View.read_writes_eq_canon _ _ _ (cover7_A_9 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  sl_unfold_words
  rw [View.canon_cons_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]
  rw [View.readCov_unit_zero _ hz]

/-- A later point: the block of the second linear map. -/
theorem out_B_7 (hc0 : ¬cond7_0 i) (xo8 xo9 : Vec F S1x128 .f32) :
    out7_B_7 c i arg1 harg1 arg2 harg2 arg3 harg3 arg4 harg4 arg5 harg5 arg6 harg6 arg7 harg7 arg8 harg8 arg9 harg9 arg10 harg10 hc0 x0 x1 x2 x3 x4 x5 x6 xo8 xo9 = k7_pay3 x0 x1 x2 x3 x4 x5 x6 := by
  unfold out7_B_7
  rw [View.read_writes_eq_canon _ _ _ (cover7_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

/-- A later point: the running column sums over what the point before left. -/
theorem out_B_8 (hc0 : ¬cond7_0 i) (xo8 xo9 : Vec F S1x128 .f32) :
    out7_B_8 c i arg1 harg1 arg2 harg2 arg3 harg3 arg4 harg4 arg5 harg5 arg6 harg6 arg7 harg7 arg8 harg8 arg9 harg9 arg10 harg10 hc0 x0 x1 x2 x3 x4 x5 x6 xo8 xo9 = k7_pay1 (k7_pay3 x0 x1 x2 x3 x4 x5 x6) xo8 := by
  unfold out7_B_8
  rw [View.read_writes_eq_canon _ _ _ (cover7_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

/-- A later point: the running column sums of squares over what the point before left. -/
theorem out_B_9 (hc0 : ¬cond7_0 i) (xo8 xo9 : Vec F S1x128 .f32) :
    out7_B_9 c i arg1 harg1 arg2 harg2 arg3 harg3 arg4 harg4 arg5 harg5 arg6 harg6 arg7 harg7 arg8 harg8 arg9 harg9 arg10 harg10 hc0 x0 x1 x2 x3 x4 x5 x6 xo8 xo9 = k7_pay2 (k7_pay3 x0 x1 x2 x3 x4 x5 x6) xo9 := by
  unfold out7_B_9
  rw [View.read_writes_eq_canon _ _ _ (cover7_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  sl_unfold_words
  rw [View.canon_unit_zero hz]
  simp only [View.readAt_eq_ld, harg1.read_unread, harg2.read_unread, harg3.read_unread, harg4.read_unread,
    harg5.read_unread, harg6.read_unread, harg7.read_unread, harg9.read_unread, harg10.read_unread,
    View.ld_unit_zero (S := S2000x256) hz, View.ld_unit_zero (S := S256x128) hz, View.ld_unit_zero (S := S1x256) hz,
    View.ld_unit_zero (S := S1x128) hz]

end Pieces

end Cert.KernelIdeal.Reg7

end
-- ==== Proof.Region7.lean ====
/-
  The second kernel of a layer as whole arrays.  The grid has 25 points; point `t` reads rows `2000·t … 2000·t + 1999` of
  the first linear map's output, the four `[1, 256]` rows (column mean, column variance, γ, β), the second weights and
  bias row whole, and writes back the same rows of `lin₂ = max(norm(lin₁), 0)·W₂ + b₂`.  The two `[1, 128]` outputs are
  running rows: reset at the first point, each point adds its block's column sums (of `lin₂`, of `lin₂²`), and the last
  point writes them back; the 25 blocks of 2000 rows are the 50000 rows once each, so the rows end at the column sums
  over all nodes.  For real inputs with positive `variance + ε` every entry is a real.
-/
import proofs.«148746_j9251359555639_1_alg».proof.Proof.Gen.KernelIdeal.Frame
import proofs.«148746_j9251359555639_1_alg».proof.Proof.Pieces7
import proofs.«148746_j9251359555639_1_alg».proof.Proof.PayB
import proofs.«148746_j9251359555639_1_alg».proof.Proof.RealOps
import proofs.«148746_j9251359555639_1_alg».proof.Proof.Spec
import proofs.«148746_j9251359555639_1_alg».proof.Proof.LibGridSum
import Idealize.ShloMosaic.Lib.Pipeline.Value

set_option maxRecDepth 16384

noncomputable section

namespace Cert.KernelIdeal.Reg7

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The printed index maps over the grid: the two row-block windows (0 and 7) move with the point, every other window
    stays at its one block. -/
theorem idxT_0 : ∀ t : Fin cfg7.N, win7_0.index t (0 : Fin 2) = t.val ∧ win7_0.index t (1 : Fin 2) = 0 :=
  (by decide +kernel : ∀ t : Fin grid7.N, _)
theorem idxT_7 : ∀ t : Fin cfg7.N, win7_7.index t (0 : Fin 2) = t.val ∧ win7_7.index t (1 : Fin 2) = 0 :=
  (by decide +kernel : ∀ t : Fin grid7.N, _)
theorem idxZ_1 : ∀ t : Fin cfg7.N, win7_1.index t (0 : Fin 2) = 0 ∧ win7_1.index t (1 : Fin 2) = 0 :=
  (by decide +kernel : ∀ t : Fin grid7.N, _)
theorem idxZ_2 : ∀ t : Fin cfg7.N, win7_2.index t (0 : Fin 2) = 0 ∧ win7_2.index t (1 : Fin 2) = 0 :=
  (by decide +kernel : ∀ t : Fin grid7.N, _)
theorem idxZ_3 : ∀ t : Fin cfg7.N, win7_3.index t (0 : Fin 2) = 0 ∧ win7_3.index t (1 : Fin 2) = 0 :=
  (by decide +kernel : ∀ t : Fin grid7.N, _)
theorem idxZ_4 : ∀ t : Fin cfg7.N, win7_4.index t (0 : Fin 2) = 0 ∧ win7_4.index t (1 : Fin 2) = 0 :=
  (by decide +kernel : ∀ t : Fin grid7.N, _)
theorem idxZ_5 : ∀ t : Fin cfg7.N, win7_5.index t (0 : Fin 2) = 0 ∧ win7_5.index t (1 : Fin 2) = 0 :=
  (by decide +kernel : ∀ t : Fin grid7.N, _)
theorem idxZ_6 : ∀ t : Fin cfg7.N, win7_6.index t (0 : Fin 2) = 0 ∧ win7_6.index t (1 : Fin 2) = 0 :=
  (by decide +kernel : ∀ t : Fin grid7.N, _)
theorem idxZ_8 : ∀ t : Fin cfg7.N, win7_8.index t (0 : Fin 2) = 0 ∧ win7_8.index t (1 : Fin 2) = 0 :=
  (by decide +kernel : ∀ t : Fin grid7.N, _)
theorem idxZ_9 : ∀ t : Fin cfg7.N, win7_9.index t (0 : Fin 2) = 0 ∧ win7_9.index t (1 : Fin 2) = 0 :=
  (by decide +kernel : ∀ t : Fin grid7.N, _)

theorem N_eq : cfg7.N = 25 := N_7

theorem iblk_0 (c : Dev nD) (t : Fin cfg7.N) (y0 : Fin 2000) (k : Fin 256) (hr : t.val * 2000 + y0.val < 50000) :
    iblk7 V c 0 t (ix2 y0 k) = V c main_v113_0 (ix2 (⟨t.val * 2000 + y0.val, hr⟩ : Fin 50000) k) := by
  show V c main_v113_0 (((cfg7.win 0).blk t).view.emb (ix2 y0 k)) = _
  refine congrArg (V c main_v113_0) ?_
  obtain ⟨e0, e1⟩ := idxT_0 t
  funext a; apply Fin.ext
  match a with
  | ⟨0, _⟩ => show win7_0.index t (0 : Fin 2) * 2000 + 1 * y0.val = t.val * 2000 + y0.val; omega
  | ⟨1, _⟩ => show win7_0.index t (1 : Fin 2) * 256 + 1 * k.val = k.val; omega

theorem iblk_1 (c : Dev nD) (t : Fin cfg7.N) (k : Fin 256) :
    iblk7 V c 1 t (ix2 (0 : Fin 1) k) = V c main_v115 (ix2 (0 : Fin 1) k) := by
  show V c main_v115 (((cfg7.win 1).blk t).view.emb (ix2 (0 : Fin 1) k)) = _
  refine congrArg (V c main_v115) ?_
  obtain ⟨e0, e1⟩ := idxZ_1 t
  funext a; apply Fin.ext
  match a with
  | ⟨0, _⟩ => show win7_1.index t (0 : Fin 2) * 1 + 1 * 0 = 0; omega
  | ⟨1, _⟩ => show win7_1.index t (1 : Fin 2) * 256 + 1 * k.val = k.val; omega

theorem iblk_2 (c : Dev nD) (t : Fin cfg7.N) (k : Fin 256) :
    iblk7 V c 2 t (ix2 (0 : Fin 1) k) = V c main_v119 (ix2 (0 : Fin 1) k) := by
  show V c main_v119 (((cfg7.win 2).blk t).view.emb (ix2 (0 : Fin 1) k)) = _
  refine congrArg (V c main_v119) ?_
  obtain ⟨e0, e1⟩ := idxZ_2 t
  funext a; apply Fin.ext
  match a with
  | ⟨0, _⟩ => show win7_2.index t (0 : Fin 2) * 1 + 1 * 0 = 0; omega
  | ⟨1, _⟩ => show win7_2.index t (1 : Fin 2) * 256 + 1 * k.val = k.val; omega

theorem iblk_3 (c : Dev nD) (t : Fin cfg7.N) (k : Fin 256) :
    iblk7 V c 3 t (ix2 (0 : Fin 1) k) = V c main_v122 (ix2 (0 : Fin 1) k) := by
  show V c main_v122 (((cfg7.win 3).blk t).view.emb (ix2 (0 : Fin 1) k)) = _
  refine congrArg (V c main_v122) ?_
  obtain ⟨e0, e1⟩ := idxZ_3 t
  funext a; apply Fin.ext
  match a with
  | ⟨0, _⟩ => show win7_3.index t (0 : Fin 2) * 1 + 1 * 0 = 0; omega
  | ⟨1, _⟩ => show win7_3.index t (1 : Fin 2) * 256 + 1 * k.val = k.val; omega

theorem iblk_4 (c : Dev nD) (t : Fin cfg7.N) (k : Fin 256) :
    iblk7 V c 4 t (ix2 (0 : Fin 1) k) = V c main_v125 (ix2 (0 : Fin 1) k) := by
  show V c main_v125 (((cfg7.win 4).blk t).view.emb (ix2 (0 : Fin 1) k)) = _
  refine congrArg (V c main_v125) ?_
  obtain ⟨e0, e1⟩ := idxZ_4 t
  funext a; apply Fin.ext
  match a with
  | ⟨0, _⟩ => show win7_4.index t (0 : Fin 2) * 1 + 1 * 0 = 0; omega
  | ⟨1, _⟩ => show win7_4.index t (1 : Fin 2) * 256 + 1 * k.val = k.val; omega

theorem iblk_5 (c : Dev nD) (t : Fin cfg7.N) (k : Fin 256) (q : Fin 128) :
    iblk7 V c 5 t (ix2 k q) = V c main_v127 (ix2 k q) := by
  show V c main_v127 (((cfg7.win 5).blk t).view.emb (ix2 k q)) = _
  refine congrArg (V c main_v127) ?_
  obtain ⟨e0, e1⟩ := idxZ_5 t
  funext a; apply Fin.ext
  match a with
  | ⟨0, _⟩ => show win7_5.index t (0 : Fin 2) * 256 + 1 * k.val = k.val; omega
  | ⟨1, _⟩ => show win7_5.index t (1 : Fin 2) * 128 + 1 * q.val = q.val; omega

theorem iblk_6 (c : Dev nD) (t : Fin cfg7.N) (k : Fin 128) :
    iblk7 V c 6 t (ix2 (0 : Fin 1) k) = V c main_v130 (ix2 (0 : Fin 1) k) := by
  show V c main_v130 (((cfg7.win 6).blk t).view.emb (ix2 (0 : Fin 1) k)) = _
  refine congrArg (V c main_v130) ?_
  obtain ⟨e0, e1⟩ := idxZ_6 t
  funext a; apply Fin.ext
  match a with
  | ⟨0, _⟩ => show win7_6.index t (0 : Fin 2) * 1 + 1 * 0 = 0; omega
  | ⟨1, _⟩ => show win7_6.index t (1 : Fin 2) * 128 + 1 * k.val = k.val; omega

/-- The block of the second linear map that point `t` computes. -/
def blk (c : Dev nD) (t : Fin cfg7.N) : Vec Ideal S2000x128 .f32 :=
  k7_pay3 (F := Ideal) (iblk7 V c 0 t) (iblk7 V c 1 t) (iblk7 V c 2 t) (iblk7 V c 3 t) (iblk7 V c 4 t) (iblk7 V c 5 t) (iblk7 V c 6 t)

/-- Point `s`'s column sums of its block and of its block's squares (zero past the grid). -/
def colB (c : Dev nD) (s : ℕ) (q : Fin 128) : EReal :=
  if h : s < cfg7.N then ∑ r : Fin 2000, blk V c ⟨s, h⟩ (ix2 r q) else 0
def colQ (c : Dev nD) (s : ℕ) (q : Fin 128) : EReal :=
  if h : s < cfg7.N then ∑ r : Fin 2000, blk V c ⟨s, h⟩ (ix2 r q) * blk V c ⟨s, h⟩ (ix2 r q) else 0

/-- After every point the first output's buffer holds that point's block. -/
theorem outs_lin (c : Dev nD) (t : Fin cfg7.N) : (outsAt7 V c t.val t.isLt).1 = blk V c t := by
  by_cases h0 : t.val % 25 = 0
  · rw [outsAt7_A V c t h0]
    dsimp only
    exact out_A_7 (F := Ideal) _ _ _ _ _ _ _ _ _ _ _ _ _ _ _ _ _ _ _ _ _ _ _ _ _ _ _ _ _ _
  · rw [outsAt7_B V c t h0]
    dsimp only
    exact out_B_7 (F := Ideal) _ _ _ _ _ _ _ _ _ _ _ _ _ _ _ _ _ _ _ _ _ _ _ _ _ _ _ _ _ _ _ _

/-- After point `n` the running row of column sums holds zero plus the first `n + 1` points' column sums. -/
theorem outs_sum (c : Dev nD) : ∀ (n : ℕ) (hn : n < cfg7.N) (q : Fin 128),
    (outsAt7 V c n hn).2.1 (ix2 (0 : Fin 1) q)
      = Ideal.ofBits .f32 0x00000000#32 + ∑ s ∈ Finset.range (n + 1), colB V c s q
  | 0, hn, q => by
    have e := outsAt7_A V c ⟨0, hn⟩ (Nat.zero_mod _)
    rw [show outsAt7 V c 0 hn = _ from e]
    dsimp only
    rw [out_A_8, Pay.k7_pay1_apply, Finset.sum_range_one]
    refine congrArg₂ (· + ·) (by rfl) ?_
    unfold colB
    rw [dif_pos hn]
    rfl
  | n + 1, hn, q => by
    have hN : n + 1 < 25 := lt_of_lt_of_eq hn N_eq
    have h0 : ¬(n + 1) % 25 = 0 := by omega
    have e := outsAt7_B V c ⟨n + 1, hn⟩ h0
    have ih := outs_sum c n (Nat.lt_of_succ_lt hn) q
    rw [show outsAt7 V c (n + 1) hn = _ from e]
    dsimp only
    rw [out_B_8, Pay.k7_pay1_apply, Finset.sum_range_succ _ (n + 1), ← add_assoc]
    refine congrArg₂ (· + ·) ih ?_
    unfold colB
    rw [dif_pos hn]
    rfl

/-- After point `n` the running row of column sums of squares holds zero plus the first `n + 1` points' sums. -/
theorem outs_sumsq (c : Dev nD) : ∀ (n : ℕ) (hn : n < cfg7.N) (q : Fin 128),
    (outsAt7 V c n hn).2.2 (ix2 (0 : Fin 1) q)
      = Ideal.ofBits .f32 0x00000000#32 + ∑ s ∈ Finset.range (n + 1), colQ V c s q
  | 0, hn, q => by
    have e := outsAt7_A V c ⟨0, hn⟩ (Nat.zero_mod _)
    rw [show outsAt7 V c 0 hn = _ from e]
    dsimp only
    rw [out_A_9, Pay.k7_pay2_apply, Finset.sum_range_one]
    refine congrArg₂ (· + ·) (by rfl) ?_
    unfold colQ
    rw [dif_pos hn]
    rfl
  | n + 1, hn, q => by
    have hN : n + 1 < 25 := lt_of_lt_of_eq hn N_eq
    have h0 : ¬(n + 1) % 25 = 0 := by omega
    have e := outsAt7_B V c ⟨n + 1, hn⟩ h0
    have ih := outs_sumsq c n (Nat.lt_of_succ_lt hn) q
    rw [show outsAt7 V c (n + 1) hn = _ from e]
    dsimp only
    rw [out_B_9, Pay.k7_pay2_apply, Finset.sum_range_succ _ (n + 1), ← add_assoc]
    refine congrArg₂ (· + ·) ih ?_
    unfold colQ
    rw [dif_pos hn]
    rfl

/-! ## Which indices a point's blocks cover -/

/-- An index of the first output lies in point `t`'s block iff its row is among the block's 2000 rows. -/
theorem mem_blk_7 (t : Fin cfg7.N) (i : S50000x128.Idx) :
    i ∈ ((cfg7.win 7).blk t).view.set ↔ ∀ a : Fin 2, win7_7.index t a * S2000x128.size a ≤ (i a).val
      ∧ (i a).val < win7_7.index t a * S2000x128.size a + S2000x128.size a := by
  show i ∈ ((View.whole main_v131_0).slice (win7_7.rect t)).set ↔ _
  rw [View.set_slice_whole, Rect.mem_set_unit]
  exact Iff.rfl

/-- An index of the `[1, 128]` output 8 lies in every point's block: the block is the whole row. -/
theorem mem_blk_8 (t : Fin cfg7.N) (i : S1x128.Idx) :
    i ∈ ((cfg7.win 8).blk t).view.set ↔ ∀ a : Fin 2, win7_8.index t a * S1x128.size a ≤ (i a).val
      ∧ (i a).val < win7_8.index t a * S1x128.size a + S1x128.size a := by
  show i ∈ ((View.whole main_v131_1).slice (win7_8.rect t)).set ↔ _
  rw [View.set_slice_whole, Rect.mem_set_unit]
  exact Iff.rfl

/-- An index of the `[1, 128]` output 9 lies in every point's block: the block is the whole row. -/
theorem mem_blk_9 (t : Fin cfg7.N) (i : S1x128.Idx) :
    i ∈ ((cfg7.win 9).blk t).view.set ↔ ∀ a : Fin 2, win7_9.index t a * S1x128.size a ≤ (i a).val
      ∧ (i a).val < win7_9.index t a * S1x128.size a + S1x128.size a := by
  show i ∈ ((View.whole main_v131_2).slice (win7_9.rect t)).set ↔ _
  rw [View.set_slice_whole, Rect.mem_set_unit]
  exact Iff.rfl

/-! ## Real inputs -/

section Real

variable (c : Dev nD) (z : Cert.Spec.Mat 50000 256) (μ v g bt : Fin 256 → ℝ) (W : Cert.Spec.Mat 256 128) (b : Fin 128 → ℝ)

/-- The second linear map of the layer over the reals, on the normalised and rectified first one. -/
abbrev L2 : Cert.Spec.Mat 50000 128 :=
  Cert.Spec.lin (Cert.Spec.relu (Cert.Spec.bn μ v Cert.Consts.eps g bt z)) W b

variable (hz : ∀ p k, V c main_v113_0 (ix2 p k) = ((z p k : ℝ) : EReal))
  (hμ : ∀ k, V c main_v115 (ix2 (0 : Fin 1) k) = ((μ k : ℝ) : EReal))
  (hv : ∀ k, V c main_v119 (ix2 (0 : Fin 1) k) = ((v k : ℝ) : EReal))
  (hg : ∀ k, V c main_v122 (ix2 (0 : Fin 1) k) = ((g k : ℝ) : EReal))
  (hbt : ∀ k, V c main_v125 (ix2 (0 : Fin 1) k) = ((bt k : ℝ) : EReal))
  (hW : ∀ k q, V c main_v127 (ix2 k q) = ((W k q : ℝ) : EReal))
  (hb : ∀ q, V c main_v130 (ix2 (0 : Fin 1) q) = ((b q : ℝ) : EReal))
  (hpos : ∀ k, 0 < v k + Cert.Consts.eps)
include hz hμ hv hg hbt hW hb hpos

/-- Point `t`'s block at real inputs: rows `2000·t …` of the real second linear map. -/
theorem blk_real (t : Fin cfg7.N) (y0 : Fin 2000) (q : Fin 128) (hr : t.val * 2000 + y0.val < 50000) :
    blk V c t (ix2 y0 q) = ((L2 z μ v g bt W b ⟨t.val * 2000 + y0.val, hr⟩ q : ℝ) : EReal) := by
  unfold blk
  rw [Pay.k7_pay3_apply, iblk_6, hb]
  have hbn : ∀ (zz mm gg bb : ℝ) (k : Fin 256), Pay.bnE (zz : EReal) (mm : EReal) ((v k : ℝ) : EReal) (gg : EReal) (bb : EReal)
      = (((zz - mm) * (Real.sqrt (v k + Cert.Consts.eps))⁻¹ * gg + bb : ℝ) : EReal) :=
    fun zz mm gg bb k => Cert.RealOps.bnE_coe zz mm (v k) gg bb (hpos k)
  simp only [iblk_0 V c t y0 _ hr, iblk_1, iblk_2, iblk_3, iblk_4, iblk_5, hz, hμ, hv, hg, hbt, hW, hbn, Cert.RealOps.max_zero_coe]
  rw [Cert.RealOps.dot_coe
      (fun k => max ((z ⟨t.val * 2000 + y0.val, hr⟩ k - μ k) * (Real.sqrt (v k + Cert.Consts.eps))⁻¹ * g k + bt k) 0)
      (fun k => W k q),
    ← EReal.coe_add]
  rfl

/-- THE FIRST OUTPUT after the run, entry by entry, for real inputs: the real second linear map. -/
theorem value_7 (p : Fin 50000) (q : Fin 128) :
    (dat7 V c).arrAt 7 cfg7.N (ix2 p q) = ((L2 z μ v g bt W b p q : ℝ) : EReal) := by
  refine (dat7 V c).arrAt_forall_of_cover 7
    (fun i x => ∀ (p : Fin 50000) (q : Fin 128), i = ix2 p q → x = ((L2 z μ v g bt W b p q : ℝ) : EReal)) ?_ ?_ (ix2 p q) p q rfl
  · intro t _ y p q hi
    obtain ⟨y0, y1, rfl⟩ : ∃ (y0 : Fin 2000) (y1 : Fin 128), y = ix2 y0 y1 := ⟨y 0, y 1, eq_ix2 y⟩
    have ht : t.val < 25 := lt_of_lt_of_eq t.isLt N_eq
    have hr : t.val * 2000 + y0.val < 50000 := by have := y0.isLt; omega
    obtain ⟨e0, e1⟩ := idxT_7 t
    have hp : p = (⟨t.val * 2000 + y0.val, hr⟩ : Fin 50000) := by
      apply Fin.ext
      have h0 := congrArg (fun j : S50000x128.Idx => (j 0).val) hi
      have : win7_7.index t (0 : Fin 2) * 2000 + 1 * y0.val = p.val := h0
      show p.val = t.val * 2000 + y0.val
      omega
    have hk : q = y1 := by
      apply Fin.ext
      have h1 := congrArg (fun j : S50000x128.Idx => (j 1).val) hi
      have : win7_7.index t (1 : Fin 2) * 128 + 1 * y1.val = q.val := h1
      show q.val = y1.val
      omega
    subst hp hk
    show (cfg7.win 7).cut (grid7.coords t) ((dat7 V c).after 7 t) (ix2 y0 q) = _
    rw [after7_7, outs_lin]
    show blk V c t (ix2 y0 q) = _
    rw [blk_real V c z μ v g bt W b hz hμ hv hg hbt hW hb hpos t y0 q hr]
  · intro i
    have hi0 : (i 0).val < 50000 := idx2_lt0 i
    have hi1 : (i 1).val < 128 := idx2_lt1 i
    refine ⟨⟨(i 0).val / 2000, by rw [N_eq]; omega⟩, flush7_7 _, ?_⟩
    rw [mem_blk_7]
    obtain ⟨e0, e1⟩ := idxT_7 ⟨(i 0).val / 2000, by rw [N_eq]; omega⟩
    intro a
    match a with
    | ⟨0, _⟩ =>
      show win7_7.index _ (0 : Fin 2) * 2000 ≤ (i 0).val ∧ (i 0).val < win7_7.index _ (0 : Fin 2) * 2000 + 2000
      rw [e0]; show (i 0).val / 2000 * 2000 ≤ (i 0).val ∧ (i 0).val < (i 0).val / 2000 * 2000 + 2000; omega
    | ⟨1, _⟩ =>
      show win7_7.index _ (1 : Fin 2) * 128 ≤ (i 1).val ∧ (i 1).val < win7_7.index _ (1 : Fin 2) * 128 + 128
      rw [e1]; omega

/-- THE RUNNING ROW 8 after the run, entry by entry, for real inputs. -/
theorem value_8 (q : Fin 128) :
    (dat7 V c).arrAt 8 cfg7.N (ix2 (0 : Fin 1) q) = ((Cert.Spec.colSum (L2 z μ v g bt W b) q : ℝ) : EReal) := by
  refine (dat7 V c).arrAt_forall_of_cover 8
    (fun i x => ∀ (q : Fin 128), i = ix2 (0 : Fin 1) q → x = ((Cert.Spec.colSum (L2 z μ v g bt W b) q : ℝ) : EReal)) ?_ ?_
    (ix2 (0 : Fin 1) q) q rfl
  · intro t hf y q hi
    obtain ⟨y0, y1, rfl⟩ : ∃ (y0 : Fin 1) (y1 : Fin 128), y = ix2 y0 y1 := ⟨y 0, y 1, eq_ix2 y⟩
    have ht : t.val < 25 := lt_of_lt_of_eq t.isLt N_eq
    have ht24 : t.val = 24 := by have := (flush7_8 t).mp hf; omega
    obtain ⟨-, e1⟩ := idxZ_8 t
    have hy0 : y0 = 0 := Subsingleton.elim _ _
    have hk : q = y1 := by
      apply Fin.ext
      have h1 := congrArg (fun j : S1x128.Idx => (j 1).val) hi
      have : win7_8.index t (1 : Fin 2) * 128 + 1 * y1.val = q.val := h1
      show q.val = y1.val
      omega
    subst hy0 hk
    show (cfg7.win 8).cut (grid7.coords t) ((dat7 V c).after 8 t) (ix2 (0 : Fin 1) q) = _
    rw [after7_8]
    show (outsAt7 V c t.val t.isLt).2.1 (ix2 (0 : Fin 1) q) = _
    rw [outs_sum V c t.val t.isLt q]
    have hcol : ∀ s, colB V c s q
        = ((if hs : s < 25 then ∑ r : Fin 2000, L2 z μ v g bt W b ⟨s * 2000 + r.val, Cert.Lib.gridRow_lt (m := 25) (n := 2000) rfl hs r⟩ q else 0 : ℝ) : EReal) := by
      intro s
      unfold colB
      by_cases hs : s < 25
      · rw [dif_pos (lt_of_lt_of_eq hs N_eq.symm), dif_pos hs, ← Cert.RealOps.sum_coe]
        refine Finset.sum_congr rfl fun r _ => ?_
        rw [blk_real V c z μ v g bt W b hz hμ hv hg hbt hW hb hpos ⟨s, lt_of_lt_of_eq hs N_eq.symm⟩ r q (Cert.Lib.gridRow_lt (m := 25) (n := 2000) rfl hs r)]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L2 z μ v g bt W b p q
  · intro i
    have hi0 : (i 0).val < 1 := idx2_lt0 i
    have hi1 : (i 1).val < 128 := idx2_lt1 i
    refine ⟨⟨24, by rw [N_eq]; omega⟩, (flush7_8 _).mpr (by rfl), ?_⟩
    rw [mem_blk_8]
    obtain ⟨e0, e1⟩ := idxZ_8 ⟨24, by rw [N_eq]; omega⟩
    intro a
    match a with
    | ⟨0, _⟩ =>
      show win7_8.index _ (0 : Fin 2) * 1 ≤ (i 0).val ∧ (i 0).val < win7_8.index _ (0 : Fin 2) * 1 + 1
      omega
    | ⟨1, _⟩ =>
      show win7_8.index _ (1 : Fin 2) * 128 ≤ (i 1).val ∧ (i 1).val < win7_8.index _ (1 : Fin 2) * 128 + 128
      omega

/-- THE RUNNING ROW 9 after the run, entry by entry, for real inputs. -/
theorem value_9 (q : Fin 128) :
    (dat7 V c).arrAt 9 cfg7.N (ix2 (0 : Fin 1) q) = ((Cert.Spec.colSumSq (L2 z μ v g bt W b) q : ℝ) : EReal) := by
  refine (dat7 V c).arrAt_forall_of_cover 9
    (fun i x => ∀ (q : Fin 128), i = ix2 (0 : Fin 1) q → x = ((Cert.Spec.colSumSq (L2 z μ v g bt W b) q : ℝ) : EReal)) ?_ ?_
    (ix2 (0 : Fin 1) q) q rfl
  · intro t hf y q hi
    obtain ⟨y0, y1, rfl⟩ : ∃ (y0 : Fin 1) (y1 : Fin 128), y = ix2 y0 y1 := ⟨y 0, y 1, eq_ix2 y⟩
    have ht : t.val < 25 := lt_of_lt_of_eq t.isLt N_eq
    have ht24 : t.val = 24 := by have := (flush7_9 t).mp hf; omega
    obtain ⟨-, e1⟩ := idxZ_9 t
    have hy0 : y0 = 0 := Subsingleton.elim _ _
    have hk : q = y1 := by
      apply Fin.ext
      have h1 := congrArg (fun j : S1x128.Idx => (j 1).val) hi
      have : win7_9.index t (1 : Fin 2) * 128 + 1 * y1.val = q.val := h1
      show q.val = y1.val
      omega
    subst hy0 hk
    show (cfg7.win 9).cut (grid7.coords t) ((dat7 V c).after 9 t) (ix2 (0 : Fin 1) q) = _
    rw [after7_9]
    show (outsAt7 V c t.val t.isLt).2.2 (ix2 (0 : Fin 1) q) = _
    rw [outs_sumsq V c t.val t.isLt q]
    have hcol : ∀ s, colQ V c s q
        = ((if hs : s < 25 then ∑ r : Fin 2000, L2 z μ v g bt W b ⟨s * 2000 + r.val, Cert.Lib.gridRow_lt (m := 25) (n := 2000) rfl hs r⟩ q * L2 z μ v g bt W b ⟨s * 2000 + r.val, Cert.Lib.gridRow_lt (m := 25) (n := 2000) rfl hs r⟩ q else 0 : ℝ) : EReal) := by
      intro s
      unfold colQ
      by_cases hs : s < 25
      · rw [dif_pos (lt_of_lt_of_eq hs N_eq.symm), dif_pos hs, ← Cert.RealOps.sum_coe]
        refine Finset.sum_congr rfl fun r _ => ?_
        rw [blk_real V c z μ v g bt W b hz hμ hv hg hbt hW hb hpos ⟨s, lt_of_lt_of_eq hs N_eq.symm⟩ r q (Cert.Lib.gridRow_lt (m := 25) (n := 2000) rfl hs r), ← EReal.coe_mul]
      · rw [dif_neg (fun h' => hs (lt_of_lt_of_eq h' N_eq)), dif_neg hs, EReal.coe_zero]
    simp only [hcol]
    rw [Cert.RealOps.finset_sum_coe, Cert.RealOps.zero_add_coe, ht24]
    refine congrArg _ ?_
    exact Cert.Lib.sum_grid_blocks 25 2000 50000 rfl fun p => L2 z μ v g bt W b p q * L2 z μ v g bt W b p q
  · intro i
    have hi0 : (i 0).val < 1 := idx2_lt0 i
    have hi1 : (i 1).val < 128 := idx2_lt1 i
    refine ⟨⟨24, by rw [N_eq]; omega⟩, (flush7_9 _).mpr (by rfl), ?_⟩
    rw [mem_blk_9]
    obtain ⟨e0, e1⟩ := idxZ_9 ⟨24, by rw [N_eq]; omega⟩
    intro a
    match a with
    | ⟨0, _⟩ =>
      show win7_9.index _ (0 : Fin 2) * 1 ≤ (i 0).val ∧ (i 0).val < win7_9.index _ (0 : Fin 2) * 1 + 1
      omega
    | ⟨1, _⟩ =>
      show win7_9.index _ (1 : Fin 2) * 128 ≤ (i 1).val ∧ (i 1).val < win7_9.index _ (1 : Fin 2) * 128 + 128
      omega

end Real

end Cert.KernelIdeal.Reg7

end
-- ==== Proof.Region8.lean ====
/-
  The third kernel of a layer as a whole array.  The grid has 25 points; point `t` reads rows `2000·t … 2000·t + 1999`
  of the second linear map's output and the four `[1, 128]` rows (mean, variance, γ, β) whole, and writes back the same
  rows of the layer's output.  The 25 blocks tile the `[50000, 128]` array, so every entry of the output is the
  normalisation of the entry above it: for real inputs with positive `variance + ε`, a real.
-/
import proofs.«148746_j9251359555639_1_alg».proof.Proof.Gen.KernelIdeal.Frame
import proofs.«148746_j9251359555639_1_alg».proof.Proof.PayC
import proofs.«148746_j9251359555639_1_alg».proof.Proof.RealOps
import proofs.«148746_j9251359555639_1_alg».proof.Proof.Spec
import Idealize.ShloMosaic.Lib.Pipeline.Value

set_option maxRecDepth 16384

noncomputable section

namespace Cert.KernelIdeal.Reg8

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks move with the point, the parameter rows stay. -/
theorem idx_facts : ∀ t : Fin cfg8.N,
    win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

theorem N_eq : cfg8.N = 25 := N_8

/-- Row `y0` of point `t`'s block of the first window is row `2000·t + y0` of its array. -/
theorem iblk_0 (c : Dev nD) (t : Fin cfg8.N) (y0 : Fin 2000) (y1 : Fin 128) (hr : t.val * 2000 + y0.val < 50000) :
    iblk8 V c 0 t (ix2 y0 y1) = V c main_v131_0 (ix2 (⟨t.val * 2000 + y0.val, hr⟩ : Fin 50000) y1) := by
  show V c main_v131_0 (((cfg8.win 0).blk t).view.emb (ix2 y0 y1)) = _
  refine congrArg (V c main_v131_0) ?_
  obtain ⟨e0, e1, -⟩ := idx_facts t
  funext a; apply Fin.ext
  match a with
  | ⟨0, _⟩ => show win8_0.index t (0 : Fin 2) * 2000 + 1 * y0.val = t.val * 2000 + y0.val; omega
  | ⟨1, _⟩ => show win8_0.index t (1 : Fin 2) * 128 + 1 * y1.val = y1.val; omega

theorem iblk_1 (c : Dev nD) (t : Fin cfg8.N) (y1 : Fin 128) :
    iblk8 V c 1 t (ix2 (0 : Fin 1) y1) = V c main_v133 (ix2 (0 : Fin 1) y1) := by
  show V c main_v133 (((cfg8.win 1).blk t).view.emb (ix2 (0 : Fin 1) y1)) = _
  refine congrArg (V c main_v133) ?_
  obtain ⟨-, -, -, -, e0, e1, -⟩ := idx_facts t
  funext a; apply Fin.ext
  match a with
  | ⟨0, _⟩ => show win8_1.index t (0 : Fin 2) * 1 + 1 * 0 = 0; omega
  | ⟨1, _⟩ => show win8_1.index t (1 : Fin 2) * 128 + 1 * y1.val = y1.val; omega

theorem iblk_2 (c : Dev nD) (t : Fin cfg8.N) (y1 : Fin 128) :
    iblk8 V c 2 t (ix2 (0 : Fin 1) y1) = V c main_v137 (ix2 (0 : Fin 1) y1) := by
  show V c main_v137 (((cfg8.win 2).blk t).view.emb (ix2 (0 : Fin 1) y1)) = _
  refine congrArg (V c main_v137) ?_
  obtain ⟨-, -, -, -, -, -, e0, e1, -⟩ := idx_facts t
  funext a; apply Fin.ext
  match a with
  | ⟨0, _⟩ => show win8_2.index t (0 : Fin 2) * 1 + 1 * 0 = 0; omega
  | ⟨1, _⟩ => show win8_2.index t (1 : Fin 2) * 128 + 1 * y1.val = y1.val; omega

theorem iblk_3 (c : Dev nD) (t : Fin cfg8.N) (y1 : Fin 128) :
    iblk8 V c 3 t (ix2 (0 : Fin 1) y1) = V c main_v140 (ix2 (0 : Fin 1) y1) := by
  show V c main_v140 (((cfg8.win 3).blk t).view.emb (ix2 (0 : Fin 1) y1)) = _
  refine congrArg (V c main_v140) ?_
  obtain ⟨-, -, -, -, -, -, -, -, e0, e1, -⟩ := idx_facts t
  funext a; apply Fin.ext
  match a with
  | ⟨0, _⟩ => show win8_3.index t (0 : Fin 2) * 1 + 1 * 0 = 0; omega
  | ⟨1, _⟩ => show win8_3.index t (1 : Fin 2) * 128 + 1 * y1.val = y1.val; omega

theorem iblk_4 (c : Dev nD) (t : Fin cfg8.N) (y1 : Fin 128) :
    iblk8 V c 4 t (ix2 (0 : Fin 1) y1) = V c main_v143 (ix2 (0 : Fin 1) y1) := by
  show V c main_v143 (((cfg8.win 4).blk t).view.emb (ix2 (0 : Fin 1) y1)) = _
  refine congrArg (V c main_v143) ?_
  obtain ⟨-, -, -, -, -, -, -, -, -, -, e0, e1⟩ := idx_facts t
  funext a; apply Fin.ext
  match a with
  | ⟨0, _⟩ => show win8_4.index t (0 : Fin 2) * 1 + 1 * 0 = 0; omega
  | ⟨1, _⟩ => show win8_4.index t (1 : Fin 2) * 128 + 1 * y1.val = y1.val; omega

/-- What point `t` writes back, entry by entry. -/
theorem flushed_apply (c : Dev nD) (t : Fin cfg8.N) (y0 : Fin 2000) (y1 : Fin 128) (hr : t.val * 2000 + y0.val < 50000) :
    (dat8 V c).flushed 5 t (ix2 y0 y1)
      = Pay.bnE (V c main_v131_0 (ix2 (⟨t.val * 2000 + y0.val, hr⟩ : Fin 50000) y1)) (V c main_v133 (ix2 (0 : Fin 1) y1))
          (V c main_v137 (ix2 (0 : Fin 1) y1)) (V c main_v140 (ix2 (0 : Fin 1) y1)) (V c main_v143 (ix2 (0 : Fin 1) y1)) := by
  show (cfg8.win 5).cut (grid8.coords t) ((dat8 V c).after 5 t) (ix2 y0 y1) = _
  rw [after8_5]
  unfold out8_5
  rw [View.canon_unit_zero hz]
  simp only [View.ld_unit_zero (S := S2000x128) hz, View.ld_unit_zero (S := S1x128) hz]
  refine (Pay.k8_pay1_apply _ _ _ _ _ y0 y1).trans ?_
  rw [iblk_0 V c t y0 y1 hr, iblk_1, iblk_2, iblk_3, iblk_4]

/-- An index of the output array lies in point `t`'s block iff its row is among the block's 2000 rows. -/
theorem mem_blk (t : Fin cfg8.N) (i : S50000x128.Idx) :
    i ∈ ((cfg8.win 5).blk t).view.set ↔ ∀ a : Fin 2, win8_5.index t a * S2000x128.size a ≤ (i a).val
      ∧ (i a).val < win8_5.index t a * S2000x128.size a + S2000x128.size a := by
  show i ∈ ((View.whole main_v144).slice (win8_5.rect t)).set ↔ _
  rw [View.set_slice_whole, Rect.mem_set_unit]
  exact Iff.rfl

/-- THE OUTPUT ARRAY, entry by entry, for real inputs. -/
theorem value (c : Dev nD) (z : Cert.Spec.Mat 50000 128) (μ v g b : Fin 128 → ℝ)
    (hzr : ∀ p k, V c main_v131_0 (ix2 p k) = ((z p k : ℝ) : EReal))
    (hμ : ∀ k, V c main_v133 (ix2 (0 : Fin 1) k) = ((μ k : ℝ) : EReal))
    (hv : ∀ k, V c main_v137 (ix2 (0 : Fin 1) k) = ((v k : ℝ) : EReal))
    (hg : ∀ k, V c main_v140 (ix2 (0 : Fin 1) k) = ((g k : ℝ) : EReal))
    (hb : ∀ k, V c main_v143 (ix2 (0 : Fin 1) k) = ((b k : ℝ) : EReal))
    (hpos : ∀ k, 0 < v k + Cert.Consts.eps) (p : Fin 50000) (k : Fin 128) :
    (dat8 V c).arrAt 5 cfg8.N (ix2 p k)
      = ((Cert.Spec.bn μ v Cert.Consts.eps g b z p k : ℝ) : EReal) := by
  refine (dat8 V c).arrAt_forall_of_cover 5
    (fun i x => ∀ (p : Fin 50000) (k : Fin 128), i = ix2 p k →
      x = ((Cert.Spec.bn μ v Cert.Consts.eps g b z p k : ℝ) : EReal)) ?_ ?_ (ix2 p k) p k rfl
  · intro t _ y p k hi
    obtain ⟨y0, y1, rfl⟩ : ∃ (y0 : Fin 2000) (y1 : Fin 128), y = ix2 y0 y1 := ⟨y 0, y 1, eq_ix2 y⟩
    have ht : t.val < 25 := lt_of_lt_of_eq t.isLt N_eq
    have hr : t.val * 2000 + y0.val < 50000 := by have := y0.isLt; omega
    obtain ⟨-, -, e0, e1, -⟩ := idx_facts t
    have hp : p = (⟨t.val * 2000 + y0.val, hr⟩ : Fin 50000) := by
      apply Fin.ext
      have h0 := congrArg (fun j : S50000x128.Idx => (j 0).val) hi
      have : win8_5.index t (0 : Fin 2) * 2000 + 1 * y0.val = p.val := h0
      show p.val = t.val * 2000 + y0.val
      omega
    have hk : k = y1 := by
      apply Fin.ext
      have h1 := congrArg (fun j : S50000x128.Idx => (j 1).val) hi
      have : win8_5.index t (1 : Fin 2) * 128 + 1 * y1.val = k.val := h1
      show k.val = y1.val
      omega
    subst hp hk
    show (dat8 V c).flushed 5 t (ix2 y0 k) = _
    rw [flushed_apply V c t y0 k hr, hzr, hμ, hv, hg, hb, Cert.RealOps.bnE_coe _ _ _ _ _ (hpos k)]
    rfl
  · intro i
    have hi0 : (i 0).val < 50000 := idx2_lt0 i
    have hi1 : (i 1).val < 128 := idx2_lt1 i
    refine ⟨⟨(i 0).val / 2000, by rw [N_eq]; omega⟩, flush8_5 _, ?_⟩
    rw [mem_blk]
    obtain ⟨-, -, e0, e1, -⟩ := idx_facts ⟨(i 0).val / 2000, by rw [N_eq]; omega⟩
    intro a
    match a with
    | ⟨0, _⟩ =>
      show win8_5.index _ (0 : Fin 2) * 2000 ≤ (i 0).val ∧ (i 0).val < win8_5.index _ (0 : Fin 2) * 2000 + 2000
      rw [e0]; show (i 0).val / 2000 * 2000 ≤ (i 0).val ∧ (i 0).val < (i 0).val / 2000 * 2000 + 2000; omega
    | ⟨1, _⟩ =>
      show win8_5.index _ (1 : Fin 2) * 128 ≤ (i 1).val ∧ (i 1).val < win8_5.index _ (1 : Fin 2) * 128 + 128
      rw [e1]; omega

end Cert.KernelIdeal.Reg8

end
-- ==== Proof.Layer2.lean ====
/-
  Layer 2 of the kernel program, boundary by boundary.  From the boundary where the layer starts: a stretch of host
  operations forms the neighbour sums and cuts the layer's first weights and bias out of the stacked parameters; the
  first kernel computes `lin₁ = (h + agg)·W₁ + b₁` and its column sums; a stretch divides them by the node count (mean,
  mean of squares minus squared mean) and cuts out γ₁, β₁, W₂, b₂; the second kernel computes
  `lin₂ = max(norm(lin₁), 0)·W₂ + b₂` and its column sums; a stretch forms mean and variance again and cuts out γ₂, β₂;
  the third kernel normalises `lin₂`.  For real features and parameters every entry along the way is a real,
  and the layer's output is the real layer function of the specification (variance as mean of squares minus squared
  mean), which needs `variance + ε > 0`: the variance equals the mean squared deviation, which is not negative.
-/
import proofs.«148746_j9251359555639_1_alg».proof.Proof.Gen.KernelIdeal.Frame
import proofs.«148746_j9251359555639_1_alg».proof.Proof.Region6
import proofs.«148746_j9251359555639_1_alg».proof.Proof.Region7
import proofs.«148746_j9251359555639_1_alg».proof.Proof.Region8
import proofs.«148746_j9251359555639_1_alg».proof.Proof.AggHost
import proofs.«148746_j9251359555639_1_alg».proof.Proof.HostForms
import proofs.«148746_j9251359555639_1_alg».proof.Proof.LibSlabs
import proofs.«148746_j9251359555639_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Layer2

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The first stretch -/

/-- The first stretch leaves the layer's input features where they were. -/
theorem a_feat : V13 m ρ c main_v97 = W12 m ρ c (Proc.devRef .tc main_v97) := by
  show StableHlo.after hostOps6 (W12 m ρ c) (Proc.devRef .tc main_v97) = _
  after_results

/-- The layer's first weights, cut out of the stacked array. -/
theorem a_w1 (k : Fin 128) (q : Fin 256) :
    V13 m ρ c main_v109 (ix2 k q) = W12 m ρ c (Proc.devRef .tc main_arg3) (ix3 (2 : Fin 3) k q) := by
  have e : V13 m ρ c main_v109 = shapeCast S128x256 (extractStridedSlice S1x128x256 ![2, 0, 0] (W12 m ρ c (Proc.devRef .tc main_arg3))
      slices_S3x128x256_S1x128x256_2_0_0) shapeCasts_S1x128x256_S128x256 := by
    show StableHlo.after hostOps6 (W12 m ρ c) (Proc.devRef .tc main_v109) = _
    after_results
    rfl
  rw [e]
  exact Cert.Lib.hostSlab3 (n0 := 3) (l := 2) (by decide) _ _ _ k q

/-- The layer's first bias, as one row. -/
theorem a_b1 (q : Fin 256) :
    V13 m ρ c main_v112 (ix2 (0 : Fin 1) q) = W12 m ρ c (Proc.devRef .tc main_arg4) (ix2 (2 : Fin 3) q) := by
  have e : V13 m ρ c main_v112 = shapeCast S1x256 (shapeCast S256 (extractStridedSlice S1x256 ![2, 0] (W12 m ρ c (Proc.devRef .tc main_arg4)) slices_S3x256_S1x256_2_0) shapeCasts_S1x256_S256) shapeCasts_S256_S1x256 := by
    show StableHlo.after hostOps6 (W12 m ρ c) (Proc.devRef .tc main_v112) = _
    after_results
    rfl
  rw [e]
  exact Cert.HostForms.paramRow (n0 := 3) (l := 2) (by decide) _ _ _ _ q

set_option maxHeartbeats 1600000 in
/-- The neighbour-sum buffer as the composed host operations. -/
theorem a_agg_term : V13 m ρ c main_v107 =
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0
        (shapeCast S800000 (extractStridedSlice S1x800000 ![1, 0] (W12 m ρ c (Proc.devRef .tc main_arg1)) slices_S2x800000_S1x800000_1_0) shapeCasts_S1x800000_S800000))
      (Host.gather gather_S50000x128_S800000x1_S800000x128_1_0_n_n_0_1_1128 (W12 m ρ c (Proc.devRef .tc main_v97))
        (broadcastInDim S800000x1 ![0] bcast_S800000_S800000x1_0
          (select
            (cmpi .slt (shapeCast S800000 (extractStridedSlice S1x800000 ![0, 0] (W12 m ρ c (Proc.devRef .tc main_arg1)) slices_S2x800000_S1x800000_0_0) shapeCasts_S1x800000_S800000) (broadcastInDim S800000 ![] bcast_S_S800000 (constantI S_ 32 0#32)))
            (addi (shapeCast S800000 (extractStridedSlice S1x800000 ![0, 0] (W12 m ρ c (Proc.devRef .tc main_arg1)) slices_S2x800000_S1x800000_0_0) shapeCasts_S1x800000_S800000) (broadcastInDim S800000 ![] bcast_S_S800000 (constantI S_ 32 50000#32)))
            (shapeCast S800000 (extractStridedSlice S1x800000 ![0, 0] (W12 m ρ c (Proc.devRef .tc main_arg1)) slices_S2x800000_S1x800000_0_0) shapeCasts_S1x800000_S800000)))) := by
  show StableHlo.after hostOps6 (W12 m ρ c) (Proc.devRef .tc main_v107) = _
  after_results
  rfl

/-- The neighbour sums of a real feature matrix, entry by entry. -/
theorem a_agg (h : Cert.Spec.Mat 50000 128)
    (hh : ∀ p k, W12 m ρ c (Proc.devRef .tc main_v97) (ix2 p k) = ((h p k : ℝ) : EReal)) (p : Fin 50000) (k : Fin 128) :
    V13 m ρ c main_v107 (ix2 p k)
      = ((Cert.Spec.agg (Cert.Edges.land (W12 m ρ c (Proc.devRef .tc main_arg1))) (Cert.Edges.src (W12 m ρ c (Proc.devRef .tc main_arg1))) h p k : ℝ) : EReal) := by
  rw [a_agg_term]
  refine Cert.AggHost.agg_apply _ _ _ h hh (W12 m ρ c (Proc.devRef .tc main_arg1)) _ _ ?_ ?_ _ (fun _ _ => rfl) p k
  · intro e
    rw [Cert.HostForms.col_apply]
    have hs : (shapeCast S800000 (extractStridedSlice S1x800000 ![0, 0] (W12 m ρ c (Proc.devRef .tc main_arg1)) slices_S2x800000_S1x800000_0_0) shapeCasts_S1x800000_S800000) (ix1 e) = (W12 m ρ c (Proc.devRef .tc main_arg1)) (ix2 (0 : Fin 2) e) :=
      Cert.Lib.hostSlab2 (n0 := 2) (l := 0) (by decide) _ _ _ e
    show Scalar.select (IntOp.cmpi .slt ((shapeCast S800000 (extractStridedSlice S1x800000 ![0, 0] (W12 m ρ c (Proc.devRef .tc main_arg1)) slices_S2x800000_S1x800000_0_0) shapeCasts_S1x800000_S800000) (ix1 e)) 0#32) (IntOp.addi ((shapeCast S800000 (extractStridedSlice S1x800000 ![0, 0] (W12 m ρ c (Proc.devRef .tc main_arg1)) slices_S2x800000_S1x800000_0_0) shapeCasts_S1x800000_S800000) (ix1 e)) 50000#32) ((shapeCast S800000 (extractStridedSlice S1x800000 ![0, 0] (W12 m ρ c (Proc.devRef .tc main_arg1)) slices_S2x800000_S1x800000_0_0) shapeCasts_S1x800000_S800000) (ix1 e)) = _
    rw [hs]
    rfl
  · intro e
    rw [Cert.HostForms.col_apply]
    exact Cert.Lib.hostSlab2 (n0 := 2) (l := 1) (by decide) _ _ _ e

/-! ## The second stretch -/

/-- The second stretch leaves the first linear map's output where it was. -/
theorem b_lin : V15 m ρ c main_v113_0 = W14 m ρ c (Proc.devRef .tc main_v113_0) := by
  show StableHlo.after hostOps7 (W14 m ρ c) (Proc.devRef .tc main_v113_0) = _
  after_results

/-- The column mean: the running row of column sums over the node count. -/
theorem b_mean (q : Fin 256) :
    V15 m ρ c main_v115 (ix2 (0 : Fin 1) q)
      = Ideal.div (W14 m ρ c (Proc.devRef .tc main_v113_1) (ix2 (0 : Fin 1) q)) (Ideal.ofBits .f32 0x47435000#32) := by
  have e : V15 m ρ c main_v115 = Host.divf (F := Ideal) (W14 m ρ c (Proc.devRef .tc main_v113_1))
      (broadcastInDim S1x256 ![] bcast_S_S1x256 (constant (F := Ideal) S_ .f32 0x47435000#32)) := by
    show StableHlo.after hostOps7 (W14 m ρ c) (Proc.devRef .tc main_v115) = _
    after_results
  rw [e]
  rfl

/-- The column variance as the kernel's host code computes it: mean of squares minus squared mean. -/
theorem b_var (q : Fin 256) :
    V15 m ρ c main_v119 (ix2 (0 : Fin 1) q)
      = Ideal.div (W14 m ρ c (Proc.devRef .tc main_v113_2) (ix2 (0 : Fin 1) q)) (Ideal.ofBits .f32 0x47435000#32)
        - Ideal.div (W14 m ρ c (Proc.devRef .tc main_v113_1) (ix2 (0 : Fin 1) q)) (Ideal.ofBits .f32 0x47435000#32)
          * Ideal.div (W14 m ρ c (Proc.devRef .tc main_v113_1) (ix2 (0 : Fin 1) q)) (Ideal.ofBits .f32 0x47435000#32) := by
  have e : V15 m ρ c main_v119 = subf
      (Host.divf (F := Ideal) (W14 m ρ c (Proc.devRef .tc main_v113_2)) (broadcastInDim S1x256 ![] bcast_S_S1x256 (constant (F := Ideal) S_ .f32 0x47435000#32)))
      (mulf
        (Host.divf (F := Ideal) (W14 m ρ c (Proc.devRef .tc main_v113_1)) (broadcastInDim S1x256 ![] bcast_S_S1x256 (constant (F := Ideal) S_ .f32 0x47435000#32)))
        (Host.divf (F := Ideal) (W14 m ρ c (Proc.devRef .tc main_v113_1)) (broadcastInDim S1x256 ![] bcast_S_S1x256 (constant (F := Ideal) S_ .f32 0x47435000#32)))) := by
    show StableHlo.after hostOps7 (W14 m ρ c) (Proc.devRef .tc main_v119) = _
    after_results
  rw [e]
  rfl

/-- γ of the first normalisation, as one row. -/
theorem b_g (q : Fin 256) :
    V15 m ρ c main_v122 (ix2 (0 : Fin 1) q) = W14 m ρ c (Proc.devRef .tc main_arg5) (ix2 (2 : Fin 3) q) := by
  have e : V15 m ρ c main_v122 = shapeCast S1x256 (shapeCast S256 (extractStridedSlice S1x256 ![2, 0] (W14 m ρ c (Proc.devRef .tc main_arg5)) slices_S3x256_S1x256_2_0) shapeCasts_S1x256_S256) shapeCasts_S256_S1x256 := by
    show StableHlo.after hostOps7 (W14 m ρ c) (Proc.devRef .tc main_v122) = _
    after_results
    rfl
  rw [e]
  exact Cert.HostForms.paramRow (n0 := 3) (l := 2) (by decide) _ _ _ _ q

/-- β of the first normalisation, as one row. -/
theorem b_bt (q : Fin 256) :
    V15 m ρ c main_v125 (ix2 (0 : Fin 1) q) = W14 m ρ c (Proc.devRef .tc main_arg6) (ix2 (2 : Fin 3) q) := by
  have e : V15 m ρ c main_v125 = shapeCast S1x256 (shapeCast S256 (extractStridedSlice S1x256 ![2, 0] (W14 m ρ c (Proc.devRef .tc main_arg6)) slices_S3x256_S1x256_2_0) shapeCasts_S1x256_S256) shapeCasts_S256_S1x256 := by
    show StableHlo.after hostOps7 (W14 m ρ c) (Proc.devRef .tc main_v125) = _
    after_results
    rfl
  rw [e]
  exact Cert.HostForms.paramRow (n0 := 3) (l := 2) (by decide) _ _ _ _ q

/-- The layer's second weights, cut out of the stacked array. -/
theorem b_w2 (k : Fin 256) (q : Fin 128) :
    V15 m ρ c main_v127 (ix2 k q) = W14 m ρ c (Proc.devRef .tc main_arg7) (ix3 (2 : Fin 3) k q) := by
  have e : V15 m ρ c main_v127 = shapeCast S256x128 (extractStridedSlice S1x256x128 ![2, 0, 0] (W14 m ρ c (Proc.devRef .tc main_arg7))
      slices_S3x256x128_S1x256x128_2_0_0) shapeCasts_S1x256x128_S256x128 := by
    show StableHlo.after hostOps7 (W14 m ρ c) (Proc.devRef .tc main_v127) = _
    after_results
    rfl
  rw [e]
  exact Cert.Lib.hostSlab3 (n0 := 3) (l := 2) (by decide) _ _ _ k q

/-- The layer's second bias, as one row. -/
theorem b_b2 (q : Fin 128) :
    V15 m ρ c main_v130 (ix2 (0 : Fin 1) q) = W14 m ρ c (Proc.devRef .tc main_arg8) (ix2 (2 : Fin 3) q) := by
  have e : V15 m ρ c main_v130 = shapeCast S1x128 (shapeCast S128 (extractStridedSlice S1x128 ![2, 0] (W14 m ρ c (Proc.devRef .tc main_arg8)) slices_S3x128_S1x128_2_0) shapeCasts_S1x128_S128) shapeCasts_S128_S1x128 := by
    show StableHlo.after hostOps7 (W14 m ρ c) (Proc.devRef .tc main_v130) = _
    after_results
    rfl
  rw [e]
  exact Cert.HostForms.paramRow (n0 := 3) (l := 2) (by decide) _ _ _ _ q

/-! ## The third stretch -/

/-- The third stretch leaves the second linear map's output where it was. -/
theorem c_lin : V17 m ρ c main_v131_0 = W16 m ρ c (Proc.devRef .tc main_v131_0) := by
  show StableHlo.after hostOps8 (W16 m ρ c) (Proc.devRef .tc main_v131_0) = _
  after_results

/-- The column mean: the running row of column sums over the node count. -/
theorem c_mean (q : Fin 128) :
    V17 m ρ c main_v133 (ix2 (0 : Fin 1) q)
      = Ideal.div (W16 m ρ c (Proc.devRef .tc main_v131_1) (ix2 (0 : Fin 1) q)) (Ideal.ofBits .f32 0x47435000#32) := by
  have e : V17 m ρ c main_v133 = Host.divf (F := Ideal) (W16 m ρ c (Proc.devRef .tc main_v131_1))
      (broadcastInDim S1x128 ![] bcast_S_S1x128 (constant (F := Ideal) S_ .f32 0x47435000#32)) := by
    show StableHlo.after hostOps8 (W16 m ρ c) (Proc.devRef .tc main_v133) = _
    after_results
  rw [e]
  rfl

/-- The column variance as the kernel's host code computes it: mean of squares minus squared mean. -/
theorem c_var (q : Fin 128) :
    V17 m ρ c main_v137 (ix2 (0 : Fin 1) q)
      = Ideal.div (W16 m ρ c (Proc.devRef .tc main_v131_2) (ix2 (0 : Fin 1) q)) (Ideal.ofBits .f32 0x47435000#32)
        - Ideal.div (W16 m ρ c (Proc.devRef .tc main_v131_1) (ix2 (0 : Fin 1) q)) (Ideal.ofBits .f32 0x47435000#32)
          * Ideal.div (W16 m ρ c (Proc.devRef .tc main_v131_1) (ix2 (0 : Fin 1) q)) (Ideal.ofBits .f32 0x47435000#32) := by
  have e : V17 m ρ c main_v137 = subf
      (Host.divf (F := Ideal) (W16 m ρ c (Proc.devRef .tc main_v131_2)) (broadcastInDim S1x128 ![] bcast_S_S1x128 (constant (F := Ideal) S_ .f32 0x47435000#32)))
      (mulf
        (Host.divf (F := Ideal) (W16 m ρ c (Proc.devRef .tc main_v131_1)) (broadcastInDim S1x128 ![] bcast_S_S1x128 (constant (F := Ideal) S_ .f32 0x47435000#32)))
        (Host.divf (F := Ideal) (W16 m ρ c (Proc.devRef .tc main_v131_1)) (broadcastInDim S1x128 ![] bcast_S_S1x128 (constant (F := Ideal) S_ .f32 0x47435000#32)))) := by
    show StableHlo.after hostOps8 (W16 m ρ c) (Proc.devRef .tc main_v137) = _
    after_results
  rw [e]
  rfl

/-- γ of the second normalisation, as one row. -/
theorem c_g (q : Fin 128) :
    V17 m ρ c main_v140 (ix2 (0 : Fin 1) q) = W16 m ρ c (Proc.devRef .tc main_arg9) (ix2 (2 : Fin 3) q) := by
  have e : V17 m ρ c main_v140 = shapeCast S1x128 (shapeCast S128 (extractStridedSlice S1x128 ![2, 0] (W16 m ρ c (Proc.devRef .tc main_arg9)) slices_S3x128_S1x128_2_0) shapeCasts_S1x128_S128) shapeCasts_S128_S1x128 := by
    show StableHlo.after hostOps8 (W16 m ρ c) (Proc.devRef .tc main_v140) = _
    after_results
    rfl
  rw [e]
  exact Cert.HostForms.paramRow (n0 := 3) (l := 2) (by decide) _ _ _ _ q

/-- β of the second normalisation, as one row. -/
theorem c_bt (q : Fin 128) :
    V17 m ρ c main_v143 (ix2 (0 : Fin 1) q) = W16 m ρ c (Proc.devRef .tc main_arg10) (ix2 (2 : Fin 3) q) := by
  have e : V17 m ρ c main_v143 = shapeCast S1x128 (shapeCast S128 (extractStridedSlice S1x128 ![2, 0] (W16 m ρ c (Proc.devRef .tc main_arg10)) slices_S3x128_S1x128_2_0) shapeCasts_S1x128_S128) shapeCasts_S128_S1x128 := by
    show StableHlo.after hostOps8 (W16 m ρ c) (Proc.devRef .tc main_v143) = _
    after_results
    rfl
  rw [e]
  exact Cert.HostForms.paramRow (n0 := 3) (l := 2) (by decide) _ _ _ _ q

/-! ## The layer -/

section Layer

variable (ei : Cert.Edges.EI) (h : Cert.Spec.Mat 50000 128) (Wa : Cert.Spec.Mat 128 256) (b1 g1 bt1 : Fin 256 → ℝ)
  (Wb : Cert.Spec.Mat 256 128) (b2 g2 bt2 : Fin 128 → ℝ)

/-- The layer's intermediate real matrices: the neighbour sums, the first linear map, the second linear map. -/
abbrev aggr : Cert.Spec.Mat 50000 128 := Cert.Spec.agg (Cert.Edges.land ei) (Cert.Edges.src ei) h
abbrev L1r : Cert.Spec.Mat 50000 256 := Cert.Spec.lin (Cert.Spec.addM h (aggr ei h)) Wa b1
abbrev L2r : Cert.Spec.Mat 50000 128 :=
  Cert.Spec.lin (Cert.Spec.relu (Cert.Spec.bn (Cert.Spec.mean 50000 (L1r ei h Wa b1)) (Cert.Spec.varSq 50000 (L1r ei h Wa b1))
    Cert.Consts.eps g1 bt1 (L1r ei h Wa b1))) Wb b2

/-- A column variance plus ε is positive: the variance is the mean squared deviation. -/
theorem var_pos {H : ℕ} (z : Cert.Spec.Mat 50000 H) (q : Fin H) : 0 < Cert.Spec.varSq 50000 z q + Cert.Consts.eps := by
  rw [Cert.Spec.varSq_eq_varDev 50000 (by norm_num) (by norm_num)]
  exact add_pos_of_nonneg_of_pos (Cert.Spec.varDev_nonneg 50000 (by norm_num) z q) Cert.Consts.eps_pos

variable (hei : W12 m ρ c (Proc.devRef .tc main_arg1) = ei)
  (hh : ∀ p k, W12 m ρ c (Proc.devRef .tc main_v97) (ix2 p k) = ((h p k : ℝ) : EReal))
  (hW1 : ∀ k q, W12 m ρ c (Proc.devRef .tc main_arg3) (ix3 (2 : Fin 3) k q) = ((Wa k q : ℝ) : EReal))
  (hb1 : ∀ q, W12 m ρ c (Proc.devRef .tc main_arg4) (ix2 (2 : Fin 3) q) = ((b1 q : ℝ) : EReal))
  (hg1 : ∀ q, W14 m ρ c (Proc.devRef .tc main_arg5) (ix2 (2 : Fin 3) q) = ((g1 q : ℝ) : EReal))
  (hbt1 : ∀ q, W14 m ρ c (Proc.devRef .tc main_arg6) (ix2 (2 : Fin 3) q) = ((bt1 q : ℝ) : EReal))
  (hW2 : ∀ k q, W14 m ρ c (Proc.devRef .tc main_arg7) (ix3 (2 : Fin 3) k q) = ((Wb k q : ℝ) : EReal))
  (hb2 : ∀ q, W14 m ρ c (Proc.devRef .tc main_arg8) (ix2 (2 : Fin 3) q) = ((b2 q : ℝ) : EReal))
  (hg2 : ∀ q, W16 m ρ c (Proc.devRef .tc main_arg9) (ix2 (2 : Fin 3) q) = ((g2 q : ℝ) : EReal))
  (hbt2 : ∀ q, W16 m ρ c (Proc.devRef .tc main_arg10) (ix2 (2 : Fin 3) q) = ((bt2 q : ℝ) : EReal))

include hei hh hW1 hb1 in
/-- After the first kernel: the first linear map and its column sums. -/
theorem stageA : (∀ p q, W14 m ρ c (Proc.devRef .tc main_v113_0) (ix2 p q) = ((L1r ei h Wa b1 p q : ℝ) : EReal))
    ∧ (∀ q, W14 m ρ c (Proc.devRef .tc main_v113_1) (ix2 (0 : Fin 1) q) = ((Cert.Spec.colSum (L1r ei h Wa b1) q : ℝ) : EReal))
    ∧ (∀ q, W14 m ρ c (Proc.devRef .tc main_v113_2) (ix2 (0 : Fin 1) q) = ((Cert.Spec.colSumSq (L1r ei h Wa b1) q : ℝ) : EReal)) := by
  have hh' : ∀ p k, V13 m ρ c main_v97 (ix2 p k) = ((h p k : ℝ) : EReal) :=
    fun p k => (congrFun (a_feat m ρ c) (ix2 p k)).trans (hh p k)
  have ha' : ∀ p k, V13 m ρ c main_v107 (ix2 p k) = ((aggr ei h p k : ℝ) : EReal) :=
    fun p k => (a_agg m ρ c h hh p k).trans (by rw [hei])
  have hW' : ∀ k q, V13 m ρ c main_v109 (ix2 k q) = ((Wa k q : ℝ) : EReal) := fun k q => (a_w1 m ρ c k q).trans (hW1 k q)
  have hb' : ∀ q, V13 m ρ c main_v112 (ix2 (0 : Fin 1) q) = ((b1 q : ℝ) : EReal) := fun q => (a_b1 m ρ c q).trans (hb1 q)
  refine ⟨fun p q => ?_, fun q => ?_, fun q => ?_⟩
  · exact (congrFun (W14_arr m ρ c 4) (ix2 p q)).trans
      (Cert.KernelIdeal.Reg6.value_4 (V13 m ρ) c h (aggr ei h) Wa b1 hh' ha' hW' hb' p q)
  · exact (congrFun (W14_arr m ρ c 5) (ix2 (0 : Fin 1) q)).trans
      (Cert.KernelIdeal.Reg6.value_5 (V13 m ρ) c h (aggr ei h) Wa b1 hh' ha' hW' hb' q)
  · exact (congrFun (W14_arr m ρ c 6) (ix2 (0 : Fin 1) q)).trans
      (Cert.KernelIdeal.Reg6.value_6 (V13 m ρ) c h (aggr ei h) Wa b1 hh' ha' hW' hb' q)

include hei hh hW1 hb1 hg1 hbt1 hW2 hb2 in
/-- After the second kernel: the second linear map and its column sums. -/
theorem stageB : (∀ p q, W16 m ρ c (Proc.devRef .tc main_v131_0) (ix2 p q) = ((L2r ei h Wa b1 g1 bt1 Wb b2 p q : ℝ) : EReal))
    ∧ (∀ q, W16 m ρ c (Proc.devRef .tc main_v131_1) (ix2 (0 : Fin 1) q) = ((Cert.Spec.colSum (L2r ei h Wa b1 g1 bt1 Wb b2) q : ℝ) : EReal))
    ∧ (∀ q, W16 m ρ c (Proc.devRef .tc main_v131_2) (ix2 (0 : Fin 1) q) = ((Cert.Spec.colSumSq (L2r ei h Wa b1 g1 bt1 Wb b2) q : ℝ) : EReal)) := by
  obtain ⟨hl, hs, hq⟩ := stageA m ρ c ei h Wa b1 hei hh hW1 hb1
  have hz' : ∀ p k, V15 m ρ c main_v113_0 (ix2 p k) = ((L1r ei h Wa b1 p k : ℝ) : EReal) :=
    fun p k => (congrFun (b_lin m ρ c) (ix2 p k)).trans (hl p k)
  have hμ' : ∀ k, V15 m ρ c main_v115 (ix2 (0 : Fin 1) k) = ((Cert.Spec.mean 50000 (L1r ei h Wa b1) k : ℝ) : EReal) :=
    fun k => (b_mean m ρ c k).trans (by rw [hs k]; exact Cert.HostForms.div_N_coe _)
  have hv' : ∀ k, V15 m ρ c main_v119 (ix2 (0 : Fin 1) k) = ((Cert.Spec.varSq 50000 (L1r ei h Wa b1) k : ℝ) : EReal) :=
    fun k => (b_var m ρ c k).trans (by
      rw [hq k, hs k, Cert.HostForms.div_N_coe, Cert.HostForms.div_N_coe, ← EReal.coe_mul, ← EReal.coe_sub]; rfl)
  have hg' : ∀ k, V15 m ρ c main_v122 (ix2 (0 : Fin 1) k) = ((g1 k : ℝ) : EReal) := fun k => (b_g m ρ c k).trans (hg1 k)
  have hbt' : ∀ k, V15 m ρ c main_v125 (ix2 (0 : Fin 1) k) = ((bt1 k : ℝ) : EReal) := fun k => (b_bt m ρ c k).trans (hbt1 k)
  have hW' : ∀ k q, V15 m ρ c main_v127 (ix2 k q) = ((Wb k q : ℝ) : EReal) := fun k q => (b_w2 m ρ c k q).trans (hW2 k q)
  have hb' : ∀ q, V15 m ρ c main_v130 (ix2 (0 : Fin 1) q) = ((b2 q : ℝ) : EReal) := fun q => (b_b2 m ρ c q).trans (hb2 q)
  have hpos : ∀ k, 0 < Cert.Spec.varSq 50000 (L1r ei h Wa b1) k + Cert.Consts.eps := fun k => var_pos _ k
  refine ⟨fun p q => ?_, fun q => ?_, fun q => ?_⟩
  · exact (congrFun (W16_arr m ρ c 7) (ix2 p q)).trans
      (Cert.KernelIdeal.Reg7.value_7 (V15 m ρ) c (L1r ei h Wa b1) _ _ g1 bt1 Wb b2 hz' hμ' hv' hg' hbt' hW' hb' hpos p q)
  · exact (congrFun (W16_arr m ρ c 8) (ix2 (0 : Fin 1) q)).trans
      (Cert.KernelIdeal.Reg7.value_8 (V15 m ρ) c (L1r ei h Wa b1) _ _ g1 bt1 Wb b2 hz' hμ' hv' hg' hbt' hW' hb' hpos q)
  · exact (congrFun (W16_arr m ρ c 9) (ix2 (0 : Fin 1) q)).trans
      (Cert.KernelIdeal.Reg7.value_9 (V15 m ρ) c (L1r ei h Wa b1) _ _ g1 bt1 Wb b2 hz' hμ' hv' hg' hbt' hW' hb' hpos q)

include hei hh hW1 hb1 hg1 hbt1 hW2 hb2 hg2 hbt2 in
/-- THE LAYER: its output buffer at the next layer's boundary is the real layer function of the specification. -/
theorem layer (p : Fin 50000) (k : Fin 128) :
    W18 m ρ c (Proc.devRef .tc main_v144) (ix2 p k)
      = ((Cert.Spec.layerSq 50000 Cert.Consts.eps true (Cert.Edges.land ei) (Cert.Edges.src ei) Wa b1 g1 bt1 Wb b2 g2 bt2 h p k : ℝ) : EReal) := by
  obtain ⟨hl, hs, hq⟩ := stageB m ρ c ei h Wa b1 g1 bt1 Wb b2 hei hh hW1 hb1 hg1 hbt1 hW2 hb2
  have hz' : ∀ p k, V17 m ρ c main_v131_0 (ix2 p k) = ((L2r ei h Wa b1 g1 bt1 Wb b2 p k : ℝ) : EReal) :=
    fun p k => (congrFun (c_lin m ρ c) (ix2 p k)).trans (hl p k)
  have hμ' : ∀ k, V17 m ρ c main_v133 (ix2 (0 : Fin 1) k) = ((Cert.Spec.mean 50000 (L2r ei h Wa b1 g1 bt1 Wb b2) k : ℝ) : EReal) :=
    fun k => (c_mean m ρ c k).trans (by rw [hs k]; exact Cert.HostForms.div_N_coe _)
  have hv' : ∀ k, V17 m ρ c main_v137 (ix2 (0 : Fin 1) k) = ((Cert.Spec.varSq 50000 (L2r ei h Wa b1 g1 bt1 Wb b2) k : ℝ) : EReal) :=
    fun k => (c_var m ρ c k).trans (by
      rw [hq k, hs k, Cert.HostForms.div_N_coe, Cert.HostForms.div_N_coe, ← EReal.coe_mul, ← EReal.coe_sub]; rfl)
  have hg' : ∀ k, V17 m ρ c main_v140 (ix2 (0 : Fin 1) k) = ((g2 k : ℝ) : EReal) := fun k => (c_g m ρ c k).trans (hg2 k)
  have hbt' : ∀ k, V17 m ρ c main_v143 (ix2 (0 : Fin 1) k) = ((bt2 k : ℝ) : EReal) := fun k => (c_bt m ρ c k).trans (hbt2 k)
  have hpos : ∀ k, 0 < Cert.Spec.varSq 50000 (L2r ei h Wa b1 g1 bt1 Wb b2) k + Cert.Consts.eps := fun k => var_pos _ k
  refine ((congrFun (W18_arr m ρ c 5) (ix2 p k)).trans
    (Cert.KernelIdeal.Reg8.value (V17 m ρ) c (L2r ei h Wa b1 g1 bt1 Wb b2) _ _ g2 bt2 hz' hμ' hv' hg' hbt' hpos p k)).trans ?_
  rfl

end Layer

end Cert.KernelIdeal.Layer2

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.RefReal.lean ====
/-
  From the finiteness precondition to real entries.

  The precondition is the conjunction, over the eleven float arguments, of "every entry has absolute value below +∞".
  An extended real whose absolute value is below +∞ is a real; so each float argument is, entry by entry, a real.  For
  the nine float arrays the layers read — the node features and the eight stacked layer parameters — the reals are
  collected here as matrices indexed the way the layer lemmas index them.
-/
import proofs.«148746_j9251359555639_1_alg».proof.Pre_finite_inputs
import proofs.«148746_j9251359555639_1_alg».proof.Proof.LibRealEntries
import proofs.«148746_j9251359555639_1_alg».proof.Proof.Spec
import Idealize.ShloMosaic.Lib.ValueIdx
import Idealize.ShloMosaic.Lib.Affine

noncomputable section

namespace Cert.ReferenceIdeal.RefValue

open Idealize.ShloMosaic Idealize.ShloMosaic.ValueIdx Cert.Pre_finite_inputs

/-- The rank-zero shape has one index. -/
instance subsingleton_scalarIdx : Subsingleton (Cert.Pre_finite_inputs.S_).Idx := ⟨fun _ _ => funext fun d => d.elim0⟩

/-- An array of reals of rank two, as a real matrix. -/
theorem real2 {n0 n1 : ℕ} {x : (⟨2, ![n0, n1]⟩ : Shape).Idx → EReal} (h : Cert.Lib.AllReal x) :
    ∃ r : Fin n0 → Fin n1 → ℝ, ∀ p k, x (ix2 p k) = ((r p k : ℝ) : EReal) :=
  ⟨fun p k => (h (ix2 p k)).choose, fun p k => (h (ix2 p k)).choose_spec⟩

/-- An array of reals of rank three, as a family of real matrices. -/
theorem real3 {n0 n1 n2 : ℕ} {x : (⟨3, ![n0, n1, n2]⟩ : Shape).Idx → EReal} (h : Cert.Lib.AllReal x) :
    ∃ r : Fin n0 → Fin n1 → Fin n2 → ℝ, ∀ l p k, x (ix3 l p k) = ((r l p k : ℝ) : EReal) :=
  ⟨fun l p k => (h (ix3 l p k)).choose, fun l p k => (h (ix3 l p k)).choose_spec⟩

/-- The real entries of the float arrays the layers read. -/
structure RealArgs (a0 : FVec Ideal S50000x128 .f32) (a3 : FVec Ideal S3x128x256 .f32) (a4 a5 a6 : FVec Ideal S3x256 .f32)
    (a7 : FVec Ideal S3x256x128 .f32) (a8 a9 a10 : FVec Ideal S3x128 .f32) where
  xr : Cert.Spec.Mat 50000 128
  W1r : Fin 3 → Cert.Spec.Mat 128 256
  b1r : Fin 3 → Fin 256 → ℝ
  g1r : Fin 3 → Fin 256 → ℝ
  bt1r : Fin 3 → Fin 256 → ℝ
  W2r : Fin 3 → Cert.Spec.Mat 256 128
  b2r : Fin 3 → Fin 128 → ℝ
  g2r : Fin 3 → Fin 128 → ℝ
  bt2r : Fin 3 → Fin 128 → ℝ
  hx : ∀ p k, a0 (ix2 p k) = ((xr p k : ℝ) : EReal)
  hW1 : ∀ l k q, a3 (ix3 l k q) = ((W1r l k q : ℝ) : EReal)
  hb1 : ∀ l q, a4 (ix2 l q) = ((b1r l q : ℝ) : EReal)
  hg1 : ∀ l q, a5 (ix2 l q) = ((g1r l q : ℝ) : EReal)
  hbt1 : ∀ l q, a6 (ix2 l q) = ((bt1r l q : ℝ) : EReal)
  hW2 : ∀ l k q, a7 (ix3 l k q) = ((W2r l k q : ℝ) : EReal)
  hb2 : ∀ l q, a8 (ix2 l q) = ((b2r l q : ℝ) : EReal)
  hg2 : ∀ l q, a9 (ix2 l q) = ((g2r l q : ℝ) : EReal)
  hbt2 : ∀ l q, a10 (ix2 l q) = ((bt2r l q : ℝ) : EReal)

variable [Cert.Pre_finite_inputs.Facts]
open Cert.Pre_finite_inputs.Facts

/-- One conjunct of the precondition: the array passes "all entries below +∞ in absolute value". -/
theorem allReal_of_conjunct {s : Shape} (x : FVec Ideal s .f32) {axes : List (Fin s.rank)} (hr : s.ReducesTo axes S_)
    (hb : S_.BroadcastsInDim s (![] : Fin 0 → Fin s.rank))
    (e : Host.reduce IntOp.andi (cmpf .olt (Host.absf x) (broadcastInDim s ![] hb (constant S_ .f32 0x7F800000#32)))
      (constantI S_ 1 1#1) hr h_S_ ix0 = 1#1) : Cert.Lib.AllReal x :=
  Cert.Lib.allReal_of_all_abs_lt x _ (fun _ => rfl) hr _ h_S_ ix0 e

/-- The precondition makes every float array the layers read an array of reals. -/
theorem allReal_of_pre (a0 : FVec Ideal S50000x128 .f32) (a1 : IVec S2x800000 32) (a2 : IVec S50000 32)
    (a3 : FVec Ideal S3x128x256 .f32) (a4 a5 a6 : FVec Ideal S3x256 .f32) (a7 : FVec Ideal S3x256x128 .f32)
    (a8 a9 a10 : FVec Ideal S3x128 .f32) (a11 : FVec Ideal S128x10 .f32) (a12 : FVec Ideal S10 .f32)
    (h : fn (F := Ideal) a0 a1 a2 a3 a4 a5 a6 a7 a8 a9 a10 a11 a12 = fun _ => 1#1) :
    Cert.Lib.AllReal a0 ∧ Cert.Lib.AllReal a3 ∧ Cert.Lib.AllReal a4 ∧ Cert.Lib.AllReal a5 ∧ Cert.Lib.AllReal a6
      ∧ Cert.Lib.AllReal a7 ∧ Cert.Lib.AllReal a8 ∧ Cert.Lib.AllReal a9 ∧ Cert.Lib.AllReal a10 := by
  have h0 := congrFun h ix0
  dsimp only [fn, fn_part1, fn_part2, fn_part3, Idealize.ShloMosaic.andi] at h0
  simp only [IntOp.andi_eq_one] at h0
  obtain ⟨⟨⟨⟨⟨⟨⟨⟨⟨⟨e0, e3⟩, e4⟩, e5⟩, e6⟩, e7⟩, e8⟩, e9⟩, e10⟩, -⟩, -⟩ := h0
  exact ⟨allReal_of_conjunct a0 _ _ e0, allReal_of_conjunct a3 _ _ e3, allReal_of_conjunct a4 _ _ e4,
    allReal_of_conjunct a5 _ _ e5, allReal_of_conjunct a6 _ _ e6, allReal_of_conjunct a7 _ _ e7,
    allReal_of_conjunct a8 _ _ e8, allReal_of_conjunct a9 _ _ e9, allReal_of_conjunct a10 _ _ e10⟩

/-- The precondition gives the real matrices. -/
theorem realArgs_of_pre (a0 : FVec Ideal S50000x128 .f32) (a1 : IVec S2x800000 32) (a2 : IVec S50000 32)
    (a3 : FVec Ideal S3x128x256 .f32) (a4 a5 a6 : FVec Ideal S3x256 .f32) (a7 : FVec Ideal S3x256x128 .f32)
    (a8 a9 a10 : FVec Ideal S3x128 .f32) (a11 : FVec Ideal S128x10 .f32) (a12 : FVec Ideal S10 .f32)
    (h : fn (F := Ideal) a0 a1 a2 a3 a4 a5 a6 a7 a8 a9 a10 a11 a12 = fun _ => 1#1) :
    Nonempty (RealArgs a0 a3 a4 a5 a6 a7 a8 a9 a10) := by
  obtain ⟨r0, r3, r4, r5, r6, r7, r8, r9, r10⟩ := allReal_of_pre a0 a1 a2 a3 a4 a5 a6 a7 a8 a9 a10 a11 a12 h
  obtain ⟨xr, hx⟩ := real2 r0
  obtain ⟨W1r, hW1⟩ := real3 r3
  obtain ⟨b1r, hb1⟩ := real2 r4
  obtain ⟨g1r, hg1⟩ := real2 r5
  obtain ⟨bt1r, hbt1⟩ := real2 r6
  obtain ⟨W2r, hW2⟩ := real3 r7
  obtain ⟨b2r, hb2⟩ := real2 r8
  obtain ⟨g2r, hg2⟩ := real2 r9
  obtain ⟨bt2r, hbt2⟩ := real2 r10
  exact ⟨⟨xr, W1r, b1r, g1r, bt1r, W2r, b2r, g2r, bt2r, hx, hW1, hb1, hg1, hbt1, hW2, hb2, hg2, hbt2⟩⟩

end Cert.ReferenceIdeal.RefValue

end
-- ==== Proof.RefOps0.lean ====
/- The operation list below is a table read off the printed program text (proof/ReferenceIdeal.lean): the statements of
   window main_part0 in order, the operations of a called function listed at its call over that call's record of buffers.
   The theorems after it say that the window is this straight line, that every buffer it touches is one of the core's, and
   that every operation determines its result. -/
import proofs.«148746_j9251359555639_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 83 operations, in order. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg3 main_v15 ((extractStridedSlice S1x128x256 ![0, 0, 0] · slices_S3x128x256_S1x128x256_0_0_0) : (⟨S3x128x256, .f32⟩ : BufTy).Contents (Elt F) → (⟨S1x128x256, .f32⟩ : BufTy).Contents (Elt F)),
    StableHlo.reshape main_v15 main_v16 rfl shapeCasts_S1x128x256_S128x256,
    StableHlo.binary main_v14 main_v16 main_v17 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v18 ((extractStridedSlice S1x256 ![0, 0] · slices_S3x256_S1x256_0_0) : (⟨S3x256, .f32⟩ : BufTy).Contents (Elt F) → (⟨S1x256, .f32⟩ : BufTy).Contents (Elt F)),
    StableHlo.reshape main_v18 main_v19 rfl shapeCasts_S1x256_S256,
    StableHlo.unary main_v19 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v17 main_v21 main_v22 (addf : (⟨S50000x256, .f32⟩ : BufTy).Contents (Elt F) → (⟨S50000x256, .f32⟩ : BufTy).Contents (Elt F) → (⟨S50000x256, .f32⟩ : BufTy).Contents (Elt F)),
    StableHlo.unary main_arg5 main_v23 ((extractStridedSlice S1x256 ![0, 0] · slices_S3x256_S1x256_0_0) : (⟨S3x256, .f32⟩ : BufTy).Contents (Elt F) → (⟨S1x256, .f32⟩ : BufTy).Contents (Elt F)),
    StableHlo.reshape main_v23 main_v24 rfl shapeCasts_S1x256_S256,
    StableHlo.unary main_arg6 main_v25 ((extractStridedSlice S1x256 ![0, 0] · slices_S3x256_S1x256_0_0) : (⟨S3x256, .f32⟩ : BufTy).Contents (Elt F) → (⟨S1x256, .f32⟩ : BufTy).Contents (Elt F)),
    StableHlo.reshape main_v25 main_v26 rfl shapeCasts_S1x256_S256,
    StableHlo.nullary main_cst_1 (constant S_ .f32 0x00000000#32),
    StableHlo.binary main_v22 main_cst_1 main_v27 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v28 (broadcastInDim S256 ![] bcast_S_S256 : (⟨S_, .f32⟩ : BufTy).Contents (Elt F) → (⟨S256, .f32⟩ : BufTy).Contents (Elt F)),
    StableHlo.binary main_v27 main_v28 main_v29 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v22 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v22 : StableHlo.TRef sig ⟨S50000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v29 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v32 main_v33 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v34 (broadcastInDim S256 ![] bcast_S_S256 : (⟨S_, .f32⟩ : BufTy).Contents (Elt F) → (⟨S256, .f32⟩ : BufTy).Contents (Elt F)),
    StableHlo.binary main_v30 main_v34 main_v35 (addf : (⟨S256, .f32⟩ : BufTy).Contents (Elt F) → (⟨S256, .f32⟩ : BufTy).Contents (Elt F) → (⟨S256, .f32⟩ : BufTy).Contents (Elt F)),
    StableHlo.unary main_v35 main_v36 (Host.rsqrt : (⟨S256, .f32⟩ : BufTy).Contents (Elt F) → (⟨S256, .f32⟩ : BufTy).Contents (Elt F)),
    StableHlo.unary main_v36 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S50000x256 ![0, 1] bcast_S1x256_S50000x256_0_1 : (⟨S1x256, .f32⟩ : BufTy).Contents (Elt F) → (⟨S50000x256, .f32⟩ : BufTy).Contents (Elt F)),
    StableHlo.binary main_v33 main_v38 main_v39 (mulf : (⟨S50000x256, .f32⟩ : BufTy).Contents (Elt F) → (⟨S50000x256, .f32⟩ : BufTy).Contents (Elt F) → (⟨S50000x256, .f32⟩ : BufTy).Contents (Elt F)),
    StableHlo.unary main_v24 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v41 main_v42 (mulf : (⟨S50000x256, .f32⟩ : BufTy).Contents (Elt F) → (⟨S50000x256, .f32⟩ : BufTy).Contents (Elt F) → (⟨S50000x256, .f32⟩ : BufTy).Contents (Elt F)),
    StableHlo.unary main_v26 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v42 main_v44 main_v45 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v45 : StableHlo.TRef sig ⟨S50000x256, .f32⟩) main_call1.v0 main_call1.v1 maximumf,
    StableHlo.unary main_arg7 main_v47 ((extractStridedSlice S1x256x128 ![0, 0, 0] · slices_S3x256x128_S1x256x128_0_0_0) : (⟨S3x256x128, .f32⟩ : BufTy).Contents (Elt F) → (⟨S1x256x128, .f32⟩ : BufTy).Contents (Elt F)),
    StableHlo.reshape main_v47 main_v48 rfl shapeCasts_S1x256x128_S256x128,
    StableHlo.binary main_v46 main_v48 main_v49 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg8 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 4000000 in
/-- The window is that straight line: the called functions' definitions unfolded at their calls, both sides are one chain
    of steps once the sequencing is reassociated. -/
theorem main_part0_eq (c : Dev nD) : main_part0 (F := F) c = seq ops0 := by
  simp only [main_part0, fn_var.body, fn_where.body, fn_relu.body, seq, bind_assoc, pure_bind]
  rfl

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub ..⟩

set_option maxRecDepth 8192 in
set_option maxHeartbeats 4000000 in
theorem ops0_fresh : ∀ op ∈ (ops0 : List (HloOp τ sig (Elt F))), op.fresh = ∅ := by
  intro _ h; (repeat (cases h with | head => rfl | tail _ h => ?_)); exact nomatch h

end Cert.ReferenceIdeal.RefValue

end
-- ==== Proof.RefOps1.lean ====
/- The operation list below is a table read off the printed program text (proof/ReferenceIdeal.lean): the statements of
   window main_part1 in order, the operations of a called function listed at its call over that call's record of buffers.
   The theorems after it say that the window is this straight line, that every buffer it touches is one of the core's, and
   that every operation determines its result. -/
import proofs.«148746_j9251359555639_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 83 operations, in order. -/
abbrev ops1 : List (HloOp τ sig (Elt F)) :=
  [ StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.unary main_arg9 main_v55 ((extractStridedSlice S1x128 ![0, 0] · slices_S3x128_S1x128_0_0) : (⟨S3x128, .f32⟩ : BufTy).Contents (Elt F) → (⟨S1x128, .f32⟩ : BufTy).Contents (Elt F)),
    StableHlo.reshape main_v55 main_v56 rfl shapeCasts_S1x128_S128,
    StableHlo.unary main_arg10 main_v57 ((extractStridedSlice S1x128 ![0, 0] · slices_S3x128_S1x128_0_0) : (⟨S3x128, .f32⟩ : BufTy).Contents (Elt F) → (⟨S1x128, .f32⟩ : BufTy).Contents (Elt F)),
    StableHlo.reshape main_v57 main_v58 rfl shapeCasts_S1x128_S128,
    StableHlo.nullary main_cst_5 (constant S_ .f32 0x00000000#32),
    StableHlo.binary main_v54 main_cst_5 main_v59 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v60 (broadcastInDim S128 ![] bcast_S_S128 : (⟨S_, .f32⟩ : BufTy).Contents (Elt F) → (⟨S128, .f32⟩ : BufTy).Contents (Elt F)),
    StableHlo.binary main_v59 main_v60 main_v61 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v54 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v54 : StableHlo.TRef sig ⟨S50000x128, .f32⟩) main_call2.v4 main_call2.v5 subf,
    StableHlo.TRef.binary main_call2.v5 main_call2.v5 main_call2.v6 mulf,
    StableHlo.TRef.unary (.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v61 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v64 main_v65 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v66 (broadcastInDim S128 ![] bcast_S_S128 : (⟨S_, .f32⟩ : BufTy).Contents (Elt F) → (⟨S128, .f32⟩ : BufTy).Contents (Elt F)),
    StableHlo.binary main_v62 main_v66 main_v67 (addf : (⟨S128, .f32⟩ : BufTy).Contents (Elt F) → (⟨S128, .f32⟩ : BufTy).Contents (Elt F) → (⟨S128, .f32⟩ : BufTy).Contents (Elt F)),
    StableHlo.unary main_v67 main_v68 (Host.rsqrt : (⟨S128, .f32⟩ : BufTy).Contents (Elt F) → (⟨S128, .f32⟩ : BufTy).Contents (Elt F)),
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_v56 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (mulf : (⟨S50000x128, .f32⟩ : BufTy).Contents (Elt F) → (⟨S50000x128, .f32⟩ : BufTy).Contents (Elt F) → (⟨S50000x128, .f32⟩ : BufTy).Contents (Elt F)),
    StableHlo.unary main_v58 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v77 : StableHlo.TRef sig ⟨S50000x128, .f32⟩) main_call3.v0 main_call3.v1 maximumf,
    StableHlo.nullary main_c_9 (constantI S_ 32 0#32),
    StableHlo.unary main_c_9 main_v79 (broadcastInDim S800000 ![] bcast_S_S800000 : (⟨S_, .i32⟩ : BufTy).Contents (Elt F) → (⟨S800000, .i32⟩ : BufTy).Contents (Elt F)),
    StableHlo.binary main_v1 main_v79 main_v80 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v81 (broadcastInDim S800000 ![] bcast_S_S800000 : (⟨S_, .i32⟩ : BufTy).Contents (Elt F) → (⟨S800000, .i32⟩ : BufTy).Contents (Elt F)),
    StableHlo.binary main_v1 main_v81 main_v82 (addi : (⟨S800000, .i32⟩ : BufTy).Contents (Elt F) → (⟨S800000, .i32⟩ : BufTy).Contents (Elt F) → (⟨S800000, .i32⟩ : BufTy).Contents (Elt F)),
    StableHlo.ternary main_v80 main_v82 main_v1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v83 main_v84 (broadcastInDim S800000x1 ![0] bcast_S800000_S800000x1_0 : (⟨S800000, .i32⟩ : BufTy).Contents (Elt F) → (⟨S800000x1, .i32⟩ : BufTy).Contents (Elt F)),
    StableHlo.binary main_v78 main_v84 main_v85 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v86 (broadcastInDim S50000x128 ![] bcast_S_S50000x128 : (⟨S_, .f32⟩ : BufTy).Contents (Elt F) → (⟨S50000x128, .f32⟩ : BufTy).Contents (Elt F)),
    StableHlo.unary main_v3 main_v87 (broadcastInDim S800000x1 ![0] bcast_S800000_S800000x1_0 : (⟨S800000, .i32⟩ : BufTy).Contents (Elt F) → (⟨S800000x1, .i32⟩ : BufTy).Contents (Elt F)),
    StableHlo.ternary main_v86 main_v87 main_v85 main_v88 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v78 main_v88 main_v89 (addf : (⟨S50000x128, .f32⟩ : BufTy).Contents (Elt F) → (⟨S50000x128, .f32⟩ : BufTy).Contents (Elt F) → (⟨S50000x128, .f32⟩ : BufTy).Contents (Elt F)),
    StableHlo.unary main_arg3 main_v90 ((extractStridedSlice S1x128x256 ![1, 0, 0] · slices_S3x128x256_S1x128x256_1_0_0) : (⟨S3x128x256, .f32⟩ : BufTy).Contents (Elt F) → (⟨S1x128x256, .f32⟩ : BufTy).Contents (Elt F)),
    StableHlo.reshape main_v90 main_v91 rfl shapeCasts_S1x128x256_S128x256,
    StableHlo.binary main_v89 main_v91 main_v92 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v93 ((extractStridedSlice S1x256 ![1, 0] · slices_S3x256_S1x256_1_0) : (⟨S3x256, .f32⟩ : BufTy).Contents (Elt F) → (⟨S1x256, .f32⟩ : BufTy).Contents (Elt F)),
    StableHlo.reshape main_v93 main_v94 rfl shapeCasts_S1x256_S256,
    StableHlo.unary main_v94 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S50000x256 ![0, 1] bcast_S1x256_S50000x256_0_1 : (⟨S1x256, .f32⟩ : BufTy).Contents (Elt F) → (⟨S50000x256, .f32⟩ : BufTy).Contents (Elt F)),
    StableHlo.binary main_v92 main_v96 main_v97 (addf : (⟨S50000x256, .f32⟩ : BufTy).Contents (Elt F) → (⟨S50000x256, .f32⟩ : BufTy).Contents (Elt F) → (⟨S50000x256, .f32⟩ : BufTy).Contents (Elt F)),
    StableHlo.unary main_arg5 main_v98 ((extractStridedSlice S1x256 ![1, 0] · slices_S3x256_S1x256_1_0) : (⟨S3x256, .f32⟩ : BufTy).Contents (Elt F) → (⟨S1x256, .f32⟩ : BufTy).Contents (Elt F)),
    StableHlo.reshape main_v98 main_v99 rfl shapeCasts_S1x256_S256,
    StableHlo.unary main_arg6 main_v100 ((extractStridedSlice S1x256 ![1, 0] · slices_S3x256_S1x256_1_0) : (⟨S3x256, .f32⟩ : BufTy).Contents (Elt F) → (⟨S1x256, .f32⟩ : BufTy).Contents (Elt F)),
    StableHlo.reshape main_v100 main_v101 rfl shapeCasts_S1x256_S256,
    StableHlo.nullary main_cst_12 (constant S_ .f32 0x00000000#32),
    StableHlo.binary main_v97 main_cst_12 main_v102 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_13 (constant S_ .f32 0x47435000#32),
    StableHlo.unary main_cst_13 main_v103 (broadcastInDim S256 ![] bcast_S_S256 : (⟨S_, .f32⟩ : BufTy).Contents (Elt F) → (⟨S256, .f32⟩ : BufTy).Contents (Elt F)) ]

set_option maxRecDepth 8192 in
set_option maxHeartbeats 4000000 in
/-- The window is that straight line: the called functions' definitions unfolded at their calls, both sides are one chain
    of steps once the sequencing is reassociated. -/
theorem main_part1_eq (c : Dev nD) : main_part1 (F := F) c = seq ops1 := by
  simp only [main_part1, fn_var_0.body, fn_where_1.body, fn_relu_2.body, seq, bind_assoc, pure_bind]
  rfl

set_option maxRecDepth 8192 in
theorem ops1_sub : (ops1 : List (HloOp τ sig (Elt F))).Forall fun op => op.bufs ⊆ tcRefs τ sig :=
  ⟨unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub ..⟩

set_option maxRecDepth 8192 in
set_option maxHeartbeats 4000000 in
theorem ops1_fresh : ∀ op ∈ (ops1 : List (HloOp τ sig (Elt F))), op.fresh = ∅ := by
  intro _ h; (repeat (cases h with | head => rfl | tail _ h => ?_)); exact nomatch h

end Cert.ReferenceIdeal.RefValue

end
-- ==== Proof.RefOps2.lean ====
/- The operation list below is a table read off the printed program text (proof/ReferenceIdeal.lean): the statements of
   window main_part2 in order, the operations of a called function listed at its call over that call's record of buffers.
   The theorems after it say that the window is this straight line, that every buffer it touches is one of the core's, and
   that every operation determines its result. -/
import proofs.«148746_j9251359555639_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 106 operations, in order. -/
abbrev ops2 : List (HloOp τ sig (Elt F)) :=
  [ StableHlo.binary main_v102 main_v103 main_v104 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary main_call4.cst (constant S_ .f32 0x00000000#32),
    StableHlo.TRef.binary (.of main_v97 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v97 : StableHlo.TRef sig ⟨S50000x256, .f32⟩) main_call4.v4 main_call4.v5 subf,
    StableHlo.TRef.binary main_call4.v5 main_call4.v5 main_call4.v6 mulf,
    StableHlo.TRef.unary (.of main_c_14 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v104 main_v106 (broadcastInDim S1x256 ![1] bcast_S256_S1x256_1 : (⟨S256, .f32⟩ : BufTy).Contents (Elt F) → (⟨S1x256, .f32⟩ : BufTy).Contents (Elt F)),
    StableHlo.unary main_v106 main_v107 (broadcastInDim S50000x256 ![0, 1] bcast_S1x256_S50000x256_0_1 : (⟨S1x256, .f32⟩ : BufTy).Contents (Elt F) → (⟨S50000x256, .f32⟩ : BufTy).Contents (Elt F)),
    StableHlo.binary main_v97 main_v107 main_v108 (subf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3727C5AC#32),
    StableHlo.unary main_cst_15 main_v109 (broadcastInDim S256 ![] bcast_S_S256 : (⟨S_, .f32⟩ : BufTy).Contents (Elt F) → (⟨S256, .f32⟩ : BufTy).Contents (Elt F)),
    StableHlo.binary main_v105 main_v109 main_v110 (addf : (⟨S256, .f32⟩ : BufTy).Contents (Elt F) → (⟨S256, .f32⟩ : BufTy).Contents (Elt F) → (⟨S256, .f32⟩ : BufTy).Contents (Elt F)),
    StableHlo.unary main_v110 main_v111 (Host.rsqrt : (⟨S256, .f32⟩ : BufTy).Contents (Elt F) → (⟨S256, .f32⟩ : BufTy).Contents (Elt F)),
    StableHlo.unary main_v111 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v108 main_v113 main_v114 (mulf : (⟨S50000x256, .f32⟩ : BufTy).Contents (Elt F) → (⟨S50000x256, .f32⟩ : BufTy).Contents (Elt F) → (⟨S50000x256, .f32⟩ : BufTy).Contents (Elt F)),
    StableHlo.unary main_v99 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S50000x256 ![0, 1] bcast_S1x256_S50000x256_0_1 : (⟨S1x256, .f32⟩ : BufTy).Contents (Elt F) → (⟨S50000x256, .f32⟩ : BufTy).Contents (Elt F)),
    StableHlo.binary main_v114 main_v116 main_v117 (mulf : (⟨S50000x256, .f32⟩ : BufTy).Contents (Elt F) → (⟨S50000x256, .f32⟩ : BufTy).Contents (Elt F) → (⟨S50000x256, .f32⟩ : BufTy).Contents (Elt F)),
    StableHlo.unary main_v101 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S50000x256 ![0, 1] bcast_S1x256_S50000x256_0_1 : (⟨S1x256, .f32⟩ : BufTy).Contents (Elt F) → (⟨S50000x256, .f32⟩ : BufTy).Contents (Elt F)),
    StableHlo.binary main_v117 main_v119 main_v120 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v120 : StableHlo.TRef sig ⟨S50000x256, .f32⟩) main_call5.v0 main_call5.v1 maximumf,
    StableHlo.unary main_arg7 main_v122 ((extractStridedSlice S1x256x128 ![1, 0, 0] · slices_S3x256x128_S1x256x128_1_0_0) : (⟨S3x256x128, .f32⟩ : BufTy).Contents (Elt F) → (⟨S1x256x128, .f32⟩ : BufTy).Contents (Elt F)),
    StableHlo.reshape main_v122 main_v123 rfl shapeCasts_S1x256x128_S256x128,
    StableHlo.binary main_v121 main_v123 main_v124 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg8 main_v125 ((extractStridedSlice S1x128 ![1, 0] · slices_S3x128_S1x128_1_0) : (⟨S3x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (addf : (⟨S50000x128, .f32⟩ : BufTy).Contents (Elt F) → (⟨S50000x128, .f32⟩ : BufTy).Contents (Elt F) → (⟨S50000x128, .f32⟩ : BufTy).Contents (Elt F)),
    StableHlo.unary main_arg9 main_v130 ((extractStridedSlice S1x128 ![1, 0] · slices_S3x128_S1x128_1_0) : (⟨S3x128, .f32⟩ : BufTy).Contents (Elt F) → (⟨S1x128, .f32⟩ : BufTy).Contents (Elt F)),
    StableHlo.reshape main_v130 main_v131 rfl shapeCasts_S1x128_S128,
    StableHlo.unary main_arg10 main_v132 ((extractStridedSlice S1x128 ![1, 0] · slices_S3x128_S1x128_1_0) : (⟨S3x128, .f32⟩ : BufTy).Contents (Elt F) → (⟨S1x128, .f32⟩ : BufTy).Contents (Elt F)),
    StableHlo.reshape main_v132 main_v133 rfl shapeCasts_S1x128_S128,
    StableHlo.nullary main_cst_16 (constant S_ .f32 0x00000000#32),
    StableHlo.binary main_v129 main_cst_16 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v135 (broadcastInDim S128 ![] bcast_S_S128 : (⟨S_, .f32⟩ : BufTy).Contents (Elt F) → (⟨S128, .f32⟩ : BufTy).Contents (Elt F)),
    StableHlo.binary main_v134 main_v135 main_v136 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v129 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v129 : StableHlo.TRef sig ⟨S50000x128, .f32⟩) main_call6.v4 main_call6.v5 subf,
    StableHlo.TRef.binary main_call6.v5 main_call6.v5 main_call6.v6 mulf,
    StableHlo.TRef.unary (.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v136 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v139 main_v140 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v141 (broadcastInDim S128 ![] bcast_S_S128 : (⟨S_, .f32⟩ : BufTy).Contents (Elt F) → (⟨S128, .f32⟩ : BufTy).Contents (Elt F)),
    StableHlo.binary main_v137 main_v141 main_v142 (addf : (⟨S128, .f32⟩ : BufTy).Contents (Elt F) → (⟨S128, .f32⟩ : BufTy).Contents (Elt F) → (⟨S128, .f32⟩ : BufTy).Contents (Elt F)),
    StableHlo.unary main_v142 main_v143 (Host.rsqrt : (⟨S128, .f32⟩ : BufTy).Contents (Elt F) → (⟨S128, .f32⟩ : BufTy).Contents (Elt F)),
    StableHlo.unary main_v143 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v140 main_v145 main_v146 (mulf : (⟨S50000x128, .f32⟩ : BufTy).Contents (Elt F) → (⟨S50000x128, .f32⟩ : BufTy).Contents (Elt F) → (⟨S50000x128, .f32⟩ : BufTy).Contents (Elt F)),
    StableHlo.unary main_v131 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v146 main_v148 main_v149 (mulf : (⟨S50000x128, .f32⟩ : BufTy).Contents (Elt F) → (⟨S50000x128, .f32⟩ : BufTy).Contents (Elt F) → (⟨S50000x128, .f32⟩ : BufTy).Contents (Elt F)),
    StableHlo.unary main_v133 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S50000x128 ![0, 1] bcast_S1x128_S50000x128_0_1 : (⟨S1x128, .f32⟩ : BufTy).Contents (Elt F) → (⟨S50000x128, .f32⟩ : BufTy).Contents (Elt F)),
    StableHlo.binary main_v149 main_v151 main_v152 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v152 : StableHlo.TRef sig ⟨S50000x128, .f32⟩) main_call7.v0 main_call7.v1 maximumf,
    StableHlo.nullary main_c_20 (constantI S_ 32 0#32),
    StableHlo.unary main_c_20 main_v154 (broadcastInDim S800000 ![] bcast_S_S800000 : (⟨S_, .i32⟩ : BufTy).Contents (Elt F) → (⟨S800000, .i32⟩ : BufTy).Contents (Elt F)),
    StableHlo.binary main_v1 main_v154 main_v155 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32) ]

set_option maxRecDepth 8192 in
set_option maxHeartbeats 4000000 in
/-- The window is that straight line: the called functions' definitions unfolded at their calls, both sides are one chain
    of steps once the sequencing is reassociated. -/
theorem main_part2_eq (c : Dev nD) : main_part2 (F := F) c = seq ops2 := by
  simp only [main_part2, fn_var.body, fn_where.body, fn_relu.body, fn_var_0.body, fn_where_1.body, fn_relu_2.body, seq, bind_assoc, pure_bind]
  rfl

set_option maxRecDepth 8192 in
theorem ops2_sub : (ops2 : List (HloOp τ sig (Elt F))).Forall fun op => op.bufs ⊆ tcRefs τ sig :=
  ⟨binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub ..⟩

set_option maxRecDepth 8192 in
set_option maxHeartbeats 4000000 in
theorem ops2_fresh : ∀ op ∈ (ops2 : List (HloOp τ sig (Elt F))), op.fresh = ∅ := by
  intro _ h; (repeat (cases h with | head => rfl | tail _ h => ?_)); exact nomatch h

end Cert.ReferenceIdeal.RefValue

end
-- ==== Proof.RefOps3.lean ====
/- The operation list below is a table read off the printed program text (proof/ReferenceIdeal.lean): the statements of
   window main_part3 in order, the operations of a called function listed at its call over that call's record of buffers.
   The theorems after it say that the window is this straight line, that every buffer it touches is one of the core's, and
   that every operation determines its result. -/
import proofs.«148746_j9251359555639_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 83 operations, in order. -/
abbrev ops3 : List (HloOp τ sig (Elt F)) :=
  [ StableHlo.unary main_c_21 main_v156 (broadcastInDim S800000 ![] bcast_S_S800000 : (⟨S_, .i32⟩ : BufTy).Contents (Elt F) → (⟨S800000, .i32⟩ : BufTy).Contents (Elt F)),
    StableHlo.binary main_v1 main_v156 main_v157 (addi : (⟨S800000, .i32⟩ : BufTy).Contents (Elt F) → (⟨S800000, .i32⟩ : BufTy).Contents (Elt F) → (⟨S800000, .i32⟩ : BufTy).Contents (Elt F)),
    StableHlo.ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v158 main_v159 (broadcastInDim S800000x1 ![0] bcast_S800000_S800000x1_0 : (⟨S800000, .i32⟩ : BufTy).Contents (Elt F) → (⟨S800000x1, .i32⟩ : BufTy).Contents (Elt F)),
    StableHlo.binary main_v153 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_22 (constant S_ .f32 0x00000000#32),
    StableHlo.unary main_cst_22 main_v161 (broadcastInDim S50000x128 ![] bcast_S_S50000x128 : (⟨S_, .f32⟩ : BufTy).Contents (Elt F) → (⟨S50000x128, .f32⟩ : BufTy).Contents (Elt F)),
    StableHlo.unary main_v3 main_v162 (broadcastInDim S800000x1 ![0] bcast_S800000_S800000x1_0 : (⟨S800000, .i32⟩ : BufTy).Contents (Elt F) → (⟨S800000x1, .i32⟩ : BufTy).Contents (Elt F)),
    StableHlo.ternary main_v161 main_v162 main_v160 main_v163 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v153 main_v163 main_v164 (addf : (⟨S50000x128, .f32⟩ : BufTy).Contents (Elt F) → (⟨S50000x128, .f32⟩ : BufTy).Contents (Elt F) → (⟨S50000x128, .f32⟩ : BufTy).Contents (Elt F)),
    StableHlo.unary main_arg3 main_v165 ((extractStridedSlice S1x128x256 ![2, 0, 0] · slices_S3x128x256_S1x128x256_2_0_0) : (⟨S3x128x256, .f32⟩ : BufTy).Contents (Elt F) → (⟨S1x128x256, .f32⟩ : BufTy).Contents (Elt F)),
    StableHlo.reshape main_v165 main_v166 rfl shapeCasts_S1x128x256_S128x256,
    StableHlo.binary main_v164 main_v166 main_v167 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v168 ((extractStridedSlice S1x256 ![2, 0] · slices_S3x256_S1x256_2_0) : (⟨S3x256, .f32⟩ : BufTy).Contents (Elt F) → (⟨S1x256, .f32⟩ : BufTy).Contents (Elt F)),
    StableHlo.reshape main_v168 main_v169 rfl shapeCasts_S1x256_S256,
    StableHlo.unary main_v169 main_v170 (broadcastInDim S1x256 ![1] bcast_S256_S1x256_1 : (⟨S256, .f32⟩ : BufTy).Contents (Elt F) → (⟨S1x256, .f32⟩ : BufTy).Contents (Elt F)),
    StableHlo.unary main_v170 main_v171 (broadcastInDim S50000x256 ![0, 1] bcast_S1x256_S50000x256_0_1 : (⟨S1x256, .f32⟩ : BufTy).Contents (Elt F) → (⟨S50000x256, .f32⟩ : BufTy).Contents (Elt F)),
    StableHlo.binary main_v167 main_v171 main_v172 (addf : (⟨S50000x256, .f32⟩ : BufTy).Contents (Elt F) → (⟨S50000x256, .f32⟩ : BufTy).Contents (Elt F) → (⟨S50000x256, .f32⟩ : BufTy).Contents (Elt F)),
    StableHlo.unary main_arg5 main_v173 ((extractStridedSlice S1x256 ![2, 0] · slices_S3x256_S1x256_2_0) : (⟨S3x256, .f32⟩ : BufTy).Contents (Elt F) → (⟨S1x256, .f32⟩ : BufTy).Contents (Elt F)),
    StableHlo.reshape main_v173 main_v174 rfl shapeCasts_S1x256_S256,
    StableHlo.unary main_arg6 main_v175 ((extractStridedSlice S1x256 ![2, 0] · slices_S3x256_S1x256_2_0) : (⟨S3x256, .f32⟩ : BufTy).Contents (Elt F) → (⟨S1x256, .f32⟩ : BufTy).Contents (Elt F)),
    StableHlo.reshape main_v175 main_v176 rfl shapeCasts_S1x256_S256,
    StableHlo.nullary main_cst_23 (constant S_ .f32 0x00000000#32),
    StableHlo.binary main_v172 main_cst_23 main_v177 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_24 (constant S_ .f32 0x47435000#32),
    StableHlo.unary main_cst_24 main_v178 (broadcastInDim S256 ![] bcast_S_S256 : (⟨S_, .f32⟩ : BufTy).Contents (Elt F) → (⟨S256, .f32⟩ : BufTy).Contents (Elt F)),
    StableHlo.binary main_v177 main_v178 main_v179 (Host.divf : (⟨S256, .f32⟩ : BufTy).Contents (Elt F) → (⟨S256, .f32⟩ : BufTy).Contents (Elt F) → (⟨S256, .f32⟩ : BufTy).Contents (Elt F)),
    StableHlo.nullary main_c_25 (constantI S_ 32 0#32),
    StableHlo.TRef.nullary main_call8.cst (constant S_ .f32 0x00000000#32),
    StableHlo.TRef.binary (.of main_v172 : StableHlo.TRef sig ⟨S50000x256, .f32⟩) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (.of main_v172 : StableHlo.TRef sig ⟨S50000x256, .f32⟩) main_call8.v4 main_call8.v5 subf,
    StableHlo.TRef.binary main_call8.v5 main_call8.v5 main_call8.v6 mulf,
    StableHlo.TRef.unary (.of main_c_25 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v179 main_v181 (broadcastInDim S1x256 ![1] bcast_S256_S1x256_1 : (⟨S256, .f32⟩ : BufTy).Contents (Elt F) → (⟨S1x256, .f32⟩ : BufTy).Contents (Elt F)),
    StableHlo.unary main_v181 main_v182 (broadcastInDim S50000x256 ![0, 1] bcast_S1x256_S50000x256_0_1 : (⟨S1x256, .f32⟩ : BufTy).Contents (Elt F) → (⟨S50000x256, .f32⟩ : BufTy).Contents (Elt F)),
    StableHlo.binary main_v172 main_v182 main_v183 (subf : (⟨S50000x256, .f32⟩ : BufTy).Contents (Elt F) → (⟨S50000x256, .f32⟩ : BufTy).Contents (Elt F) → (⟨S50000x256, .f32⟩ : BufTy).Contents (Elt F)),
    StableHlo.nullary main_cst_26 (constant S_ .f32 0x3727C5AC#32),
    StableHlo.unary main_cst_26 main_v184 (broadcastInDim S256 ![] bcast_S_S256 : (⟨S_, .f32⟩ : BufTy).Contents (Elt F) → (⟨S256, .f32⟩ : BufTy).Contents (Elt F)),
    StableHlo.binary main_v180 main_v184 main_v185 (addf : (⟨S256, .f32⟩ : BufTy).Contents (Elt F) → (⟨S256, .f32⟩ : BufTy).Contents (Elt F) → (⟨S256, .f32⟩ : BufTy).Contents (Elt F)),
    StableHlo.unary main_v185 main_v186 (Host.rsqrt : (⟨S256, .f32⟩ : BufTy).Contents (Elt F) → (⟨S256, .f32⟩ : BufTy).Contents (Elt F)),
    StableHlo.unary main_v186 main_v187 (broadcastInDim S1x256 ![1] bcast_S256_S1x256_1 : (⟨S256, .f32⟩ : BufTy).Contents (Elt F) → (⟨S1x256, .f32⟩ : BufTy).Contents (Elt F)),
    StableHlo.unary main_v187 main_v188 (broadcastInDim S50000x256 ![0, 1] bcast_S1x256_S50000x256_0_1 : (⟨S1x256, .f32⟩ : BufTy).Contents (Elt F) → (⟨S50000x256, .f32⟩ : BufTy).Contents (Elt F)),
    StableHlo.binary main_v183 main_v188 main_v189 (mulf : (⟨S50000x256, .f32⟩ : BufTy).Contents (Elt F) → (⟨S50000x256, .f32⟩ : BufTy).Contents (Elt F) → (⟨S50000x256, .f32⟩ : BufTy).Contents (Elt F)),
    StableHlo.unary main_v174 main_v190 (broadcastInDim S1x256 ![1] bcast_S256_S1x256_1 : (⟨S256, .f32⟩ : BufTy).Contents (Elt F) → (⟨S1x256, .f32⟩ : BufTy).Contents (Elt F)),
    StableHlo.unary main_v190 main_v191 (broadcastInDim S50000x256 ![0, 1] bcast_S1x256_S50000x256_0_1 : (⟨S1x256, .f32⟩ : BufTy).Contents (Elt F) → (⟨S50000x256, .f32⟩ : BufTy).Contents (Elt F)),
    StableHlo.binary main_v189 main_v191 main_v192 (mulf : (⟨S50000x256, .f32⟩ : BufTy).Contents (Elt F) → (⟨S50000x256, .f32⟩ : BufTy).Contents (Elt F) → (⟨S50000x256, .f32⟩ : BufTy).Contents (Elt F)),
    StableHlo.unary main_v176 main_v193 (broadcastInDim S1x256 ![1] bcast_S256_S1x256_1 : (⟨S256, .f32⟩ : BufTy).Contents (Elt F) → (⟨S1x256, .f32⟩ : BufTy).Contents (Elt F)),
    StableHlo.unary main_v193 main_v194 (broadcastInDim S50000x256 ![0, 1] bcast_S1x256_S50000x256_0_1 : (⟨S1x256, .f32⟩ : BufTy).Contents (Elt F) → (⟨S50000x256, .f32⟩ : BufTy).Contents (Elt F)),
    StableHlo.binary main_v192 main_v194 main_v195 (addf : (⟨S50000x256, .f32⟩ : BufTy).Contents (Elt F) → (⟨S50000x256, .f32⟩ : BufTy).Contents (Elt F) → (⟨S50000x256, .f32⟩ : BufTy).Contents (Elt F)),
    StableHlo.TRef.nullary main_call9.cst (constant S_ .f32 0x00000000#32),
    StableHlo.TRef.unary main_call9.cst main_call9.v0 (broadcastInDim S50000x256 ![] bcast_S_S50000x256),
    StableHlo.TRef.binary (.of main_v195 : StableHlo.TRef sig ⟨S50000x256, .f32⟩) main_call9.v0 main_call9.v1 maximumf,
    StableHlo.unary main_arg7 main_v197 ((extractStridedSlice S1x256x128 ![2, 0, 0] · slices_S3x256x128_S1x256x128_2_0_0) : (⟨S3x256x128, .f32⟩ : BufTy).Contents (Elt F) → (⟨S1x256x128, .f32⟩ : BufTy).Contents (Elt F)),
    StableHlo.reshape main_v197 main_v198 rfl shapeCasts_S1x256x128_S256x128,
    StableHlo.binary main_v196 main_v198 main_v199 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg8 main_v200 ((extractStridedSlice S1x128 ![2, 0] · slices_S3x128_S1x128_2_0) : (⟨S3x128, .f32⟩ : BufTy).Contents (Elt F) → (⟨S1x128, .f32⟩ : BufTy).Contents (Elt F)),
    StableHlo.reshape main_v200 main_v201 rfl shapeCasts_S1x128_S128,
    StableHlo.unary main_v201 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S50000x128 ![0, 1] bcast_S1x128_S50000x128_0_1 : (⟨S1x128, .f32⟩ : BufTy).Contents (Elt F) → (⟨S50000x128, .f32⟩ : BufTy).Contents (Elt F)),
    StableHlo.binary main_v199 main_v203 main_v204 (addf : (⟨S50000x128, .f32⟩ : BufTy).Contents (Elt F) → (⟨S50000x128, .f32⟩ : BufTy).Contents (Elt F) → (⟨S50000x128, .f32⟩ : BufTy).Contents (Elt F)),
    StableHlo.unary main_arg9 main_v205 ((extractStridedSlice S1x128 ![2, 0] · slices_S3x128_S1x128_2_0) : (⟨S3x128, .f32⟩ : BufTy).Contents (Elt F) → (⟨S1x128, .f32⟩ : BufTy).Contents (Elt F)),
    StableHlo.reshape main_v205 main_v206 rfl shapeCasts_S1x128_S128,
    StableHlo.unary main_arg10 main_v207 ((extractStridedSlice S1x128 ![2, 0] · slices_S3x128_S1x128_2_0) : (⟨S3x128, .f32⟩ : BufTy).Contents (Elt F) → (⟨S1x128, .f32⟩ : BufTy).Contents (Elt F)),
    StableHlo.reshape main_v207 main_v208 rfl shapeCasts_S1x128_S128,
    StableHlo.nullary main_cst_27 (constant S_ .f32 0x00000000#32),
    StableHlo.binary main_v204 main_cst_27 main_v209 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

set_option maxRecDepth 8192 in
set_option maxHeartbeats 4000000 in
/-- The window is that straight line: the called functions' definitions unfolded at their calls, both sides are one chain
    of steps once the sequencing is reassociated. -/
theorem main_part3_eq (c : Dev nD) : main_part3 (F := F) c = seq ops3 := by
  simp only [main_part3, fn_var.body, fn_where.body, fn_relu.body, seq, bind_assoc, pure_bind]
  rfl

set_option maxRecDepth 8192 in
theorem ops3_sub : (ops3 : List (HloOp τ sig (Elt F))).Forall fun op => op.bufs ⊆ tcRefs τ sig :=
  ⟨unary_bufs_sub .., binary_bufs_sub .., ternary_bufs_sub .., unary_bufs_sub .., binary_bufs_sub .., nullary_bufs_sub ..,
    unary_bufs_sub .., unary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub .., unary_bufs_sub .., reshape_bufs_sub .., nullary_bufs_sub .., binary_bufs_sub ..⟩

set_option maxRecDepth 8192 in
set_option maxHeartbeats 4000000 in
theorem ops3_fresh : ∀ op ∈ (ops3 : List (HloOp τ sig (Elt F))), op.fresh = ∅ := by
  intro _ h; (repeat (cases h with | head => rfl | tail _ h => ?_)); exact nomatch h

end Cert.ReferenceIdeal.RefValue

end
-- ==== Proof.RefOps4.lean ====
/- The operation list below is a table read off the printed program text (proof/ReferenceIdeal.lean): the statements of
   window main_part4 in order, the operations of a called function listed at its call over that call's record of buffers.
   The theorems after it say that the window is this straight line, that every buffer it touches is one of the core's, and
   that every operation determines its result. -/
import proofs.«148746_j9251359555639_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 62 operations, in order. -/
abbrev ops4 : List (HloOp τ sig (Elt F)) :=
  [ StableHlo.nullary main_cst_28 (constant S_ .f32 0x47435000#32),
    StableHlo.unary main_cst_28 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary main_call10.cst (constant S_ .f32 0x00000000#32),
    StableHlo.TRef.binary (.of main_v204 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v204 : StableHlo.TRef sig ⟨S50000x128, .f32⟩) main_call10.v4 main_call10.v5 subf,
    StableHlo.TRef.binary main_call10.v5 main_call10.v5 main_call10.v6 mulf,
    StableHlo.TRef.unary (.of main_c_29 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v204 main_v214 main_v215 (subf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3727C5AC#32),
    StableHlo.unary main_cst_30 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v220 main_v221 (mulf : (⟨S50000x128, .f32⟩ : BufTy).Contents (Elt F) → (⟨S50000x128, .f32⟩ : BufTy).Contents (Elt F) → (⟨S50000x128, .f32⟩ : BufTy).Contents (Elt F)),
    StableHlo.unary main_v206 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (mulf : (⟨S50000x128, .f32⟩ : BufTy).Contents (Elt F) → (⟨S50000x128, .f32⟩ : BufTy).Contents (Elt F) → (⟨S50000x128, .f32⟩ : BufTy).Contents (Elt F)),
    StableHlo.unary main_v208 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v224 main_v226 main_v227 (addf : (⟨S50000x128, .f32⟩ : BufTy).Contents (Elt F) → (⟨S50000x128, .f32⟩ : BufTy).Contents (Elt F) → (⟨S50000x128, .f32⟩ : BufTy).Contents (Elt F)),
    StableHlo.nullary main_cst_31 (constant S_ .f32 0x00000000#32),
    StableHlo.unary main_cst_31 main_v228 (broadcastInDim S256x128 ![] bcast_S_S256x128 : (⟨S_, .f32⟩ : BufTy).Contents (Elt F) → (⟨S256x128, .f32⟩ : BufTy).Contents (Elt F)),
    StableHlo.unary main_arg2 main_v229 (broadcastInDim S50000x1 ![0] bcast_S50000_S50000x1_0 : (⟨S50000, .i32⟩ : BufTy).Contents (Elt F) → (⟨S50000x1, .i32⟩ : BufTy).Contents (Elt F)),
    StableHlo.ternary main_v228 main_v229 main_v227 main_v230 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    StableHlo.nullary main_cst_32 (constant S_ .f32 0x3F800000#32),
    StableHlo.unary main_cst_32 main_v231 (broadcastInDim S50000 ![] bcast_S_S50000 : (⟨S_, .f32⟩ : BufTy).Contents (Elt F) → (⟨S50000, .f32⟩ : BufTy).Contents (Elt F)),
    StableHlo.nullary main_cst_33 (constant S_ .f32 0x00000000#32),
    StableHlo.unary main_cst_33 main_v232 (broadcastInDim S256 ![] bcast_S_S256 : (⟨S_, .f32⟩ : BufTy).Contents (Elt F) → (⟨S256, .f32⟩ : BufTy).Contents (Elt F)),
    StableHlo.unary main_arg2 main_v233 (broadcastInDim S50000x1 ![0] bcast_S50000_S50000x1_0 : (⟨S50000, .i32⟩ : BufTy).Contents (Elt F) → (⟨S50000x1, .i32⟩ : BufTy).Contents (Elt F)),
    StableHlo.ternary main_v232 main_v233 main_v231 main_v234 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    StableHlo.nullary main_cst_34 (constant S_ .f32 0x3F800000#32),
    StableHlo.unary main_cst_34 main_v235 (broadcastInDim S256 ![] bcast_S_S256 : (⟨S_, .f32⟩ : BufTy).Contents (Elt F) → (⟨S256, .f32⟩ : BufTy).Contents (Elt F)),
    StableHlo.binary main_v234 main_v235 main_v236 (maximumf : (⟨S256, .f32⟩ : BufTy).Contents (Elt F) → (⟨S256, .f32⟩ : BufTy).Contents (Elt F) → (⟨S256, .f32⟩ : BufTy).Contents (Elt F)),
    StableHlo.unary main_v236 main_v237 (broadcastInDim S256x1 ![0] bcast_S256_S256x1_0 : (⟨S256, .f32⟩ : BufTy).Contents (Elt F) → (⟨S256x1, .f32⟩ : BufTy).Contents (Elt F)),
    StableHlo.unary main_v237 main_v238 (broadcastInDim S256x128 ![0, 1] bcast_S256x1_S256x128_0_1 : (⟨S256x1, .f32⟩ : BufTy).Contents (Elt F) → (⟨S256x128, .f32⟩ : BufTy).Contents (Elt F)),
    StableHlo.binary main_v230 main_v238 main_v239 (Host.divf : (⟨S256x128, .f32⟩ : BufTy).Contents (Elt F) → (⟨S256x128, .f32⟩ : BufTy).Contents (Elt F) → (⟨S256x128, .f32⟩ : BufTy).Contents (Elt F)),
    StableHlo.binary main_v239 main_arg11 main_v240 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    StableHlo.unary main_arg12 main_v241 (broadcastInDim S1x10 ![1] bcast_S10_S1x10_1 : (⟨S10, .f32⟩ : BufTy).Contents (Elt F) → (⟨S1x10, .f32⟩ : BufTy).Contents (Elt F)),
    StableHlo.unary main_v241 main_v242 (broadcastInDim S256x10 ![0, 1] bcast_S1x10_S256x10_0_1 : (⟨S1x10, .f32⟩ : BufTy).Contents (Elt F) → (⟨S256x10, .f32⟩ : BufTy).Contents (Elt F)),
    StableHlo.binary main_v240 main_v242 main_v243 (addf : (⟨S256x10, .f32⟩ : BufTy).Contents (Elt F) → (⟨S256x10, .f32⟩ : BufTy).Contents (Elt F) → (⟨S256x10, .f32⟩ : BufTy).Contents (Elt F)) ]

set_option maxRecDepth 8192 in
set_option maxHeartbeats 4000000 in
/-- The window is that straight line: the called functions' definitions unfolded at their calls, both sides are one chain
    of steps once the sequencing is reassociated. -/
theorem main_part4_eq (c : Dev nD) : main_part4 (F := F) c = seq ops4 := by
  simp only [main_part4, fn_var_0.body, fn_where_1.body, seq, bind_assoc, pure_bind]

set_option maxRecDepth 8192 in
theorem ops4_sub : (ops4 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub ..⟩

set_option maxRecDepth 8192 in
set_option maxHeartbeats 4000000 in
theorem ops4_fresh : ∀ op ∈ (ops4 : List (HloOp τ sig (Elt F))), op.fresh = ∅ := by
  intro _ h; (repeat (cases h with | head => rfl | tail _ h => ?_)); exact nomatch h

end Cert.ReferenceIdeal.RefValue

end
-- ==== Proof.RefRun.lean ====
/-
  The reference program's run.  Its @main is printed as five windows run in order; each window is a straight line of
  host operations (the five sibling modules list them and prove it).  One straight line after another is the
  concatenated line, so @main is one straight line `ops`, and the general run theorem for a straight line gives: every
  weakly fair execution terminates, and every buffer of a core ends at the fold of the operations' results over the
  launch contents, `after ops (launchContents m c)`.
-/
import proofs.«148746_j9251359555639_1_alg».proof.Proof.RefOps0
import proofs.«148746_j9251359555639_1_alg».proof.Proof.RefOps1
import proofs.«148746_j9251359555639_1_alg».proof.Proof.RefOps2
import proofs.«148746_j9251359555639_1_alg».proof.Proof.RefOps3
import proofs.«148746_j9251359555639_1_alg».proof.Proof.RefOps4

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations: the five windows' lists one after the other. -/
def ops : List (HloOp τ sig (Elt F)) := ops0 ++ (ops1 ++ (ops2 ++ (ops3 ++ ops4)))

theorem ops_def : (ops : List (HloOp τ sig (Elt F))) = ops0 ++ (ops1 ++ (ops2 ++ (ops3 ++ ops4))) := rfl

/-- @main runs its windows in order, and each window is its line. -/
theorem main_eq (c : Dev nD) : main (F := F) c = seq ops := by
  rw [ops_def, seq_append, seq_append, seq_append, seq_append, ← main_part0_eq c, ← main_part1_eq c, ← main_part2_eq c,
    ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Membership in the whole line is membership in one of the windows' lines. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F)))
      ∨ op ∈ (ops3 : List (HloOp τ sig (Elt F))) ∨ op ∈ (ops4 : List (HloOp τ sig (Elt F))) := by
  rw [ops_def] at h
  rcases List.mem_append.mp h with h | h
  · exact .inl h
  rcases List.mem_append.mp h with h | h
  · exact .inr (.inl h)
  rcases List.mem_append.mp h with h | h
  · exact .inr (.inr (.inl h))
  rcases List.mem_append.mp h with h | h
  · exact .inr (.inr (.inr (.inl h)))
  · exact .inr (.inr (.inr (.inr h)))

/-- Every buffer the line touches is one of the core's. -/
theorem ops_sub : (ops : List (HloOp τ sig (Elt F))).Forall fun op => op.bufs ⊆ tcRefs τ sig :=
  List.forall_iff_forall_mem.mpr fun op h => by
    rcases mem_ops h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

/-- Every operation of the line determines its result. -/
theorem ops_fresh : ∀ op ∈ (ops : List (HloOp τ sig (Elt F))), op.fresh = ∅ := fun op h => by
  rcases mem_ops h with h | h | h | h | h
  exacts [ops0_fresh op h, ops1_fresh op h, ops2_fresh op h, ops3_fresh op h, ops4_fresh op h]

/-- The fold over a concatenated line is the fold over the second part after the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The run: from any memory with zero counters, every weakly fair execution of @main on the cores terminates, and every
    final state has each buffer of a core at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefBn.lean ====
/-
  Column normalisation over 50000 rows, at any width `H`, as an array computation and what it computes.

  The array computation: the column mean is the column sum divided by the broadcast count 50000; the column variance is
  the mean of the squared deviations from the mean, divided by `50000 - d` for the integer `d = 0` converted to a float,
  and kept only where `50000 - d` is positive (otherwise a fixed word stands in its place); the result is the deviation
  from the mean times the reciprocal square root of variance plus ε, times γ, plus β, the three row vectors spread over
  the rows.  Read on the extended reals at entry `(p, q)`, for a real array and real γ, β, this is the real
  `(z p q - μ q) · (√(v q + ε))⁻¹ · γ q + β q` with `μ` the column mean and `v` the mean squared deviation: the count
  `50000 - 0` is positive, so the variance is kept, and every step maps reals to reals.
-/
import Idealize.ShloMosaic.PureOps.Ideal.Laws
import Idealize.ShloMosaic.Lib.ValueIdx
import Idealize.ShloMosaic.Lib.ValueLayout
import Idealize.ShloMosaic.Lib.Pipeline.Value
import proofs.«148746_j9251359555639_1_alg».proof.Proof.Spec
import proofs.«148746_j9251359555639_1_alg».proof.Proof.Consts
import proofs.«148746_j9251359555639_1_alg».proof.Proof.LibBatchNormForms
import proofs.«148746_j9251359555639_1_alg».proof.Proof.LibColSum

noncomputable section

namespace Cert.ReferenceIdeal.RefValue

open Idealize.ShloMosaic Idealize.ShloMosaic.ValueIdx
open scoped BigOperators

/-- The shapes of a width-`H` normalisation over 50000 rows: a scalar, a row vector, a one-row matrix, the matrix. -/
abbrev S0 : Shape := ⟨0, ![]⟩
abbrev SH (H : ℕ) : Shape := ⟨1, ![H]⟩
abbrev S1H (H : ℕ) : Shape := ⟨2, ![1, H]⟩
abbrev SNH (H : ℕ) : Shape := ⟨2, ![50000, H]⟩

/-- The shape relations the operations take as evidence. -/
structure BnFacts (H : ℕ) : Prop where
  b1 : (SH H).BroadcastsInDim (S1H H) (![1] : Fin 1 → Fin (S1H H).rank)
  b2 : (S1H H).BroadcastsInDim (SNH H) (![0, 1] : Fin 2 → Fin (SNH H).rank)
  b0 : S0.BroadcastsInDim (SH H) (![] : Fin 0 → Fin (SH H).rank)
  b01 : S0.BroadcastsInDim (S1H H) (![] : Fin 0 → Fin (S1H H).rank)
  b0N : S0.BroadcastsInDim (SNH H) (![] : Fin 0 → Fin (SNH H).rank)
  red : (SNH H).ReducesTo [0] (SH H)
  pos : 0 < S0.numel

section Defs

variable {F : FTy → Type} [FloatOps F] {H : ℕ}

/-- A row vector spread over the 50000 rows. -/
def rowsOf (fx : BnFacts H) (v : FVec F (SH H) .f32) : FVec F (SNH H) .f32 :=
  broadcastInDim (SNH H) ![0, 1] fx.b2 (broadcastInDim (S1H H) ![1] fx.b1 v)

/-- The column mean: the column sum over the broadcast count. -/
def meanOf (fx : BnFacts H) (z : FVec F (SNH H) .f32) : FVec F (SH H) .f32 :=
  Host.divf (Host.reduceAdd z (constant S0 .f32 0x00000000#32) fx.red fx.pos)
    (broadcastInDim (SH H) ![] fx.b0 (constant S0 .f32 0x47435000#32))

/-- The deviation from the column mean, the mean formed as a one-row matrix. -/
def devOf (fx : BnFacts H) (z : FVec F (SNH H) .f32) : FVec F (SNH H) .f32 :=
  subf z (broadcastInDim (SNH H) ![0, 1] fx.b2
    (Host.divf (broadcastInDim (S1H H) ![1] fx.b1 (Host.reduceAdd z (constant S0 .f32 0x00000000#32) fx.red fx.pos))
      (broadcastInDim (S1H H) ![] fx.b01 (constant S0 .f32 0x47435000#32))))

/-- The count less the converted integer zero. -/
def cntOf : FVec F S0 .f32 := subf (constant S0 .f32 0x47435000#32) (sitofp .f32 (constantI S0 32 0#32))

/-- The column variance: the mean squared deviation where the count is positive. -/
def varOf (fx : BnFacts H) (z : FVec F (SNH H) .f32) : FVec F (SH H) .f32 :=
  select (broadcastInDim (SH H) ![] fx.b0 (cmpf .ogt (cntOf (F := F)) (constant S0 .f32 0x00000000#32)))
    (Host.divf (Host.reduceAdd (mulf (devOf fx z) (devOf fx z)) (constant S0 .f32 0x00000000#32) fx.red fx.pos)
      (broadcastInDim (SH H) ![] fx.b0 (cntOf (F := F))))
    (broadcastInDim (SH H) ![] fx.b0 (id (constant S0 .f32 0x7FC00000#32)))

/-- The normalisation. -/
def bnOf (fx : BnFacts H) (z : FVec F (SNH H) .f32) (g bt : FVec F (SH H) .f32) : FVec F (SNH H) .f32 :=
  addf (mulf (mulf (subf z (rowsOf fx (meanOf fx z)))
        (rowsOf fx (Host.rsqrt (addf (varOf fx z) (broadcastInDim (SH H) ![] fx.b0 (constant S0 .f32 0x3727C5AC#32))))))
      (rowsOf fx g)) (rowsOf fx bt)

/-- `max(·, 0)`, the zero spread over the matrix. -/
def reluOf (fx : BnFacts H) (z : FVec F (SNH H) .f32) : FVec F (SNH H) .f32 :=
  maximumf z (broadcastInDim (SNH H) ![] fx.b0N (constant S0 .f32 0x00000000#32))

end Defs

section Reads

variable {α : Type} {H : ℕ}

/-- A scalar spread over any shape reads as the scalar. -/
theorem bcast0_apply {t : Shape} (h : S0.BroadcastsInDim t (![] : Fin 0 → Fin t.rank)) (x : S0.Idx → α) (j : t.Idx) :
    broadcastInDim t ![] h x j = x ix0 :=
  broadcastInDim_apply _ h x j ix0 (fun a => a.elim0)

/-- A row vector as a one-row matrix reads, at `(u, q)`, the vector at `q`. -/
theorem bcastRow_apply (h : (SH H).BroadcastsInDim (S1H H) (![1] : Fin 1 → Fin (S1H H).rank)) (v : (SH H).Idx → α)
    (u : Fin 1) (q : Fin H) : broadcastInDim (S1H H) ![1] h v (ix2 u q) = v (ix1 q) := by
  refine broadcastInDim_apply _ h v (ix2 u q) (ix1 q) fun a => ?_
  match a with
  | ⟨0, _⟩ =>
    show q.val = if H = 1 then 0 else q.val
    split
    · have := q.isLt; omega
    · rfl

/-- A one-row matrix spread over the rows reads, at `(p, q)`, its row at `q`. -/
theorem bcastRows_apply (h : (S1H H).BroadcastsInDim (SNH H) (![0, 1] : Fin 2 → Fin (SNH H).rank)) (w : (S1H H).Idx → α)
    (p : Fin 50000) (q : Fin H) : broadcastInDim (SNH H) ![0, 1] h w (ix2 p q) = w (ix2 (0 : Fin 1) q) := by
  refine broadcastInDim_apply _ h w (ix2 p q) (ix2 (0 : Fin 1) q) fun a => ?_
  match a with
  | ⟨0, _⟩ => rfl
  | ⟨1, _⟩ =>
    show q.val = if H = 1 then 0 else q.val
    split
    · have := q.isLt; omega
    · rfl

end Reads

section Ideal

variable {H : ℕ}

theorem rowsOf_apply (fx : BnFacts H) (v : FVec Ideal (SH H) .f32) (p : Fin 50000) (q : Fin H) :
    rowsOf fx v (ix2 p q) = v (ix1 q) :=
  (bcastRows_apply fx.b2 _ p q).trans (bcastRow_apply fx.b1 v 0 q)

/-- A column sum: the initial value plus the sum down the column. -/
theorem colSum_apply (fx : BnFacts H) (z : FVec Ideal (SNH H) .f32) (c : FVec Ideal S0 .f32) (q : Fin H) :
    Host.reduceAdd z c fx.red fx.pos (ix1 q) = c ix0 + ∑ p : Fin 50000, z (ix2 p q) := by
  have hR : (SNH H).Reduces [0] (SH H) := ⟨fx.red.1, Nat.one_pos, fx.red.2⟩
  refine (Ideal.hostReduceAdd_single fx.red hR z _ (ix1 q)).trans ?_
  refine congrArg₂ (· + ·) (congrArg c (eq_ix0 _)) ?_
  exact Finset.sum_congr rfl fun k _ => congrArg z (Cert.Lib.lift_firstAxis2 hR q k)

/-- The count less zero is the real 50000. -/
theorem cntOf_apply : cntOf (F := Ideal) ix0 = ((50000 : ℝ) : EReal) := by
  show Ideal.ofBits .f32 0x47435000#32 - (((0#32 : BitVec 32).toInt : ℝ) : EReal) = _
  rw [Cert.Consts.ofBits_N]
  simp

/-- The host's quotient and reciprocal square root, entry by entry. -/
theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

theorem meanOf_apply (fx : BnFacts H) (z : FVec Ideal (SNH H) .f32) (q : Fin H) :
    meanOf fx z (ix1 q) = Ideal.div (0 + ∑ p : Fin 50000, z (ix2 p q)) ((50000 : ℝ) : EReal) := by
  unfold meanOf
  rw [hostDivf_apply, colSum_apply fx, bcast0_apply, constant_apply, constant_apply, Cert.Consts.ofBits_zero, Cert.Consts.ofBits_N]

theorem devOf_apply (fx : BnFacts H) (z : FVec Ideal (SNH H) .f32) (p : Fin 50000) (q : Fin H) :
    devOf fx z (ix2 p q)
      = z (ix2 p q) - Ideal.div (0 + ∑ p : Fin 50000, z (ix2 p q)) ((50000 : ℝ) : EReal) := by
  unfold devOf
  rw [subf_apply, bcastRows_apply, hostDivf_apply, bcastRow_apply, colSum_apply fx, bcast0_apply, constant_apply, constant_apply,
    Cert.Consts.ofBits_zero, Cert.Consts.ofBits_N]

theorem varOf_apply (fx : BnFacts H) (z : FVec Ideal (SNH H) .f32) (q : Fin H) :
    varOf fx z (ix1 q)
      = Ideal.div (0 + ∑ p : Fin 50000, devOf fx z (ix2 p q) * devOf fx z (ix2 p q)) ((50000 : ℝ) : EReal) := by
  have hc : cmpf .ogt (cntOf (F := Ideal)) (constant S0 .f32 0x00000000#32) ix0 = 1#1 := by
    rw [cmpf_apply, Ideal.cmpf_def, cntOf_apply, constant_apply, Cert.Consts.ofBits_zero]
    show BitVec.ofBool (decide ((0 : EReal) < ((50000 : ℝ) : EReal))) = 1#1
    rw [decide_eq_true (by exact_mod_cast (by norm_num : (0 : ℝ) < 50000))]
    rfl
  unfold varOf
  rw [select_apply, bcast0_apply, hc, select_one, hostDivf_apply, bcast0_apply, cntOf_apply, colSum_apply fx, constant_apply,
    Cert.Consts.ofBits_zero]
  rfl

/-- The normalisation of a real array with real scale and shift, read at an entry: the real normalisation. -/
theorem bnOf_apply (fx : BnFacts H) (z : FVec Ideal (SNH H) .f32) (g bt : FVec Ideal (SH H) .f32)
    (zr : Cert.Spec.Mat 50000 H) (γ β : Fin H → ℝ)
    (hz : ∀ p q, z (ix2 p q) = ((zr p q : ℝ) : EReal)) (hg : ∀ q, g (ix1 q) = ((γ q : ℝ) : EReal))
    (hb : ∀ q, bt (ix1 q) = ((β q : ℝ) : EReal)) (p : Fin 50000) (q : Fin H) :
    bnOf fx z g bt (ix2 p q) = ((Cert.Spec.bnDev 50000 Cert.Consts.eps γ β zr p q : ℝ) : EReal) := by
  unfold bnOf
  rw [addf_apply, mulf_apply, mulf_apply, subf_apply, rowsOf_apply, rowsOf_apply, rowsOf_apply, rowsOf_apply, meanOf_apply,
    hostRsqrt_apply, addf_apply, varOf_apply, bcast0_apply, constant_apply, Cert.Consts.ofBits_eps, hg, hb]
  simp only [devOf_apply]
  exact (Cert.Lib.bn_ereal (fun p => z (ix2 p q)) (fun p => zr p q) (fun p => hz p q) 50000 (by norm_num)
    (by simp) (γ q) (β q) Cert.Consts.eps Cert.Consts.eps_pos p).2

/-- `max(·, 0)` of a real entry. -/
theorem reluOf_apply (fx : BnFacts H) (z : FVec Ideal (SNH H) .f32) (zr : Cert.Spec.Mat 50000 H)
    (hz : ∀ p q, z (ix2 p q) = ((zr p q : ℝ) : EReal)) (p : Fin 50000) (q : Fin H) :
    reluOf fx z (ix2 p q) = ((Cert.Spec.relu zr p q : ℝ) : EReal) := by
  unfold reluOf
  rw [maximumf_apply, bcast0_apply, constant_apply, Cert.Consts.ofBits_zero, hz]
  exact (EReal.coe_strictMono.monotone.map_max (a := zr p q) (b := 0)).symm

/-- A sum of coerced reals over a finite set is the coerced sum. -/
theorem coe_sum_finset {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

end Ideal

end Cert.ReferenceIdeal.RefValue

end
-- ==== Proof.RefFns.lean ====
/-
  The reference's layers as array functions, named after what they compute, each the composition of the printed
  operations in the printed order:
  * the edge columns: the source words wrapped (a negative word has 50000 added) and the target words, each as a column;
  * the neighbour sum `refAgg`: the rows of `h` looked up at the wrapped source words, added into a zero array at the
    target words;
  * the first half of layer `l`, `refA`: `h` plus its neighbour sum, times `W1[l]`, plus `b1[l]`, normalised with
    `g1[l]`, `bt1[l]`, then `max(·, 0)`;
  * the second half, `refBpre` / `refB`: times `W2[l]`, plus `b2[l]`, normalised with `g2[l]`, `bt2[l]` (and, all layers
    but the last, `max(·, 0)`);
  * the tail `refTail`: the mean of the rows of each graph (two sums by graph number: of the rows and of ones; the count
    raised to at least one), times `Wc`, plus `bc`.
-/
import proofs.«148746_j9251359555639_1_alg».proof.Proof.Gen.ReferenceIdeal
import proofs.«148746_j9251359555639_1_alg».proof.Proof.RefBn

noncomputable section

namespace Cert.ReferenceIdeal.RefValue

open Cert.ReferenceIdeal Idealize.ShloMosaic Idealize.ShloMosaic.ValueIdx
open Facts₀

/-- The shape relations of the two normalisation widths. -/
theorem fx256 : BnFacts 256 :=
  ⟨bcast_S256_S1x256_1, bcast_S1x256_S50000x256_0_1, bcast_S_S256, bcast_S_S1x256, bcast_S_S50000x256,
    reducesTo_S50000x256_S256_d0, h_S_⟩
theorem fx128 : BnFacts 128 :=
  ⟨bcast_S128_S1x128_1, bcast_S1x128_S50000x128_0_1, bcast_S_S128, bcast_S_S1x128, bcast_S_S50000x128,
    reducesTo_S50000x128_S128_d0, h_S_⟩

variable {F : FTy → Type} [FloatOps F]

/-- Row 0 and row 1 of the edge list, as vectors. -/
def srcWords (ei : IVec S2x800000 32) : IVec S800000 32 :=
  shapeCast S800000 (extractStridedSlice S1x800000 ![0, 0] ei slices_S2x800000_S1x800000_0_0) shapeCasts_S1x800000_S800000
def dstWords (ei : IVec S2x800000 32) : IVec S800000 32 :=
  shapeCast S800000 (extractStridedSlice S1x800000 ![1, 0] ei slices_S2x800000_S1x800000_1_0) shapeCasts_S1x800000_S800000

/-- The wrapped source words as a column. -/
def srcCol (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The target words as a column. -/
def dstCol (v3 : IVec S800000 32) : IVec S800000x1 32 :=
  broadcastInDim S800000x1 ![0] bcast_S800000_S800000x1_0 v3

/-- The neighbour sums. -/
def refAgg (h : FVec F S50000x128 .f32) (v1 v3 : IVec S800000 32) : FVec F S50000x128 .f32 :=
  Host.scatterAdd scatter_S50000x128_S800000x1_S800000x128_1_0_0_1
    (broadcastInDim S50000x128 ![] bcast_S_S50000x128 (constant S_ .f32 0x00000000#32)) (dstCol v3)
    (Host.gather gather_S50000x128_S800000x1_S800000x128_1_0_n_n_0_1_1128 h (srcCol v1))

/-- Layer `l`'s parameters cut out of the stacked arrays. -/
def matW1 (l : ℕ) (hs : S3x128x256.Slices ![l, 0, 0] S1x128x256) (W : FVec F S3x128x256 .f32) : FVec F S128x256 .f32 :=
  shapeCast S128x256 (extractStridedSlice S1x128x256 ![l, 0, 0] W hs) shapeCasts_S1x128x256_S128x256
def matW2 (l : ℕ) (hs : S3x256x128.Slices ![l, 0, 0] S1x256x128) (W : FVec F S3x256x128 .f32) : FVec F S256x128 .f32 :=
  shapeCast S256x128 (extractStridedSlice S1x256x128 ![l, 0, 0] W hs) shapeCasts_S1x256x128_S256x128
def rowH (l : ℕ) (hs : S3x256.Slices ![l, 0] S1x256) (b : FVec F S3x256 .f32) : FVec F S256 .f32 :=
  shapeCast S256 (extractStridedSlice S1x256 ![l, 0] b hs) shapeCasts_S1x256_S256
def rowD (l : ℕ) (hs : S3x128.Slices ![l, 0] S1x128) (b : FVec F S3x128 .f32) : FVec F S128 .f32 :=
  shapeCast S128 (extractStridedSlice S1x128 ![l, 0] b hs) shapeCasts_S1x128_S128

/-- The first half of layer `l`. -/
def refA (l : ℕ) (hW : S3x128x256.Slices ![l, 0, 0] S1x128x256) (hb : S3x256.Slices ![l, 0] S1x256)
    (h : FVec F S50000x128 .f32) (v1 v3 : IVec S800000 32) (W1 : FVec F S3x128x256 .f32) (b1 g1 bt1 : FVec F S3x256 .f32) :
    FVec F S50000x256 .f32 :=
  reluOf fx256 (bnOf fx256
    (addf (Host.dotGeneral dot_S50000x128_S128x256_S50000x256_1_0_0_1_n_n none (addf h (refAgg h v1 v3)) (matW1 l hW W1))
      (rowsOf fx256 (rowH l hb b1)))
    (rowH l hb g1) (rowH l hb bt1))

/-- The second half of layer `l`, before the closing `max(·, 0)`. -/
def refBpre (l : ℕ) (hW : S3x256x128.Slices ![l, 0, 0] S1x256x128) (hb : S3x128.Slices ![l, 0] S1x128)
    (y : FVec F S50000x256 .f32) (W2 : FVec F S3x256x128 .f32) (b2 g2 bt2 : FVec F S3x128 .f32) : FVec F S50000x128 .f32 :=
  bnOf fx128
    (addf (Host.dotGeneral dot_S50000x256_S256x128_S50000x128_1_0_0_1_n_n none y (matW2 l hW W2)) (rowsOf fx128 (rowD l hb b2)))
    (rowD l hb g2) (rowD l hb bt2)

/-- The second half of a layer that is not the last. -/
def refB (l : ℕ) (hW : S3x256x128.Slices ![l, 0, 0] S1x256x128) (hb : S3x128.Slices ![l, 0] S1x128)
    (y : FVec F S50000x256 .f32) (W2 : FVec F S3x256x128 .f32) (b2 g2 bt2 : FVec F S3x128 .f32) : FVec F S50000x128 .f32 :=
  reluOf fx128 (refBpre l hW hb y W2 b2 g2 bt2)

/-- What follows the last layer. -/
def refTail (h : FVec F S50000x128 .f32) (batch : IVec S50000 32) (Wc : FVec F S128x10 .f32) (bc : FVec F S10 .f32) :
    FVec F S256x10 .f32 :=
  addf
    (Host.dotGeneral dot_S256x128_S128x10_S256x10_1_0_0_1_n_n none
      (Host.divf
        (Host.scatterAdd scatter_S256x128_S50000x1_S50000x128_1_0_0_1
          (broadcastInDim S256x128 ![] bcast_S_S256x128 (constant S_ .f32 0x00000000#32))
          (broadcastInDim S50000x1 ![0] bcast_S50000_S50000x1_0 batch) h)
        (broadcastInDim S256x128 ![0, 1] bcast_S256x1_S256x128_0_1
          (broadcastInDim S256x1 ![0] bcast_S256_S256x1_0
            (maximumf
              (Host.scatterAdd scatter_S256_S50000x1_S50000_n_0_0_1
                (broadcastInDim S256 ![] bcast_S_S256 (constant S_ .f32 0x00000000#32))
                (broadcastInDim S50000x1 ![0] bcast_S50000_S50000x1_0 batch)
                (broadcastInDim S50000 ![] bcast_S_S50000 (constant S_ .f32 0x3F800000#32)))
              (broadcastInDim S256 ![] bcast_S_S256 (constant S_ .f32 0x3F800000#32))))))
      Wc)
    (broadcastInDim S256x10 ![0, 1] bcast_S1x10_S256x10_0_1 (broadcastInDim S1x10 ![1] bcast_S10_S1x10_1 bc))

end Cert.ReferenceIdeal.RefValue

end
-- ==== Proof.RefSegP.lean ====
/- The operation list below is a table read off the printed program text (proof/ReferenceIdeal.lean): a stretch of
   @main's straight line (the operations of a called function listed at its call over that call's record of buffers),
   with the list of the buffers the stretch writes.  Here: the two rows of the edge list cut out as vectors. -/
import proofs.«148746_j9251359555639_1_alg».proof.Proof.Gen.ReferenceIdeal
import Idealize.ShloMosaic.Lib.StableHlo.Run
import proofs.«148746_j9251359555639_1_alg».proof.Proof.RefFns

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The stretch's 4 operations, in order. -/
abbrev segP : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- The buffers the stretch writes. -/
abbrev segP_W : List (Ref sig .tc) := [main_v0, main_v1, main_v2, main_v3]

set_option maxRecDepth 8192 in
set_option maxHeartbeats 4000000 in
theorem segP_writes : (segP : List (HloOp τ sig (Elt F))).Forall fun op =>
    op.writes ⊆ (segP_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem segP_keep (V : Valuation τ sig (Elt F)) {r : Ref sig .tc} (h : r ∉ segP_W) :
    after segP V (no_index (Proc.devRef .tc r)) = V (Proc.devRef .tc r) :=
  after_of_writes_sub segP V segP_writes h

set_option maxRecDepth 16384 in
set_option maxHeartbeats 8000000 in
/-- The source words. -/
theorem segP_v1 (V : Valuation τ sig (Elt F)) :
    after segP V (no_index (Proc.devRef .tc main_v1)) = srcWords (V (main_arg1 : DevRef τ sig)) := by
  simp only [segP]
  after_results_simp
  rfl

set_option maxRecDepth 16384 in
set_option maxHeartbeats 8000000 in
/-- The target words. -/
theorem segP_v3 (V : Valuation τ sig (Elt F)) :
    after segP V (no_index (Proc.devRef .tc main_v3)) = dstWords (V (main_arg1 : DevRef τ sig)) := by
  simp only [segP]
  after_results_simp
  rfl

end Cert.ReferenceIdeal.RefValue

end
-- ==== Proof.RefSegA0.lean ====
/- The operation list below is a table read off the printed program text (proof/ReferenceIdeal.lean): a stretch of
   @main's straight line (the operations of a called function listed at its call over that call's record of buffers),
   with the list of the buffers the stretch writes.  Here: the first half of layer 0. -/
import proofs.«148746_j9251359555639_1_alg».proof.Proof.Gen.ReferenceIdeal
import Idealize.ShloMosaic.Lib.StableHlo.Run
import proofs.«148746_j9251359555639_1_alg».proof.Proof.RefFns

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The stretch's 73 operations, in order. -/
abbrev segA0 : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg3 main_v15 ((extractStridedSlice S1x128x256 ![0, 0, 0] · slices_S3x128x256_S1x128x256_0_0_0) : (⟨S3x128x256, .f32⟩ : BufTy).Contents (Elt F) → (⟨S1x128x256, .f32⟩ : BufTy).Contents (Elt F)),
    StableHlo.reshape main_v15 main_v16 rfl shapeCasts_S1x128x256_S128x256,
    StableHlo.binary main_v14 main_v16 main_v17 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v18 ((extractStridedSlice S1x256 ![0, 0] · slices_S3x256_S1x256_0_0) : (⟨S3x256, .f32⟩ : BufTy).Contents (Elt F) → (⟨S1x256, .f32⟩ : BufTy).Contents (Elt F)),
    StableHlo.reshape main_v18 main_v19 rfl shapeCasts_S1x256_S256,
    StableHlo.unary main_v19 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v17 main_v21 main_v22 (addf : (⟨S50000x256, .f32⟩ : BufTy).Contents (Elt F) → (⟨S50000x256, .f32⟩ : BufTy).Contents (Elt F) → (⟨S50000x256, .f32⟩ : BufTy).Contents (Elt F)),
    StableHlo.unary main_arg5 main_v23 ((extractStridedSlice S1x256 ![0, 0] · slices_S3x256_S1x256_0_0) : (⟨S3x256, .f32⟩ : BufTy).Contents (Elt F) → (⟨S1x256, .f32⟩ : BufTy).Contents (Elt F)),
    StableHlo.reshape main_v23 main_v24 rfl shapeCasts_S1x256_S256,
    StableHlo.unary main_arg6 main_v25 ((extractStridedSlice S1x256 ![0, 0] · slices_S3x256_S1x256_0_0) : (⟨S3x256, .f32⟩ : BufTy).Contents (Elt F) → (⟨S1x256, .f32⟩ : BufTy).Contents (Elt F)),
    StableHlo.reshape main_v25 main_v26 rfl shapeCasts_S1x256_S256,
    StableHlo.nullary main_cst_1 (constant S_ .f32 0x00000000#32),
    StableHlo.binary main_v22 main_cst_1 main_v27 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v28 (broadcastInDim S256 ![] bcast_S_S256 : (⟨S_, .f32⟩ : BufTy).Contents (Elt F) → (⟨S256, .f32⟩ : BufTy).Contents (Elt F)),
    StableHlo.binary main_v27 main_v28 main_v29 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v22 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v22 : StableHlo.TRef sig ⟨S50000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v29 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v32 main_v33 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v34 (broadcastInDim S256 ![] bcast_S_S256 : (⟨S_, .f32⟩ : BufTy).Contents (Elt F) → (⟨S256, .f32⟩ : BufTy).Contents (Elt F)),
    StableHlo.binary main_v30 main_v34 main_v35 (addf : (⟨S256, .f32⟩ : BufTy).Contents (Elt F) → (⟨S256, .f32⟩ : BufTy).Contents (Elt F) → (⟨S256, .f32⟩ : BufTy).Contents (Elt F)),
    StableHlo.unary main_v35 main_v36 (Host.rsqrt : (⟨S256, .f32⟩ : BufTy).Contents (Elt F) → (⟨S256, .f32⟩ : BufTy).Contents (Elt F)),
    StableHlo.unary main_v36 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S50000x256 ![0, 1] bcast_S1x256_S50000x256_0_1 : (⟨S1x256, .f32⟩ : BufTy).Contents (Elt F) → (⟨S50000x256, .f32⟩ : BufTy).Contents (Elt F)),
    StableHlo.binary main_v33 main_v38 main_v39 (mulf : (⟨S50000x256, .f32⟩ : BufTy).Contents (Elt F) → (⟨S50000x256, .f32⟩ : BufTy).Contents (Elt F) → (⟨S50000x256, .f32⟩ : BufTy).Contents (Elt F)),
    StableHlo.unary main_v24 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v41 main_v42 (mulf : (⟨S50000x256, .f32⟩ : BufTy).Contents (Elt F) → (⟨S50000x256, .f32⟩ : BufTy).Contents (Elt F) → (⟨S50000x256, .f32⟩ : BufTy).Contents (Elt F)),
    StableHlo.unary main_v26 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v42 main_v44 main_v45 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v45 : StableHlo.TRef sig ⟨S50000x256, .f32⟩) main_call1.v0 main_call1.v1 maximumf ]

/-- The buffers the stretch writes. -/
abbrev segA0_W : List (Ref sig .tc) := [main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_cst_1, main_v27, main_cst_2, main_v28, main_v29, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30, main_v31, main_v32, main_v33, main_cst_4, main_v34, main_v35, main_v36, main_v37, main_v38, main_v39, main_v40, main_v41, main_v42, main_v43, main_v44, main_v45, main_call1_cst, main_call1_v0, main_v46]

set_option maxRecDepth 8192 in
set_option maxHeartbeats 4000000 in
theorem segA0_writes : (segA0 : List (HloOp τ sig (Elt F))).Forall fun op =>
    op.writes ⊆ (segA0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem segA0_keep (V : Valuation τ sig (Elt F)) {r : Ref sig .tc} (h : r ∉ segA0_W) :
    after segA0 V (no_index (Proc.devRef .tc r)) = V (Proc.devRef .tc r) :=
  after_of_writes_sub segA0 V segA0_writes h

set_option maxRecDepth 16384 in
set_option maxHeartbeats 8000000 in
/-- The stretch computes the first half of layer 0 of its input and the parameters. -/
theorem segA0_v46 (V : Valuation τ sig (Elt F)) :
    after segA0 V (no_index (Proc.devRef .tc main_v46)) = refA 0 slices_S3x128x256_S1x128x256_0_0_0 slices_S3x256_S1x256_0_0 (V (main_arg0 : DevRef τ sig)) (V (main_v1 : DevRef τ sig)) (V (main_v3 : DevRef τ sig)) (V (main_arg3 : DevRef τ sig)) (V (main_arg4 : DevRef τ sig)) (V (main_arg5 : DevRef τ sig)) (V (main_arg6 : DevRef τ sig)) := by
  simp only [segA0]
  after_results_simp
  rfl

end Cert.ReferenceIdeal.RefValue

end
-- ==== Proof.RefSegB0.lean ====
/- The operation list below is a table read off the printed program text (proof/ReferenceIdeal.lean): a stretch of
   @main's straight line (the operations of a called function listed at its call over that call's record of buffers),
   with the list of the buffers the stretch writes.  Here: the second half of layer 0. -/
import proofs.«148746_j9251359555639_1_alg».proof.Proof.Gen.ReferenceIdeal
import Idealize.ShloMosaic.Lib.StableHlo.Run
import proofs.«148746_j9251359555639_1_alg».proof.Proof.RefFns

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The stretch's 59 operations, in order. -/
abbrev segB0 : List (HloOp τ sig (Elt F)) :=
  [ StableHlo.unary main_arg7 main_v47 ((extractStridedSlice S1x256x128 ![0, 0, 0] · slices_S3x256x128_S1x256x128_0_0_0) : (⟨S3x256x128, .f32⟩ : BufTy).Contents (Elt F) → (⟨S1x256x128, .f32⟩ : BufTy).Contents (Elt F)),
    StableHlo.reshape main_v47 main_v48 rfl shapeCasts_S1x256x128_S256x128,
    StableHlo.binary main_v46 main_v48 main_v49 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg8 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.unary main_arg9 main_v55 ((extractStridedSlice S1x128 ![0, 0] · slices_S3x128_S1x128_0_0) : (⟨S3x128, .f32⟩ : BufTy).Contents (Elt F) → (⟨S1x128, .f32⟩ : BufTy).Contents (Elt F)),
    StableHlo.reshape main_v55 main_v56 rfl shapeCasts_S1x128_S128,
    StableHlo.unary main_arg10 main_v57 ((extractStridedSlice S1x128 ![0, 0] · slices_S3x128_S1x128_0_0) : (⟨S3x128, .f32⟩ : BufTy).Contents (Elt F) → (⟨S1x128, .f32⟩ : BufTy).Contents (Elt F)),
    StableHlo.reshape main_v57 main_v58 rfl shapeCasts_S1x128_S128,
    StableHlo.nullary main_cst_5 (constant S_ .f32 0x00000000#32),
    StableHlo.binary main_v54 main_cst_5 main_v59 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v60 (broadcastInDim S128 ![] bcast_S_S128 : (⟨S_, .f32⟩ : BufTy).Contents (Elt F) → (⟨S128, .f32⟩ : BufTy).Contents (Elt F)),
    StableHlo.binary main_v59 main_v60 main_v61 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v54 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v54 : StableHlo.TRef sig ⟨S50000x128, .f32⟩) main_call2.v4 main_call2.v5 subf,
    StableHlo.TRef.binary main_call2.v5 main_call2.v5 main_call2.v6 mulf,
    StableHlo.TRef.unary (.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v61 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v64 main_v65 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v66 (broadcastInDim S128 ![] bcast_S_S128 : (⟨S_, .f32⟩ : BufTy).Contents (Elt F) → (⟨S128, .f32⟩ : BufTy).Contents (Elt F)),
    StableHlo.binary main_v62 main_v66 main_v67 (addf : (⟨S128, .f32⟩ : BufTy).Contents (Elt F) → (⟨S128, .f32⟩ : BufTy).Contents (Elt F) → (⟨S128, .f32⟩ : BufTy).Contents (Elt F)),
    StableHlo.unary main_v67 main_v68 (Host.rsqrt : (⟨S128, .f32⟩ : BufTy).Contents (Elt F) → (⟨S128, .f32⟩ : BufTy).Contents (Elt F)),
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_v56 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (mulf : (⟨S50000x128, .f32⟩ : BufTy).Contents (Elt F) → (⟨S50000x128, .f32⟩ : BufTy).Contents (Elt F) → (⟨S50000x128, .f32⟩ : BufTy).Contents (Elt F)),
    StableHlo.unary main_v58 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v77 : StableHlo.TRef sig ⟨S50000x128, .f32⟩) main_call3.v0 main_call3.v1 maximumf ]

/-- The buffers the stretch writes. -/
abbrev segB0_W : List (Ref sig .tc) := [main_v47, main_v48, main_v49, main_v50, main_v51, main_v52, main_v53, main_v54, main_v55, main_v56, main_v57, main_v58, main_cst_5, main_v59, main_cst_6, main_v60, main_v61, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v62, main_v63, main_v64, main_v65, main_cst_8, main_v66, main_v67, main_v68, main_v69, main_v70, main_v71, main_v72, main_v73, main_v74, main_v75, main_v76, main_v77, main_call3_cst, main_call3_v0, main_v78]

set_option maxRecDepth 8192 in
set_option maxHeartbeats 4000000 in
theorem segB0_writes : (segB0 : List (HloOp τ sig (Elt F))).Forall fun op =>
    op.writes ⊆ (segB0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem segB0_keep (V : Valuation τ sig (Elt F)) {r : Ref sig .tc} (h : r ∉ segB0_W) :
    after segB0 V (no_index (Proc.devRef .tc r)) = V (Proc.devRef .tc r) :=
  after_of_writes_sub segB0 V segB0_writes h

set_option maxRecDepth 16384 in
set_option maxHeartbeats 8000000 in
/-- The stretch computes the second half of layer 0 of its input and the parameters. -/
theorem segB0_v78 (V : Valuation τ sig (Elt F)) :
    after segB0 V (no_index (Proc.devRef .tc main_v78)) = refB 0 slices_S3x256x128_S1x256x128_0_0_0 slices_S3x128_S1x128_0_0 (V (main_v46 : DevRef τ sig)) (V (main_arg7 : DevRef τ sig)) (V (main_arg8 : DevRef τ sig)) (V (main_arg9 : DevRef τ sig)) (V (main_arg10 : DevRef τ sig)) := by
  simp only [segB0]
  after_results_simp
  rfl

end Cert.ReferenceIdeal.RefValue

end
-- ==== Proof.RefSegA1.lean ====
/- The operation list below is a table read off the printed program text (proof/ReferenceIdeal.lean): a stretch of
   @main's straight line (the operations of a called function listed at its call over that call's record of buffers),
   with the list of the buffers the stretch writes.  Here: the first half of layer 1. -/
import proofs.«148746_j9251359555639_1_alg».proof.Proof.Gen.ReferenceIdeal
import Idealize.ShloMosaic.Lib.StableHlo.Run
import proofs.«148746_j9251359555639_1_alg».proof.Proof.RefFns

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The stretch's 73 operations, in order. -/
abbrev segA1 : List (HloOp τ sig (Elt F)) :=
  [ StableHlo.nullary main_c_9 (constantI S_ 32 0#32),
    StableHlo.unary main_c_9 main_v79 (broadcastInDim S800000 ![] bcast_S_S800000 : (⟨S_, .i32⟩ : BufTy).Contents (Elt F) → (⟨S800000, .i32⟩ : BufTy).Contents (Elt F)),
    StableHlo.binary main_v1 main_v79 main_v80 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v81 (broadcastInDim S800000 ![] bcast_S_S800000 : (⟨S_, .i32⟩ : BufTy).Contents (Elt F) → (⟨S800000, .i32⟩ : BufTy).Contents (Elt F)),
    StableHlo.binary main_v1 main_v81 main_v82 (addi : (⟨S800000, .i32⟩ : BufTy).Contents (Elt F) → (⟨S800000, .i32⟩ : BufTy).Contents (Elt F) → (⟨S800000, .i32⟩ : BufTy).Contents (Elt F)),
    StableHlo.ternary main_v80 main_v82 main_v1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v83 main_v84 (broadcastInDim S800000x1 ![0] bcast_S800000_S800000x1_0 : (⟨S800000, .i32⟩ : BufTy).Contents (Elt F) → (⟨S800000x1, .i32⟩ : BufTy).Contents (Elt F)),
    StableHlo.binary main_v78 main_v84 main_v85 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v86 (broadcastInDim S50000x128 ![] bcast_S_S50000x128 : (⟨S_, .f32⟩ : BufTy).Contents (Elt F) → (⟨S50000x128, .f32⟩ : BufTy).Contents (Elt F)),
    StableHlo.unary main_v3 main_v87 (broadcastInDim S800000x1 ![0] bcast_S800000_S800000x1_0 : (⟨S800000, .i32⟩ : BufTy).Contents (Elt F) → (⟨S800000x1, .i32⟩ : BufTy).Contents (Elt F)),
    StableHlo.ternary main_v86 main_v87 main_v85 main_v88 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v78 main_v88 main_v89 (addf : (⟨S50000x128, .f32⟩ : BufTy).Contents (Elt F) → (⟨S50000x128, .f32⟩ : BufTy).Contents (Elt F) → (⟨S50000x128, .f32⟩ : BufTy).Contents (Elt F)),
    StableHlo.unary main_arg3 main_v90 ((extractStridedSlice S1x128x256 ![1, 0, 0] · slices_S3x128x256_S1x128x256_1_0_0) : (⟨S3x128x256, .f32⟩ : BufTy).Contents (Elt F) → (⟨S1x128x256, .f32⟩ : BufTy).Contents (Elt F)),
    StableHlo.reshape main_v90 main_v91 rfl shapeCasts_S1x128x256_S128x256,
    StableHlo.binary main_v89 main_v91 main_v92 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v93 ((extractStridedSlice S1x256 ![1, 0] · slices_S3x256_S1x256_1_0) : (⟨S3x256, .f32⟩ : BufTy).Contents (Elt F) → (⟨S1x256, .f32⟩ : BufTy).Contents (Elt F)),
    StableHlo.reshape main_v93 main_v94 rfl shapeCasts_S1x256_S256,
    StableHlo.unary main_v94 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S50000x256 ![0, 1] bcast_S1x256_S50000x256_0_1 : (⟨S1x256, .f32⟩ : BufTy).Contents (Elt F) → (⟨S50000x256, .f32⟩ : BufTy).Contents (Elt F)),
    StableHlo.binary main_v92 main_v96 main_v97 (addf : (⟨S50000x256, .f32⟩ : BufTy).Contents (Elt F) → (⟨S50000x256, .f32⟩ : BufTy).Contents (Elt F) → (⟨S50000x256, .f32⟩ : BufTy).Contents (Elt F)),
    StableHlo.unary main_arg5 main_v98 ((extractStridedSlice S1x256 ![1, 0] · slices_S3x256_S1x256_1_0) : (⟨S3x256, .f32⟩ : BufTy).Contents (Elt F) → (⟨S1x256, .f32⟩ : BufTy).Contents (Elt F)),
    StableHlo.reshape main_v98 main_v99 rfl shapeCasts_S1x256_S256,
    StableHlo.unary main_arg6 main_v100 ((extractStridedSlice S1x256 ![1, 0] · slices_S3x256_S1x256_1_0) : (⟨S3x256, .f32⟩ : BufTy).Contents (Elt F) → (⟨S1x256, .f32⟩ : BufTy).Contents (Elt F)),
    StableHlo.reshape main_v100 main_v101 rfl shapeCasts_S1x256_S256,
    StableHlo.nullary main_cst_12 (constant S_ .f32 0x00000000#32),
    StableHlo.binary main_v97 main_cst_12 main_v102 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_13 (constant S_ .f32 0x47435000#32),
    StableHlo.unary main_cst_13 main_v103 (broadcastInDim S256 ![] bcast_S_S256 : (⟨S_, .f32⟩ : BufTy).Contents (Elt F) → (⟨S256, .f32⟩ : BufTy).Contents (Elt F)),
    StableHlo.binary main_v102 main_v103 main_v104 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary main_call4.cst (constant S_ .f32 0x00000000#32),
    StableHlo.TRef.binary (.of main_v97 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v97 : StableHlo.TRef sig ⟨S50000x256, .f32⟩) main_call4.v4 main_call4.v5 subf,
    StableHlo.TRef.binary main_call4.v5 main_call4.v5 main_call4.v6 mulf,
    StableHlo.TRef.unary (.of main_c_14 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v104 main_v106 (broadcastInDim S1x256 ![1] bcast_S256_S1x256_1 : (⟨S256, .f32⟩ : BufTy).Contents (Elt F) → (⟨S1x256, .f32⟩ : BufTy).Contents (Elt F)),
    StableHlo.unary main_v106 main_v107 (broadcastInDim S50000x256 ![0, 1] bcast_S1x256_S50000x256_0_1 : (⟨S1x256, .f32⟩ : BufTy).Contents (Elt F) → (⟨S50000x256, .f32⟩ : BufTy).Contents (Elt F)),
    StableHlo.binary main_v97 main_v107 main_v108 (subf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3727C5AC#32),
    StableHlo.unary main_cst_15 main_v109 (broadcastInDim S256 ![] bcast_S_S256 : (⟨S_, .f32⟩ : BufTy).Contents (Elt F) → (⟨S256, .f32⟩ : BufTy).Contents (Elt F)),
    StableHlo.binary main_v105 main_v109 main_v110 (addf : (⟨S256, .f32⟩ : BufTy).Contents (Elt F) → (⟨S256, .f32⟩ : BufTy).Contents (Elt F) → (⟨S256, .f32⟩ : BufTy).Contents (Elt F)),
    StableHlo.unary main_v110 main_v111 (Host.rsqrt : (⟨S256, .f32⟩ : BufTy).Contents (Elt F) → (⟨S256, .f32⟩ : BufTy).Contents (Elt F)),
    StableHlo.unary main_v111 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v108 main_v113 main_v114 (mulf : (⟨S50000x256, .f32⟩ : BufTy).Contents (Elt F) → (⟨S50000x256, .f32⟩ : BufTy).Contents (Elt F) → (⟨S50000x256, .f32⟩ : BufTy).Contents (Elt F)),
    StableHlo.unary main_v99 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S50000x256 ![0, 1] bcast_S1x256_S50000x256_0_1 : (⟨S1x256, .f32⟩ : BufTy).Contents (Elt F) → (⟨S50000x256, .f32⟩ : BufTy).Contents (Elt F)),
    StableHlo.binary main_v114 main_v116 main_v117 (mulf : (⟨S50000x256, .f32⟩ : BufTy).Contents (Elt F) → (⟨S50000x256, .f32⟩ : BufTy).Contents (Elt F) → (⟨S50000x256, .f32⟩ : BufTy).Contents (Elt F)),
    StableHlo.unary main_v101 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S50000x256 ![0, 1] bcast_S1x256_S50000x256_0_1 : (⟨S1x256, .f32⟩ : BufTy).Contents (Elt F) → (⟨S50000x256, .f32⟩ : BufTy).Contents (Elt F)),
    StableHlo.binary main_v117 main_v119 main_v120 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v120 : StableHlo.TRef sig ⟨S50000x256, .f32⟩) main_call5.v0 main_call5.v1 maximumf ]

/-- The buffers the stretch writes. -/
abbrev segA1_W : List (Ref sig .tc) := [main_c_9, main_v79, main_v80, main_c_10, main_v81, main_v82, main_v83, main_v84, main_v85, main_cst_11, main_v86, main_v87, main_v88, main_v89, main_v90, main_v91, main_v92, main_v93, main_v94, main_v95, main_v96, main_v97, main_v98, main_v99, main_v100, main_v101, main_cst_12, main_v102, main_cst_13, main_v103, main_v104, main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v105, main_v106, main_v107, main_v108, main_cst_15, main_v109, main_v110, main_v111, main_v112, main_v113, main_v114, main_v115, main_v116, main_v117, main_v118, main_v119, main_v120, main_call5_cst, main_call5_v0, main_v121]

set_option maxRecDepth 8192 in
set_option maxHeartbeats 4000000 in
theorem segA1_writes : (segA1 : List (HloOp τ sig (Elt F))).Forall fun op =>
    op.writes ⊆ (segA1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem segA1_keep (V : Valuation τ sig (Elt F)) {r : Ref sig .tc} (h : r ∉ segA1_W) :
    after segA1 V (no_index (Proc.devRef .tc r)) = V (Proc.devRef .tc r) :=
  after_of_writes_sub segA1 V segA1_writes h

set_option maxRecDepth 16384 in
set_option maxHeartbeats 8000000 in
/-- The stretch computes the first half of layer 1 of its input and the parameters. -/
theorem segA1_v121 (V : Valuation τ sig (Elt F)) :
    after segA1 V (no_index (Proc.devRef .tc main_v121)) = refA 1 slices_S3x128x256_S1x128x256_1_0_0 slices_S3x256_S1x256_1_0 (V (main_v78 : DevRef τ sig)) (V (main_v1 : DevRef τ sig)) (V (main_v3 : DevRef τ sig)) (V (main_arg3 : DevRef τ sig)) (V (main_arg4 : DevRef τ sig)) (V (main_arg5 : DevRef τ sig)) (V (main_arg6 : DevRef τ sig)) := by
  simp only [segA1]
  after_results_simp
  rfl

end Cert.ReferenceIdeal.RefValue

end
-- ==== Proof.RefSegB1.lean ====
/- The operation list below is a table read off the printed program text (proof/ReferenceIdeal.lean): a stretch of
   @main's straight line (the operations of a called function listed at its call over that call's record of buffers),
   with the list of the buffers the stretch writes.  Here: the second half of layer 1. -/
import proofs.«148746_j9251359555639_1_alg».proof.Proof.Gen.ReferenceIdeal
import Idealize.ShloMosaic.Lib.StableHlo.Run
import proofs.«148746_j9251359555639_1_alg».proof.Proof.RefFns

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The stretch's 59 operations, in order. -/
abbrev segB1 : List (HloOp τ sig (Elt F)) :=
  [ StableHlo.unary main_arg7 main_v122 ((extractStridedSlice S1x256x128 ![1, 0, 0] · slices_S3x256x128_S1x256x128_1_0_0) : (⟨S3x256x128, .f32⟩ : BufTy).Contents (Elt F) → (⟨S1x256x128, .f32⟩ : BufTy).Contents (Elt F)),
    StableHlo.reshape main_v122 main_v123 rfl shapeCasts_S1x256x128_S256x128,
    StableHlo.binary main_v121 main_v123 main_v124 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg8 main_v125 ((extractStridedSlice S1x128 ![1, 0] · slices_S3x128_S1x128_1_0) : (⟨S3x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (addf : (⟨S50000x128, .f32⟩ : BufTy).Contents (Elt F) → (⟨S50000x128, .f32⟩ : BufTy).Contents (Elt F) → (⟨S50000x128, .f32⟩ : BufTy).Contents (Elt F)),
    StableHlo.unary main_arg9 main_v130 ((extractStridedSlice S1x128 ![1, 0] · slices_S3x128_S1x128_1_0) : (⟨S3x128, .f32⟩ : BufTy).Contents (Elt F) → (⟨S1x128, .f32⟩ : BufTy).Contents (Elt F)),
    StableHlo.reshape main_v130 main_v131 rfl shapeCasts_S1x128_S128,
    StableHlo.unary main_arg10 main_v132 ((extractStridedSlice S1x128 ![1, 0] · slices_S3x128_S1x128_1_0) : (⟨S3x128, .f32⟩ : BufTy).Contents (Elt F) → (⟨S1x128, .f32⟩ : BufTy).Contents (Elt F)),
    StableHlo.reshape main_v132 main_v133 rfl shapeCasts_S1x128_S128,
    StableHlo.nullary main_cst_16 (constant S_ .f32 0x00000000#32),
    StableHlo.binary main_v129 main_cst_16 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v135 (broadcastInDim S128 ![] bcast_S_S128 : (⟨S_, .f32⟩ : BufTy).Contents (Elt F) → (⟨S128, .f32⟩ : BufTy).Contents (Elt F)),
    StableHlo.binary main_v134 main_v135 main_v136 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v129 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v129 : StableHlo.TRef sig ⟨S50000x128, .f32⟩) main_call6.v4 main_call6.v5 subf,
    StableHlo.TRef.binary main_call6.v5 main_call6.v5 main_call6.v6 mulf,
    StableHlo.TRef.unary (.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v136 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v139 main_v140 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v141 (broadcastInDim S128 ![] bcast_S_S128 : (⟨S_, .f32⟩ : BufTy).Contents (Elt F) → (⟨S128, .f32⟩ : BufTy).Contents (Elt F)),
    StableHlo.binary main_v137 main_v141 main_v142 (addf : (⟨S128, .f32⟩ : BufTy).Contents (Elt F) → (⟨S128, .f32⟩ : BufTy).Contents (Elt F) → (⟨S128, .f32⟩ : BufTy).Contents (Elt F)),
    StableHlo.unary main_v142 main_v143 (Host.rsqrt : (⟨S128, .f32⟩ : BufTy).Contents (Elt F) → (⟨S128, .f32⟩ : BufTy).Contents (Elt F)),
    StableHlo.unary main_v143 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v140 main_v145 main_v146 (mulf : (⟨S50000x128, .f32⟩ : BufTy).Contents (Elt F) → (⟨S50000x128, .f32⟩ : BufTy).Contents (Elt F) → (⟨S50000x128, .f32⟩ : BufTy).Contents (Elt F)),
    StableHlo.unary main_v131 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v146 main_v148 main_v149 (mulf : (⟨S50000x128, .f32⟩ : BufTy).Contents (Elt F) → (⟨S50000x128, .f32⟩ : BufTy).Contents (Elt F) → (⟨S50000x128, .f32⟩ : BufTy).Contents (Elt F)),
    StableHlo.unary main_v133 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S50000x128 ![0, 1] bcast_S1x128_S50000x128_0_1 : (⟨S1x128, .f32⟩ : BufTy).Contents (Elt F) → (⟨S50000x128, .f32⟩ : BufTy).Contents (Elt F)),
    StableHlo.binary main_v149 main_v151 main_v152 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v152 : StableHlo.TRef sig ⟨S50000x128, .f32⟩) main_call7.v0 main_call7.v1 maximumf ]

/-- The buffers the stretch writes. -/
abbrev segB1_W : List (Ref sig .tc) := [main_v122, main_v123, main_v124, main_v125, main_v126, main_v127, main_v128, main_v129, main_v130, main_v131, main_v132, main_v133, main_cst_16, main_v134, main_cst_17, main_v135, main_v136, main_c_18, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v137, main_v138, main_v139, main_v140, main_cst_19, main_v141, main_v142, main_v143, main_v144, main_v145, main_v146, main_v147, main_v148, main_v149, main_v150, main_v151, main_v152, main_call7_cst, main_call7_v0, main_v153]

set_option maxRecDepth 8192 in
set_option maxHeartbeats 4000000 in
theorem segB1_writes : (segB1 : List (HloOp τ sig (Elt F))).Forall fun op =>
    op.writes ⊆ (segB1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem segB1_keep (V : Valuation τ sig (Elt F)) {r : Ref sig .tc} (h : r ∉ segB1_W) :
    after segB1 V (no_index (Proc.devRef .tc r)) = V (Proc.devRef .tc r) :=
  after_of_writes_sub segB1 V segB1_writes h

set_option maxRecDepth 16384 in
set_option maxHeartbeats 8000000 in
/-- The stretch computes the second half of layer 1 of its input and the parameters. -/
theorem segB1_v153 (V : Valuation τ sig (Elt F)) :
    after segB1 V (no_index (Proc.devRef .tc main_v153)) = refB 1 slices_S3x256x128_S1x256x128_1_0_0 slices_S3x128_S1x128_1_0 (V (main_v121 : DevRef τ sig)) (V (main_arg7 : DevRef τ sig)) (V (main_arg8 : DevRef τ sig)) (V (main_arg9 : DevRef τ sig)) (V (main_arg10 : DevRef τ sig)) := by
  simp only [segB1]
  after_results_simp
  rfl

end Cert.ReferenceIdeal.RefValue

end
-- ==== Proof.RefSegA2.lean ====
/- The operation list below is a table read off the printed program text (proof/ReferenceIdeal.lean): a stretch of
   @main's straight line (the operations of a called function listed at its call over that call's record of buffers),
   with the list of the buffers the stretch writes.  Here: the first half of layer 2. -/
import proofs.«148746_j9251359555639_1_alg».proof.Proof.Gen.ReferenceIdeal
import Idealize.ShloMosaic.Lib.StableHlo.Run
import proofs.«148746_j9251359555639_1_alg».proof.Proof.RefFns

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The stretch's 73 operations, in order. -/
abbrev segA2 : List (HloOp τ sig (Elt F)) :=
  [ StableHlo.nullary main_c_20 (constantI S_ 32 0#32),
    StableHlo.unary main_c_20 main_v154 (broadcastInDim S800000 ![] bcast_S_S800000 : (⟨S_, .i32⟩ : BufTy).Contents (Elt F) → (⟨S800000, .i32⟩ : BufTy).Contents (Elt F)),
    StableHlo.binary main_v1 main_v154 main_v155 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v156 (broadcastInDim S800000 ![] bcast_S_S800000 : (⟨S_, .i32⟩ : BufTy).Contents (Elt F) → (⟨S800000, .i32⟩ : BufTy).Contents (Elt F)),
    StableHlo.binary main_v1 main_v156 main_v157 (addi : (⟨S800000, .i32⟩ : BufTy).Contents (Elt F) → (⟨S800000, .i32⟩ : BufTy).Contents (Elt F) → (⟨S800000, .i32⟩ : BufTy).Contents (Elt F)),
    StableHlo.ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v158 main_v159 (broadcastInDim S800000x1 ![0] bcast_S800000_S800000x1_0 : (⟨S800000, .i32⟩ : BufTy).Contents (Elt F) → (⟨S800000x1, .i32⟩ : BufTy).Contents (Elt F)),
    StableHlo.binary main_v153 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_22 (constant S_ .f32 0x00000000#32),
    StableHlo.unary main_cst_22 main_v161 (broadcastInDim S50000x128 ![] bcast_S_S50000x128 : (⟨S_, .f32⟩ : BufTy).Contents (Elt F) → (⟨S50000x128, .f32⟩ : BufTy).Contents (Elt F)),
    StableHlo.unary main_v3 main_v162 (broadcastInDim S800000x1 ![0] bcast_S800000_S800000x1_0 : (⟨S800000, .i32⟩ : BufTy).Contents (Elt F) → (⟨S800000x1, .i32⟩ : BufTy).Contents (Elt F)),
    StableHlo.ternary main_v161 main_v162 main_v160 main_v163 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v153 main_v163 main_v164 (addf : (⟨S50000x128, .f32⟩ : BufTy).Contents (Elt F) → (⟨S50000x128, .f32⟩ : BufTy).Contents (Elt F) → (⟨S50000x128, .f32⟩ : BufTy).Contents (Elt F)),
    StableHlo.unary main_arg3 main_v165 ((extractStridedSlice S1x128x256 ![2, 0, 0] · slices_S3x128x256_S1x128x256_2_0_0) : (⟨S3x128x256, .f32⟩ : BufTy).Contents (Elt F) → (⟨S1x128x256, .f32⟩ : BufTy).Contents (Elt F)),
    StableHlo.reshape main_v165 main_v166 rfl shapeCasts_S1x128x256_S128x256,
    StableHlo.binary main_v164 main_v166 main_v167 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v168 ((extractStridedSlice S1x256 ![2, 0] · slices_S3x256_S1x256_2_0) : (⟨S3x256, .f32⟩ : BufTy).Contents (Elt F) → (⟨S1x256, .f32⟩ : BufTy).Contents (Elt F)),
    StableHlo.reshape main_v168 main_v169 rfl shapeCasts_S1x256_S256,
    StableHlo.unary main_v169 main_v170 (broadcastInDim S1x256 ![1] bcast_S256_S1x256_1 : (⟨S256, .f32⟩ : BufTy).Contents (Elt F) → (⟨S1x256, .f32⟩ : BufTy).Contents (Elt F)),
    StableHlo.unary main_v170 main_v171 (broadcastInDim S50000x256 ![0, 1] bcast_S1x256_S50000x256_0_1 : (⟨S1x256, .f32⟩ : BufTy).Contents (Elt F) → (⟨S50000x256, .f32⟩ : BufTy).Contents (Elt F)),
    StableHlo.binary main_v167 main_v171 main_v172 (addf : (⟨S50000x256, .f32⟩ : BufTy).Contents (Elt F) → (⟨S50000x256, .f32⟩ : BufTy).Contents (Elt F) → (⟨S50000x256, .f32⟩ : BufTy).Contents (Elt F)),
    StableHlo.unary main_arg5 main_v173 ((extractStridedSlice S1x256 ![2, 0] · slices_S3x256_S1x256_2_0) : (⟨S3x256, .f32⟩ : BufTy).Contents (Elt F) → (⟨S1x256, .f32⟩ : BufTy).Contents (Elt F)),
    StableHlo.reshape main_v173 main_v174 rfl shapeCasts_S1x256_S256,
    StableHlo.unary main_arg6 main_v175 ((extractStridedSlice S1x256 ![2, 0] · slices_S3x256_S1x256_2_0) : (⟨S3x256, .f32⟩ : BufTy).Contents (Elt F) → (⟨S1x256, .f32⟩ : BufTy).Contents (Elt F)),
    StableHlo.reshape main_v175 main_v176 rfl shapeCasts_S1x256_S256,
    StableHlo.nullary main_cst_23 (constant S_ .f32 0x00000000#32),
    StableHlo.binary main_v172 main_cst_23 main_v177 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_24 (constant S_ .f32 0x47435000#32),
    StableHlo.unary main_cst_24 main_v178 (broadcastInDim S256 ![] bcast_S_S256 : (⟨S_, .f32⟩ : BufTy).Contents (Elt F) → (⟨S256, .f32⟩ : BufTy).Contents (Elt F)),
    StableHlo.binary main_v177 main_v178 main_v179 (Host.divf : (⟨S256, .f32⟩ : BufTy).Contents (Elt F) → (⟨S256, .f32⟩ : BufTy).Contents (Elt F) → (⟨S256, .f32⟩ : BufTy).Contents (Elt F)),
    StableHlo.nullary main_c_25 (constantI S_ 32 0#32),
    StableHlo.TRef.nullary main_call8.cst (constant S_ .f32 0x00000000#32),
    StableHlo.TRef.binary (.of main_v172 : StableHlo.TRef sig ⟨S50000x256, .f32⟩) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (.of main_v172 : StableHlo.TRef sig ⟨S50000x256, .f32⟩) main_call8.v4 main_call8.v5 subf,
    StableHlo.TRef.binary main_call8.v5 main_call8.v5 main_call8.v6 mulf,
    StableHlo.TRef.unary (.of main_c_25 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v179 main_v181 (broadcastInDim S1x256 ![1] bcast_S256_S1x256_1 : (⟨S256, .f32⟩ : BufTy).Contents (Elt F) → (⟨S1x256, .f32⟩ : BufTy).Contents (Elt F)),
    StableHlo.unary main_v181 main_v182 (broadcastInDim S50000x256 ![0, 1] bcast_S1x256_S50000x256_0_1 : (⟨S1x256, .f32⟩ : BufTy).Contents (Elt F) → (⟨S50000x256, .f32⟩ : BufTy).Contents (Elt F)),
    StableHlo.binary main_v172 main_v182 main_v183 (subf : (⟨S50000x256, .f32⟩ : BufTy).Contents (Elt F) → (⟨S50000x256, .f32⟩ : BufTy).Contents (Elt F) → (⟨S50000x256, .f32⟩ : BufTy).Contents (Elt F)),
    StableHlo.nullary main_cst_26 (constant S_ .f32 0x3727C5AC#32),
    StableHlo.unary main_cst_26 main_v184 (broadcastInDim S256 ![] bcast_S_S256 : (⟨S_, .f32⟩ : BufTy).Contents (Elt F) → (⟨S256, .f32⟩ : BufTy).Contents (Elt F)),
    StableHlo.binary main_v180 main_v184 main_v185 (addf : (⟨S256, .f32⟩ : BufTy).Contents (Elt F) → (⟨S256, .f32⟩ : BufTy).Contents (Elt F) → (⟨S256, .f32⟩ : BufTy).Contents (Elt F)),
    StableHlo.unary main_v185 main_v186 (Host.rsqrt : (⟨S256, .f32⟩ : BufTy).Contents (Elt F) → (⟨S256, .f32⟩ : BufTy).Contents (Elt F)),
    StableHlo.unary main_v186 main_v187 (broadcastInDim S1x256 ![1] bcast_S256_S1x256_1 : (⟨S256, .f32⟩ : BufTy).Contents (Elt F) → (⟨S1x256, .f32⟩ : BufTy).Contents (Elt F)),
    StableHlo.unary main_v187 main_v188 (broadcastInDim S50000x256 ![0, 1] bcast_S1x256_S50000x256_0_1 : (⟨S1x256, .f32⟩ : BufTy).Contents (Elt F) → (⟨S50000x256, .f32⟩ : BufTy).Contents (Elt F)),
    StableHlo.binary main_v183 main_v188 main_v189 (mulf : (⟨S50000x256, .f32⟩ : BufTy).Contents (Elt F) → (⟨S50000x256, .f32⟩ : BufTy).Contents (Elt F) → (⟨S50000x256, .f32⟩ : BufTy).Contents (Elt F)),
    StableHlo.unary main_v174 main_v190 (broadcastInDim S1x256 ![1] bcast_S256_S1x256_1 : (⟨S256, .f32⟩ : BufTy).Contents (Elt F) → (⟨S1x256, .f32⟩ : BufTy).Contents (Elt F)),
    StableHlo.unary main_v190 main_v191 (broadcastInDim S50000x256 ![0, 1] bcast_S1x256_S50000x256_0_1 : (⟨S1x256, .f32⟩ : BufTy).Contents (Elt F) → (⟨S50000x256, .f32⟩ : BufTy).Contents (Elt F)),
    StableHlo.binary main_v189 main_v191 main_v192 (mulf : (⟨S50000x256, .f32⟩ : BufTy).Contents (Elt F) → (⟨S50000x256, .f32⟩ : BufTy).Contents (Elt F) → (⟨S50000x256, .f32⟩ : BufTy).Contents (Elt F)),
    StableHlo.unary main_v176 main_v193 (broadcastInDim S1x256 ![1] bcast_S256_S1x256_1 : (⟨S256, .f32⟩ : BufTy).Contents (Elt F) → (⟨S1x256, .f32⟩ : BufTy).Contents (Elt F)),
    StableHlo.unary main_v193 main_v194 (broadcastInDim S50000x256 ![0, 1] bcast_S1x256_S50000x256_0_1 : (⟨S1x256, .f32⟩ : BufTy).Contents (Elt F) → (⟨S50000x256, .f32⟩ : BufTy).Contents (Elt F)),
    StableHlo.binary main_v192 main_v194 main_v195 (addf : (⟨S50000x256, .f32⟩ : BufTy).Contents (Elt F) → (⟨S50000x256, .f32⟩ : BufTy).Contents (Elt F) → (⟨S50000x256, .f32⟩ : BufTy).Contents (Elt F)),
    StableHlo.TRef.nullary main_call9.cst (constant S_ .f32 0x00000000#32),
    StableHlo.TRef.unary main_call9.cst main_call9.v0 (broadcastInDim S50000x256 ![] bcast_S_S50000x256),
    StableHlo.TRef.binary (.of main_v195 : StableHlo.TRef sig ⟨S50000x256, .f32⟩) main_call9.v0 main_call9.v1 maximumf ]

/-- The buffers the stretch writes. -/
abbrev segA2_W : List (Ref sig .tc) := [main_c_20, main_v154, main_v155, main_c_21, main_v156, main_v157, main_v158, main_v159, main_v160, main_cst_22, main_v161, main_v162, main_v163, main_v164, main_v165, main_v166, main_v167, main_v168, main_v169, main_v170, main_v171, main_v172, main_v173, main_v174, main_v175, main_v176, main_cst_23, main_v177, main_cst_24, main_v178, main_v179, main_c_25, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v180, main_v181, main_v182, main_v183, main_cst_26, main_v184, main_v185, main_v186, main_v187, main_v188, main_v189, main_v190, main_v191, main_v192, main_v193, main_v194, main_v195, main_call9_cst, main_call9_v0, main_v196]

set_option maxRecDepth 8192 in
set_option maxHeartbeats 4000000 in
theorem segA2_writes : (segA2 : List (HloOp τ sig (Elt F))).Forall fun op =>
    op.writes ⊆ (segA2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem segA2_keep (V : Valuation τ sig (Elt F)) {r : Ref sig .tc} (h : r ∉ segA2_W) :
    after segA2 V (no_index (Proc.devRef .tc r)) = V (Proc.devRef .tc r) :=
  after_of_writes_sub segA2 V segA2_writes h

set_option maxRecDepth 16384 in
set_option maxHeartbeats 8000000 in
/-- The stretch computes the first half of layer 2 of its input and the parameters. -/
theorem segA2_v196 (V : Valuation τ sig (Elt F)) :
    after segA2 V (no_index (Proc.devRef .tc main_v196)) = refA 2 slices_S3x128x256_S1x128x256_2_0_0 slices_S3x256_S1x256_2_0 (V (main_v153 : DevRef τ sig)) (V (main_v1 : DevRef τ sig)) (V (main_v3 : DevRef τ sig)) (V (main_arg3 : DevRef τ sig)) (V (main_arg4 : DevRef τ sig)) (V (main_arg5 : DevRef τ sig)) (V (main_arg6 : DevRef τ sig)) := by
  simp only [segA2]
  after_results_simp
  rfl

end Cert.ReferenceIdeal.RefValue

end
-- ==== Proof.RefSegB2.lean ====
/- The operation list below is a table read off the printed program text (proof/ReferenceIdeal.lean): a stretch of
   @main's straight line (the operations of a called function listed at its call over that call's record of buffers),
   with the list of the buffers the stretch writes.  Here: the second half of layer 2. -/
import proofs.«148746_j9251359555639_1_alg».proof.Proof.Gen.ReferenceIdeal
import Idealize.ShloMosaic.Lib.StableHlo.Run
import proofs.«148746_j9251359555639_1_alg».proof.Proof.RefFns

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The stretch's 56 operations, in order. -/
abbrev segB2 : List (HloOp τ sig (Elt F)) :=
  [ StableHlo.unary main_arg7 main_v197 ((extractStridedSlice S1x256x128 ![2, 0, 0] · slices_S3x256x128_S1x256x128_2_0_0) : (⟨S3x256x128, .f32⟩ : BufTy).Contents (Elt F) → (⟨S1x256x128, .f32⟩ : BufTy).Contents (Elt F)),
    StableHlo.reshape main_v197 main_v198 rfl shapeCasts_S1x256x128_S256x128,
    StableHlo.binary main_v196 main_v198 main_v199 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg8 main_v200 ((extractStridedSlice S1x128 ![2, 0] · slices_S3x128_S1x128_2_0) : (⟨S3x128, .f32⟩ : BufTy).Contents (Elt F) → (⟨S1x128, .f32⟩ : BufTy).Contents (Elt F)),
    StableHlo.reshape main_v200 main_v201 rfl shapeCasts_S1x128_S128,
    StableHlo.unary main_v201 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S50000x128 ![0, 1] bcast_S1x128_S50000x128_0_1 : (⟨S1x128, .f32⟩ : BufTy).Contents (Elt F) → (⟨S50000x128, .f32⟩ : BufTy).Contents (Elt F)),
    StableHlo.binary main_v199 main_v203 main_v204 (addf : (⟨S50000x128, .f32⟩ : BufTy).Contents (Elt F) → (⟨S50000x128, .f32⟩ : BufTy).Contents (Elt F) → (⟨S50000x128, .f32⟩ : BufTy).Contents (Elt F)),
    StableHlo.unary main_arg9 main_v205 ((extractStridedSlice S1x128 ![2, 0] · slices_S3x128_S1x128_2_0) : (⟨S3x128, .f32⟩ : BufTy).Contents (Elt F) → (⟨S1x128, .f32⟩ : BufTy).Contents (Elt F)),
    StableHlo.reshape main_v205 main_v206 rfl shapeCasts_S1x128_S128,
    StableHlo.unary main_arg10 main_v207 ((extractStridedSlice S1x128 ![2, 0] · slices_S3x128_S1x128_2_0) : (⟨S3x128, .f32⟩ : BufTy).Contents (Elt F) → (⟨S1x128, .f32⟩ : BufTy).Contents (Elt F)),
    StableHlo.reshape main_v207 main_v208 rfl shapeCasts_S1x128_S128,
    StableHlo.nullary main_cst_27 (constant S_ .f32 0x00000000#32),
    StableHlo.binary main_v204 main_cst_27 main_v209 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_28 (constant S_ .f32 0x47435000#32),
    StableHlo.unary main_cst_28 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary main_call10.cst (constant S_ .f32 0x00000000#32),
    StableHlo.TRef.binary (.of main_v204 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v204 : StableHlo.TRef sig ⟨S50000x128, .f32⟩) main_call10.v4 main_call10.v5 subf,
    StableHlo.TRef.binary main_call10.v5 main_call10.v5 main_call10.v6 mulf,
    StableHlo.TRef.unary (.of main_c_29 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v204 main_v214 main_v215 (subf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3727C5AC#32),
    StableHlo.unary main_cst_30 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v220 main_v221 (mulf : (⟨S50000x128, .f32⟩ : BufTy).Contents (Elt F) → (⟨S50000x128, .f32⟩ : BufTy).Contents (Elt F) → (⟨S50000x128, .f32⟩ : BufTy).Contents (Elt F)),
    StableHlo.unary main_v206 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (mulf : (⟨S50000x128, .f32⟩ : BufTy).Contents (Elt F) → (⟨S50000x128, .f32⟩ : BufTy).Contents (Elt F) → (⟨S50000x128, .f32⟩ : BufTy).Contents (Elt F)),
    StableHlo.unary main_v208 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v224 main_v226 main_v227 (addf : (⟨S50000x128, .f32⟩ : BufTy).Contents (Elt F) → (⟨S50000x128, .f32⟩ : BufTy).Contents (Elt F) → (⟨S50000x128, .f32⟩ : BufTy).Contents (Elt F)) ]

/-- The buffers the stretch writes. -/
abbrev segB2_W : List (Ref sig .tc) := [main_v197, main_v198, main_v199, main_v200, main_v201, main_v202, main_v203, main_v204, main_v205, main_v206, main_v207, main_v208, main_cst_27, main_v209, main_cst_28, main_v210, main_v211, main_c_29, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v212, main_v213, main_v214, main_v215, main_cst_30, main_v216, main_v217, main_v218, main_v219, main_v220, main_v221, main_v222, main_v223, main_v224, main_v225, main_v226, main_v227]

set_option maxRecDepth 8192 in
set_option maxHeartbeats 4000000 in
theorem segB2_writes : (segB2 : List (HloOp τ sig (Elt F))).Forall fun op =>
    op.writes ⊆ (segB2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem segB2_keep (V : Valuation τ sig (Elt F)) {r : Ref sig .tc} (h : r ∉ segB2_W) :
    after segB2 V (no_index (Proc.devRef .tc r)) = V (Proc.devRef .tc r) :=
  after_of_writes_sub segB2 V segB2_writes h

set_option maxRecDepth 16384 in
set_option maxHeartbeats 8000000 in
/-- The stretch computes the second half of layer 2 of its input and the parameters. -/
theorem segB2_v227 (V : Valuation τ sig (Elt F)) :
    after segB2 V (no_index (Proc.devRef .tc main_v227)) = refBpre 2 slices_S3x256x128_S1x256x128_2_0_0 slices_S3x128_S1x128_2_0 (V (main_v196 : DevRef τ sig)) (V (main_arg7 : DevRef τ sig)) (V (main_arg8 : DevRef τ sig)) (V (main_arg9 : DevRef τ sig)) (V (main_arg10 : DevRef τ sig)) := by
  simp only [segB2]
  after_results_simp
  rfl

end Cert.ReferenceIdeal.RefValue

end
-- ==== Proof.RefSegT.lean ====
/- The operation list below is a table read off the printed program text (proof/ReferenceIdeal.lean): a stretch of
   @main's straight line (the operations of a called function listed at its call over that call's record of buffers),
   with the list of the buffers the stretch writes.  Here: what follows the last layer. -/
import proofs.«148746_j9251359555639_1_alg».proof.Proof.Gen.ReferenceIdeal
import Idealize.ShloMosaic.Lib.StableHlo.Run
import proofs.«148746_j9251359555639_1_alg».proof.Proof.RefFns

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The stretch's 20 operations, in order. -/
abbrev segT : List (HloOp τ sig (Elt F)) :=
  [ StableHlo.nullary main_cst_31 (constant S_ .f32 0x00000000#32),
    StableHlo.unary main_cst_31 main_v228 (broadcastInDim S256x128 ![] bcast_S_S256x128 : (⟨S_, .f32⟩ : BufTy).Contents (Elt F) → (⟨S256x128, .f32⟩ : BufTy).Contents (Elt F)),
    StableHlo.unary main_arg2 main_v229 (broadcastInDim S50000x1 ![0] bcast_S50000_S50000x1_0 : (⟨S50000, .i32⟩ : BufTy).Contents (Elt F) → (⟨S50000x1, .i32⟩ : BufTy).Contents (Elt F)),
    StableHlo.ternary main_v228 main_v229 main_v227 main_v230 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    StableHlo.nullary main_cst_32 (constant S_ .f32 0x3F800000#32),
    StableHlo.unary main_cst_32 main_v231 (broadcastInDim S50000 ![] bcast_S_S50000 : (⟨S_, .f32⟩ : BufTy).Contents (Elt F) → (⟨S50000, .f32⟩ : BufTy).Contents (Elt F)),
    StableHlo.nullary main_cst_33 (constant S_ .f32 0x00000000#32),
    StableHlo.unary main_cst_33 main_v232 (broadcastInDim S256 ![] bcast_S_S256 : (⟨S_, .f32⟩ : BufTy).Contents (Elt F) → (⟨S256, .f32⟩ : BufTy).Contents (Elt F)),
    StableHlo.unary main_arg2 main_v233 (broadcastInDim S50000x1 ![0] bcast_S50000_S50000x1_0 : (⟨S50000, .i32⟩ : BufTy).Contents (Elt F) → (⟨S50000x1, .i32⟩ : BufTy).Contents (Elt F)),
    StableHlo.ternary main_v232 main_v233 main_v231 main_v234 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    StableHlo.nullary main_cst_34 (constant S_ .f32 0x3F800000#32),
    StableHlo.unary main_cst_34 main_v235 (broadcastInDim S256 ![] bcast_S_S256 : (⟨S_, .f32⟩ : BufTy).Contents (Elt F) → (⟨S256, .f32⟩ : BufTy).Contents (Elt F)),
    StableHlo.binary main_v234 main_v235 main_v236 (maximumf : (⟨S256, .f32⟩ : BufTy).Contents (Elt F) → (⟨S256, .f32⟩ : BufTy).Contents (Elt F) → (⟨S256, .f32⟩ : BufTy).Contents (Elt F)),
    StableHlo.unary main_v236 main_v237 (broadcastInDim S256x1 ![0] bcast_S256_S256x1_0 : (⟨S256, .f32⟩ : BufTy).Contents (Elt F) → (⟨S256x1, .f32⟩ : BufTy).Contents (Elt F)),
    StableHlo.unary main_v237 main_v238 (broadcastInDim S256x128 ![0, 1] bcast_S256x1_S256x128_0_1 : (⟨S256x1, .f32⟩ : BufTy).Contents (Elt F) → (⟨S256x128, .f32⟩ : BufTy).Contents (Elt F)),
    StableHlo.binary main_v230 main_v238 main_v239 (Host.divf : (⟨S256x128, .f32⟩ : BufTy).Contents (Elt F) → (⟨S256x128, .f32⟩ : BufTy).Contents (Elt F) → (⟨S256x128, .f32⟩ : BufTy).Contents (Elt F)),
    StableHlo.binary main_v239 main_arg11 main_v240 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    StableHlo.unary main_arg12 main_v241 (broadcastInDim S1x10 ![1] bcast_S10_S1x10_1 : (⟨S10, .f32⟩ : BufTy).Contents (Elt F) → (⟨S1x10, .f32⟩ : BufTy).Contents (Elt F)),
    StableHlo.unary main_v241 main_v242 (broadcastInDim S256x10 ![0, 1] bcast_S1x10_S256x10_0_1 : (⟨S1x10, .f32⟩ : BufTy).Contents (Elt F) → (⟨S256x10, .f32⟩ : BufTy).Contents (Elt F)),
    StableHlo.binary main_v240 main_v242 main_v243 (addf : (⟨S256x10, .f32⟩ : BufTy).Contents (Elt F) → (⟨S256x10, .f32⟩ : BufTy).Contents (Elt F) → (⟨S256x10, .f32⟩ : BufTy).Contents (Elt F)) ]

/-- The buffers the stretch writes. -/
abbrev segT_W : List (Ref sig .tc) := [main_cst_31, main_v228, main_v229, main_v230, main_cst_32, main_v231, main_cst_33, main_v232, main_v233, main_v234, main_cst_34, main_v235, main_v236, main_v237, main_v238, main_v239, main_v240, main_v241, main_v242, main_v243]

set_option maxRecDepth 8192 in
set_option maxHeartbeats 4000000 in
theorem segT_writes : (segT : List (HloOp τ sig (Elt F))).Forall fun op =>
    op.writes ⊆ (segT_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem segT_keep (V : Valuation τ sig (Elt F)) {r : Ref sig .tc} (h : r ∉ segT_W) :
    after segT V (no_index (Proc.devRef .tc r)) = V (Proc.devRef .tc r) :=
  after_of_writes_sub segT V segT_writes h

set_option maxRecDepth 16384 in
set_option maxHeartbeats 8000000 in
/-- The stretch computes the tail of the last layer's output. -/
theorem segT_v243 (V : Valuation τ sig (Elt F)) :
    after segT V (no_index (Proc.devRef .tc main_v243)) = refTail (V (main_v227 : DevRef τ sig)) (V (main_arg2 : DevRef τ sig)) (V (main_arg11 : DevRef τ sig)) (V (main_arg12 : DevRef τ sig)) := by
  simp only [segT]
  after_results_simp
  rfl

end Cert.ReferenceIdeal.RefValue

end
-- ==== Proof.RefLayer.lean ====
/-
  What one layer of the reference computes on a real input.

  If the layer's input array is a real matrix `hr` and its parameter arrays are real, then every array of the layer is
  real, entry by entry: the looked-up rows are rows of `hr`; their sum over the edges landing on a node is a finite sum
  of reals; a product of a real matrix with a real matrix is one; the normalisation of a real matrix with real scale and
  shift is real, because its divisor 50000 is not zero and the quantity under the reciprocal square root, a mean of
  squares plus a positive ε, is positive; `max(·, 0)` of a real is real.  The real matrix the layer ends with is the layer
  `Cert.Spec.layerDev` — the variance as the mean squared deviation — over the graph's edges as `Cert.Edges` reads them.
-/
import proofs.«148746_j9251359555639_1_alg».proof.Proof.RefFns
import proofs.«148746_j9251359555639_1_alg».proof.Proof.Edges
import proofs.«148746_j9251359555639_1_alg».proof.Proof.LibEdgeRows
import proofs.«148746_j9251359555639_1_alg».proof.Proof.LibMatDot

noncomputable section

namespace Cert.ReferenceIdeal.RefValue

open Cert.ReferenceIdeal Idealize.ShloMosaic Idealize.ShloMosaic.ValueIdx
open Facts₀
open scoped BigOperators

/-! ## The parameters of layer `l` read at an index -/

theorem rowH_apply (l : Fin 3) (hs : S3x256.Slices ![l.val, 0] S1x256) (b : FVec Ideal S3x256 .f32) (q : Fin 256) :
    rowH l.val hs b (ix1 q) = b (ix2 l q) :=
  (shapeCast_1a_a_apply _ _ q).trans (slice2_axis0_apply l.val b hs (0 : Fin 1) q l (Nat.add_zero _).symm)

theorem rowD_apply (l : Fin 3) (hs : S3x128.Slices ![l.val, 0] S1x128) (b : FVec Ideal S3x128 .f32) (q : Fin 128) :
    rowD l.val hs b (ix1 q) = b (ix2 l q) :=
  (shapeCast_1a_a_apply _ _ q).trans (slice2_axis0_apply l.val b hs (0 : Fin 1) q l (Nat.add_zero _).symm)

theorem matW1_apply (l : Fin 3) (hs : S3x128x256.Slices ![l.val, 0, 0] S1x128x256) (W : FVec Ideal S3x128x256 .f32)
    (k : Fin 128) (q : Fin 256) : matW1 l.val hs W (ix2 k q) = W (ix3 l k q) :=
  (shapeCast_1ab_ab_apply _ _ k q).trans (extractStridedSlice_apply _ W hs _ (ix3 l k q) fun a => by
    match a with
    | ⟨0, _⟩ => exact (Nat.add_zero _).symm
    | ⟨1, _⟩ => exact (Nat.zero_add _).symm
    | ⟨2, _⟩ => exact (Nat.zero_add _).symm)

theorem matW2_apply (l : Fin 3) (hs : S3x256x128.Slices ![l.val, 0, 0] S1x256x128) (W : FVec Ideal S3x256x128 .f32)
    (k : Fin 256) (q : Fin 128) : matW2 l.val hs W (ix2 k q) = W (ix3 l k q) :=
  (shapeCast_1ab_ab_apply _ _ k q).trans (extractStridedSlice_apply _ W hs _ (ix3 l k q) fun a => by
    match a with
    | ⟨0, _⟩ => exact (Nat.add_zero _).symm
    | ⟨1, _⟩ => exact (Nat.zero_add _).symm
    | ⟨2, _⟩ => exact (Nat.zero_add _).symm)

/-! ## The edge columns -/

theorem srcWords_apply (ei : Cert.Edges.EI) (e : Fin 800000) : srcWords ei (ix1 e) = Cert.Edges.srcw ei e :=
  (shapeCast_1a_a_apply _ _ e).trans (slice2_axis0_apply 0 ei slices_S2x800000_S1x800000_0_0 (0 : Fin 1) e (0 : Fin 2) rfl)

theorem dstWords_apply (ei : Cert.Edges.EI) (e : Fin 800000) : dstWords ei (ix1 e) = Cert.Edges.dstw ei e :=
  (shapeCast_1a_a_apply _ _ e).trans (slice2_axis0_apply 1 ei slices_S2x800000_S1x800000_1_0 (0 : Fin 1) e (1 : Fin 2) rfl)

/-- A vector as a column reads, at `(e, 0)`, the vector at `e`. -/
theorem col_apply {α : Type} (v : S800000.Idx → α) (e : Fin 800000) :
    broadcastInDim S800000x1 ![0] bcast_S800000_S800000x1_0 v (ix2 e (0 : Fin 1)) = v (ix1 e) :=
  broadcastInDim_apply _ _ v _ (ix1 e) fun a => by
    match a with
    | ⟨0, _⟩ =>
      show e.val = if (800000 : ℕ) = 1 then 0 else e.val
      exact (if_neg (by norm_num)).symm

theorem srcCol_apply (v1 : IVec S800000 32) (e : Fin 800000) :
    srcCol v1 (ix2 e (0 : Fin 1)) = Cert.Edges.wrap (v1 (ix1 e)) := by
  unfold srcCol
  rw [col_apply]
  rfl

theorem dstCol_apply (v3 : IVec S800000 32) (e : Fin 800000) : dstCol v3 (ix2 e (0 : Fin 1)) = v3 (ix1 e) :=
  col_apply v3 e

/-! ## The neighbour sums of a real matrix -/

theorem refAgg_apply (ei : Cert.Edges.EI) (h : FVec Ideal S50000x128 .f32) (hr : Cert.Spec.Mat 50000 128)
    (hh : ∀ p k, h (ix2 p k) = ((hr p k : ℝ) : EReal)) (p : Fin 50000) (k : Fin 128) :
    refAgg h (srcWords ei) (dstWords ei) (ix2 p k)
      = ((Cert.Spec.agg (Cert.Edges.land ei) (Cert.Edges.src ei) hr p k : ℝ) : EReal) := by
  unfold refAgg
  refine (Cert.Lib.scatterAdd_rowsScatter_apply scatter_S50000x128_S800000x1_S800000x128_1_0_0_1_wf _ _ _ p k).trans ?_
  rw [bcast0_apply, constant_apply, Cert.Consts.ofBits_zero, zero_add]
  unfold Cert.Spec.agg
  rw [coe_sum_finset]
  have hland : (Finset.univ.filter fun e : Fin 800000 => (dstCol (dstWords ei) (ix2 e (0 : Fin 1))).toInt = (p.val : ℤ))
      = Cert.Edges.land ei p := by
    unfold Cert.Edges.land
    refine Finset.filter_congr fun e _ => ?_
    rw [dstCol_apply, dstWords_apply]
  rw [hland]
  refine Finset.sum_congr rfl fun e _ => ?_
  refine (Cert.Lib.gather_rowsTake_apply (by norm_num) gather_S50000x128_S800000x1_S800000x128_1_0_n_n_0_1_1128_wf h _ e k).trans ?_
  rw [← hh]
  refine congrArg h (congrArg (fun i => ix2 i k) (Fin.ext ?_))
  show min (srcCol (srcWords ei) (ix2 e (0 : Fin 1))).toInt.toNat (50000 - 1) = (Cert.Edges.src ei e).val
  rw [srcCol_apply, srcWords_apply]
  rfl

/-! ## A linear map of a real matrix -/

/-- Rows times columns plus a bias row, on reals. -/
theorem lin_apply {K W : ℕ} (wf : DotDims.WF ⟨2, ![50000, K]⟩ ⟨2, ![K, W]⟩ ⟨2, ![50000, W]⟩ [1] [0] [0] [1] [] [])
    (fx : BnFacts W) (x : FVec Ideal ⟨2, ![50000, K]⟩ .f32) (M : FVec Ideal ⟨2, ![K, W]⟩ .f32) (b : FVec Ideal (SH W) .f32)
    (xr : Cert.Spec.Mat 50000 K) (Mr : Cert.Spec.Mat K W) (br : Fin W → ℝ)
    (hx : ∀ p k, x (ix2 p k) = ((xr p k : ℝ) : EReal)) (hM : ∀ k q, M (ix2 k q) = ((Mr k q : ℝ) : EReal))
    (hb : ∀ q, b (ix1 q) = ((br q : ℝ) : EReal)) (p : Fin 50000) (q : Fin W) :
    addf (Host.dotGeneral (Cert.Lib.matDot wf) none x M) (rowsOf fx b) (ix2 p q)
      = ((Cert.Spec.lin xr Mr br p q : ℝ) : EReal) := by
  rw [addf_apply, rowsOf_apply, hb]
  refine (congrArg (· + ((br q : ℝ) : EReal)) (Cert.Lib.dotGeneral_plain_apply wf none .single x M p q)).trans ?_
  unfold Cert.Spec.lin
  rw [EReal.coe_add, Cert.Lib.coe_sum_univ]
  refine congrArg (· + ((br q : ℝ) : EReal)) (Finset.sum_congr rfl fun k _ => ?_)
  rw [hx, hM, EReal.coe_mul]

/-! ## The two halves of a layer -/

variable (ei : Cert.Edges.EI) (l : Fin 3)

/-- The first half of layer `l` on a real input. -/
theorem refA_apply (hW : S3x128x256.Slices ![l.val, 0, 0] S1x128x256) (hb : S3x256.Slices ![l.val, 0] S1x256)
    (h : FVec Ideal S50000x128 .f32) (W1 : FVec Ideal S3x128x256 .f32) (b1 g1 bt1 : FVec Ideal S3x256 .f32)
    (hr : Cert.Spec.Mat 50000 128) (W1r : Fin 3 → Cert.Spec.Mat 128 256) (b1r g1r bt1r : Fin 3 → Fin 256 → ℝ)
    (hh : ∀ p k, h (ix2 p k) = ((hr p k : ℝ) : EReal))
    (hW1 : ∀ l k q, W1 (ix3 l k q) = ((W1r l k q : ℝ) : EReal)) (hb1 : ∀ l q, b1 (ix2 l q) = ((b1r l q : ℝ) : EReal))
    (hg1 : ∀ l q, g1 (ix2 l q) = ((g1r l q : ℝ) : EReal)) (hbt1 : ∀ l q, bt1 (ix2 l q) = ((bt1r l q : ℝ) : EReal))
    (p : Fin 50000) (q : Fin 256) :
    refA l.val hW hb h (srcWords ei) (dstWords ei) W1 b1 g1 bt1 (ix2 p q)
      = ((Cert.Spec.relu (Cert.Spec.bnDev 50000 Cert.Consts.eps (g1r l) (bt1r l)
          (Cert.Spec.lin (Cert.Spec.addM hr (Cert.Spec.agg (Cert.Edges.land ei) (Cert.Edges.src ei) hr)) (W1r l) (b1r l))) p q : ℝ) : EReal) := by
  unfold refA
  refine reluOf_apply fx256 _ _ (fun p q => ?_) p q
  refine bnOf_apply fx256 _ _ _ _ (g1r l) (bt1r l) (fun p q => ?_) (fun q => ?_) (fun q => ?_) p q
  · refine lin_apply dot_S50000x128_S128x256_S50000x256_1_0_0_1_n_n_wf fx256 _ _ _ _ (W1r l) (b1r l) (fun p k => ?_)
      (fun k q => ?_) (fun q => ?_) p q
    · rw [addf_apply, hh, refAgg_apply ei h hr hh, ← EReal.coe_add]
      rfl
    · rw [matW1_apply, hW1]
    · rw [rowH_apply, hb1]
  · rw [rowH_apply, hg1]
  · rw [rowH_apply, hbt1]

/-- The second half of layer `l`, before the closing `max(·, 0)`, on a real input. -/
theorem refBpre_apply (hW : S3x256x128.Slices ![l.val, 0, 0] S1x256x128) (hb : S3x128.Slices ![l.val, 0] S1x128)
    (y : FVec Ideal S50000x256 .f32) (W2 : FVec Ideal S3x256x128 .f32) (b2 g2 bt2 : FVec Ideal S3x128 .f32)
    (yr : Cert.Spec.Mat 50000 256) (W2r : Fin 3 → Cert.Spec.Mat 256 128) (b2r g2r bt2r : Fin 3 → Fin 128 → ℝ)
    (hy : ∀ p k, y (ix2 p k) = ((yr p k : ℝ) : EReal))
    (hW2 : ∀ l k q, W2 (ix3 l k q) = ((W2r l k q : ℝ) : EReal)) (hb2 : ∀ l q, b2 (ix2 l q) = ((b2r l q : ℝ) : EReal))
    (hg2 : ∀ l q, g2 (ix2 l q) = ((g2r l q : ℝ) : EReal)) (hbt2 : ∀ l q, bt2 (ix2 l q) = ((bt2r l q : ℝ) : EReal))
    (p : Fin 50000) (q : Fin 128) :
    refBpre l.val hW hb y W2 b2 g2 bt2 (ix2 p q)
      = ((Cert.Spec.bnDev 50000 Cert.Consts.eps (g2r l) (bt2r l) (Cert.Spec.lin yr (W2r l) (b2r l)) p q : ℝ) : EReal) := by
  unfold refBpre
  refine bnOf_apply fx128 _ _ _ _ (g2r l) (bt2r l) (fun p q => ?_) (fun q => ?_) (fun q => ?_) p q
  · refine lin_apply dot_S50000x256_S256x128_S50000x128_1_0_0_1_n_n_wf fx128 _ _ _ _ (W2r l) (b2r l) hy
      (fun k q => ?_) (fun q => ?_) p q
    · rw [matW2_apply, hW2]
    · rw [rowD_apply, hb2]
  · rw [rowD_apply, hg2]
  · rw [rowD_apply, hbt2]

/-! ## A whole layer -/

section Layer

variable {F : FTy → Type} [FloatOps F]

/-- Layer `l` of the reference, not the last: both halves, the edge words cut out of the edge list. -/
def refLayer (l : ℕ) (hW1 : S3x128x256.Slices ![l, 0, 0] S1x128x256) (hb1 : S3x256.Slices ![l, 0] S1x256)
    (hW2 : S3x256x128.Slices ![l, 0, 0] S1x256x128) (hb2 : S3x128.Slices ![l, 0] S1x128)
    (h : FVec F S50000x128 .f32) (ei : IVec S2x800000 32) (W1 : FVec F S3x128x256 .f32) (b1 g1 bt1 : FVec F S3x256 .f32)
    (W2 : FVec F S3x256x128 .f32) (b2 g2 bt2 : FVec F S3x128 .f32) : FVec F S50000x128 .f32 :=
  refB l hW2 hb2 (refA l hW1 hb1 h (srcWords ei) (dstWords ei) W1 b1 g1 bt1) W2 b2 g2 bt2

/-- The last layer: no closing `max(·, 0)`. -/
def refLayerLast (l : ℕ) (hW1 : S3x128x256.Slices ![l, 0, 0] S1x128x256) (hb1 : S3x256.Slices ![l, 0] S1x256)
    (hW2 : S3x256x128.Slices ![l, 0, 0] S1x256x128) (hb2 : S3x128.Slices ![l, 0] S1x128)
    (h : FVec F S50000x128 .f32) (ei : IVec S2x800000 32) (W1 : FVec F S3x128x256 .f32) (b1 g1 bt1 : FVec F S3x256 .f32)
    (W2 : FVec F S3x256x128 .f32) (b2 g2 bt2 : FVec F S3x128 .f32) : FVec F S50000x128 .f32 :=
  refBpre l hW2 hb2 (refA l hW1 hb1 h (srcWords ei) (dstWords ei) W1 b1 g1 bt1) W2 b2 g2 bt2

end Layer

section LayerReal

variable (hW1s : S3x128x256.Slices ![l.val, 0, 0] S1x128x256) (hb1s : S3x256.Slices ![l.val, 0] S1x256)
  (hW2s : S3x256x128.Slices ![l.val, 0, 0] S1x256x128) (hb2s : S3x128.Slices ![l.val, 0] S1x128)
  (h : FVec Ideal S50000x128 .f32) (W1 : FVec Ideal S3x128x256 .f32) (b1 g1 bt1 : FVec Ideal S3x256 .f32)
  (W2 : FVec Ideal S3x256x128 .f32) (b2 g2 bt2 : FVec Ideal S3x128 .f32)
  (hr : Cert.Spec.Mat 50000 128) (W1r : Fin 3 → Cert.Spec.Mat 128 256) (b1r g1r bt1r : Fin 3 → Fin 256 → ℝ)
  (W2r : Fin 3 → Cert.Spec.Mat 256 128) (b2r g2r bt2r : Fin 3 → Fin 128 → ℝ)
  (hh : ∀ p k, h (ix2 p k) = ((hr p k : ℝ) : EReal))
  (hW1 : ∀ l k q, W1 (ix3 l k q) = ((W1r l k q : ℝ) : EReal)) (hb1 : ∀ l q, b1 (ix2 l q) = ((b1r l q : ℝ) : EReal))
  (hg1 : ∀ l q, g1 (ix2 l q) = ((g1r l q : ℝ) : EReal)) (hbt1 : ∀ l q, bt1 (ix2 l q) = ((bt1r l q : ℝ) : EReal))
  (hW2 : ∀ l k q, W2 (ix3 l k q) = ((W2r l k q : ℝ) : EReal)) (hb2 : ∀ l q, b2 (ix2 l q) = ((b2r l q : ℝ) : EReal))
  (hg2 : ∀ l q, g2 (ix2 l q) = ((g2r l q : ℝ) : EReal)) (hbt2 : ∀ l q, bt2 (ix2 l q) = ((bt2r l q : ℝ) : EReal))

include hh hW1 hb1 hg1 hbt1 hW2 hb2 hg2 hbt2

/-- A layer that is not the last, on a real input with real parameters: every entry of its output is the real layer's. -/
theorem refLayer_apply (p : Fin 50000) (k : Fin 128) :
    refLayer l.val hW1s hb1s hW2s hb2s h ei W1 b1 g1 bt1 W2 b2 g2 bt2 (ix2 p k)
      = ((Cert.Spec.layerDev 50000 Cert.Consts.eps false (Cert.Edges.land ei) (Cert.Edges.src ei)
          (W1r l) (b1r l) (g1r l) (bt1r l) (W2r l) (b2r l) (g2r l) (bt2r l) hr p k : ℝ) : EReal) := by
  unfold refLayer refB
  refine (reluOf_apply fx128 _ _ (fun p k => ?_) p k).trans rfl
  exact refBpre_apply l hW2s hb2s _ W2 b2 g2 bt2 _ W2r b2r g2r bt2r
    (fun p q => refA_apply ei l hW1s hb1s h W1 b1 g1 bt1 hr W1r b1r g1r bt1r hh hW1 hb1 hg1 hbt1 p q) hW2 hb2 hg2 hbt2 p k

/-- The last layer likewise, without the closing `max(·, 0)`. -/
theorem refLayerLast_apply (p : Fin 50000) (k : Fin 128) :
    refLayerLast l.val hW1s hb1s hW2s hb2s h ei W1 b1 g1 bt1 W2 b2 g2 bt2 (ix2 p k)
      = ((Cert.Spec.layerDev 50000 Cert.Consts.eps true (Cert.Edges.land ei) (Cert.Edges.src ei)
          (W1r l) (b1r l) (g1r l) (bt1r l) (W2r l) (b2r l) (g2r l) (bt2r l) hr p k : ℝ) : EReal) := by
  unfold refLayerLast
  exact (refBpre_apply l hW2s hb2s _ W2 b2 g2 bt2 _ W2r b2r g2r bt2r
    (fun p q => refA_apply ei l hW1s hb1s h W1 b1 g1 bt1 hr W1r b1r g1r bt1r hh hW1 hb1 hg1 hbt1 p q) hW2 hb2 hg2 hbt2 p k).trans rfl

end LayerReal

end Cert.ReferenceIdeal.RefValue

end
-- ==== Proof.RefValue.lean ====
/-
  The reference's result as a function of its arguments.

  @main's straight line is eight stretches one after the other: the edge words, the two halves of each of the three
  layers, and the tail.  Each stretch computes its named array function of the buffers it reads and leaves every other
  buffer alone; so the result buffer ends at the tail of the last layer of the second layer of the first layer of the
  node features, every function applied to the launch contents of the arguments, and the arguments end as they started.
  On the extended reals, for real node features and real layer parameters, the array the tail is applied to is, entry
  by entry, the real three-layer network `Cert.Spec.layerDev` composed three times.
-/
import proofs.«148746_j9251359555639_1_alg».proof.Proof.RefRun
import proofs.«148746_j9251359555639_1_alg».proof.Proof.RefSegP
import proofs.«148746_j9251359555639_1_alg».proof.Proof.RefSegA0
import proofs.«148746_j9251359555639_1_alg».proof.Proof.RefSegB0
import proofs.«148746_j9251359555639_1_alg».proof.Proof.RefSegA1
import proofs.«148746_j9251359555639_1_alg».proof.Proof.RefSegB1
import proofs.«148746_j9251359555639_1_alg».proof.Proof.RefSegA2
import proofs.«148746_j9251359555639_1_alg».proof.Proof.RefSegB2
import proofs.«148746_j9251359555639_1_alg».proof.Proof.RefSegT
import proofs.«148746_j9251359555639_1_alg».proof.Proof.RefLayer

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

section Run

variable {F : FTy → Type} [FloatOps F]

set_option maxRecDepth 65536 in
/-- The whole line is the stretches one after the other. -/
theorem ops_segs : (ops : List (HloOp τ sig (Elt F)))
    = segP ++ (segA0 ++ (segB0 ++ (segA1 ++ (segB1 ++ (segA2 ++ (segB2 ++ segT)))))) := rfl

/-- The three layers of the reference applied to the node features. -/
def refLayers (x : FVec F S50000x128 .f32) (ei : IVec S2x800000 32) (W1 : FVec F S3x128x256 .f32)
    (b1 g1 bt1 : FVec F S3x256 .f32) (W2 : FVec F S3x256x128 .f32) (b2 g2 bt2 : FVec F S3x128 .f32) : FVec F S50000x128 .f32 :=
  refLayerLast 2 slices_S3x128x256_S1x128x256_2_0_0 slices_S3x256_S1x256_2_0 slices_S3x256x128_S1x256x128_2_0_0 slices_S3x128_S1x128_2_0
    (refLayer 1 slices_S3x128x256_S1x128x256_1_0_0 slices_S3x256_S1x256_1_0 slices_S3x256x128_S1x256x128_1_0_0 slices_S3x128_S1x128_1_0
      (refLayer 0 slices_S3x128x256_S1x128x256_0_0_0 slices_S3x256_S1x256_0_0 slices_S3x256x128_S1x256x128_0_0_0 slices_S3x128_S1x128_0_0
        x ei W1 b1 g1 bt1 W2 b2 g2 bt2)
      ei W1 b1 g1 bt1 W2 b2 g2 bt2)
    ei W1 b1 g1 bt1 W2 b2 g2 bt2

/-- The reference's result: the tail of the three layers. -/
def refOut (x : FVec F S50000x128 .f32) (ei : IVec S2x800000 32) (batch : IVec S50000 32) (W1 : FVec F S3x128x256 .f32)
    (b1 g1 bt1 : FVec F S3x256 .f32) (W2 : FVec F S3x256x128 .f32) (b2 g2 bt2 : FVec F S3x128 .f32)
    (Wc : FVec F S128x10 .f32) (bc : FVec F S10 .f32) : FVec F S256x10 .f32 :=
  refTail (refLayers x ei W1 b1 g1 bt1 W2 b2 g2 bt2) batch Wc bc

set_option maxRecDepth 16384 in
set_option maxHeartbeats 4000000 in
/-- The result buffer after the whole line, from any contents. -/
theorem out_eq (V : Valuation τ sig (Elt F)) :
    after ops V (main_v243 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [ops_segs]
  simp only [after_app]
  simp (disch := decide) only [segT_v243, segB2_v227, segA2_v196, segB1_v153, segA1_v121, segB0_v78, segA0_v46, segP_v1, segP_v3,
    segT_keep, segB2_keep, segA2_keep, segB1_keep, segA1_keep, segB0_keep, segA0_keep, segP_keep]
  rfl

/-- A buffer no stretch writes ends as it started. -/
theorem ops_keep (V : Valuation τ sig (Elt F)) {r : Ref sig .tc} (hP : r ∉ segP_W) (hA0 : r ∉ segA0_W) (hB0 : r ∉ segB0_W)
    (hA1 : r ∉ segA1_W) (hB1 : r ∉ segB1_W) (hA2 : r ∉ segA2_W) (hB2 : r ∉ segB2_W) (hT : r ∉ segT_W) :
    after ops V (Proc.devRef .tc r) = V (Proc.devRef .tc r) := by
  rw [ops_segs]
  simp only [after_app]
  exact (segT_keep _ hT).trans ((segB2_keep _ hB2).trans ((segA2_keep _ hA2).trans ((segB1_keep _ hB1).trans
    ((segA1_keep _ hA1).trans ((segB0_keep _ hB0).trans ((segA0_keep _ hA0).trans (segP_keep _ hP)))))))

/-- The run, read back: every weakly fair execution of @main terminates with the result buffer at `refOut` of the
    arguments' launch contents, and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v243)
          = refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v243).trans (out_eq _),
      (h c main_arg0).trans (ops_keep _ (by decide) (by decide) (by decide) (by decide) (by decide) (by decide) (by decide) (by decide)),
      (h c main_arg1).trans (ops_keep _ (by decide) (by decide) (by decide) (by decide) (by decide) (by decide) (by decide) (by decide)),
      (h c main_arg2).trans (ops_keep _ (by decide) (by decide) (by decide) (by decide) (by decide) (by decide) (by decide) (by decide)),
      (h c main_arg3).trans (ops_keep _ (by decide) (by decide) (by decide) (by decide) (by decide) (by decide) (by decide) (by decide)),
      (h c main_arg4).trans (ops_keep _ (by decide) (by decide) (by decide) (by decide) (by decide) (by decide) (by decide) (by decide)),
      (h c main_arg5).trans (ops_keep _ (by decide) (by decide) (by decide) (by decide) (by decide) (by decide) (by decide) (by decide)),
      (h c main_arg6).trans (ops_keep _ (by decide) (by decide) (by decide) (by decide) (by decide) (by decide) (by decide) (by decide)),
      (h c main_arg7).trans (ops_keep _ (by decide) (by decide) (by decide) (by decide) (by decide) (by decide) (by decide) (by decide)),
      (h c main_arg8).trans (ops_keep _ (by decide) (by decide) (by decide) (by decide) (by decide) (by decide) (by decide) (by decide)),
      (h c main_arg9).trans (ops_keep _ (by decide) (by decide) (by decide) (by decide) (by decide) (by decide) (by decide) (by decide)),
      (h c main_arg10).trans (ops_keep _ (by decide) (by decide) (by decide) (by decide) (by decide) (by decide) (by decide) (by decide)),
      (h c main_arg11).trans (ops_keep _ (by decide) (by decide) (by decide) (by decide) (by decide) (by decide) (by decide) (by decide)),
      (h c main_arg12).trans (ops_keep _ (by decide) (by decide) (by decide) (by decide) (by decide) (by decide) (by decide) (by decide))⟩)
    (run_main m ρ)

end Run

/-! ## The three layers on real inputs -/

section Real

open Cert.Spec in
/-- The real network's three layers. -/
def netLayers (land : Fin 50000 → Finset (Fin 800000)) (src : Fin 800000 → Fin 50000)
    (W1r : Fin 3 → Cert.Spec.Mat 128 256) (b1r g1r bt1r : Fin 3 → Fin 256 → ℝ)
    (W2r : Fin 3 → Cert.Spec.Mat 256 128) (b2r g2r bt2r : Fin 3 → Fin 128 → ℝ) (xr : Cert.Spec.Mat 50000 128) :
    Cert.Spec.Mat 50000 128 :=
  layerDev 50000 Cert.Consts.eps true land src (W1r 2) (b1r 2) (g1r 2) (bt1r 2) (W2r 2) (b2r 2) (g2r 2) (bt2r 2)
    (layerDev 50000 Cert.Consts.eps false land src (W1r 1) (b1r 1) (g1r 1) (bt1r 1) (W2r 1) (b2r 1) (g2r 1) (bt2r 1)
      (layerDev 50000 Cert.Consts.eps false land src (W1r 0) (b1r 0) (g1r 0) (bt1r 0) (W2r 0) (b2r 0) (g2r 0) (bt2r 0) xr))

/-- For real node features and real parameters the array the tail is applied to is the real network, entry by entry. -/
theorem refLayers_apply (ei : Cert.Edges.EI) (x : FVec Ideal S50000x128 .f32) (W1 : FVec Ideal S3x128x256 .f32)
    (b1 g1 bt1 : FVec Ideal S3x256 .f32) (W2 : FVec Ideal S3x256x128 .f32) (b2 g2 bt2 : FVec Ideal S3x128 .f32)
    (xr : Cert.Spec.Mat 50000 128) (W1r : Fin 3 → Cert.Spec.Mat 128 256) (b1r g1r bt1r : Fin 3 → Fin 256 → ℝ)
    (W2r : Fin 3 → Cert.Spec.Mat 256 128) (b2r g2r bt2r : Fin 3 → Fin 128 → ℝ)
    (hx : ∀ p k, x (ix2 p k) = ((xr p k : ℝ) : EReal))
    (hW1 : ∀ l k q, W1 (ix3 l k q) = ((W1r l k q : ℝ) : EReal)) (hb1 : ∀ l q, b1 (ix2 l q) = ((b1r l q : ℝ) : EReal))
    (hg1 : ∀ l q, g1 (ix2 l q) = ((g1r l q : ℝ) : EReal)) (hbt1 : ∀ l q, bt1 (ix2 l q) = ((bt1r l q : ℝ) : EReal))
    (hW2 : ∀ l k q, W2 (ix3 l k q) = ((W2r l k q : ℝ) : EReal)) (hb2 : ∀ l q, b2 (ix2 l q) = ((b2r l q : ℝ) : EReal))
    (hg2 : ∀ l q, g2 (ix2 l q) = ((g2r l q : ℝ) : EReal)) (hbt2 : ∀ l q, bt2 (ix2 l q) = ((bt2r l q : ℝ) : EReal))
    (p : Fin 50000) (k : Fin 128) :
    refLayers x ei W1 b1 g1 bt1 W2 b2 g2 bt2 (ix2 p k)
      = ((netLayers (Cert.Edges.land ei) (Cert.Edges.src ei) W1r b1r g1r bt1r W2r b2r g2r bt2r xr p k : ℝ) : EReal) := by
  unfold refLayers netLayers
  refine refLayerLast_apply ei (2 : Fin 3) _ _ _ _ _ W1 b1 g1 bt1 W2 b2 g2 bt2 _ W1r b1r g1r bt1r W2r b2r g2r bt2r
    (fun p k => ?_) hW1 hb1 hg1 hbt1 hW2 hb2 hg2 hbt2 p k
  refine refLayer_apply ei (1 : Fin 3) _ _ _ _ _ W1 b1 g1 bt1 W2 b2 g2 bt2 _ W1r b1r g1r bt1r W2r b2r g2r bt2r
    (fun p k => ?_) hW1 hb1 hg1 hbt1 hW2 hb2 hg2 hbt2 p k
  exact refLayer_apply ei (0 : Fin 3) _ _ _ _ x W1 b1 g1 bt1 W2 b2 g2 bt2 xr W1r b1r g1r bt1r W2r b2r g2r bt2r
    hx hW1 hb1 hg1 hbt1 hW2 hb2 hg2 hbt2 p k

end Real

end Cert.ReferenceIdeal.RefValue

end
-- ==== Proof.KernelValue.lean ====
/-
  The kernel program's node features after its three layers.  Starting from the launch memory, where the precondition
  makes every float argument a matrix of reals, each layer's output buffer at the next layer's boundary is the real
  layer function of the features before it; the parameters each stretch reads are the launch contents, because no host
  operation and no kernel writes an argument array.  After the third layer the features are the real three-layer
  network, and that network is the one the reference computes: the two differ only in how the column variance is
  spelt, and over the reals the two spellings are equal.
-/
import proofs.«148746_j9251359555639_1_alg».proof.Proof.Layer0
import proofs.«148746_j9251359555639_1_alg».proof.Proof.Layer1
import proofs.«148746_j9251359555639_1_alg».proof.Proof.Layer2
import proofs.«148746_j9251359555639_1_alg».proof.Proof.ArgsKept0
import proofs.«148746_j9251359555639_1_alg».proof.Proof.ArgsKept1
import proofs.«148746_j9251359555639_1_alg».proof.Proof.ArgsKept2
import proofs.«148746_j9251359555639_1_alg».proof.Proof.RefReal
import proofs.«148746_j9251359555639_1_alg».proof.Proof.RefValue

set_option maxRecDepth 16384

noncomputable section

namespace Cert.KernelIdeal.Value

open Idealize.ShloMosaic Idealize.ShloMosaic.ValueIdx Idealize.ShloMosaic.TcCoe Idealize.SL.Sem
open Cert.KernelIdeal Cert.KernelIdeal.Gen Cert.KernelIdeal.Kept0 Cert.KernelIdeal.Kept1 Cert.KernelIdeal.Kept2

variable (m : (ℓ : Loc nD τ sig) → Buf (Elt Ideal) ℓ) (ρ : Dev nD → PrngReg) (c : Dev nD)

/-- Real witnesses for the float arguments the layers read, at the launch memory. -/
abbrev RA : Type := Cert.ReferenceIdeal.RefValue.RealArgs (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The features after layer 0, over the reals (variance as mean of squares minus squared mean). -/
def net0 (R : RA m c) : Cert.Spec.Mat 50000 128 :=
  Cert.Spec.layerSq 50000 Cert.Consts.eps false (Cert.Edges.land (m ((c : Thread nD τ).loc main_arg1))) (Cert.Edges.src (m ((c : Thread nD τ).loc main_arg1)))
    (R.W1r 0) (R.b1r 0) (R.g1r 0) (R.bt1r 0) (R.W2r 0) (R.b2r 0) (R.g2r 0) (R.bt2r 0) R.xr

/-- The features after layer 1, over the reals (variance as mean of squares minus squared mean). -/
def net1 (R : RA m c) : Cert.Spec.Mat 50000 128 :=
  Cert.Spec.layerSq 50000 Cert.Consts.eps false (Cert.Edges.land (m ((c : Thread nD τ).loc main_arg1))) (Cert.Edges.src (m ((c : Thread nD τ).loc main_arg1)))
    (R.W1r 1) (R.b1r 1) (R.g1r 1) (R.bt1r 1) (R.W2r 1) (R.b2r 1) (R.g2r 1) (R.bt2r 1) (net0 m c R)

/-- The features after layer 2, over the reals (variance as mean of squares minus squared mean). -/
def net2 (R : RA m c) : Cert.Spec.Mat 50000 128 :=
  Cert.Spec.layerSq 50000 Cert.Consts.eps true (Cert.Edges.land (m ((c : Thread nD τ).loc main_arg1))) (Cert.Edges.src (m ((c : Thread nD τ).loc main_arg1)))
    (R.W1r 2) (R.b1r 2) (R.g1r 2) (R.bt1r 2) (R.W2r 2) (R.b2r 2) (R.g2r 2) (R.bt2r 2) (net1 m c R)

/-- The kernel's network is the reference's: layer by layer the two variance spellings agree over the reals. -/
theorem net2_eq (R : RA m c) :
    net2 m c R = Cert.ReferenceIdeal.RefValue.netLayers (Cert.Edges.land (m ((c : Thread nD τ).loc main_arg1))) (Cert.Edges.src (m ((c : Thread nD τ).loc main_arg1)))
      R.W1r R.b1r R.g1r R.bt1r R.W2r R.b2r R.g2r R.bt2r R.xr := by
  unfold net2 net1 net0 Cert.ReferenceIdeal.RefValue.netLayers
  rw [Cert.Spec.layerSq_eq_layerDev 50000 (by norm_num) (by norm_num), Cert.Spec.layerSq_eq_layerDev 50000 (by norm_num) (by norm_num),
    Cert.Spec.layerSq_eq_layerDev 50000 (by norm_num) (by norm_num)]

/-- After layer 0. -/
theorem feat0 (R : RA m c) (p : Fin 50000) (k : Fin 128) :
    W6 m ρ c (Proc.devRef .tc main_v50) (ix2 p k) = ((net0 m c R p k : ℝ) : EReal) :=
  Cert.KernelIdeal.Layer0.layer m ρ c (m ((c : Thread nD τ).loc main_arg1)) R.xr
      (R.W1r 0) (R.b1r 0) (R.g1r 0) (R.bt1r 0) (R.W2r 0) (R.b2r 0) (R.g2r 0) (R.bt2r 0)
      rfl (fun p k => R.hx p k)
      (fun k q => R.hW1 0 k q)
      (fun q => R.hb1 0 q)
      (fun q => (congrFun (W2_main_arg5 m ρ c) (ix2 (0 : Fin 3) q)).trans (R.hg1 0 q))
      (fun q => (congrFun (W2_main_arg6 m ρ c) (ix2 (0 : Fin 3) q)).trans (R.hbt1 0 q))
      (fun k q => (congrFun (W2_main_arg7 m ρ c) (ix3 (0 : Fin 3) k q)).trans (R.hW2 0 k q))
      (fun q => (congrFun (W2_main_arg8 m ρ c) (ix2 (0 : Fin 3) q)).trans (R.hb2 0 q))
      (fun q => (congrFun (W4_main_arg9 m ρ c) (ix2 (0 : Fin 3) q)).trans (R.hg2 0 q))
      (fun q => (congrFun (W4_main_arg10 m ρ c) (ix2 (0 : Fin 3) q)).trans (R.hbt2 0 q)) p k

/-- After layer 1. -/
theorem feat1 (R : RA m c) (p : Fin 50000) (k : Fin 128) :
    W12 m ρ c (Proc.devRef .tc main_v97) (ix2 p k) = ((net1 m c R p k : ℝ) : EReal) :=
  Cert.KernelIdeal.Layer1.layer m ρ c (m ((c : Thread nD τ).loc main_arg1)) (net0 m c R)
      (R.W1r 1) (R.b1r 1) (R.g1r 1) (R.bt1r 1) (R.W2r 1) (R.b2r 1) (R.g2r 1) (R.bt2r 1)
      (W6_main_arg1 m ρ c) (feat0 m ρ c R)
      (fun k q => (congrFun (W6_main_arg3 m ρ c) (ix3 (1 : Fin 3) k q)).trans (R.hW1 1 k q))
      (fun q => (congrFun (W6_main_arg4 m ρ c) (ix2 (1 : Fin 3) q)).trans (R.hb1 1 q))
      (fun q => (congrFun (W8_main_arg5 m ρ c) (ix2 (1 : Fin 3) q)).trans (R.hg1 1 q))
      (fun q => (congrFun (W8_main_arg6 m ρ c) (ix2 (1 : Fin 3) q)).trans (R.hbt1 1 q))
      (fun k q => (congrFun (W8_main_arg7 m ρ c) (ix3 (1 : Fin 3) k q)).trans (R.hW2 1 k q))
      (fun q => (congrFun (W8_main_arg8 m ρ c) (ix2 (1 : Fin 3) q)).trans (R.hb2 1 q))
      (fun q => (congrFun (W10_main_arg9 m ρ c) (ix2 (1 : Fin 3) q)).trans (R.hg2 1 q))
      (fun q => (congrFun (W10_main_arg10 m ρ c) (ix2 (1 : Fin 3) q)).trans (R.hbt2 1 q)) p k

/-- After layer 2: the features the tail is applied to. -/
theorem feat2 (R : RA m c) (p : Fin 50000) (k : Fin 128) :
    W18 m ρ c (Proc.devRef .tc main_v144) (ix2 p k) = ((net2 m c R p k : ℝ) : EReal) :=
  Cert.KernelIdeal.Layer2.layer m ρ c (m ((c : Thread nD τ).loc main_arg1)) (net1 m c R)
      (R.W1r 2) (R.b1r 2) (R.g1r 2) (R.bt1r 2) (R.W2r 2) (R.b2r 2) (R.g2r 2) (R.bt2r 2)
      (W12_main_arg1 m ρ c) (feat1 m ρ c R)
      (fun k q => (congrFun (W12_main_arg3 m ρ c) (ix3 (2 : Fin 3) k q)).trans (R.hW1 2 k q))
      (fun q => (congrFun (W12_main_arg4 m ρ c) (ix2 (2 : Fin 3) q)).trans (R.hb1 2 q))
      (fun q => (congrFun (W14_main_arg5 m ρ c) (ix2 (2 : Fin 3) q)).trans (R.hg1 2 q))
      (fun q => (congrFun (W14_main_arg6 m ρ c) (ix2 (2 : Fin 3) q)).trans (R.hbt1 2 q))
      (fun k q => (congrFun (W14_main_arg7 m ρ c) (ix3 (2 : Fin 3) k q)).trans (R.hW2 2 k q))
      (fun q => (congrFun (W14_main_arg8 m ρ c) (ix2 (2 : Fin 3) q)).trans (R.hb2 2 q))
      (fun q => (congrFun (W16_main_arg9 m ρ c) (ix2 (2 : Fin 3) q)).trans (R.hg2 2 q))
      (fun q => (congrFun (W16_main_arg10 m ρ c) (ix2 (2 : Fin 3) q)).trans (R.hbt2 2 q)) p k

end Cert.KernelIdeal.Value

end
-- ==== Proof.KernelTail.lean ====
/-
  The kernel program's last stretch of host operations computes the same tail as the reference.

  After the last kernel region the kernel program sums the rows of each graph and the ones of each graph by two
  scatter-adds over the graph numbers, raises the count to at least one, divides, multiplies by `Wc` and adds `bc`: the
  operations of the reference's tail, in the same order, over shapes and dimension numbers that are the same literals.
  So the result buffer after the stretch is the reference's tail function of the buffers the stretch reads.
-/
import proofs.«148746_j9251359555639_1_alg».proof.Proof.Gen.KernelIdeal.Frame
import proofs.«148746_j9251359555639_1_alg».proof.Proof.RefFns

noncomputable section

namespace Cert.KernelIdeal.Tail

open Cert.KernelIdeal Cert.KernelIdeal.Gen Idealize.ShloMosaic Idealize.ShloMosaic.TcCoe Idealize.SL.Sem Idealize.ShloMosaic.StableHlo

set_option maxRecDepth 16384 in
set_option maxHeartbeats 4000000 in
/-- The last stretch from any contents: the result buffer is the tail of the buffers it reads. -/
theorem tail_after (V : Valuation τ sig (Elt Ideal)) :
    after (hostOps9 (F := Ideal)) V (Proc.devRef .tc main_v160)
      = Cert.ReferenceIdeal.RefValue.refTail (F := Ideal) (V (Proc.devRef .tc main_v144)) (V (Proc.devRef .tc main_arg2))
          (V (Proc.devRef .tc main_arg11)) (V (Proc.devRef .tc main_arg12)) := by
  simp only [hostOps9]
  after_results_simp
  rfl

/-- The same at the contents the last region leaves. -/
theorem tail_eq (m : (ℓ : Loc nD τ sig) → Buf (Elt Ideal) ℓ) (ρ : Dev nD → PrngReg) (c : Dev nD) :
    W19 m ρ c (Proc.devRef .tc main_v160)
      = Cert.ReferenceIdeal.RefValue.refTail (F := Ideal) (W18 m ρ c (Proc.devRef .tc main_v144)) (W18 m ρ c (Proc.devRef .tc main_arg2))
          (W18 m ρ c (Proc.devRef .tc main_arg11)) (W18 m ρ c (Proc.devRef .tc main_arg12)) :=
  tail_after (W18 m ρ c)

end Cert.KernelIdeal.Tail

end
-- ==== Proof.RefFrame.lean ====
/-
  The reference runs and leaves its arguments unchanged: the run theorem with the result's conjunct dropped.
-/
import proofs.«148746_j9251359555639_1_alg».proof.Defs
import proofs.«148746_j9251359555639_1_alg».proof.Proof.Gen.Pre_finite_inputs
import proofs.«148746_j9251359555639_1_alg».proof.Proof.RefValue

noncomputable section

namespace Cert.ReferenceIdeal.RefValue

open Idealize.ShloMosaic Idealize.SL.Sem

/-- Every weakly fair execution of the reference terminates with its thirteen argument arrays unchanged. -/
theorem frame_reference :
    Cert.frame_ReferenceIdeal (hReferenceIdeal := Cert.ReferenceIdeal.Gen.facts)
      (hPre_finite_inputs := Cert.Pre_finite_inputs.Gen.facts) :=
  fun m g _ => (θ_run _ _ _).mono (fun _ h c => (h c).2) (run_value (F := Ideal) m g)

end Cert.ReferenceIdeal.RefValue

end
-- ==== Proof.lean ====
/-
  The kernel and its reference compute one network: a three-layer graph-isomorphism network with training-mode batch
  normalisation over 50000 nodes and 800000 edges, pooled per graph and classified.

  Every layer adds to each node the sum of its in-neighbours' rows, applies a linear map to width 256, normalises every
  column over the nodes, takes `max(·, 0)`, applies a second linear map back to width 128 and normalises again.  The
  kernel program computes the dense part of a layer in three tiled kernels (the column statistics accumulated over the
  25 row blocks) and forms the column variance as the mean of the squares minus the square of the mean; the reference
  forms it as the mean of the squared deviations from the mean.  Over REAL entries these are equal, and nothing else
  differs: a change of float format is the identity on the extended reals, a tiled matrix product and a tiled column sum
  are the whole ones re-grouped, and the neighbour sums, the pooling and the classifier are the same host operations on
  both sides.  The precondition makes every float argument real, and then every entry along the way is real (a column
  variance plus the positive ε is positive, because the variance is a mean of squares), so both programs end at the
  same `[256, 10]` array.

  The frames of the two kernel programs are the generated ones; the reference's frame is its run with the result
  dropped; the idealization rewrote nothing, so `preserves` is trivial.
-/
import proofs.«148746_j9251359555639_1_alg».proof.Defs
import proofs.«148746_j9251359555639_1_alg».proof.Proof.Gen.Kernel
import proofs.«148746_j9251359555639_1_alg».proof.Proof.Gen.Kernel.Skeleton
import proofs.«148746_j9251359555639_1_alg».proof.Proof.Gen.Kernel.Launch
import proofs.«148746_j9251359555639_1_alg».proof.Proof.Gen.Kernel.Points
import proofs.«148746_j9251359555639_1_alg».proof.Proof.Gen.Kernel.Frame
import proofs.«148746_j9251359555639_1_alg».proof.Proof.Gen.KernelIdeal
import proofs.«148746_j9251359555639_1_alg».proof.Proof.Gen.KernelIdeal.Skeleton
import proofs.«148746_j9251359555639_1_alg».proof.Proof.Gen.KernelIdeal.Launch
import proofs.«148746_j9251359555639_1_alg».proof.Proof.Gen.KernelIdeal.Points
import proofs.«148746_j9251359555639_1_alg».proof.Proof.Gen.KernelIdeal.Frame
import proofs.«148746_j9251359555639_1_alg».proof.Proof.Gen.ReferenceIdeal
import proofs.«148746_j9251359555639_1_alg».proof.Proof.Gen.Pre_finite_inputs
import proofs.«148746_j9251359555639_1_alg».proof.Proof.KernelRun
import proofs.«148746_j9251359555639_1_alg».proof.Proof.KernelValue
import proofs.«148746_j9251359555639_1_alg».proof.Proof.KernelTail
import proofs.«148746_j9251359555639_1_alg».proof.Proof.RefValue
import proofs.«148746_j9251359555639_1_alg».proof.Proof.RefReal
import proofs.«148746_j9251359555639_1_alg».proof.Proof.RefFrame
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem

/-- The precondition's stated side conditions, as the generated module proves them. -/
local instance : Cert.Pre_finite_inputs.Facts := Cert.Pre_finite_inputs.Gen.facts

/-- The kernel program's result, from a launch memory whose float arguments are finite: the reference's function of
    the launch contents.  The last stretch is the reference's tail applied to the features after the third layer; those
    are, entry by entry, the real network, which is also what the reference's three layers give. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = (fun _ => 1#1)) :
    Cert.KernelIdeal.Gen.W19 m ρ c (Proc.devRef .tc Cert.KernelIdeal.main_v160)
      = Cert.ReferenceIdeal.RefValue.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  obtain ⟨R⟩ := Cert.ReferenceIdeal.RefValue.realArgs_of_pre _ _ _ _ _ _ _ _ _ _ _ _ _ hpre
  rw [Cert.KernelIdeal.Tail.tail_eq, Cert.KernelIdeal.Kept0.W18_main_arg2 m ρ c, Cert.KernelIdeal.Kept1.W18_main_arg11 m ρ c,
    Cert.KernelIdeal.Kept2.W18_main_arg12 m ρ c]
  unfold Cert.ReferenceIdeal.RefValue.refOut
  refine congrArg (fun hf => Cert.ReferenceIdeal.RefValue.refTail (F := Ideal) hf (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) ?_
  funext i
  obtain ⟨p, k, rfl⟩ : ∃ (p : Fin 50000) (k : Fin 128), i = ix2 p k := ⟨i 0, i 1, eq_ix2 i⟩
  rw [Cert.KernelIdeal.Value.feat2 m ρ c R p k, Cert.KernelIdeal.Value.net2_eq]
  exact (Cert.ReferenceIdeal.RefValue.refLayers_apply (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    R.xr R.W1r R.b1r R.g1r R.bt1r R.W2r R.b2r R.g2r R.bt2r R.hx R.hW1 R.hb1 R.hg1 R.hbt1 R.hW2 R.hb2 R.hg2 R.hbt2 p k).symm

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- From memories agreeing on the arguments both programs run to the reference's function of the kernel's launch
    contents. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefValue.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run (Cert.KernelIdeal.defs (F := Ideal)) _ _).mono (fun r h c => ⟨(h c).1.trans ?_, (h c).2⟩)
      (Cert.KernelIdeal.Res.run_result (F := Ideal) m ρ)
    exact kernel_value m ρ c (hpre c)
  · refine (θ_run (Cert.ReferenceIdeal.defs (F := Ideal)) _ _).mono (fun r h c => ⟨?_, (h c).2⟩)
      (Cert.ReferenceIdeal.RefValue.run_value (F := Ideal) m' ρ')
    obtain ⟨a0, a1, a2, a3, a4, a5, a6, a7, a8, a9, a10, a11, a12⟩ := hagree c
    rw [(h c).1, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_reference, trivial, algebraic⟩

end Cert.Proof

end
